-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x300000 : Shape := ⟨2, ![2, 300000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S256 .f32) (main_arg17 : FVec F S256x1 .f32) (main_arg18 : FVec F S1 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x1 .f32 := Host.absf main_arg17
  let main_cst_28 : FVec F S_ .f32 := constant S_ .f32 0x7F800000#32
  let main_v75 : FVec F S256x1 .f32 := broadcastInDim S256x1 ![] bcast_S_S256x1 main_cst_28
  let main_v76 : IVec S256x1 1 := cmpf .olt main_v74 main_v75
  let main_c_29 : IVec S_ 1 := constantI S_ 1 1#1
  let main_v77 : IVec S_ 1 := (fun x v => Host.reduce IntOp.andi x v reducesTo_S256x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg13 : FVec F S256 .f32) (main_arg14 : FVec F S256 .f32) (main_arg15 : FVec F S256x256 .f32) (main_arg16 : FVec F S256 .f32) (main_arg17 : FVec F S256x1 .f32) (main_arg18 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg15
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg16 main_arg17 main_arg18 main_v63 main_v67

def fn_part2 {F : FTy → Type} [FloatOps F] (main_arg9 : FVec F S256 .f32) (main_arg10 : FVec F S256 .f32) (main_arg11 : FVec F S256 .f32) (main_arg12 : FVec F S256 .f32) (main_arg13 : FVec F S256 .f32) (main_arg14 : FVec F S256 .f32) (main_arg15 : FVec F S256x256 .f32) (main_arg16 : FVec F S256 .f32) (main_arg17 : FVec F S256x1 .f32) (main_arg18 : FVec F S1 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_v48 main_v49 main_v50

def fn_part1 {F : FTy → Type} [FloatOps F] (main_arg6 : FVec F S256 .f32) (main_arg7 : FVec F S256x256 .f32) (main_arg8 : FVec F S256 .f32) (main_arg9 : FVec F S256 .f32) (main_arg10 : FVec F S256 .f32) (main_arg11 : FVec F S256 .f32) (main_arg12 : FVec F S256 .f32) (main_arg13 : FVec F S256 .f32) (main_arg14 : FVec F S256 .f32) (main_arg15 : FVec F S256x256 .f32) (main_arg16 : FVec F S256 .f32) (main_arg17 : FVec F S256x1 .f32) (main_arg18 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x128 .f32) (main_arg1 : IVec S2x300000 32) (main_arg2 : IVec S100000 32) (main_arg3 : FVec F S128x256 .f32) (main_arg4 : FVec F S256 .f32) (main_arg5 : FVec F S256x256 .f32) (main_arg6 : FVec F S256 .f32) (main_arg7 : FVec F S256x256 .f32) (main_arg8 : FVec F S256 .f32) (main_arg9 : FVec F S256 .f32) (main_arg10 : FVec F S256 .f32) (main_arg11 : FVec F S256 .f32) (main_arg12 : FVec F S256 .f32) (main_arg13 : FVec F S256 .f32) (main_arg14 : FVec F S256 .f32) (main_arg15 : FVec F S256x256 .f32) (main_arg16 : FVec F S256 .f32) (main_arg17 : FVec F S256x1 .f32) (main_arg18 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x300000 : Shape := ⟨2, ![2, 300000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S100000x1 : Shape := ⟨2, ![100000, 1]⟩
abbrev S100000x256 : Shape := ⟨2, ![100000, 256]⟩
abbrev S2000x128 : Shape := ⟨2, ![2000, 128]⟩
abbrev S2000x256 : Shape := ⟨2, ![2000, 256]⟩
abbrev S300000x256 : Shape := ⟨2, ![300000, 256]⟩
abbrev S1x256 : Shape := ⟨2, ![1, 256]⟩
abbrev S2000x1 : Shape := ⟨2, ![2000, 1]⟩
abbrev S2048x256 : Shape := ⟨2, ![2048, 256]⟩
abbrev S1x1 : Shape := ⟨2, ![1, 1]⟩
abbrev S2048x1 : Shape := ⟨2, ![2048, 1]⟩
abbrev S2048 : Shape := ⟨1, ![2048]⟩

abbrev nBuf : Space → Nat
  | .hbm => 157
  | .vmem => 70
  | .smem => 0
  | _ => 0

abbrev hbmTy0_0 (i : Nat) : BufTy := match i % 128 with
  | 0 => ⟨S100000x128, .f32⟩
  | 1 => ⟨S2x300000, .i32⟩
  | 2 => ⟨S100000, .i32⟩
  | 3 => ⟨S128x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256, .f32⟩
  | 10 => ⟨S256, .f32⟩
  | 11 => ⟨S256, .f32⟩
  | 12 => ⟨S256, .f32⟩
  | 13 => ⟨S256, .f32⟩
  | 14 => ⟨S256, .f32⟩
  | 15 => ⟨S256x256, .f32⟩
  | 16 => ⟨S256, .f32⟩
  | 17 => ⟨S256x1, .f32⟩
  | 18 => ⟨S1, .f32⟩
  | 19 => ⟨S1x300000, .i32⟩
  | 20 => ⟨S300000, .i32⟩
  | 21 => ⟨S1x300000, .i32⟩
  | 22 => ⟨S300000, .i32⟩
  | 23 => ⟨S_, .f32⟩
  | 24 => ⟨S300000, .f32⟩
  | 25 => ⟨S_, .f32⟩
  | 26 => ⟨S100000, .f32⟩
  | 27 => ⟨S300000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S100000, .f32⟩
  | 34 => ⟨S100000x1, .f32⟩
  | 35 => ⟨S_, .i32⟩
  | 36 => ⟨S300000, .i32⟩
  | 37 => ⟨S300000, .i1⟩
  | 38 => ⟨S_, .i32⟩
  | 39 => ⟨S300000, .i32⟩
  | 40 => ⟨S300000, .i32⟩
  | 41 => ⟨S300000, .i32⟩
  | 42 => ⟨S300000x1, .i32⟩
  | 43 => ⟨S300000, .f32⟩
  | 44 => ⟨S_, .i32⟩
  | 45 => ⟨S300000, .i32⟩
  | 46 => ⟨S300000, .i1⟩
  | 47 => ⟨S_, .i32⟩
  | 48 => ⟨S300000, .i32⟩
  | 49 => ⟨S300000, .i32⟩
  | 50 => ⟨S300000, .i32⟩
  | 51 => ⟨S300000x1, .i32⟩
  | 52 => ⟨S300000, .f32⟩
  | 53 => ⟨S300000, .f32⟩
  | 54 => ⟨S300000x1, .f32⟩
  | 55 => ⟨S100000x256, .bf16⟩
  | 56 => ⟨S_, .i32⟩
  | 57 => ⟨S300000, .i32⟩
  | 58 => ⟨S300000, .i1⟩
  | 59 => ⟨S_, .i32⟩
  | 60 => ⟨S300000, .i32⟩
  | 61 => ⟨S300000, .i32⟩
  | 62 => ⟨S300000, .i32⟩
  | 63 => ⟨S300000x1, .i32⟩
  | 64 => ⟨S300000x256, .bf16⟩
  | 65 => ⟨S300000x256, .f32⟩
  | 66 => ⟨S300000x256, .f32⟩
  | 67 => ⟨S300000x256, .f32⟩
  | 68 => ⟨S_, .f32⟩
  | 69 => ⟨S100000x256, .f32⟩
  | 70 => ⟨S300000x1, .i32⟩
  | 71 => ⟨S100000x256, .f32⟩
  | 72 => ⟨S1x256, .f32⟩
  | 73 => ⟨S100000x256, .f32⟩
  | 74 => ⟨S1x256, .f32⟩
  | 75 => ⟨S1x256, .f32⟩
  | 76 => ⟨S_, .f32⟩
  | 77 => ⟨S1x256, .f32⟩
  | 78 => ⟨S1x256, .f32⟩
  | 79 => ⟨S_, .f32⟩
  | 80 => ⟨S1x256, .f32⟩
  | 81 => ⟨S1x256, .f32⟩
  | 82 => ⟨S1x256, .f32⟩
  | 83 => ⟨S1x256, .f32⟩
  | 84 => ⟨S1x256, .f32⟩
  | 85 => ⟨S1x256, .f32⟩
  | 86 => ⟨S100000x256, .bf16⟩
  | 87 => ⟨S_, .i32⟩
  | 88 => ⟨S300000, .i32⟩
  | 89 => ⟨S300000, .i1⟩
  | 90 => ⟨S_, .i32⟩
  | 91 => ⟨S300000, .i32⟩
  | 92 => ⟨S300000, .i32⟩
  | 93 => ⟨S300000, .i32⟩
  | 94 => ⟨S300000x1, .i32⟩
  | 95 => ⟨S300000x256, .bf16⟩
  | 96 => ⟨S300000x256, .f32⟩
  | 97 => ⟨S300000x256, .f32⟩
  | 98 => ⟨S300000x256, .f32⟩
  | 99 => ⟨S_, .f32⟩
  | 100 => ⟨S100000x256, .f32⟩
  | 101 => ⟨S300000x1, .i32⟩
  | 102 => ⟨S100000x256, .f32⟩
  | 103 => ⟨S1x256, .f32⟩
  | 104 => ⟨S100000x256, .f32⟩
  | 105 => ⟨S1x256, .f32⟩
  | 106 => ⟨S1x256, .f32⟩
  | 107 => ⟨S_, .f32⟩
  | 108 => ⟨S1x256, .f32⟩
  | 109 => ⟨S1x256, .f32⟩
  | 110 => ⟨S_, .f32⟩
  | 111 => ⟨S1x256, .f32⟩
  | 112 => ⟨S1x256, .f32⟩
  | 113 => ⟨S1x256, .f32⟩
  | 114 => ⟨S1x256, .f32⟩
  | 115 => ⟨S1x256, .f32⟩
  | 116 => ⟨S1x256, .f32⟩
  | 117 => ⟨S100000x256, .bf16⟩
  | 118 => ⟨S_, .i32⟩
  | 119 => ⟨S300000, .i32⟩
  | 120 => ⟨S300000, .i1⟩
  | 121 => ⟨S_, .i32⟩
  | 122 => ⟨S300000, .i32⟩
  | 123 => ⟨S300000, .i32⟩
  | 124 => ⟨S300000, .i32⟩
  | 125 => ⟨S300000x1, .i32⟩
  | 126 => ⟨S300000x256, .bf16⟩
  | 127 => ⟨S300000x256, .f32⟩
  | _ => ⟨S100000x128, .f32⟩

abbrev hbmTy0_1 (i : Nat) : BufTy := match i % 128 with
  | 0 => ⟨S300000x256, .f32⟩
  | 1 => ⟨S300000x256, .f32⟩
  | 2 => ⟨S_, .f32⟩
  | 3 => ⟨S100000x256, .f32⟩
  | 4 => ⟨S300000x1, .i32⟩
  | 5 => ⟨S100000x256, .f32⟩
  | 6 => ⟨S1x256, .f32⟩
  | 7 => ⟨S100000x256, .f32⟩
  | 8 => ⟨S1x256, .f32⟩
  | 9 => ⟨S1x256, .f32⟩
  | 10 => ⟨S_, .f32⟩
  | 11 => ⟨S1x256, .f32⟩
  | 12 => ⟨S1x256, .f32⟩
  | 13 => ⟨S_, .f32⟩
  | 14 => ⟨S1x256, .f32⟩
  | 15 => ⟨S1x256, .f32⟩
  | 16 => ⟨S1x256, .f32⟩
  | 17 => ⟨S1x256, .f32⟩
  | 18 => ⟨S1x256, .f32⟩
  | 19 => ⟨S1x256, .f32⟩
  | 20 => ⟨S100000x256, .f32⟩
  | 21 => ⟨S_, .f32⟩
  | 22 => ⟨S2048x256, .f32⟩
  | 23 => ⟨S100000x1, .i32⟩
  | 24 => ⟨S2048x256, .f32⟩
  | 25 => ⟨S1x256, .f32⟩
  | 26 => ⟨S1x1, .f32⟩
  | 27 => ⟨S2048x1, .f32⟩
  | 28 => ⟨S2048, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .bf16⟩
  | .local _ .vmem, ⟨4, _⟩ => ⟨S2000x256, .bf16⟩
  | .local _ .vmem, ⟨5, _⟩ => ⟨S2000x256, .f32⟩
  | .local _ .vmem, ⟨6, _⟩ => ⟨S2000x256, .f32⟩
  | .local _ .vmem, ⟨7, _⟩ => ⟨S2000x256, .bf16⟩
  | .local _ .vmem, ⟨8, _⟩ => ⟨S2000x256, .bf16⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S1x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S256x256, .f32⟩
  | .local _ .vmem, ⟨23, _⟩ => ⟨S2000x256, .bf16⟩
  | .local _ .vmem, ⟨24, _⟩ => ⟨S2000x256, .bf16⟩
  | .local _ .vmem, ⟨25, _⟩ => ⟨S2000x256, .f32⟩
  | .local _ .vmem, ⟨26, _⟩ => ⟨S2000x256, .f32⟩
  | .local _ .vmem, ⟨27, _⟩ => ⟨S2000x256, .bf16⟩
  | .local _ .vmem, ⟨28, _⟩ => ⟨S2000x256, .bf16⟩
  | .local _ .vmem, ⟨29, _⟩ => ⟨S2000x1, .f32⟩
  | .local _ .vmem, ⟨30, _⟩ => ⟨S2000x1, .f32⟩
  | .local _ .vmem, ⟨31, _⟩ => ⟨S1x256, .f32⟩
  | .local _ .vmem, ⟨32, _⟩ => ⟨S2000x256, .f32⟩
  | .local _ .vmem, ⟨33, _⟩ => ⟨S2000x256, .f32⟩
  | .local _ .vmem, ⟨34, _⟩ => ⟨S1x256, .f32⟩
  | .local _ .vmem, ⟨35, _⟩ => ⟨S1x256, .f32⟩
  | .local _ .vmem, ⟨36, _⟩ => ⟨S2000x256, .f32⟩
  | .local _ .vmem, ⟨37, _⟩ => ⟨S2000x256, .f32⟩
  | .local _ .vmem, ⟨38, _⟩ => ⟨S1x256, .f32⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S256x256, .f32⟩
  | .local _ .vmem, ⟨43, _⟩ => ⟨S2000x256, .bf16⟩
  | .local _ .vmem, ⟨44, _⟩ => ⟨S2000x256, .bf16⟩
  | .local _ .vmem, ⟨45, _⟩ => ⟨S2000x256, .f32⟩
  | .local _ .vmem, ⟨46, _⟩ => ⟨S2000x256, .f32⟩
  | .local _ .vmem, ⟨47, _⟩ => ⟨S2000x256, .bf16⟩
  | .local _ .vmem, ⟨48, _⟩ => ⟨S2000x256, .bf16⟩
  | .local _ .vmem, ⟨49, _⟩ => ⟨S2000x1, .f32⟩
  | .local _ .vmem, ⟨50, _⟩ => ⟨S2000x1, .f32⟩
  | .local _ .vmem, ⟨51, _⟩ => ⟨S1x256, .f32⟩
  | .local _ .vmem, ⟨52, _⟩ => ⟨S2000x256, .f32⟩
  | .local _ .vmem, ⟨53, _⟩ => ⟨S2000x256, .f32⟩
  | .local _ .vmem, ⟨54, _⟩ => ⟨S1x256, .f32⟩
  | .local _ .vmem, ⟨55, _⟩ => ⟨S1x256, .f32⟩
  | .local _ .vmem, ⟨56, _⟩ => ⟨S2000x256, .f32⟩
  | .local _ .vmem, ⟨57, _⟩ => ⟨S2000x256, .f32⟩
  | .local _ .vmem, ⟨58, _⟩ => ⟨S1x256, .f32⟩
  | .local _ .vmem, ⟨59, _⟩ => ⟨S1x256, .f32⟩
  | .local _ .vmem, ⟨60, _⟩ => ⟨S1x256, .f32⟩
  | .local _ .vmem, ⟨61, _⟩ => ⟨S1x256, .f32⟩
  | .local _ .vmem, ⟨62, _⟩ => ⟨S2000x256, .f32⟩
  | .local _ .vmem, ⟨63, _⟩ => ⟨S2000x256, .f32⟩
  | .local _ .vmem, ⟨64, _⟩ => ⟨S2048x256, .f32⟩
  | .local _ .vmem, ⟨65, _⟩ => ⟨S256x256, .f32⟩
  | .local _ .vmem, ⟨66, _⟩ => ⟨S1x256, .f32⟩
  | .local _ .vmem, ⟨67, _⟩ => ⟨S256x1, .f32⟩
  | .local _ .vmem, ⟨68, _⟩ => ⟨S1x1, .f32⟩
  | .local _ .vmem, ⟨69, _⟩ => ⟨S2048x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_3 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_5 : Ref sig .tc := ⟨.hbm, 56, rfl⟩
abbrev main_v30 : Ref sig .tc := ⟨.hbm, 57, rfl⟩
abbrev main_v31 : Ref sig .tc := ⟨.hbm, 58, rfl⟩
abbrev main_c_6 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44_0 : Ref sig .tc := ⟨.hbm, 73, rfl⟩
abbrev main_v44_1 : Ref sig .tc := ⟨.hbm, 74, rfl⟩
abbrev main_v44_2 : Ref sig .tc := ⟨.hbm, 75, rfl⟩
abbrev main_cst_8 : Ref sig .tc := ⟨.hbm, 76, rfl⟩
abbrev main_v45 : Ref sig .tc := ⟨.hbm, 77, rfl⟩
abbrev main_v46 : Ref sig .tc := ⟨.hbm, 78, rfl⟩
abbrev main_cst_9 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_10 : Ref sig .tc := ⟨.hbm, 87, rfl⟩
abbrev main_v54 : Ref sig .tc := ⟨.hbm, 88, rfl⟩
abbrev main_v55 : Ref sig .tc := ⟨.hbm, 89, rfl⟩
abbrev main_c_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_12 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68_0 : Ref sig .tc := ⟨.hbm, 104, rfl⟩
abbrev main_v68_1 : Ref sig .tc := ⟨.hbm, 105, rfl⟩
abbrev main_v68_2 : Ref sig .tc := ⟨.hbm, 106, rfl⟩
abbrev main_cst_13 : Ref sig .tc := ⟨.hbm, 107, rfl⟩
abbrev main_v69 : Ref sig .tc := ⟨.hbm, 108, rfl⟩
abbrev main_v70 : Ref sig .tc := ⟨.hbm, 109, rfl⟩
abbrev main_cst_14 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_c_15 : Ref sig .tc := ⟨.hbm, 118, rfl⟩
abbrev main_v78 : Ref sig .tc := ⟨.hbm, 119, rfl⟩
abbrev main_v79 : Ref sig .tc := ⟨.hbm, 120, rfl⟩
abbrev main_c_16 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_17 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92_0 : Ref sig .tc := ⟨.hbm, 135, rfl⟩
abbrev main_v92_1 : Ref sig .tc := ⟨.hbm, 136, rfl⟩
abbrev main_v92_2 : Ref sig .tc := ⟨.hbm, 137, rfl⟩
abbrev main_cst_18 : Ref sig .tc := ⟨.hbm, 138, rfl⟩
abbrev main_v93 : Ref sig .tc := ⟨.hbm, 139, rfl⟩
abbrev main_v94 : Ref sig .tc := ⟨.hbm, 140, rfl⟩
abbrev main_cst_19 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_20 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg6_0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg6_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg4_1 : Ref sig .tc := ⟨.vmem, 53, rfl⟩
abbrev cc5_stg5_0 : Ref sig .tc := ⟨.vmem, 54, rfl⟩
abbrev cc5_stg6_0 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg2_0 : Ref sig .tc := ⟨.vmem, 59, rfl⟩
abbrev cc6_stg3_0 : Ref sig .tc := ⟨.vmem, 60, rfl⟩
abbrev cc6_stg4_0 : Ref sig .tc := ⟨.vmem, 61, rfl⟩
abbrev cc6_stg5_0 : Ref sig .tc := ⟨.vmem, 62, rfl⟩
abbrev cc6_stg5_1 : Ref sig .tc := ⟨.vmem, 63, rfl⟩
abbrev cc7_stg0_0 : Ref sig .tc := ⟨.vmem, 64, rfl⟩
abbrev cc7_stg1_0 : Ref sig .tc := ⟨.vmem, 65, rfl⟩
abbrev cc7_stg2_0 : Ref sig .tc := ⟨.vmem, 66, rfl⟩
abbrev cc7_stg3_0 : Ref sig .tc := ⟨.vmem, 67, rfl⟩
abbrev cc7_stg4_0 : Ref sig .tc := ⟨.vmem, 68, rfl⟩
abbrev cc7_stg5_0 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem4_1 : DmaSem sig := 33
abbrev cc3_sem5_0 : DmaSem sig := 34
abbrev cc3_sem6_0 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem6_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem4_0 : DmaSem sig := 52
abbrev cc5_sem4_1 : DmaSem sig := 53
abbrev cc5_sem5_0 : DmaSem sig := 54
abbrev cc5_sem6_0 : DmaSem sig := 55
abbrev cc6_sem0_0 : DmaSem sig := 56
abbrev cc6_sem0_1 : DmaSem sig := 57
abbrev cc6_sem1_0 : DmaSem sig := 58
abbrev cc6_sem2_0 : DmaSem sig := 59
abbrev cc6_sem3_0 : DmaSem sig := 60
abbrev cc6_sem4_0 : DmaSem sig := 61
abbrev cc6_sem5_0 : DmaSem sig := 62
abbrev cc6_sem5_1 : DmaSem sig := 63
abbrev cc7_sem0_0 : DmaSem sig := 64
abbrev cc7_sem1_0 : DmaSem sig := 65
abbrev cc7_sem2_0 : DmaSem sig := 66
abbrev cc7_sem3_0 : DmaSem sig := 67
abbrev cc7_sem4_0 : DmaSem sig := 68
abbrev cc7_sem5_0 : DmaSem sig := 69

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x256 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S2048x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S256x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S2048x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S_S100000 : S_.BroadcastsInDim S100000 (![] : Fin 0 → Fin S100000.rank)
  bcast_S300000_S300000x1_0 : S300000.BroadcastsInDim S300000x1 (![0] : Fin 1 → Fin S300000x1.rank)
  shapeCasts_S100000_S100000x1 : S100000.ShapeCasts S100000x1
  shapeCasts_S300000_S300000x1 : S300000.ShapeCasts S300000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S300000x1_S300000x256_0_1 : S300000x1.BroadcastsInDim S300000x256 (![0, 1] : Fin 2 → Fin S300000x256.rank)
  bcast_S_S100000x256 : S_.BroadcastsInDim S100000x256 (![] : Fin 0 → Fin S100000x256.rank)
  shapeCasts_S256_S1x256 : S256.ShapeCasts S1x256
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S256 : S2000x256.Reduces [0] S256
  bcast_S_S1x256 : S_.BroadcastsInDim S1x256 (![] : Fin 0 → Fin S1x256.rank)
  inb_S256x256_S256x256_0_0 : ∀ a, (![0, 0] : Fin 2 → Nat) a + S256x256.size a ≤ S256x256.size a
  h_S256x256 : 0 < S256x256.numel
  bcast_S_S2048x256 : S_.BroadcastsInDim S2048x256 (![] : Fin 0 → Fin S2048x256.rank)
  bcast_S100000_S100000x1_0 : S100000.BroadcastsInDim S100000x1 (![0] : Fin 1 → Fin S100000x1.rank)
  shapeCasts_S1_S1x1 : S1.ShapeCasts S1x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  broadcasts_S1x256_S2048x256 : S1x256.Broadcasts S2048x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S2048x1_S2048 : S2048x1.ShapeCasts S2048
  scatter_S100000_S300000x1_S300000_n_0_0_1_wf : ScatterDims.WF S100000 S300000x1 S300000 [] [0] [0] 1
  gather_S100000_S300000x1_S300000_n_0_n_n_0_1_1_wf : GatherDims.WF S100000 S300000x1 S300000 [] [0] [] [0] [] 1 ![1]
  dot_S2000x128_S128x256_S2000x256_1_0_0_1_n_n_wf : DotDims.WF S2000x128 S128x256 S2000x256 [1] [0] [0] [1] [] []
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1
  dot_S2000x256_S256x256_S2000x256_1_0_0_1_n_n_wf : DotDims.WF S2000x256 S256x256 S2000x256 [1] [0] [0] [1] [] []
  scatter_S2048x256_S100000x1_S100000x256_1_0_0_1_wf : ScatterDims.WF S2048x256 S100000x1 S100000x256 [1] [0] [0] 1
  dot_S2048x256_S256x256_S2048x256_1_0_0_1_n_n_wf : DotDims.WF S2048x256 S256x256 S2048x256 [1] [0] [0] [1] [] []
  dot_S2048x256_S256x1_S2048x1_1_0_0_1_n_n_wf : DotDims.WF S2048x256 S256x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .bf16 = 32 ∨ (Rect.block (s := S100000x256) S2000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .bf16 = 32 ∨ (Rect.block (s := S100000x256) S2000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S100000x256.size a
  hwx1_4 : ∀ i : grid1.Coords, EltTy.bits .f32 = 32 ∨ (Rect.block (s := S100000x256) S2000x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S100000x256.size a
  hwx2_6 : ∀ i : grid2.Coords, EltTy.bits .bf16 = 32 ∨ (Rect.block (s := S100000x256) S2000x256.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S100000x256.size a
  hwx3_1 : ∀ i : grid3.Coords, EltTy.bits .bf16 = 32 ∨ (Rect.block (s := S100000x256) S2000x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S100000x256.size a
  hwx3_4 : ∀ i : grid3.Coords, EltTy.bits .f32 = 32 ∨ (Rect.block (s := S100000x256) S2000x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .f32 = 32 ∨ (Rect.block (s := S256x256) S256x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x256.size a ≤ S100000x256.size a
  hwx4_6 : ∀ i : grid4.Coords, EltTy.bits .bf16 = 32 ∨ (Rect.block (s := S100000x256) S2000x256.size (cc4_transform_6 i) (hinb4_6 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S100000x256.size a
  hwx5_0 : ∀ i : grid5.Coords, EltTy.bits .f32 = 32 ∨ (Rect.block (s := S100000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S100000x256.size a
  hwx5_1 : ∀ i : grid5.Coords, EltTy.bits .bf16 = 32 ∨ (Rect.block (s := S100000x256) S2000x256.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x256.size a ≤ S100000x256.size a
  hwx5_4 : ∀ i : grid5.Coords, EltTy.bits .f32 = 32 ∨ (Rect.block (s := S100000x256) S2000x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S100000x256.size a
  hwx6_0 : ∀ i : grid6.Coords, EltTy.bits .f32 = 32 ∨ (Rect.block (s := S100000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x256.size a ≤ S1x256.size a
  hwx6_1 : ∀ i : grid6.Coords, EltTy.bits .f32 = 32 ∨ (Rect.block (s := S1x256) S1x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x256.size a ≤ S100000x256.size a
  hwx6_5 : ∀ i : grid6.Coords, EltTy.bits .f32 = 32 ∨ (Rect.block (s := S100000x256) S2000x256.size (cc6_transform_5 i) (hinb6_5 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S2048x256.size a ≤ S2048x256.size a
  hwx7_0 : ∀ i : grid7.Coords, EltTy.bits .f32 = 32 ∨ (Rect.block (s := S2048x256) S2048x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x256.size a ≤ S256x256.size a
  hwx7_1 : ∀ i : grid7.Coords, EltTy.bits .f32 = 32 ∨ (Rect.block (s := S256x256) S256x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256x1.size a ≤ S256x1.size a
  hwx7_3 : ∀ i : grid7.Coords, EltTy.bits .f32 = 32 ∨ (Rect.block (s := S256x1) S256x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S2048x1.size a ≤ S2048x1.size a
  hwx7_5 : ∀ i : grid7.Coords, EltTy.bits .f32 = 32 ∨ (Rect.block (s := S2048x1) S2048x1.size (cc7_transform_5 i) (hinb7_5 i)).WholeWords (EltTy.packing .f32)

variable [Facts₀]

def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def gather_S100000_S300000x1_S300000_n_0_n_n_0_1_1 : GatherDims S100000 S300000x1 S300000 where
  offsetDims := []
  collapsedSliceDims := [0]
  operandBatchingDims := []
  startIndicesBatchingDims := []
  startIndexMap := [0]
  indexVectorDim := 1
  sliceSizes := ![1]
  wf := gather_S100000_S300000x1_S300000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S2048x256_S100000x1_S100000x256_1_0_0_1 : ScatterDims S2048x256 S100000x1 S100000x256 where
  updateWindowDims := [1]
  insertedWindowDims := [0]
  scatterDimsToOperandDims := [0]
  indexVectorDim := 1
  wf := scatter_S2048x256_S100000x1_S100000x256_1_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44_0) S2000x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v44_1) S1x256.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44_2) S1x256.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v44_0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v66) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68_0) S2000x256.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v68_1) S1x256.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68_2) S1x256.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v68_0) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg7) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v77) S2000x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v90) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v91) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v92_0) S2000x256.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v92_1) S1x256.size cc5_transform_5 reads5_5 true true 1 stage5_5 sem5_5
    hrank5 hreads5_5 hinb5_5 nbuf5_5 (Memref.isWhole_whole _) hwx5_5 hstage5_5

abbrev win5_6 : Pipeline.Window sig grid5 :=
  Pipeline.Window.ofSpec (Memref.whole main_v92_2) S1x256.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v92_0) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v94) S1x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v98) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v99) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v100) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v101) S2000x256.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v104) S2048x256.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg15) S256x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v105) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg17) S256x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v106) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v107) S2048x1.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x300000 : Shape := ⟨2, ![2, 300000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S100000x256 : Shape := ⟨2, ![100000, 256]⟩
abbrev S300000x256 : Shape := ⟨2, ![300000, 256]⟩
abbrev S100000x1 : Shape := ⟨2, ![100000, 1]⟩
abbrev S1x256 : Shape := ⟨2, ![1, 256]⟩
abbrev S2048x256 : Shape := ⟨2, ![2048, 256]⟩
abbrev S2048x1 : Shape := ⟨2, ![2048, 1]⟩
abbrev S1x1 : Shape := ⟨2, ![1, 1]⟩
abbrev S2048 : Shape := ⟨1, ![2048]⟩

abbrev nBuf : Space → Nat
  | .hbm => 322
  | .vmem => 0
  | .smem => 0
  | _ => 0

abbrev hbmTy0_0 (i : Nat) : BufTy := match i % 128 with
  | 0 => ⟨S100000x128, .f32⟩
  | 1 => ⟨S2x300000, .i32⟩
  | 2 => ⟨S100000, .i32⟩
  | 3 => ⟨S128x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256, .f32⟩
  | 10 => ⟨S256, .f32⟩
  | 11 => ⟨S256, .f32⟩
  | 12 => ⟨S256, .f32⟩
  | 13 => ⟨S256, .f32⟩
  | 14 => ⟨S256, .f32⟩
  | 15 => ⟨S256x256, .f32⟩
  | 16 => ⟨S256, .f32⟩
  | 17 => ⟨S256x1, .f32⟩
  | 18 => ⟨S1, .f32⟩
  | 19 => ⟨S1x300000, .i32⟩
  | 20 => ⟨S300000, .i32⟩
  | 21 => ⟨S1x300000, .i32⟩
  | 22 => ⟨S300000, .i32⟩
  | 23 => ⟨S_, .f32⟩
  | 24 => ⟨S300000, .f32⟩
  | 25 => ⟨S_, .f32⟩
  | 26 => ⟨S100000, .f32⟩
  | 27 => ⟨S300000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S100000x256, .f32⟩
  | 34 => ⟨S_, .i32⟩
  | 35 => ⟨S300000, .i32⟩
  | 36 => ⟨S300000, .i1⟩
  | 37 => ⟨S_, .i32⟩
  | 38 => ⟨S300000, .i32⟩
  | 39 => ⟨S300000, .i32⟩
  | 40 => ⟨S300000, .i32⟩
  | 41 => ⟨S300000x1, .i32⟩
  | 42 => ⟨S300000, .f32⟩
  | 43 => ⟨S_, .i32⟩
  | 44 => ⟨S300000, .i32⟩
  | 45 => ⟨S300000, .i1⟩
  | 46 => ⟨S_, .i32⟩
  | 47 => ⟨S300000, .i32⟩
  | 48 => ⟨S300000, .i32⟩
  | 49 => ⟨S300000, .i32⟩
  | 50 => ⟨S300000x1, .i32⟩
  | 51 => ⟨S300000, .f32⟩
  | 52 => ⟨S300000, .f32⟩
  | 53 => ⟨S300000x1, .f32⟩
  | 54 => ⟨S_, .i32⟩
  | 55 => ⟨S300000, .i32⟩
  | 56 => ⟨S300000, .i1⟩
  | 57 => ⟨S_, .i32⟩
  | 58 => ⟨S300000, .i32⟩
  | 59 => ⟨S300000, .i32⟩
  | 60 => ⟨S300000, .i32⟩
  | 61 => ⟨S300000x1, .i32⟩
  | 62 => ⟨S300000x256, .f32⟩
  | 63 => ⟨S300000x256, .f32⟩
  | 64 => ⟨S300000x256, .f32⟩
  | 65 => ⟨S_, .f32⟩
  | 66 => ⟨S100000x256, .f32⟩
  | 67 => ⟨S300000x1, .i32⟩
  | 68 => ⟨S100000x256, .f32⟩
  | 69 => ⟨S100000, .f32⟩
  | 70 => ⟨S100000x1, .f32⟩
  | 71 => ⟨S100000x256, .f32⟩
  | 72 => ⟨S100000x256, .f32⟩
  | 73 => ⟨S100000x256, .f32⟩
  | 74 => ⟨S1x256, .f32⟩
  | 75 => ⟨S100000x256, .f32⟩
  | 76 => ⟨S100000x256, .f32⟩
  | 77 => ⟨S_, .f32⟩
  | 78 => ⟨S256, .f32⟩
  | 79 => ⟨S_, .f32⟩
  | 80 => ⟨S256, .f32⟩
  | 81 => ⟨S256, .f32⟩
  | 82 => ⟨S_, .i32⟩
  | 83 => ⟨S_, .f32⟩
  | 84 => ⟨S256, .f32⟩
  | 85 => ⟨S1x256, .f32⟩
  | 86 => ⟨S_, .f32⟩
  | 87 => ⟨S1x256, .f32⟩
  | 88 => ⟨S1x256, .f32⟩
  | 89 => ⟨S100000x256, .f32⟩
  | 90 => ⟨S100000x256, .f32⟩
  | 91 => ⟨S100000x256, .f32⟩
  | 92 => ⟨S_, .f32⟩
  | 93 => ⟨S_, .f32⟩
  | 94 => ⟨S_, .f32⟩
  | 95 => ⟨S_, .f32⟩
  | 96 => ⟨S256, .f32⟩
  | 97 => ⟨S256, .f32⟩
  | 98 => ⟨S256, .f32⟩
  | 99 => ⟨S_, .f32⟩
  | 100 => ⟨S_, .i1⟩
  | 101 => ⟨S_, .f32⟩
  | 102 => ⟨S_, .f32⟩
  | 103 => ⟨S256, .f32⟩
  | 104 => ⟨S256, .f32⟩
  | 105 => ⟨S1x256, .f32⟩
  | 106 => ⟨S100000x256, .f32⟩
  | 107 => ⟨S100000x256, .f32⟩
  | 108 => ⟨S_, .f32⟩
  | 109 => ⟨S256, .f32⟩
  | 110 => ⟨S256, .f32⟩
  | 111 => ⟨S256, .f32⟩
  | 112 => ⟨S1x256, .f32⟩
  | 113 => ⟨S100000x256, .f32⟩
  | 114 => ⟨S100000x256, .f32⟩
  | 115 => ⟨S1x256, .f32⟩
  | 116 => ⟨S100000x256, .f32⟩
  | 117 => ⟨S100000x256, .f32⟩
  | 118 => ⟨S1x256, .f32⟩
  | 119 => ⟨S100000x256, .f32⟩
  | 120 => ⟨S100000x256, .f32⟩
  | 121 => ⟨S_, .f32⟩
  | 122 => ⟨S100000x256, .f32⟩
  | 123 => ⟨S100000x256, .f32⟩
  | 124 => ⟨S100000x256, .f32⟩
  | 125 => ⟨S_, .i32⟩
  | 126 => ⟨S300000, .i32⟩
  | 127 => ⟨S300000, .i1⟩
  | _ => ⟨S100000x128, .f32⟩

abbrev hbmTy0_1 (i : Nat) : BufTy := match i % 128 with
  | 0 => ⟨S_, .i32⟩
  | 1 => ⟨S300000, .i32⟩
  | 2 => ⟨S300000, .i32⟩
  | 3 => ⟨S300000, .i32⟩
  | 4 => ⟨S300000x1, .i32⟩
  | 5 => ⟨S300000, .f32⟩
  | 6 => ⟨S_, .i32⟩
  | 7 => ⟨S300000, .i32⟩
  | 8 => ⟨S300000, .i1⟩
  | 9 => ⟨S_, .i32⟩
  | 10 => ⟨S300000, .i32⟩
  | 11 => ⟨S300000, .i32⟩
  | 12 => ⟨S300000, .i32⟩
  | 13 => ⟨S300000x1, .i32⟩
  | 14 => ⟨S300000, .f32⟩
  | 15 => ⟨S300000, .f32⟩
  | 16 => ⟨S300000x1, .f32⟩
  | 17 => ⟨S_, .i32⟩
  | 18 => ⟨S300000, .i32⟩
  | 19 => ⟨S300000, .i1⟩
  | 20 => ⟨S_, .i32⟩
  | 21 => ⟨S300000, .i32⟩
  | 22 => ⟨S300000, .i32⟩
  | 23 => ⟨S300000, .i32⟩
  | 24 => ⟨S300000x1, .i32⟩
  | 25 => ⟨S300000x256, .f32⟩
  | 26 => ⟨S300000x256, .f32⟩
  | 27 => ⟨S300000x256, .f32⟩
  | 28 => ⟨S_, .f32⟩
  | 29 => ⟨S100000x256, .f32⟩
  | 30 => ⟨S300000x1, .i32⟩
  | 31 => ⟨S100000x256, .f32⟩
  | 32 => ⟨S100000, .f32⟩
  | 33 => ⟨S100000x1, .f32⟩
  | 34 => ⟨S100000x256, .f32⟩
  | 35 => ⟨S100000x256, .f32⟩
  | 36 => ⟨S100000x256, .f32⟩
  | 37 => ⟨S1x256, .f32⟩
  | 38 => ⟨S100000x256, .f32⟩
  | 39 => ⟨S100000x256, .f32⟩
  | 40 => ⟨S_, .f32⟩
  | 41 => ⟨S256, .f32⟩
  | 42 => ⟨S_, .f32⟩
  | 43 => ⟨S256, .f32⟩
  | 44 => ⟨S256, .f32⟩
  | 45 => ⟨S_, .i32⟩
  | 46 => ⟨S_, .f32⟩
  | 47 => ⟨S256, .f32⟩
  | 48 => ⟨S1x256, .f32⟩
  | 49 => ⟨S_, .f32⟩
  | 50 => ⟨S1x256, .f32⟩
  | 51 => ⟨S1x256, .f32⟩
  | 52 => ⟨S100000x256, .f32⟩
  | 53 => ⟨S100000x256, .f32⟩
  | 54 => ⟨S100000x256, .f32⟩
  | 55 => ⟨S_, .f32⟩
  | 56 => ⟨S_, .f32⟩
  | 57 => ⟨S_, .f32⟩
  | 58 => ⟨S_, .f32⟩
  | 59 => ⟨S256, .f32⟩
  | 60 => ⟨S256, .f32⟩
  | 61 => ⟨S256, .f32⟩
  | 62 => ⟨S_, .f32⟩
  | 63 => ⟨S_, .i1⟩
  | 64 => ⟨S_, .f32⟩
  | 65 => ⟨S_, .f32⟩
  | 66 => ⟨S256, .f32⟩
  | 67 => ⟨S256, .f32⟩
  | 68 => ⟨S1x256, .f32⟩
  | 69 => ⟨S100000x256, .f32⟩
  | 70 => ⟨S100000x256, .f32⟩
  | 71 => ⟨S_, .f32⟩
  | 72 => ⟨S256, .f32⟩
  | 73 => ⟨S256, .f32⟩
  | 74 => ⟨S256, .f32⟩
  | 75 => ⟨S1x256, .f32⟩
  | 76 => ⟨S100000x256, .f32⟩
  | 77 => ⟨S100000x256, .f32⟩
  | 78 => ⟨S1x256, .f32⟩
  | 79 => ⟨S100000x256, .f32⟩
  | 80 => ⟨S100000x256, .f32⟩
  | 81 => ⟨S1x256, .f32⟩
  | 82 => ⟨S100000x256, .f32⟩
  | 83 => ⟨S100000x256, .f32⟩
  | 84 => ⟨S_, .f32⟩
  | 85 => ⟨S100000x256, .f32⟩
  | 86 => ⟨S100000x256, .f32⟩
  | 87 => ⟨S100000x256, .f32⟩
  | 88 => ⟨S_, .i32⟩
  | 89 => ⟨S300000, .i32⟩
  | 90 => ⟨S300000, .i1⟩
  | 91 => ⟨S_, .i32⟩
  | 92 => ⟨S300000, .i32⟩
  | 93 => ⟨S300000, .i32⟩
  | 94 => ⟨S300000, .i32⟩
  | 95 => ⟨S300000x1, .i32⟩
  | 96 => ⟨S300000, .f32⟩
  | 97 => ⟨S_, .i32⟩
  | 98 => ⟨S300000, .i32⟩
  | 99 => ⟨S300000, .i1⟩
  | 100 => ⟨S_, .i32⟩
  | 101 => ⟨S300000, .i32⟩
  | 102 => ⟨S300000, .i32⟩
  | 103 => ⟨S300000, .i32⟩
  | 104 => ⟨S300000x1, .i32⟩
  | 105 => ⟨S300000, .f32⟩
  | 106 => ⟨S300000, .f32⟩
  | 107 => ⟨S300000x1, .f32⟩
  | 108 => ⟨S_, .i32⟩
  | 109 => ⟨S300000, .i32⟩
  | 110 => ⟨S300000, .i1⟩
  | 111 => ⟨S_, .i32⟩
  | 112 => ⟨S300000, .i32⟩
  | 113 => ⟨S300000, .i32⟩
  | 114 => ⟨S300000, .i32⟩
  | 115 => ⟨S300000x1, .i32⟩
  | 116 => ⟨S300000x256, .f32⟩
  | 117 => ⟨S300000x256, .f32⟩
  | 118 => ⟨S300000x256, .f32⟩
  | 119 => ⟨S_, .f32⟩
  | 120 => ⟨S100000x256, .f32⟩
  | 121 => ⟨S300000x1, .i32⟩
  | 122 => ⟨S100000x256, .f32⟩
  | 123 => ⟨S100000, .f32⟩
  | 124 => ⟨S100000x1, .f32⟩
  | 125 => ⟨S100000x256, .f32⟩
  | 126 => ⟨S100000x256, .f32⟩
  | 127 => ⟨S100000x256, .f32⟩
  | _ => ⟨S100000x128, .f32⟩

abbrev hbmTy0_2 (i : Nat) : BufTy := match i % 128 with
  | 0 => ⟨S1x256, .f32⟩
  | 1 => ⟨S100000x256, .f32⟩
  | 2 => ⟨S100000x256, .f32⟩
  | 3 => ⟨S_, .f32⟩
  | 4 => ⟨S256, .f32⟩
  | 5 => ⟨S_, .f32⟩
  | 6 => ⟨S256, .f32⟩
  | 7 => ⟨S256, .f32⟩
  | 8 => ⟨S_, .i32⟩
  | 9 => ⟨S_, .f32⟩
  | 10 => ⟨S256, .f32⟩
  | 11 => ⟨S1x256, .f32⟩
  | 12 => ⟨S_, .f32⟩
  | 13 => ⟨S1x256, .f32⟩
  | 14 => ⟨S1x256, .f32⟩
  | 15 => ⟨S100000x256, .f32⟩
  | 16 => ⟨S100000x256, .f32⟩
  | 17 => ⟨S100000x256, .f32⟩
  | 18 => ⟨S_, .f32⟩
  | 19 => ⟨S_, .f32⟩
  | 20 => ⟨S_, .f32⟩
  | 21 => ⟨S_, .f32⟩
  | 22 => ⟨S256, .f32⟩
  | 23 => ⟨S256, .f32⟩
  | 24 => ⟨S256, .f32⟩
  | 25 => ⟨S_, .f32⟩
  | 26 => ⟨S_, .i1⟩
  | 27 => ⟨S_, .f32⟩
  | 28 => ⟨S_, .f32⟩
  | 29 => ⟨S256, .f32⟩
  | 30 => ⟨S256, .f32⟩
  | 31 => ⟨S1x256, .f32⟩
  | 32 => ⟨S100000x256, .f32⟩
  | 33 => ⟨S100000x256, .f32⟩
  | 34 => ⟨S_, .f32⟩
  | 35 => ⟨S256, .f32⟩
  | 36 => ⟨S256, .f32⟩
  | 37 => ⟨S256, .f32⟩
  | 38 => ⟨S1x256, .f32⟩
  | 39 => ⟨S100000x256, .f32⟩
  | 40 => ⟨S100000x256, .f32⟩
  | 41 => ⟨S1x256, .f32⟩
  | 42 => ⟨S100000x256, .f32⟩
  | 43 => ⟨S100000x256, .f32⟩
  | 44 => ⟨S1x256, .f32⟩
  | 45 => ⟨S100000x256, .f32⟩
  | 46 => ⟨S100000x256, .f32⟩
  | 47 => ⟨S_, .f32⟩
  | 48 => ⟨S100000x256, .f32⟩
  | 49 => ⟨S100000x256, .f32⟩
  | 50 => ⟨S_, .f32⟩
  | 51 => ⟨S2048x256, .f32⟩
  | 52 => ⟨S100000x1, .i32⟩
  | 53 => ⟨S2048x256, .f32⟩
  | 54 => ⟨S2048x256, .f32⟩
  | 55 => ⟨S1x256, .f32⟩
  | 56 => ⟨S2048x256, .f32⟩
  | 57 => ⟨S2048x256, .f32⟩
  | 58 => ⟨S_, .f32⟩
  | 59 => ⟨S2048x256, .f32⟩
  | 60 => ⟨S2048x256, .f32⟩
  | 61 => ⟨S2048x1, .f32⟩
  | 62 => ⟨S1x1, .f32⟩
  | 63 => ⟨S2048x1, .f32⟩
  | 64 => ⟨S2048x1, .f32⟩
  | 65 => ⟨S2048, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c : Ref sig .tc := ⟨.hbm, 34, rfl⟩
abbrev main_v12 : Ref sig .tc := ⟨.hbm, 35, rfl⟩
abbrev main_v13 : Ref sig .tc := ⟨.hbm, 36, rfl⟩
abbrev main_c_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_5 : Ref sig .tc := ⟨.hbm, 54, rfl⟩
abbrev main_v28 : Ref sig .tc := ⟨.hbm, 55, rfl⟩
abbrev main_v29 : Ref sig .tc := ⟨.hbm, 56, rfl⟩
abbrev main_c_6 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_call0_cst : Ref sig .tc := ⟨.hbm, 83, rfl⟩
abbrev main_call0_v0 : Ref sig .tc := ⟨.hbm, 84, rfl⟩
abbrev main_call0_v1 : Ref sig .tc := ⟨.hbm, 85, rfl⟩
abbrev main_call0_cst_0 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_call0_v6 : Ref sig .tc := ⟨.hbm, 91, rfl⟩
abbrev main_call0_v7 : Ref sig .tc := ⟨.hbm, 92, rfl⟩
abbrev main_call0_cst_1 : Ref sig .tc := ⟨.hbm, 93, rfl⟩
abbrev main_call0_v8 : Ref sig .tc := ⟨.hbm, 94, rfl⟩
abbrev main_call0_cst_2 : Ref sig .tc := ⟨.hbm, 95, rfl⟩
abbrev main_call0_v9 : Ref sig .tc := ⟨.hbm, 96, rfl⟩
abbrev main_call0_v10 : Ref sig .tc := ⟨.hbm, 97, rfl⟩
abbrev main_call0_v11 : Ref sig .tc := ⟨.hbm, 98, rfl⟩
abbrev main_call0_cst_3 : Ref sig .tc := ⟨.hbm, 99, rfl⟩
abbrev main_call0_v12 : Ref sig .tc := ⟨.hbm, 100, rfl⟩
abbrev main_call0_cst_4 : Ref sig .tc := ⟨.hbm, 101, rfl⟩
abbrev main_call0_call0_v0 : Ref sig .tc := ⟨.hbm, 102, rfl⟩
abbrev main_call0_call0_v1 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_cst_11 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_call1_cst : Ref sig .tc := ⟨.hbm, 121, rfl⟩
abbrev main_call1_v0 : Ref sig .tc := ⟨.hbm, 122, rfl⟩
abbrev main_v67 : Ref sig .tc := ⟨.hbm, 123, rfl⟩
abbrev main_v68 : Ref sig .tc := ⟨.hbm, 124, rfl⟩
abbrev main_c_12 : Ref sig .tc := ⟨.hbm, 125, rfl⟩
abbrev main_v69 : Ref sig .tc := ⟨.hbm, 126, rfl⟩
abbrev main_v70 : Ref sig .tc := ⟨.hbm, 127, rfl⟩
abbrev main_c_13 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_c_14 : Ref sig .tc := ⟨.hbm, 134, rfl⟩
abbrev main_v76 : Ref sig .tc := ⟨.hbm, 135, rfl⟩
abbrev main_v77 : Ref sig .tc := ⟨.hbm, 136, rfl⟩
abbrev main_c_15 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_c_16 : Ref sig .tc := ⟨.hbm, 145, rfl⟩
abbrev main_v85 : Ref sig .tc := ⟨.hbm, 146, rfl⟩
abbrev main_v86 : Ref sig .tc := ⟨.hbm, 147, rfl⟩
abbrev main_c_17 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_cst_18 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_cst_19 : Ref sig .tc := ⟨.hbm, 168, rfl⟩
abbrev main_v105 : Ref sig .tc := ⟨.hbm, 169, rfl⟩
abbrev main_cst_20 : Ref sig .tc := ⟨.hbm, 170, rfl⟩
abbrev main_v106 : Ref sig .tc := ⟨.hbm, 171, rfl⟩
abbrev main_v107 : Ref sig .tc := ⟨.hbm, 172, rfl⟩
abbrev main_c_21 : Ref sig .tc := ⟨.hbm, 173, rfl⟩
abbrev main_call2_cst : Ref sig .tc := ⟨.hbm, 174, rfl⟩
abbrev main_call2_v0 : Ref sig .tc := ⟨.hbm, 175, rfl⟩
abbrev main_call2_v1 : Ref sig .tc := ⟨.hbm, 176, rfl⟩
abbrev main_call2_cst_0 : Ref sig .tc := ⟨.hbm, 177, rfl⟩
abbrev main_call2_v2 : Ref sig .tc := ⟨.hbm, 178, rfl⟩
abbrev main_call2_v3 : Ref sig .tc := ⟨.hbm, 179, rfl⟩
abbrev main_call2_v4 : Ref sig .tc := ⟨.hbm, 180, rfl⟩
abbrev main_call2_v5 : Ref sig .tc := ⟨.hbm, 181, rfl⟩
abbrev main_call2_v6 : Ref sig .tc := ⟨.hbm, 182, rfl⟩
abbrev main_call2_v7 : Ref sig .tc := ⟨.hbm, 183, rfl⟩
abbrev main_call2_cst_1 : Ref sig .tc := ⟨.hbm, 184, rfl⟩
abbrev main_call2_v8 : Ref sig .tc := ⟨.hbm, 185, rfl⟩
abbrev main_call2_cst_2 : Ref sig .tc := ⟨.hbm, 186, rfl⟩
abbrev main_call2_v9 : Ref sig .tc := ⟨.hbm, 187, rfl⟩
abbrev main_call2_v10 : Ref sig .tc := ⟨.hbm, 188, rfl⟩
abbrev main_call2_v11 : Ref sig .tc := ⟨.hbm, 189, rfl⟩
abbrev main_call2_cst_3 : Ref sig .tc := ⟨.hbm, 190, rfl⟩
abbrev main_call2_v12 : Ref sig .tc := ⟨.hbm, 191, rfl⟩
abbrev main_call2_cst_4 : Ref sig .tc := ⟨.hbm, 192, rfl⟩
abbrev main_call2_call0_v0 : Ref sig .tc := ⟨.hbm, 193, rfl⟩
abbrev main_call2_call0_v1 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_cst_22 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_call3_cst : Ref sig .tc := ⟨.hbm, 212, rfl⟩
abbrev main_call3_v0 : Ref sig .tc := ⟨.hbm, 213, rfl⟩
abbrev main_v124 : Ref sig .tc := ⟨.hbm, 214, rfl⟩
abbrev main_v125 : Ref sig .tc := ⟨.hbm, 215, rfl⟩
abbrev main_c_23 : Ref sig .tc := ⟨.hbm, 216, rfl⟩
abbrev main_v126 : Ref sig .tc := ⟨.hbm, 217, rfl⟩
abbrev main_v127 : Ref sig .tc := ⟨.hbm, 218, rfl⟩
abbrev main_c_24 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_c_25 : Ref sig .tc := ⟨.hbm, 225, rfl⟩
abbrev main_v133 : Ref sig .tc := ⟨.hbm, 226, rfl⟩
abbrev main_v134 : Ref sig .tc := ⟨.hbm, 227, rfl⟩
abbrev main_c_26 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_c_27 : Ref sig .tc := ⟨.hbm, 236, rfl⟩
abbrev main_v142 : Ref sig .tc := ⟨.hbm, 237, rfl⟩
abbrev main_v143 : Ref sig .tc := ⟨.hbm, 238, rfl⟩
abbrev main_c_28 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_cst_29 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_cst_30 : Ref sig .tc := ⟨.hbm, 259, rfl⟩
abbrev main_v162 : Ref sig .tc := ⟨.hbm, 260, rfl⟩
abbrev main_cst_31 : Ref sig .tc := ⟨.hbm, 261, rfl⟩
abbrev main_v163 : Ref sig .tc := ⟨.hbm, 262, rfl⟩
abbrev main_v164 : Ref sig .tc := ⟨.hbm, 263, rfl⟩
abbrev main_c_32 : Ref sig .tc := ⟨.hbm, 264, rfl⟩
abbrev main_call4_cst : Ref sig .tc := ⟨.hbm, 265, rfl⟩
abbrev main_call4_v0 : Ref sig .tc := ⟨.hbm, 266, rfl⟩
abbrev main_call4_v1 : Ref sig .tc := ⟨.hbm, 267, rfl⟩
abbrev main_call4_cst_0 : Ref sig .tc := ⟨.hbm, 268, rfl⟩
abbrev main_call4_v2 : Ref sig .tc := ⟨.hbm, 269, rfl⟩
abbrev main_call4_v3 : Ref sig .tc := ⟨.hbm, 270, rfl⟩
abbrev main_call4_v4 : Ref sig .tc := ⟨.hbm, 271, rfl⟩
abbrev main_call4_v5 : Ref sig .tc := ⟨.hbm, 272, rfl⟩
abbrev main_call4_v6 : Ref sig .tc := ⟨.hbm, 273, rfl⟩
abbrev main_call4_v7 : Ref sig .tc := ⟨.hbm, 274, rfl⟩
abbrev main_call4_cst_1 : Ref sig .tc := ⟨.hbm, 275, rfl⟩
abbrev main_call4_v8 : Ref sig .tc := ⟨.hbm, 276, rfl⟩
abbrev main_call4_cst_2 : Ref sig .tc := ⟨.hbm, 277, rfl⟩
abbrev main_call4_v9 : Ref sig .tc := ⟨.hbm, 278, rfl⟩
abbrev main_call4_v10 : Ref sig .tc := ⟨.hbm, 279, rfl⟩
abbrev main_call4_v11 : Ref sig .tc := ⟨.hbm, 280, rfl⟩
abbrev main_call4_cst_3 : Ref sig .tc := ⟨.hbm, 281, rfl⟩
abbrev main_call4_v12 : Ref sig .tc := ⟨.hbm, 282, rfl⟩
abbrev main_call4_cst_4 : Ref sig .tc := ⟨.hbm, 283, rfl⟩
abbrev main_call4_call0_v0 : Ref sig .tc := ⟨.hbm, 284, rfl⟩
abbrev main_call4_call0_v1 : Ref sig .tc := ⟨.hbm, 285, rfl⟩
abbrev main_v165 : Ref sig .tc := ⟨.hbm, 286, rfl⟩
abbrev main_v166 : Ref sig .tc := ⟨.hbm, 287, rfl⟩
abbrev main_v167 : Ref sig .tc := ⟨.hbm, 288, rfl⟩
abbrev main_v168 : Ref sig .tc := ⟨.hbm, 289, rfl⟩
abbrev main_cst_33 : Ref sig .tc := ⟨.hbm, 290, rfl⟩
abbrev main_v169 : Ref sig .tc := ⟨.hbm, 291, rfl⟩
abbrev main_v170 : Ref sig .tc := ⟨.hbm, 292, rfl⟩
abbrev main_v171 : Ref sig .tc := ⟨.hbm, 293, rfl⟩
abbrev main_v172 : Ref sig .tc := ⟨.hbm, 294, rfl⟩
abbrev main_v173 : Ref sig .tc := ⟨.hbm, 295, rfl⟩
abbrev main_v174 : Ref sig .tc := ⟨.hbm, 296, rfl⟩
abbrev main_v175 : Ref sig .tc := ⟨.hbm, 297, rfl⟩
abbrev main_v176 : Ref sig .tc := ⟨.hbm, 298, rfl⟩
abbrev main_v177 : Ref sig .tc := ⟨.hbm, 299, rfl⟩
abbrev main_v178 : Ref sig .tc := ⟨.hbm, 300, rfl⟩
abbrev main_v179 : Ref sig .tc := ⟨.hbm, 301, rfl⟩
abbrev main_v180 : Ref sig .tc := ⟨.hbm, 302, rfl⟩
abbrev main_call5_cst : Ref sig .tc := ⟨.hbm, 303, rfl⟩
abbrev main_call5_v0 : Ref sig .tc := ⟨.hbm, 304, rfl⟩
abbrev main_v181 : Ref sig .tc := ⟨.hbm, 305, rfl⟩
abbrev main_cst_34 : Ref sig .tc := ⟨.hbm, 306, rfl⟩
abbrev main_v182 : Ref sig .tc := ⟨.hbm, 307, rfl⟩
abbrev main_v183 : Ref sig .tc := ⟨.hbm, 308, rfl⟩
abbrev main_v184 : Ref sig .tc := ⟨.hbm, 309, rfl⟩
abbrev main_v185 : Ref sig .tc := ⟨.hbm, 310, rfl⟩
abbrev main_v186 : Ref sig .tc := ⟨.hbm, 311, rfl⟩
abbrev main_v187 : Ref sig .tc := ⟨.hbm, 312, rfl⟩
abbrev main_v188 : Ref sig .tc := ⟨.hbm, 313, rfl⟩
abbrev main_call6_cst : Ref sig .tc := ⟨.hbm, 314, rfl⟩
abbrev main_call6_v0 : Ref sig .tc := ⟨.hbm, 315, rfl⟩
abbrev main_v189 : Ref sig .tc := ⟨.hbm, 316, rfl⟩
abbrev main_v190 : Ref sig .tc := ⟨.hbm, 317, rfl⟩
abbrev main_v191 : Ref sig .tc := ⟨.hbm, 318, rfl⟩
abbrev main_v192 : Ref sig .tc := ⟨.hbm, 319, rfl⟩
abbrev main_v193 : Ref sig .tc := ⟨.hbm, 320, rfl⟩
abbrev main_v194 : Ref sig .tc := ⟨.hbm, 321, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S_S100000 : S_.BroadcastsInDim S100000 (![] : Fin 0 → Fin S100000.rank)
  bcast_S300000_S300000x1_0 : S300000.BroadcastsInDim S300000x1 (![0] : Fin 1 → Fin S300000x1.rank)
  bcast_S300000x1_S300000x256_0_1 : S300000x1.BroadcastsInDim S300000x256 (![0, 1] : Fin 2 → Fin S300000x256.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S256_d0 : S100000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S2048x256 : S_.BroadcastsInDim S2048x256 (![] : Fin 0 → Fin S2048x256.rank)
  bcast_S1x256_S2048x256_0_1 : S1x256.BroadcastsInDim S2048x256 (![0, 1] : Fin 2 → Fin S2048x256.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  shapeCasts_S2048x1_S2048 : S2048x1.ShapeCasts S2048
  scatter_S100000_S300000x1_S300000_n_0_0_1_wf : ScatterDims.WF S100000 S300000x1 S300000 [] [0] [0] 1
  dot_S100000x128_S128x256_S100000x256_1_0_0_1_n_n_wf : DotDims.WF S100000x128 S128x256 S100000x256 [1] [0] [0] [1] [] []
  gather_S100000_S300000x1_S300000_n_0_n_n_0_1_1_wf : GatherDims.WF S100000 S300000x1 S300000 [] [0] [] [0] [] 1 ![1]
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1
  dot_S100000x256_S256x256_S100000x256_1_0_0_1_n_n_wf : DotDims.WF S100000x256 S256x256 S100000x256 [1] [0] [0] [1] [] []
  scatter_S2048x256_S100000x1_S100000x256_1_0_0_1_wf : ScatterDims.WF S2048x256 S100000x1 S100000x256 [1] [0] [0] 1
  dot_S2048x256_S256x256_S2048x256_1_0_0_1_n_n_wf : DotDims.WF S2048x256 S256x256 S2048x256 [1] [0] [0] [1] [] []
  dot_S2048x256_S256x1_S2048x1_1_0_0_1_n_n_wf : DotDims.WF S2048x256 S256x1 S2048x1 [1] [0] [0] [1] [] []

variable [Facts₀]

def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000_S300000x1_S300000_n_0_n_n_0_1_1 : GatherDims S100000 S300000x1 S300000 where
  offsetDims := []
  collapsedSliceDims := [0]
  operandBatchingDims := []
  startIndicesBatchingDims := []
  startIndexMap := [0]
  indexVectorDim := 1
  sliceSizes := ![1]
  wf := gather_S100000_S300000x1_S300000_n_0_n_n_0_1_1_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S2048x256_S100000x1_S100000x256_1_0_0_1 : ScatterDims S2048x256 S100000x1 S100000x256 where
  updateWindowDims := [1]
  insertedWindowDims := [0]
  scatterDimsToOperandDims := [0]
  indexVectorDim := 1
  wf := scatter_S2048x256_S100000x1_S100000x256_1_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

class Facts : Prop extends Facts₀ where

variable [Facts]
-- ==== Proof.KRun.lean ====
/- The run of the idealized kernel program with its result: every weakly fair execution of the program on the
   TensorCores terminates without fault, the result buffer ends at the value the fold of segment boundaries assigns
   it, and every argument array ends as launched. -/
import proofs.«123479_j22230750724231_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- From any memory with zero counters, every weakly fair execution of the program on the TensorCores terminates,
    nothing faulting; in every final state the result buffer holds the last boundary's contents of the fold, and
    each argument array is as launched. -/
theorem run_value : θ_run defs (onTc (τ := τ) (main (F := F))) ⟨m, fun _ => 0, ρ⟩ (fun r => ∀ c : Dev nD,
      r.2.mem ((c.tc : Thread nD τ).loc main_v108) = W17 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v108 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c)⟩)

end Cert.KernelIdeal.KRun

end
-- ==== Proof.KSpec.lean ====
/-
  The host-side steps of the kernel program between its eight tiled regions, as functions of whole arrays of
  extended reals: the edge list's rows, D^(-1/2) and its square laid out as a column, the per-edge weights as a
  column, the gather / scatter-add aggregation of a layer's transformed features, a length-256 vector laid out as
  one row, the batch mean and the variance written as the mean of squares minus the squared mean, and the
  pooling per graph. Each is spelt with exactly the host operations of the kernel program.
-/
import proofs.«123479_j22230750724231_2_alg».proof.Proof.Gen.KernelIdeal
import Idealize.ShloMosaic.PureOps.Ideal

noncomputable section

namespace Cert.KSpec

open Idealize.ShloMosaic Cert.KernelIdeal Cert.KernelIdeal.Facts₀ Cert.KernelIdeal.Facts

/-- Row 0 of the edge list: the source node of every edge. -/
def srcOf (ei : IVec S2x300000 32) : IVec S300000 32 :=
  shapeCast S300000 (extractStridedSlice S1x300000 ![0, 0] ei slices_S2x300000_S1x300000_0_0) shapeCasts_S1x300000_S300000

/-- Row 1 of the edge list: the destination node of every edge. -/
def dstOf (ei : IVec S2x300000 32) : IVec S300000 32 :=
  shapeCast S300000 (extractStridedSlice S1x300000 ![1, 0] ei slices_S2x300000_S1x300000_1_0) shapeCasts_S1x300000_S300000

/-- A negative node index counts from the end of the node axis. -/
def wrap (v : IVec S300000 32) : IVec S300000 32 :=
  select (cmpi .slt v (broadcastInDim S300000 ![] bcast_S_S300000 (constantI S_ 32 0#32)))
    (addi v (broadcastInDim S300000 ![] bcast_S_S300000 (constantI S_ 32 100000#32))) v

/-- An index vector as a one-column table of start indices. -/
def col (v : IVec S300000 32) : IVec S300000x1 32 := broadcastInDim S300000x1 ![0] bcast_S300000_S300000x1_0 v

/-- D^(-1/2): the reciprocal square root of one plus the number of edges arriving at each node. -/
def dinvOf (dst : IVec S300000 32) : FVec Ideal S100000 .f32 :=
  Host.rsqrt (addf (Host.scatterAdd scatter_S100000_S300000x1_S300000_n_0_0_1
      (broadcastInDim S100000 ![] bcast_S_S100000 (constant (F := Ideal) S_ .f32 0x00000000#32)) (col dst)
      (broadcastInDim S300000 ![] bcast_S_S300000 (constant (F := Ideal) S_ .f32 0x3F800000#32)))
    (broadcastInDim S100000 ![] bcast_S_S100000 (constant (F := Ideal) S_ .f32 0x3F800000#32)))

/-- D^(-1) as a one-column table. -/
def d2colOf (ei : IVec S2x300000 32) : FVec Ideal S100000x1 .f32 :=
  shapeCast S100000x1 (mulf (dinvOf (dstOf ei)) (dinvOf (dstOf ei))) shapeCasts_S100000_S100000x1

/-- The weight of each edge (the product of D^(-1/2) at its two ends) as a one-column table. -/
def ccolOf (ei : IVec S2x300000 32) : FVec Ideal S300000x1 .f32 :=
  shapeCast S300000x1
    (mulf (Host.gather gather_S100000_S300000x1_S300000_n_0_n_n_0_1_1 (dinvOf (dstOf ei)) (col (wrap (srcOf ei))))
      (Host.gather gather_S100000_S300000x1_S300000_n_0_n_n_0_1_1 (dinvOf (dstOf ei)) (col (wrap (dstOf ei)))))
    shapeCasts_S300000_S300000x1

/-- A layer's transformed features gathered at the sources, weighted, and summed at the destinations. -/
def aggOf (xw : FVec Ideal S100000x256 .bf16) (ei : IVec S2x300000 32) : FVec Ideal S100000x256 .f32 :=
  Host.scatterAdd scatter_S100000x256_S300000x1_S300000x256_1_0_0_1
    (broadcastInDim S100000x256 ![] bcast_S_S100000x256 (constant (F := Ideal) S_ .f32 0x00000000#32)) (col (dstOf ei))
    (mulf (extf .f32 (Host.gather gather_S100000x256_S300000x1_S300000x256_1_0_n_n_0_1_1256 xw (col (wrap (srcOf ei)))) bitsLt_bf16_f32)
      (broadcastInDim S300000x256 ![0, 1] bcast_S300000x1_S300000x256_0_1 (ccolOf ei)))

/-- A length-256 vector as one row. -/
def brow (b : FVec Ideal S256 .f32) : FVec Ideal S1x256 .f32 := shapeCast S1x256 b shapeCasts_S256_S1x256

/-- The batch mean from the accumulated column sums. -/
def meanK (s : FVec Ideal S1x256 .f32) : FVec Ideal S1x256 .f32 :=
  Host.divf s (broadcastInDim S1x256 ![] bcast_S_S1x256 (constant (F := Ideal) S_ .f32 0x47C35000#32))

/-- The batch variance as the mean of squares minus the squared mean. -/
def varK (s q : FVec Ideal S1x256 .f32) : FVec Ideal S1x256 .f32 :=
  subf (Host.divf q (broadcastInDim S1x256 ![] bcast_S_S1x256 (constant (F := Ideal) S_ .f32 0x47C35000#32)))
    (mulf (meanK s) (meanK s))

/-- Node features summed per graph. -/
def poolK (h : FVec Ideal S100000x256 .f32) (batch : IVec S100000 32) : FVec Ideal S2048x256 .f32 :=
  Host.scatterAdd scatter_S2048x256_S100000x1_S100000x256_1_0_0_1
    (broadcastInDim S2048x256 ![] bcast_S_S2048x256 (constant (F := Ideal) S_ .f32 0x00000000#32))
    (broadcastInDim S100000x1 ![0] bcast_S100000_S100000x1_0 batch) h

end Cert.KSpec

end
-- ==== Proof.KReads.lean ====
/- What each tiled region of the idealized kernel program finds in its input arrays, and the program's result, as
   functions of the launch arguments and of the earlier regions' output arrays: the host-side steps between the
   regions are read through the fold of segment boundaries, each step over an arbitrary valuation at its start. -/
import proofs.«123479_j22230750724231_2_alg».proof.Proof.Gen.KernelIdeal.Frame
import proofs.«123479_j22230750724231_2_alg».proof.Proof.KSpec

set_option maxRecDepth 16384

noncomputable section

namespace Cert.KernelIdeal.KRun

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The host stretches, each over arbitrary contents at its start -/

/-- The references host stretch 0 writes. -/
abbrev wr0 : List (Ref sig .tc) := [main_v0, main_v1, main_v2, main_v3, main_cst, main_v4, main_cst_0, main_v5, main_v6, main_v7, main_cst_1, main_v8, main_v9, main_v10, main_v11, main_v12, main_c, main_v13, main_v14, main_c_2, main_v15, main_v16, main_v17, main_v18, main_v19, main_c_3, main_v20, main_v21, main_c_4, main_v22, main_v23, main_v24, main_v25, main_v26, main_v27, main_v28]
theorem writes0 : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer stretch 0 does not write keeps its contents, whatever the contents at the stretch's start. -/
theorem keep0 (W : Valuation τ sig (Elt Ideal)) (r : Ref sig .tc) (h : r ∉ wr0) :
    StableHlo.after hostOps0 W (Proc.devRef .tc r) = W (Proc.devRef .tc r) :=
  StableHlo.after_of_writes_sub hostOps0 W writes0 h

/-- The references host stretch 1 writes. -/
abbrev wr1 : List (Ref sig .tc) := [main_c_5, main_v30, main_v31, main_c_6, main_v32, main_v33, main_v34, main_v35, main_v36, main_v37, main_v38, main_v39, main_cst_7, main_v40, main_v41, main_v42, main_v43]
theorem writes1 : (hostOps1 : List (HloOp τ sig (Elt Ideal))).Forall fun op => op.writes ⊆ (wr1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer stretch 1 does not write keeps its contents, whatever the contents at the stretch's start. -/
theorem keep1 (W : Valuation τ sig (Elt Ideal)) (r : Ref sig .tc) (h : r ∉ wr1) :
    StableHlo.after hostOps1 W (Proc.devRef .tc r) = W (Proc.devRef .tc r) :=
  StableHlo.after_of_writes_sub hostOps1 W writes1 h

/-- The references host stretch 2 writes. -/
abbrev wr2 : List (Ref sig .tc) := [main_cst_8, main_v45, main_v46, main_cst_9, main_v47, main_v48, main_v49, main_v50, main_v51, main_v52]
theorem writes2 : (hostOps2 : List (HloOp τ sig (Elt Ideal))).Forall fun op => op.writes ⊆ (wr2.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer stretch 2 does not write keeps its contents, whatever the contents at the stretch's start. -/
theorem keep2 (W : Valuation τ sig (Elt Ideal)) (r : Ref sig .tc) (h : r ∉ wr2) :
    StableHlo.after hostOps2 W (Proc.devRef .tc r) = W (Proc.devRef .tc r) :=
  StableHlo.after_of_writes_sub hostOps2 W writes2 h

/-- The references host stretch 3 writes. -/
abbrev wr3 : List (Ref sig .tc) := [main_c_10, main_v54, main_v55, main_c_11, main_v56, main_v57, main_v58, main_v59, main_v60, main_v61, main_v62, main_v63, main_cst_12, main_v64, main_v65, main_v66, main_v67]
theorem writes3 : (hostOps3 : List (HloOp τ sig (Elt Ideal))).Forall fun op => op.writes ⊆ (wr3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer stretch 3 does not write keeps its contents, whatever the contents at the stretch's start. -/
theorem keep3 (W : Valuation τ sig (Elt Ideal)) (r : Ref sig .tc) (h : r ∉ wr3) :
    StableHlo.after hostOps3 W (Proc.devRef .tc r) = W (Proc.devRef .tc r) :=
  StableHlo.after_of_writes_sub hostOps3 W writes3 h

/-- The references host stretch 4 writes. -/
abbrev wr4 : List (Ref sig .tc) := [main_cst_13, main_v69, main_v70, main_cst_14, main_v71, main_v72, main_v73, main_v74, main_v75, main_v76]
theorem writes4 : (hostOps4 : List (HloOp τ sig (Elt Ideal))).Forall fun op => op.writes ⊆ (wr4.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer stretch 4 does not write keeps its contents, whatever the contents at the stretch's start. -/
theorem keep4 (W : Valuation τ sig (Elt Ideal)) (r : Ref sig .tc) (h : r ∉ wr4) :
    StableHlo.after hostOps4 W (Proc.devRef .tc r) = W (Proc.devRef .tc r) :=
  StableHlo.after_of_writes_sub hostOps4 W writes4 h

/-- The references host stretch 5 writes. -/
abbrev wr5 : List (Ref sig .tc) := [main_c_15, main_v78, main_v79, main_c_16, main_v80, main_v81, main_v82, main_v83, main_v84, main_v85, main_v86, main_v87, main_cst_17, main_v88, main_v89, main_v90, main_v91]
theorem writes5 : (hostOps5 : List (HloOp τ sig (Elt Ideal))).Forall fun op => op.writes ⊆ (wr5.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer stretch 5 does not write keeps its contents, whatever the contents at the stretch's start. -/
theorem keep5 (W : Valuation τ sig (Elt Ideal)) (r : Ref sig .tc) (h : r ∉ wr5) :
    StableHlo.after hostOps5 W (Proc.devRef .tc r) = W (Proc.devRef .tc r) :=
  StableHlo.after_of_writes_sub hostOps5 W writes5 h

/-- The references host stretch 6 writes. -/
abbrev wr6 : List (Ref sig .tc) := [main_cst_18, main_v93, main_v94, main_cst_19, main_v95, main_v96, main_v97, main_v98, main_v99, main_v100]
theorem writes6 : (hostOps6 : List (HloOp τ sig (Elt Ideal))).Forall fun op => op.writes ⊆ (wr6.map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer stretch 6 does not write keeps its contents, whatever the contents at the stretch's start. -/
theorem keep6 (W : Valuation τ sig (Elt Ideal)) (r : Ref sig .tc) (h : r ∉ wr6) :
    StableHlo.after hostOps6 W (Proc.devRef .tc r) = W (Proc.devRef .tc r) :=
  StableHlo.after_of_writes_sub hostOps6 W writes6 h

/-- The references host stretch 7 writes. -/
abbrev wr7 : List (Ref sig .tc) := [main_cst_20, main_v102, main_v103, main_v104, main_v105, main_v106]
theorem writes7 : (hostOps7 : List (HloOp τ sig (Elt Ideal))).Forall fun op => op.writes ⊆ (wr7.map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer stretch 7 does not write keeps its contents, whatever the contents at the stretch's start. -/
theorem keep7 (W : Valuation τ sig (Elt Ideal)) (r : Ref sig .tc) (h : r ∉ wr7) :
    StableHlo.after hostOps7 W (Proc.devRef .tc r) = W (Proc.devRef .tc r) :=
  StableHlo.after_of_writes_sub hostOps7 W writes7 h

/-- The references host stretch 8 writes. -/
abbrev wr8 : List (Ref sig .tc) := [main_v108]
theorem writes8 : (hostOps8 : List (HloOp τ sig (Elt Ideal))).Forall fun op => op.writes ⊆ (wr8.map (Proc.devRef (τ := τ) .tc)).toFinset := by
  simp only [hostOps8, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer stretch 8 does not write keeps its contents, whatever the contents at the stretch's start. -/
theorem keep8 (W : Valuation τ sig (Elt Ideal)) (r : Ref sig .tc) (h : r ∉ wr8) :
    StableHlo.after hostOps8 W (Proc.devRef .tc r) = W (Proc.devRef .tc r) :=
  StableHlo.after_of_writes_sub hostOps8 W writes8 h

/-- The aggregation step as a function of the feature table, the source and destination rows and the column of
    edge weights: the rows gathered at the sources (a negative index counting from the end), weighted, and summed
    at the destinations. -/
def aggAt (xw : FVec Ideal S100000x256 .bf16) (src dst : IVec S300000 32) (cc : FVec Ideal S300000x1 .f32) :
    FVec Ideal S100000x256 .f32 :=
  Host.scatterAdd scatter_S100000x256_S300000x1_S300000x256_1_0_0_1
    (broadcastInDim S100000x256 ![] Facts₀.bcast_S_S100000x256 (constant (F := Ideal) S_ .f32 0x00000000#32)) (KSpec.col dst)
    (mulf (extf .f32 (Host.gather gather_S100000x256_S300000x1_S300000x256_1_0_n_n_0_1_1256 xw (KSpec.col (KSpec.wrap src))) Facts₀.bitsLt_bf16_f32)
      (broadcastInDim S300000x256 ![0, 1] Facts₀.bcast_S300000x1_S300000x256_0_1 cc))

/-- At the edge list's own rows and weights it is the layer's aggregation. -/
theorem aggAt_spec (xw : FVec Ideal S100000x256 .bf16) (ei : IVec S2x300000 32) :
    aggAt xw (KSpec.srcOf ei) (KSpec.dstOf ei) (KSpec.ccolOf ei) = KSpec.aggOf xw ei := rfl

theorem aggAt_congr {a a' : FVec Ideal S100000x256 .bf16} {s s' d d' : IVec S300000 32} {cc cc' : FVec Ideal S300000x1 .f32}
    (ha : a = a') (hs : s = s') (hd : d = d') (hc : cc = cc') : aggAt a s d cc = aggAt a' s' d' cc' := by
  rw [ha, hs, hd, hc]

/-- After the first stretch the source row of the edge list stands in its buffer. -/
theorem h0_v1 (W : Valuation τ sig (Elt Ideal)) :
    (StableHlo.after hostOps0 W (Proc.devRef .tc main_v1) : IVec S300000 32) = KSpec.srcOf (W (Proc.devRef .tc main_arg1) : IVec S2x300000 32) := by
  simp only [hostOps0]
  after_results_simp
  rfl
/-- After the first stretch the destination row of the edge list stands in its buffer. -/
theorem h0_v3 (W : Valuation τ sig (Elt Ideal)) :
    (StableHlo.after hostOps0 W (Proc.devRef .tc main_v3) : IVec S300000 32) = KSpec.dstOf (W (Proc.devRef .tc main_arg1) : IVec S2x300000 32) := by
  simp only [hostOps0]
  after_results_simp
  rfl
/-- After the first stretch the column of D^(-1) stands in its buffer. -/
theorem h0_v12 (W : Valuation τ sig (Elt Ideal)) :
    (StableHlo.after hostOps0 W (Proc.devRef .tc main_v12) : FVec Ideal S100000x1 .f32) = KSpec.d2colOf (W (Proc.devRef .tc main_arg1) : IVec S2x300000 32) := by
  simp only [hostOps0]
  after_results_simp
  rfl
/-- After the first stretch the column of edge weights stands in its buffer. -/
theorem h0_v28 (W : Valuation τ sig (Elt Ideal)) :
    (StableHlo.after hostOps0 W (Proc.devRef .tc main_v28) : FVec Ideal S300000x1 .f32) = KSpec.ccolOf (W (Proc.devRef .tc main_arg1) : IVec S2x300000 32) := by
  simp only [hostOps0]
  after_results_simp
  rfl
/-- The aggregation of this layer, over the buffers as the stretch finds them. -/
theorem h1_v42 (W : Valuation τ sig (Elt Ideal)) :
    (StableHlo.after hostOps1 W (Proc.devRef .tc main_v42) : FVec Ideal S100000x256 .f32) = aggAt (W (Proc.devRef .tc main_v29) : FVec Ideal S100000x256 .bf16) (W (Proc.devRef .tc main_v1) : IVec S300000 32) (W (Proc.devRef .tc main_v3) : IVec S300000 32) (W (Proc.devRef .tc main_v28) : FVec Ideal S300000x1 .f32) := by
  simp only [hostOps1]
  after_results_simp
  rfl
/-- The layer's bias laid out as one row. -/
theorem h1_v43 (W : Valuation τ sig (Elt Ideal)) :
    (StableHlo.after hostOps1 W (Proc.devRef .tc main_v43) : FVec Ideal S1x256 .f32) = KSpec.brow (W (Proc.devRef .tc main_arg4) : FVec Ideal S256 .f32) := by
  simp only [hostOps1]
  after_results_simp
  rfl
/-- The batch mean from the column sums the stretch finds. -/
theorem h2_v46 (W : Valuation τ sig (Elt Ideal)) :
    (StableHlo.after hostOps2 W (Proc.devRef .tc main_v46) : FVec Ideal S1x256 .f32) = KSpec.meanK (W (Proc.devRef .tc main_v44_1) : FVec Ideal S1x256 .f32) := by
  simp only [hostOps2]
  after_results_simp
  rfl
/-- The batch variance from the column sums and sums of squares the stretch finds. -/
theorem h2_v50 (W : Valuation τ sig (Elt Ideal)) :
    (StableHlo.after hostOps2 W (Proc.devRef .tc main_v50) : FVec Ideal S1x256 .f32) = KSpec.varK (W (Proc.devRef .tc main_v44_1) : FVec Ideal S1x256 .f32) (W (Proc.devRef .tc main_v44_2) : FVec Ideal S1x256 .f32) := by
  simp only [hostOps2]
  after_results_simp
  rfl
/-- The scale vector laid out as one row. -/
theorem h2_v51 (W : Valuation τ sig (Elt Ideal)) :
    (StableHlo.after hostOps2 W (Proc.devRef .tc main_v51) : FVec Ideal S1x256 .f32) = KSpec.brow (W (Proc.devRef .tc main_arg9) : FVec Ideal S256 .f32) := by
  simp only [hostOps2]
  after_results_simp
  rfl
/-- The shift vector laid out as one row. -/
theorem h2_v52 (W : Valuation τ sig (Elt Ideal)) :
    (StableHlo.after hostOps2 W (Proc.devRef .tc main_v52) : FVec Ideal S1x256 .f32) = KSpec.brow (W (Proc.devRef .tc main_arg10) : FVec Ideal S256 .f32) := by
  simp only [hostOps2]
  after_results_simp
  rfl
/-- The aggregation of this layer, over the buffers as the stretch finds them. -/
theorem h3_v66 (W : Valuation τ sig (Elt Ideal)) :
    (StableHlo.after hostOps3 W (Proc.devRef .tc main_v66) : FVec Ideal S100000x256 .f32) = aggAt (W (Proc.devRef .tc main_v53) : FVec Ideal S100000x256 .bf16) (W (Proc.devRef .tc main_v1) : IVec S300000 32) (W (Proc.devRef .tc main_v3) : IVec S300000 32) (W (Proc.devRef .tc main_v28) : FVec Ideal S300000x1 .f32) := by
  simp only [hostOps3]
  after_results_simp
  rfl
/-- The layer's bias laid out as one row. -/
theorem h3_v67 (W : Valuation τ sig (Elt Ideal)) :
    (StableHlo.after hostOps3 W (Proc.devRef .tc main_v67) : FVec Ideal S1x256 .f32) = KSpec.brow (W (Proc.devRef .tc main_arg6) : FVec Ideal S256 .f32) := by
  simp only [hostOps3]
  after_results_simp
  rfl
/-- The batch mean from the column sums the stretch finds. -/
theorem h4_v70 (W : Valuation τ sig (Elt Ideal)) :
    (StableHlo.after hostOps4 W (Proc.devRef .tc main_v70) : FVec Ideal S1x256 .f32) = KSpec.meanK (W (Proc.devRef .tc main_v68_1) : FVec Ideal S1x256 .f32) := by
  simp only [hostOps4]
  after_results_simp
  rfl
/-- The batch variance from the column sums and sums of squares the stretch finds. -/
theorem h4_v74 (W : Valuation τ sig (Elt Ideal)) :
    (StableHlo.after hostOps4 W (Proc.devRef .tc main_v74) : FVec Ideal S1x256 .f32) = KSpec.varK (W (Proc.devRef .tc main_v68_1) : FVec Ideal S1x256 .f32) (W (Proc.devRef .tc main_v68_2) : FVec Ideal S1x256 .f32) := by
  simp only [hostOps4]
  after_results_simp
  rfl
/-- The scale vector laid out as one row. -/
theorem h4_v75 (W : Valuation τ sig (Elt Ideal)) :
    (StableHlo.after hostOps4 W (Proc.devRef .tc main_v75) : FVec Ideal S1x256 .f32) = KSpec.brow (W (Proc.devRef .tc main_arg11) : FVec Ideal S256 .f32) := by
  simp only [hostOps4]
  after_results_simp
  rfl
/-- The shift vector laid out as one row. -/
theorem h4_v76 (W : Valuation τ sig (Elt Ideal)) :
    (StableHlo.after hostOps4 W (Proc.devRef .tc main_v76) : FVec Ideal S1x256 .f32) = KSpec.brow (W (Proc.devRef .tc main_arg12) : FVec Ideal S256 .f32) := by
  simp only [hostOps4]
  after_results_simp
  rfl
/-- The aggregation of this layer, over the buffers as the stretch finds them. -/
theorem h5_v90 (W : Valuation τ sig (Elt Ideal)) :
    (StableHlo.after hostOps5 W (Proc.devRef .tc main_v90) : FVec Ideal S100000x256 .f32) = aggAt (W (Proc.devRef .tc main_v77) : FVec Ideal S100000x256 .bf16) (W (Proc.devRef .tc main_v1) : IVec S300000 32) (W (Proc.devRef .tc main_v3) : IVec S300000 32) (W (Proc.devRef .tc main_v28) : FVec Ideal S300000x1 .f32) := by
  simp only [hostOps5]
  after_results_simp
  rfl
/-- The layer's bias laid out as one row. -/
theorem h5_v91 (W : Valuation τ sig (Elt Ideal)) :
    (StableHlo.after hostOps5 W (Proc.devRef .tc main_v91) : FVec Ideal S1x256 .f32) = KSpec.brow (W (Proc.devRef .tc main_arg8) : FVec Ideal S256 .f32) := by
  simp only [hostOps5]
  after_results_simp
  rfl
/-- The batch mean from the column sums the stretch finds. -/
theorem h6_v94 (W : Valuation τ sig (Elt Ideal)) :
    (StableHlo.after hostOps6 W (Proc.devRef .tc main_v94) : FVec Ideal S1x256 .f32) = KSpec.meanK (W (Proc.devRef .tc main_v92_1) : FVec Ideal S1x256 .f32) := by
  simp only [hostOps6]
  after_results_simp
  rfl
/-- The batch variance from the column sums and sums of squares the stretch finds. -/
theorem h6_v98 (W : Valuation τ sig (Elt Ideal)) :
    (StableHlo.after hostOps6 W (Proc.devRef .tc main_v98) : FVec Ideal S1x256 .f32) = KSpec.varK (W (Proc.devRef .tc main_v92_1) : FVec Ideal S1x256 .f32) (W (Proc.devRef .tc main_v92_2) : FVec Ideal S1x256 .f32) := by
  simp only [hostOps6]
  after_results_simp
  rfl
/-- The scale vector laid out as one row. -/
theorem h6_v99 (W : Valuation τ sig (Elt Ideal)) :
    (StableHlo.after hostOps6 W (Proc.devRef .tc main_v99) : FVec Ideal S1x256 .f32) = KSpec.brow (W (Proc.devRef .tc main_arg13) : FVec Ideal S256 .f32) := by
  simp only [hostOps6]
  after_results_simp
  rfl
/-- The shift vector laid out as one row. -/
theorem h6_v100 (W : Valuation τ sig (Elt Ideal)) :
    (StableHlo.after hostOps6 W (Proc.devRef .tc main_v100) : FVec Ideal S1x256 .f32) = KSpec.brow (W (Proc.devRef .tc main_arg14) : FVec Ideal S256 .f32) := by
  simp only [hostOps6]
  after_results_simp
  rfl
/-- The node features summed per graph, over the buffers as the stretch finds them. -/
theorem h7_v104 (W : Valuation τ sig (Elt Ideal)) :
    (StableHlo.after hostOps7 W (Proc.devRef .tc main_v104) : FVec Ideal S2048x256 .f32) = KSpec.poolK (W (Proc.devRef .tc main_v101) : FVec Ideal S100000x256 .f32) (W (Proc.devRef .tc main_arg2) : IVec S100000 32) := by
  simp only [hostOps7]
  after_results_simp
  rfl
/-- The head's first bias laid out as one row. -/
theorem h7_v105 (W : Valuation τ sig (Elt Ideal)) :
    (StableHlo.after hostOps7 W (Proc.devRef .tc main_v105) : FVec Ideal S1x256 .f32) = KSpec.brow (W (Proc.devRef .tc main_arg16) : FVec Ideal S256 .f32) := by
  simp only [hostOps7]
  after_results_simp
  rfl
/-- The head's last bias as a one-by-one table. -/
theorem h7_v106 (W : Valuation τ sig (Elt Ideal)) :
    (StableHlo.after hostOps7 W (Proc.devRef .tc main_v106) : FVec Ideal S1x1 .f32) = shapeCast S1x1 (W (Proc.devRef .tc main_arg18) : FVec Ideal S1 .f32) Facts₀.shapeCasts_S1_S1x1 := by
  simp only [hostOps7]
  after_results_simp
  rfl
/-- The result column flattened. -/
theorem h8_v108 (W : Valuation τ sig (Elt Ideal)) :
    (StableHlo.after hostOps8 W (Proc.devRef .tc main_v108) : FVec Ideal S2048 .f32) = shapeCast S2048 (W (Proc.devRef .tc main_v107) : FVec Ideal S2048x1 .f32) Facts₀.shapeCasts_S2048x1_S2048 := by
  simp only [hostOps8]
  after_results_simp
  rfl

/-! ## The regions' output arrays -/

variable (m : (ℓ : Loc nD τ sig) → Buf (Elt Ideal) ℓ) (ρ : Dev nD → PrngReg)

/-- Region 0's output array 2 as the region leaves it. -/
abbrev o0 (c : Dev nD) := (dat0 (V1 m ρ) c).arrAt 2 cfg0.N
/-- Region 1's output array 4 as the region leaves it. -/
abbrev o1t (c : Dev nD) := (dat1 (V3 m ρ) c).arrAt 4 cfg1.N
/-- Region 1's output array 5 as the region leaves it. -/
abbrev o1s (c : Dev nD) := (dat1 (V3 m ρ) c).arrAt 5 cfg1.N
/-- Region 1's output array 6 as the region leaves it. -/
abbrev o1q (c : Dev nD) := (dat1 (V3 m ρ) c).arrAt 6 cfg1.N
/-- Region 2's output array 6 as the region leaves it. -/
abbrev o2 (c : Dev nD) := (dat2 (V5 m ρ) c).arrAt 6 cfg2.N
/-- Region 3's output array 4 as the region leaves it. -/
abbrev o3t (c : Dev nD) := (dat3 (V7 m ρ) c).arrAt 4 cfg3.N
/-- Region 3's output array 5 as the region leaves it. -/
abbrev o3s (c : Dev nD) := (dat3 (V7 m ρ) c).arrAt 5 cfg3.N
/-- Region 3's output array 6 as the region leaves it. -/
abbrev o3q (c : Dev nD) := (dat3 (V7 m ρ) c).arrAt 6 cfg3.N
/-- Region 4's output array 6 as the region leaves it. -/
abbrev o4 (c : Dev nD) := (dat4 (V9 m ρ) c).arrAt 6 cfg4.N
/-- Region 5's output array 4 as the region leaves it. -/
abbrev o5t (c : Dev nD) := (dat5 (V11 m ρ) c).arrAt 4 cfg5.N
/-- Region 5's output array 5 as the region leaves it. -/
abbrev o5s (c : Dev nD) := (dat5 (V11 m ρ) c).arrAt 5 cfg5.N
/-- Region 5's output array 6 as the region leaves it. -/
abbrev o5q (c : Dev nD) := (dat5 (V11 m ρ) c).arrAt 6 cfg5.N
/-- Region 6's output array 5 as the region leaves it. -/
abbrev o6 (c : Dev nD) := (dat6 (V13 m ρ) c).arrAt 5 cfg6.N
/-- Region 7's output array 5 as the region leaves it. -/
abbrev o7 (c : Dev nD) := (dat7 (V15 m ρ) c).arrAt 5 cfg7.N

/-! ## Buffers carried through the fold: the edge list's rows, the two columns, and the arguments -/

theorem cw2_v1 (c : Dev nD) : (W2 m ρ c (Proc.devRef .tc main_v1) : IVec S300000 32) = KSpec.srcOf (m ((c.tc : Thread nD τ).loc main_arg1)) :=
  calc (W2 m ρ c (Proc.devRef .tc main_v1) : IVec S300000 32)
    _ = W1 m ρ c (Proc.devRef .tc main_v1) := W2_of_ne m ρ c main_v1 (by decide)
    _ = KSpec.srcOf (W0 m ρ c (Proc.devRef .tc main_arg1) : IVec S2x300000 32) := h0_v1 (W0 m ρ c)
    _ = KSpec.srcOf (m ((c.tc : Thread nD τ).loc main_arg1)) := rfl
theorem cw6_v1 (c : Dev nD) : (W6 m ρ c (Proc.devRef .tc main_v1) : IVec S300000 32) = KSpec.srcOf (m ((c.tc : Thread nD τ).loc main_arg1)) :=
  calc (W6 m ρ c (Proc.devRef .tc main_v1) : IVec S300000 32)
    _ = W5 m ρ c (Proc.devRef .tc main_v1) := W6_of_ne m ρ c main_v1 (by decide)
    _ = W4 m ρ c (Proc.devRef .tc main_v1) := keep2 (W4 m ρ c) main_v1 (by decide)
    _ = W3 m ρ c (Proc.devRef .tc main_v1) := W4_of_ne m ρ c main_v1 (by decide)
    _ = W2 m ρ c (Proc.devRef .tc main_v1) := keep1 (W2 m ρ c) main_v1 (by decide)
    _ = KSpec.srcOf (m ((c.tc : Thread nD τ).loc main_arg1)) := cw2_v1 m ρ c
theorem cw10_v1 (c : Dev nD) : (W10 m ρ c (Proc.devRef .tc main_v1) : IVec S300000 32) = KSpec.srcOf (m ((c.tc : Thread nD τ).loc main_arg1)) :=
  calc (W10 m ρ c (Proc.devRef .tc main_v1) : IVec S300000 32)
    _ = W9 m ρ c (Proc.devRef .tc main_v1) := W10_of_ne m ρ c main_v1 (by decide)
    _ = W8 m ρ c (Proc.devRef .tc main_v1) := keep4 (W8 m ρ c) main_v1 (by decide)
    _ = W7 m ρ c (Proc.devRef .tc main_v1) := W8_of_ne m ρ c main_v1 (by decide)
    _ = W6 m ρ c (Proc.devRef .tc main_v1) := keep3 (W6 m ρ c) main_v1 (by decide)
    _ = KSpec.srcOf (m ((c.tc : Thread nD τ).loc main_arg1)) := cw6_v1 m ρ c
theorem cw2_v3 (c : Dev nD) : (W2 m ρ c (Proc.devRef .tc main_v3) : IVec S300000 32) = KSpec.dstOf (m ((c.tc : Thread nD τ).loc main_arg1)) :=
  calc (W2 m ρ c (Proc.devRef .tc main_v3) : IVec S300000 32)
    _ = W1 m ρ c (Proc.devRef .tc main_v3) := W2_of_ne m ρ c main_v3 (by decide)
    _ = KSpec.dstOf (W0 m ρ c (Proc.devRef .tc main_arg1) : IVec S2x300000 32) := h0_v3 (W0 m ρ c)
    _ = KSpec.dstOf (m ((c.tc : Thread nD τ).loc main_arg1)) := rfl
theorem cw6_v3 (c : Dev nD) : (W6 m ρ c (Proc.devRef .tc main_v3) : IVec S300000 32) = KSpec.dstOf (m ((c.tc : Thread nD τ).loc main_arg1)) :=
  calc (W6 m ρ c (Proc.devRef .tc main_v3) : IVec S300000 32)
    _ = W5 m ρ c (Proc.devRef .tc main_v3) := W6_of_ne m ρ c main_v3 (by decide)
    _ = W4 m ρ c (Proc.devRef .tc main_v3) := keep2 (W4 m ρ c) main_v3 (by decide)
    _ = W3 m ρ c (Proc.devRef .tc main_v3) := W4_of_ne m ρ c main_v3 (by decide)
    _ = W2 m ρ c (Proc.devRef .tc main_v3) := keep1 (W2 m ρ c) main_v3 (by decide)
    _ = KSpec.dstOf (m ((c.tc : Thread nD τ).loc main_arg1)) := cw2_v3 m ρ c
theorem cw10_v3 (c : Dev nD) : (W10 m ρ c (Proc.devRef .tc main_v3) : IVec S300000 32) = KSpec.dstOf (m ((c.tc : Thread nD τ).loc main_arg1)) :=
  calc (W10 m ρ c (Proc.devRef .tc main_v3) : IVec S300000 32)
    _ = W9 m ρ c (Proc.devRef .tc main_v3) := W10_of_ne m ρ c main_v3 (by decide)
    _ = W8 m ρ c (Proc.devRef .tc main_v3) := keep4 (W8 m ρ c) main_v3 (by decide)
    _ = W7 m ρ c (Proc.devRef .tc main_v3) := W8_of_ne m ρ c main_v3 (by decide)
    _ = W6 m ρ c (Proc.devRef .tc main_v3) := keep3 (W6 m ρ c) main_v3 (by decide)
    _ = KSpec.dstOf (m ((c.tc : Thread nD τ).loc main_arg1)) := cw6_v3 m ρ c
theorem cw2_v12 (c : Dev nD) : (W2 m ρ c (Proc.devRef .tc main_v12) : FVec Ideal S100000x1 .f32) = KSpec.d2colOf (m ((c.tc : Thread nD τ).loc main_arg1)) :=
  calc (W2 m ρ c (Proc.devRef .tc main_v12) : FVec Ideal S100000x1 .f32)
    _ = W1 m ρ c (Proc.devRef .tc main_v12) := W2_of_ne m ρ c main_v12 (by decide)
    _ = KSpec.d2colOf (W0 m ρ c (Proc.devRef .tc main_arg1) : IVec S2x300000 32) := h0_v12 (W0 m ρ c)
    _ = KSpec.d2colOf (m ((c.tc : Thread nD τ).loc main_arg1)) := rfl
theorem cw6_v12 (c : Dev nD) : (W6 m ρ c (Proc.devRef .tc main_v12) : FVec Ideal S100000x1 .f32) = KSpec.d2colOf (m ((c.tc : Thread nD τ).loc main_arg1)) :=
  calc (W6 m ρ c (Proc.devRef .tc main_v12) : FVec Ideal S100000x1 .f32)
    _ = W5 m ρ c (Proc.devRef .tc main_v12) := W6_of_ne m ρ c main_v12 (by decide)
    _ = W4 m ρ c (Proc.devRef .tc main_v12) := keep2 (W4 m ρ c) main_v12 (by decide)
    _ = W3 m ρ c (Proc.devRef .tc main_v12) := (W4_arr m ρ c 2).trans (((dat1 (V3 m ρ) c).arrAt_in 2 rfl _).trans (A_eq1 (V3 m ρ) c 2))
    _ = W2 m ρ c (Proc.devRef .tc main_v12) := keep1 (W2 m ρ c) main_v12 (by decide)
    _ = KSpec.d2colOf (m ((c.tc : Thread nD τ).loc main_arg1)) := cw2_v12 m ρ c
theorem cw10_v12 (c : Dev nD) : (W10 m ρ c (Proc.devRef .tc main_v12) : FVec Ideal S100000x1 .f32) = KSpec.d2colOf (m ((c.tc : Thread nD τ).loc main_arg1)) :=
  calc (W10 m ρ c (Proc.devRef .tc main_v12) : FVec Ideal S100000x1 .f32)
    _ = W9 m ρ c (Proc.devRef .tc main_v12) := W10_of_ne m ρ c main_v12 (by decide)
    _ = W8 m ρ c (Proc.devRef .tc main_v12) := keep4 (W8 m ρ c) main_v12 (by decide)
    _ = W7 m ρ c (Proc.devRef .tc main_v12) := (W8_arr m ρ c 2).trans (((dat3 (V7 m ρ) c).arrAt_in 2 rfl _).trans (A_eq3 (V7 m ρ) c 2))
    _ = W6 m ρ c (Proc.devRef .tc main_v12) := keep3 (W6 m ρ c) main_v12 (by decide)
    _ = KSpec.d2colOf (m ((c.tc : Thread nD τ).loc main_arg1)) := cw6_v12 m ρ c
theorem cw2_v28 (c : Dev nD) : (W2 m ρ c (Proc.devRef .tc main_v28) : FVec Ideal S300000x1 .f32) = KSpec.ccolOf (m ((c.tc : Thread nD τ).loc main_arg1)) :=
  calc (W2 m ρ c (Proc.devRef .tc main_v28) : FVec Ideal S300000x1 .f32)
    _ = W1 m ρ c (Proc.devRef .tc main_v28) := W2_of_ne m ρ c main_v28 (by decide)
    _ = KSpec.ccolOf (W0 m ρ c (Proc.devRef .tc main_arg1) : IVec S2x300000 32) := h0_v28 (W0 m ρ c)
    _ = KSpec.ccolOf (m ((c.tc : Thread nD τ).loc main_arg1)) := rfl
theorem cw6_v28 (c : Dev nD) : (W6 m ρ c (Proc.devRef .tc main_v28) : FVec Ideal S300000x1 .f32) = KSpec.ccolOf (m ((c.tc : Thread nD τ).loc main_arg1)) :=
  calc (W6 m ρ c (Proc.devRef .tc main_v28) : FVec Ideal S300000x1 .f32)
    _ = W5 m ρ c (Proc.devRef .tc main_v28) := W6_of_ne m ρ c main_v28 (by decide)
    _ = W4 m ρ c (Proc.devRef .tc main_v28) := keep2 (W4 m ρ c) main_v28 (by decide)
    _ = W3 m ρ c (Proc.devRef .tc main_v28) := W4_of_ne m ρ c main_v28 (by decide)
    _ = W2 m ρ c (Proc.devRef .tc main_v28) := keep1 (W2 m ρ c) main_v28 (by decide)
    _ = KSpec.ccolOf (m ((c.tc : Thread nD τ).loc main_arg1)) := cw2_v28 m ρ c
theorem cw10_v28 (c : Dev nD) : (W10 m ρ c (Proc.devRef .tc main_v28) : FVec Ideal S300000x1 .f32) = KSpec.ccolOf (m ((c.tc : Thread nD τ).loc main_arg1)) :=
  calc (W10 m ρ c (Proc.devRef .tc main_v28) : FVec Ideal S300000x1 .f32)
    _ = W9 m ρ c (Proc.devRef .tc main_v28) := W10_of_ne m ρ c main_v28 (by decide)
    _ = W8 m ρ c (Proc.devRef .tc main_v28) := keep4 (W8 m ρ c) main_v28 (by decide)
    _ = W7 m ρ c (Proc.devRef .tc main_v28) := W8_of_ne m ρ c main_v28 (by decide)
    _ = W6 m ρ c (Proc.devRef .tc main_v28) := keep3 (W6 m ρ c) main_v28 (by decide)
    _ = KSpec.ccolOf (m ((c.tc : Thread nD τ).loc main_arg1)) := cw6_v28 m ρ c
theorem cw2_arg4 (c : Dev nD) : W2 m ρ c (Proc.devRef .tc main_arg4) = m ((c.tc : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := keep0 (W0 m ρ c) main_arg4 (by decide)
    _ = m ((c.tc : Thread nD τ).loc main_arg4) := rfl
theorem cw4_arg9 (c : Dev nD) : W4 m ρ c (Proc.devRef .tc main_arg9) = m ((c.tc : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := keep1 (W2 m ρ c) main_arg9 (by decide)
    _ = W1 m ρ c (Proc.devRef .tc main_arg9) := W2_of_ne m ρ c main_arg9 (by decide)
    _ = W0 m ρ c (Proc.devRef .tc main_arg9) := keep0 (W0 m ρ c) main_arg9 (by decide)
    _ = m ((c.tc : Thread nD τ).loc main_arg9) := rfl
theorem cw4_arg10 (c : Dev nD) : W4 m ρ c (Proc.devRef .tc main_arg10) = m ((c.tc : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := keep1 (W2 m ρ c) main_arg10 (by decide)
    _ = W1 m ρ c (Proc.devRef .tc main_arg10) := W2_of_ne m ρ c main_arg10 (by decide)
    _ = W0 m ρ c (Proc.devRef .tc main_arg10) := keep0 (W0 m ρ c) main_arg10 (by decide)
    _ = m ((c.tc : Thread nD τ).loc main_arg10) := rfl
theorem cw4_arg5 (c : Dev nD) : W4 m ρ c (Proc.devRef .tc main_arg5) = m ((c.tc : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := keep1 (W2 m ρ c) main_arg5 (by decide)
    _ = W1 m ρ c (Proc.devRef .tc main_arg5) := W2_of_ne m ρ c main_arg5 (by decide)
    _ = W0 m ρ c (Proc.devRef .tc main_arg5) := keep0 (W0 m ρ c) main_arg5 (by decide)
    _ = m ((c.tc : Thread nD τ).loc main_arg5) := rfl
theorem cw6_arg6 (c : Dev nD) : W6 m ρ c (Proc.devRef .tc main_arg6) = m ((c.tc : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := keep2 (W4 m ρ c) main_arg6 (by decide)
    _ = W3 m ρ c (Proc.devRef .tc main_arg6) := W4_of_ne m ρ c main_arg6 (by decide)
    _ = W2 m ρ c (Proc.devRef .tc main_arg6) := keep1 (W2 m ρ c) main_arg6 (by decide)
    _ = W1 m ρ c (Proc.devRef .tc main_arg6) := W2_of_ne m ρ c main_arg6 (by decide)
    _ = W0 m ρ c (Proc.devRef .tc main_arg6) := keep0 (W0 m ρ c) main_arg6 (by decide)
    _ = m ((c.tc : Thread nD τ).loc main_arg6) := rfl
theorem cw8_arg11 (c : Dev nD) : W8 m ρ c (Proc.devRef .tc main_arg11) = m ((c.tc : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := keep3 (W6 m ρ c) main_arg11 (by decide)
    _ = W5 m ρ c (Proc.devRef .tc main_arg11) := W6_of_ne m ρ c main_arg11 (by decide)
    _ = W4 m ρ c (Proc.devRef .tc main_arg11) := keep2 (W4 m ρ c) main_arg11 (by decide)
    _ = W3 m ρ c (Proc.devRef .tc main_arg11) := W4_of_ne m ρ c main_arg11 (by decide)
    _ = W2 m ρ c (Proc.devRef .tc main_arg11) := keep1 (W2 m ρ c) main_arg11 (by decide)
    _ = W1 m ρ c (Proc.devRef .tc main_arg11) := W2_of_ne m ρ c main_arg11 (by decide)
    _ = W0 m ρ c (Proc.devRef .tc main_arg11) := keep0 (W0 m ρ c) main_arg11 (by decide)
    _ = m ((c.tc : Thread nD τ).loc main_arg11) := rfl
theorem cw8_arg12 (c : Dev nD) : W8 m ρ c (Proc.devRef .tc main_arg12) = m ((c.tc : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := keep3 (W6 m ρ c) main_arg12 (by decide)
    _ = W5 m ρ c (Proc.devRef .tc main_arg12) := W6_of_ne m ρ c main_arg12 (by decide)
    _ = W4 m ρ c (Proc.devRef .tc main_arg12) := keep2 (W4 m ρ c) main_arg12 (by decide)
    _ = W3 m ρ c (Proc.devRef .tc main_arg12) := W4_of_ne m ρ c main_arg12 (by decide)
    _ = W2 m ρ c (Proc.devRef .tc main_arg12) := keep1 (W2 m ρ c) main_arg12 (by decide)
    _ = W1 m ρ c (Proc.devRef .tc main_arg12) := W2_of_ne m ρ c main_arg12 (by decide)
    _ = W0 m ρ c (Proc.devRef .tc main_arg12) := keep0 (W0 m ρ c) main_arg12 (by decide)
    _ = m ((c.tc : Thread nD τ).loc main_arg12) := rfl
theorem cw8_arg7 (c : Dev nD) : W8 m ρ c (Proc.devRef .tc main_arg7) = m ((c.tc : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := keep3 (W6 m ρ c) main_arg7 (by decide)
    _ = W5 m ρ c (Proc.devRef .tc main_arg7) := W6_of_ne m ρ c main_arg7 (by decide)
    _ = W4 m ρ c (Proc.devRef .tc main_arg7) := keep2 (W4 m ρ c) main_arg7 (by decide)
    _ = W3 m ρ c (Proc.devRef .tc main_arg7) := W4_of_ne m ρ c main_arg7 (by decide)
    _ = W2 m ρ c (Proc.devRef .tc main_arg7) := keep1 (W2 m ρ c) main_arg7 (by decide)
    _ = W1 m ρ c (Proc.devRef .tc main_arg7) := W2_of_ne m ρ c main_arg7 (by decide)
    _ = W0 m ρ c (Proc.devRef .tc main_arg7) := keep0 (W0 m ρ c) main_arg7 (by decide)
    _ = m ((c.tc : Thread nD τ).loc main_arg7) := rfl
theorem cw10_arg8 (c : Dev nD) : W10 m ρ c (Proc.devRef .tc main_arg8) = m ((c.tc : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := keep4 (W8 m ρ c) main_arg8 (by decide)
    _ = W7 m ρ c (Proc.devRef .tc main_arg8) := W8_of_ne m ρ c main_arg8 (by decide)
    _ = W6 m ρ c (Proc.devRef .tc main_arg8) := keep3 (W6 m ρ c) main_arg8 (by decide)
    _ = W5 m ρ c (Proc.devRef .tc main_arg8) := W6_of_ne m ρ c main_arg8 (by decide)
    _ = W4 m ρ c (Proc.devRef .tc main_arg8) := keep2 (W4 m ρ c) main_arg8 (by decide)
    _ = W3 m ρ c (Proc.devRef .tc main_arg8) := W4_of_ne m ρ c main_arg8 (by decide)
    _ = W2 m ρ c (Proc.devRef .tc main_arg8) := keep1 (W2 m ρ c) main_arg8 (by decide)
    _ = W1 m ρ c (Proc.devRef .tc main_arg8) := W2_of_ne m ρ c main_arg8 (by decide)
    _ = W0 m ρ c (Proc.devRef .tc main_arg8) := keep0 (W0 m ρ c) main_arg8 (by decide)
    _ = m ((c.tc : Thread nD τ).loc main_arg8) := rfl
theorem cw12_arg13 (c : Dev nD) : W12 m ρ c (Proc.devRef .tc main_arg13) = m ((c.tc : Thread nD τ).loc main_arg13) :=
  calc W12 m ρ c (Proc.devRef .tc main_arg13)
    _ = W11 m ρ c (Proc.devRef .tc main_arg13) := W12_of_ne m ρ c main_arg13 (by decide)
    _ = W10 m ρ c (Proc.devRef .tc main_arg13) := keep5 (W10 m ρ c) main_arg13 (by decide)
    _ = W9 m ρ c (Proc.devRef .tc main_arg13) := W10_of_ne m ρ c main_arg13 (by decide)
    _ = W8 m ρ c (Proc.devRef .tc main_arg13) := keep4 (W8 m ρ c) main_arg13 (by decide)
    _ = W7 m ρ c (Proc.devRef .tc main_arg13) := W8_of_ne m ρ c main_arg13 (by decide)
    _ = W6 m ρ c (Proc.devRef .tc main_arg13) := keep3 (W6 m ρ c) main_arg13 (by decide)
    _ = W5 m ρ c (Proc.devRef .tc main_arg13) := W6_of_ne m ρ c main_arg13 (by decide)
    _ = W4 m ρ c (Proc.devRef .tc main_arg13) := keep2 (W4 m ρ c) main_arg13 (by decide)
    _ = W3 m ρ c (Proc.devRef .tc main_arg13) := W4_of_ne m ρ c main_arg13 (by decide)
    _ = W2 m ρ c (Proc.devRef .tc main_arg13) := keep1 (W2 m ρ c) main_arg13 (by decide)
    _ = W1 m ρ c (Proc.devRef .tc main_arg13) := W2_of_ne m ρ c main_arg13 (by decide)
    _ = W0 m ρ c (Proc.devRef .tc main_arg13) := keep0 (W0 m ρ c) main_arg13 (by decide)
    _ = m ((c.tc : Thread nD τ).loc main_arg13) := rfl
theorem cw12_arg14 (c : Dev nD) : W12 m ρ c (Proc.devRef .tc main_arg14) = m ((c.tc : Thread nD τ).loc main_arg14) :=
  calc W12 m ρ c (Proc.devRef .tc main_arg14)
    _ = W11 m ρ c (Proc.devRef .tc main_arg14) := W12_of_ne m ρ c main_arg14 (by decide)
    _ = W10 m ρ c (Proc.devRef .tc main_arg14) := keep5 (W10 m ρ c) main_arg14 (by decide)
    _ = W9 m ρ c (Proc.devRef .tc main_arg14) := W10_of_ne m ρ c main_arg14 (by decide)
    _ = W8 m ρ c (Proc.devRef .tc main_arg14) := keep4 (W8 m ρ c) main_arg14 (by decide)
    _ = W7 m ρ c (Proc.devRef .tc main_arg14) := W8_of_ne m ρ c main_arg14 (by decide)
    _ = W6 m ρ c (Proc.devRef .tc main_arg14) := keep3 (W6 m ρ c) main_arg14 (by decide)
    _ = W5 m ρ c (Proc.devRef .tc main_arg14) := W6_of_ne m ρ c main_arg14 (by decide)
    _ = W4 m ρ c (Proc.devRef .tc main_arg14) := keep2 (W4 m ρ c) main_arg14 (by decide)
    _ = W3 m ρ c (Proc.devRef .tc main_arg14) := W4_of_ne m ρ c main_arg14 (by decide)
    _ = W2 m ρ c (Proc.devRef .tc main_arg14) := keep1 (W2 m ρ c) main_arg14 (by decide)
    _ = W1 m ρ c (Proc.devRef .tc main_arg14) := W2_of_ne m ρ c main_arg14 (by decide)
    _ = W0 m ρ c (Proc.devRef .tc main_arg14) := keep0 (W0 m ρ c) main_arg14 (by decide)
    _ = m ((c.tc : Thread nD τ).loc main_arg14) := rfl
theorem cw14_arg2 (c : Dev nD) : W14 m ρ c (Proc.devRef .tc main_arg2) = m ((c.tc : Thread nD τ).loc main_arg2) :=
  calc W14 m ρ c (Proc.devRef .tc main_arg2)
    _ = W13 m ρ c (Proc.devRef .tc main_arg2) := W14_of_ne m ρ c main_arg2 (by decide)
    _ = W12 m ρ c (Proc.devRef .tc main_arg2) := keep6 (W12 m ρ c) main_arg2 (by decide)
    _ = W11 m ρ c (Proc.devRef .tc main_arg2) := W12_of_ne m ρ c main_arg2 (by decide)
    _ = W10 m ρ c (Proc.devRef .tc main_arg2) := keep5 (W10 m ρ c) main_arg2 (by decide)
    _ = W9 m ρ c (Proc.devRef .tc main_arg2) := W10_of_ne m ρ c main_arg2 (by decide)
    _ = W8 m ρ c (Proc.devRef .tc main_arg2) := keep4 (W8 m ρ c) main_arg2 (by decide)
    _ = W7 m ρ c (Proc.devRef .tc main_arg2) := W8_of_ne m ρ c main_arg2 (by decide)
    _ = W6 m ρ c (Proc.devRef .tc main_arg2) := keep3 (W6 m ρ c) main_arg2 (by decide)
    _ = W5 m ρ c (Proc.devRef .tc main_arg2) := W6_of_ne m ρ c main_arg2 (by decide)
    _ = W4 m ρ c (Proc.devRef .tc main_arg2) := keep2 (W4 m ρ c) main_arg2 (by decide)
    _ = W3 m ρ c (Proc.devRef .tc main_arg2) := W4_of_ne m ρ c main_arg2 (by decide)
    _ = W2 m ρ c (Proc.devRef .tc main_arg2) := keep1 (W2 m ρ c) main_arg2 (by decide)
    _ = W1 m ρ c (Proc.devRef .tc main_arg2) := W2_of_ne m ρ c main_arg2 (by decide)
    _ = W0 m ρ c (Proc.devRef .tc main_arg2) := keep0 (W0 m ρ c) main_arg2 (by decide)
    _ = m ((c.tc : Thread nD τ).loc main_arg2) := rfl
theorem cw14_arg16 (c : Dev nD) : W14 m ρ c (Proc.devRef .tc main_arg16) = m ((c.tc : Thread nD τ).loc main_arg16) :=
  calc W14 m ρ c (Proc.devRef .tc main_arg16)
    _ = W13 m ρ c (Proc.devRef .tc main_arg16) := W14_of_ne m ρ c main_arg16 (by decide)
    _ = W12 m ρ c (Proc.devRef .tc main_arg16) := keep6 (W12 m ρ c) main_arg16 (by decide)
    _ = W11 m ρ c (Proc.devRef .tc main_arg16) := W12_of_ne m ρ c main_arg16 (by decide)
    _ = W10 m ρ c (Proc.devRef .tc main_arg16) := keep5 (W10 m ρ c) main_arg16 (by decide)
    _ = W9 m ρ c (Proc.devRef .tc main_arg16) := W10_of_ne m ρ c main_arg16 (by decide)
    _ = W8 m ρ c (Proc.devRef .tc main_arg16) := keep4 (W8 m ρ c) main_arg16 (by decide)
    _ = W7 m ρ c (Proc.devRef .tc main_arg16) := W8_of_ne m ρ c main_arg16 (by decide)
    _ = W6 m ρ c (Proc.devRef .tc main_arg16) := keep3 (W6 m ρ c) main_arg16 (by decide)
    _ = W5 m ρ c (Proc.devRef .tc main_arg16) := W6_of_ne m ρ c main_arg16 (by decide)
    _ = W4 m ρ c (Proc.devRef .tc main_arg16) := keep2 (W4 m ρ c) main_arg16 (by decide)
    _ = W3 m ρ c (Proc.devRef .tc main_arg16) := W4_of_ne m ρ c main_arg16 (by decide)
    _ = W2 m ρ c (Proc.devRef .tc main_arg16) := keep1 (W2 m ρ c) main_arg16 (by decide)
    _ = W1 m ρ c (Proc.devRef .tc main_arg16) := W2_of_ne m ρ c main_arg16 (by decide)
    _ = W0 m ρ c (Proc.devRef .tc main_arg16) := keep0 (W0 m ρ c) main_arg16 (by decide)
    _ = m ((c.tc : Thread nD τ).loc main_arg16) := rfl
theorem cw14_arg18 (c : Dev nD) : W14 m ρ c (Proc.devRef .tc main_arg18) = m ((c.tc : Thread nD τ).loc main_arg18) :=
  calc W14 m ρ c (Proc.devRef .tc main_arg18)
    _ = W13 m ρ c (Proc.devRef .tc main_arg18) := W14_of_ne m ρ c main_arg18 (by decide)
    _ = W12 m ρ c (Proc.devRef .tc main_arg18) := keep6 (W12 m ρ c) main_arg18 (by decide)
    _ = W11 m ρ c (Proc.devRef .tc main_arg18) := W12_of_ne m ρ c main_arg18 (by decide)
    _ = W10 m ρ c (Proc.devRef .tc main_arg18) := keep5 (W10 m ρ c) main_arg18 (by decide)
    _ = W9 m ρ c (Proc.devRef .tc main_arg18) := W10_of_ne m ρ c main_arg18 (by decide)
    _ = W8 m ρ c (Proc.devRef .tc main_arg18) := keep4 (W8 m ρ c) main_arg18 (by decide)
    _ = W7 m ρ c (Proc.devRef .tc main_arg18) := W8_of_ne m ρ c main_arg18 (by decide)
    _ = W6 m ρ c (Proc.devRef .tc main_arg18) := keep3 (W6 m ρ c) main_arg18 (by decide)
    _ = W5 m ρ c (Proc.devRef .tc main_arg18) := W6_of_ne m ρ c main_arg18 (by decide)
    _ = W4 m ρ c (Proc.devRef .tc main_arg18) := keep2 (W4 m ρ c) main_arg18 (by decide)
    _ = W3 m ρ c (Proc.devRef .tc main_arg18) := W4_of_ne m ρ c main_arg18 (by decide)
    _ = W2 m ρ c (Proc.devRef .tc main_arg18) := keep1 (W2 m ρ c) main_arg18 (by decide)
    _ = W1 m ρ c (Proc.devRef .tc main_arg18) := W2_of_ne m ρ c main_arg18 (by decide)
    _ = W0 m ρ c (Proc.devRef .tc main_arg18) := keep0 (W0 m ρ c) main_arg18 (by decide)
    _ = m ((c.tc : Thread nD τ).loc main_arg18) := rfl
theorem cw14_arg15 (c : Dev nD) : W14 m ρ c (Proc.devRef .tc main_arg15) = m ((c.tc : Thread nD τ).loc main_arg15) :=
  calc W14 m ρ c (Proc.devRef .tc main_arg15)
    _ = W13 m ρ c (Proc.devRef .tc main_arg15) := W14_of_ne m ρ c main_arg15 (by decide)
    _ = W12 m ρ c (Proc.devRef .tc main_arg15) := keep6 (W12 m ρ c) main_arg15 (by decide)
    _ = W11 m ρ c (Proc.devRef .tc main_arg15) := W12_of_ne m ρ c main_arg15 (by decide)
    _ = W10 m ρ c (Proc.devRef .tc main_arg15) := keep5 (W10 m ρ c) main_arg15 (by decide)
    _ = W9 m ρ c (Proc.devRef .tc main_arg15) := W10_of_ne m ρ c main_arg15 (by decide)
    _ = W8 m ρ c (Proc.devRef .tc main_arg15) := keep4 (W8 m ρ c) main_arg15 (by decide)
    _ = W7 m ρ c (Proc.devRef .tc main_arg15) := W8_of_ne m ρ c main_arg15 (by decide)
    _ = W6 m ρ c (Proc.devRef .tc main_arg15) := keep3 (W6 m ρ c) main_arg15 (by decide)
    _ = W5 m ρ c (Proc.devRef .tc main_arg15) := W6_of_ne m ρ c main_arg15 (by decide)
    _ = W4 m ρ c (Proc.devRef .tc main_arg15) := keep2 (W4 m ρ c) main_arg15 (by decide)
    _ = W3 m ρ c (Proc.devRef .tc main_arg15) := W4_of_ne m ρ c main_arg15 (by decide)
    _ = W2 m ρ c (Proc.devRef .tc main_arg15) := keep1 (W2 m ρ c) main_arg15 (by decide)
    _ = W1 m ρ c (Proc.devRef .tc main_arg15) := W2_of_ne m ρ c main_arg15 (by decide)
    _ = W0 m ρ c (Proc.devRef .tc main_arg15) := keep0 (W0 m ρ c) main_arg15 (by decide)
    _ = m ((c.tc : Thread nD τ).loc main_arg15) := rfl
theorem cw14_arg17 (c : Dev nD) : W14 m ρ c (Proc.devRef .tc main_arg17) = m ((c.tc : Thread nD τ).loc main_arg17) :=
  calc W14 m ρ c (Proc.devRef .tc main_arg17)
    _ = W13 m ρ c (Proc.devRef .tc main_arg17) := W14_of_ne m ρ c main_arg17 (by decide)
    _ = W12 m ρ c (Proc.devRef .tc main_arg17) := keep6 (W12 m ρ c) main_arg17 (by decide)
    _ = W11 m ρ c (Proc.devRef .tc main_arg17) := W12_of_ne m ρ c main_arg17 (by decide)
    _ = W10 m ρ c (Proc.devRef .tc main_arg17) := keep5 (W10 m ρ c) main_arg17 (by decide)
    _ = W9 m ρ c (Proc.devRef .tc main_arg17) := W10_of_ne m ρ c main_arg17 (by decide)
    _ = W8 m ρ c (Proc.devRef .tc main_arg17) := keep4 (W8 m ρ c) main_arg17 (by decide)
    _ = W7 m ρ c (Proc.devRef .tc main_arg17) := W8_of_ne m ρ c main_arg17 (by decide)
    _ = W6 m ρ c (Proc.devRef .tc main_arg17) := keep3 (W6 m ρ c) main_arg17 (by decide)
    _ = W5 m ρ c (Proc.devRef .tc main_arg17) := W6_of_ne m ρ c main_arg17 (by decide)
    _ = W4 m ρ c (Proc.devRef .tc main_arg17) := keep2 (W4 m ρ c) main_arg17 (by decide)
    _ = W3 m ρ c (Proc.devRef .tc main_arg17) := W4_of_ne m ρ c main_arg17 (by decide)
    _ = W2 m ρ c (Proc.devRef .tc main_arg17) := keep1 (W2 m ρ c) main_arg17 (by decide)
    _ = W1 m ρ c (Proc.devRef .tc main_arg17) := W2_of_ne m ρ c main_arg17 (by decide)
    _ = W0 m ρ c (Proc.devRef .tc main_arg17) := keep0 (W0 m ρ c) main_arg17 (by decide)
    _ = m ((c.tc : Thread nD τ).loc main_arg17) := rfl

/-! ## The reads -/

/-! ### Region 0 -/

theorem rd0_0 (c : Dev nD) : (V1 m ρ c (Pipeline.arrRef spec0 0) : S100000x128.Idx → EReal) = m ((c.tc : Thread nD τ).loc main_arg0) :=
  calc (V1 m ρ c (Pipeline.arrRef spec0 0) : S100000x128.Idx → EReal)
    _ = W0 m ρ c (Proc.devRef .tc main_arg0) := keep0 (W0 m ρ c) main_arg0 (by decide)
    _ = m ((c.tc : Thread nD τ).loc main_arg0) := rfl
theorem rd0_1 (c : Dev nD) : (V1 m ρ c (Pipeline.arrRef spec0 1) : S128x256.Idx → EReal) = m ((c.tc : Thread nD τ).loc main_arg3) :=
  calc (V1 m ρ c (Pipeline.arrRef spec0 1) : S128x256.Idx → EReal)
    _ = W0 m ρ c (Proc.devRef .tc main_arg3) := keep0 (W0 m ρ c) main_arg3 (by decide)
    _ = m ((c.tc : Thread nD τ).loc main_arg3) := rfl

/-! ### Region 1 -/

theorem rd1_0 (c : Dev nD) : (V3 m ρ c (Pipeline.arrRef spec1 0) : S100000x256.Idx → EReal) = KSpec.aggOf (o0 m ρ c) (m ((c.tc : Thread nD τ).loc main_arg1)) :=
  calc (V3 m ρ c (Pipeline.arrRef spec1 0) : S100000x256.Idx → EReal)
    _ = aggAt (W2 m ρ c (Proc.devRef .tc main_v29) : FVec Ideal S100000x256 .bf16) (W2 m ρ c (Proc.devRef .tc main_v1) : IVec S300000 32) (W2 m ρ c (Proc.devRef .tc main_v3) : IVec S300000 32) (W2 m ρ c (Proc.devRef .tc main_v28) : FVec Ideal S300000x1 .f32) := h1_v42 (W2 m ρ c)
    _ = aggAt (o0 m ρ c) (KSpec.srcOf (m ((c.tc : Thread nD τ).loc main_arg1))) (KSpec.dstOf (m ((c.tc : Thread nD τ).loc main_arg1))) (KSpec.ccolOf (m ((c.tc : Thread nD τ).loc main_arg1))) := aggAt_congr (W2_arr m ρ c 2) (cw2_v1 m ρ c) (cw2_v3 m ρ c) (cw2_v28 m ρ c)
    _ = KSpec.aggOf (o0 m ρ c) (m ((c.tc : Thread nD τ).loc main_arg1)) := aggAt_spec _ _
theorem rd1_1 (c : Dev nD) : (V3 m ρ c (Pipeline.arrRef spec1 1) : S100000x256.Idx → EReal) = o0 m ρ c :=
  calc (V3 m ρ c (Pipeline.arrRef spec1 1) : S100000x256.Idx → EReal)
    _ = W2 m ρ c (Proc.devRef .tc main_v29) := keep1 (W2 m ρ c) main_v29 (by decide)
    _ = o0 m ρ c := W2_arr m ρ c 2
theorem rd1_2 (c : Dev nD) : (V3 m ρ c (Pipeline.arrRef spec1 2) : S100000x1.Idx → EReal) = KSpec.d2colOf (m ((c.tc : Thread nD τ).loc main_arg1)) :=
  calc (V3 m ρ c (Pipeline.arrRef spec1 2) : S100000x1.Idx → EReal)
    _ = W2 m ρ c (Proc.devRef .tc main_v12) := keep1 (W2 m ρ c) main_v12 (by decide)
    _ = KSpec.d2colOf (m ((c.tc : Thread nD τ).loc main_arg1)) := cw2_v12 m ρ c
theorem rd1_3 (c : Dev nD) : (V3 m ρ c (Pipeline.arrRef spec1 3) : S1x256.Idx → EReal) = KSpec.brow (m ((c.tc : Thread nD τ).loc main_arg4)) :=
  calc (V3 m ρ c (Pipeline.arrRef spec1 3) : S1x256.Idx → EReal)
    _ = KSpec.brow (W2 m ρ c (Proc.devRef .tc main_arg4) : FVec Ideal S256 .f32) := h1_v43 (W2 m ρ c)
    _ = KSpec.brow (m ((c.tc : Thread nD τ).loc main_arg4)) := congrArg KSpec.brow (cw2_arg4 m ρ c)

/-! ### Region 2 -/

theorem rd2_0 (c : Dev nD) : (V5 m ρ c (Pipeline.arrRef spec2 0) : S100000x256.Idx → EReal) = o1t m ρ c :=
  calc (V5 m ρ c (Pipeline.arrRef spec2 0) : S100000x256.Idx → EReal)
    _ = W4 m ρ c (Proc.devRef .tc main_v44_0) := keep2 (W4 m ρ c) main_v44_0 (by decide)
    _ = o1t m ρ c := W4_arr m ρ c 4
theorem rd2_1 (c : Dev nD) : (V5 m ρ c (Pipeline.arrRef spec2 1) : S1x256.Idx → EReal) = KSpec.meanK (o1s m ρ c) :=
  calc (V5 m ρ c (Pipeline.arrRef spec2 1) : S1x256.Idx → EReal)
    _ = KSpec.meanK (W4 m ρ c (Proc.devRef .tc main_v44_1) : FVec Ideal S1x256 .f32) := h2_v46 (W4 m ρ c)
    _ = KSpec.meanK (o1s m ρ c) := congrArg KSpec.meanK (W4_arr m ρ c 5)
theorem rd2_2 (c : Dev nD) : (V5 m ρ c (Pipeline.arrRef spec2 2) : S1x256.Idx → EReal) = KSpec.varK (o1s m ρ c) (o1q m ρ c) :=
  calc (V5 m ρ c (Pipeline.arrRef spec2 2) : S1x256.Idx → EReal)
    _ = KSpec.varK (W4 m ρ c (Proc.devRef .tc main_v44_1) : FVec Ideal S1x256 .f32) (W4 m ρ c (Proc.devRef .tc main_v44_2) : FVec Ideal S1x256 .f32) := h2_v50 (W4 m ρ c)
    _ = KSpec.varK (o1s m ρ c) (o1q m ρ c) := congrArg₂ KSpec.varK (W4_arr m ρ c 5) (W4_arr m ρ c 6)
theorem rd2_3 (c : Dev nD) : (V5 m ρ c (Pipeline.arrRef spec2 3) : S1x256.Idx → EReal) = KSpec.brow (m ((c.tc : Thread nD τ).loc main_arg9)) :=
  calc (V5 m ρ c (Pipeline.arrRef spec2 3) : S1x256.Idx → EReal)
    _ = KSpec.brow (W4 m ρ c (Proc.devRef .tc main_arg9) : FVec Ideal S256 .f32) := h2_v51 (W4 m ρ c)
    _ = KSpec.brow (m ((c.tc : Thread nD τ).loc main_arg9)) := congrArg KSpec.brow (cw4_arg9 m ρ c)
theorem rd2_4 (c : Dev nD) : (V5 m ρ c (Pipeline.arrRef spec2 4) : S1x256.Idx → EReal) = KSpec.brow (m ((c.tc : Thread nD τ).loc main_arg10)) :=
  calc (V5 m ρ c (Pipeline.arrRef spec2 4) : S1x256.Idx → EReal)
    _ = KSpec.brow (W4 m ρ c (Proc.devRef .tc main_arg10) : FVec Ideal S256 .f32) := h2_v52 (W4 m ρ c)
    _ = KSpec.brow (m ((c.tc : Thread nD τ).loc main_arg10)) := congrArg KSpec.brow (cw4_arg10 m ρ c)
theorem rd2_5 (c : Dev nD) : (V5 m ρ c (Pipeline.arrRef spec2 5) : S256x256.Idx → EReal) = m ((c.tc : Thread nD τ).loc main_arg5) :=
  calc (V5 m ρ c (Pipeline.arrRef spec2 5) : S256x256.Idx → EReal)
    _ = W4 m ρ c (Proc.devRef .tc main_arg5) := keep2 (W4 m ρ c) main_arg5 (by decide)
    _ = m ((c.tc : Thread nD τ).loc main_arg5) := cw4_arg5 m ρ c

/-! ### Region 3 -/

theorem rd3_0 (c : Dev nD) : (V7 m ρ c (Pipeline.arrRef spec3 0) : S100000x256.Idx → EReal) = KSpec.aggOf (o2 m ρ c) (m ((c.tc : Thread nD τ).loc main_arg1)) :=
  calc (V7 m ρ c (Pipeline.arrRef spec3 0) : S100000x256.Idx → EReal)
    _ = aggAt (W6 m ρ c (Proc.devRef .tc main_v53) : FVec Ideal S100000x256 .bf16) (W6 m ρ c (Proc.devRef .tc main_v1) : IVec S300000 32) (W6 m ρ c (Proc.devRef .tc main_v3) : IVec S300000 32) (W6 m ρ c (Proc.devRef .tc main_v28) : FVec Ideal S300000x1 .f32) := h3_v66 (W6 m ρ c)
    _ = aggAt (o2 m ρ c) (KSpec.srcOf (m ((c.tc : Thread nD τ).loc main_arg1))) (KSpec.dstOf (m ((c.tc : Thread nD τ).loc main_arg1))) (KSpec.ccolOf (m ((c.tc : Thread nD τ).loc main_arg1))) := aggAt_congr (W6_arr m ρ c 6) (cw6_v1 m ρ c) (cw6_v3 m ρ c) (cw6_v28 m ρ c)
    _ = KSpec.aggOf (o2 m ρ c) (m ((c.tc : Thread nD τ).loc main_arg1)) := aggAt_spec _ _
theorem rd3_1 (c : Dev nD) : (V7 m ρ c (Pipeline.arrRef spec3 1) : S100000x256.Idx → EReal) = o2 m ρ c :=
  calc (V7 m ρ c (Pipeline.arrRef spec3 1) : S100000x256.Idx → EReal)
    _ = W6 m ρ c (Proc.devRef .tc main_v53) := keep3 (W6 m ρ c) main_v53 (by decide)
    _ = o2 m ρ c := W6_arr m ρ c 6
theorem rd3_2 (c : Dev nD) : (V7 m ρ c (Pipeline.arrRef spec3 2) : S100000x1.Idx → EReal) = KSpec.d2colOf (m ((c.tc : Thread nD τ).loc main_arg1)) :=
  calc (V7 m ρ c (Pipeline.arrRef spec3 2) : S100000x1.Idx → EReal)
    _ = W6 m ρ c (Proc.devRef .tc main_v12) := keep3 (W6 m ρ c) main_v12 (by decide)
    _ = KSpec.d2colOf (m ((c.tc : Thread nD τ).loc main_arg1)) := cw6_v12 m ρ c
theorem rd3_3 (c : Dev nD) : (V7 m ρ c (Pipeline.arrRef spec3 3) : S1x256.Idx → EReal) = KSpec.brow (m ((c.tc : Thread nD τ).loc main_arg6)) :=
  calc (V7 m ρ c (Pipeline.arrRef spec3 3) : S1x256.Idx → EReal)
    _ = KSpec.brow (W6 m ρ c (Proc.devRef .tc main_arg6) : FVec Ideal S256 .f32) := h3_v67 (W6 m ρ c)
    _ = KSpec.brow (m ((c.tc : Thread nD τ).loc main_arg6)) := congrArg KSpec.brow (cw6_arg6 m ρ c)

/-! ### Region 4 -/

theorem rd4_0 (c : Dev nD) : (V9 m ρ c (Pipeline.arrRef spec4 0) : S100000x256.Idx → EReal) = o3t m ρ c :=
  calc (V9 m ρ c (Pipeline.arrRef spec4 0) : S100000x256.Idx → EReal)
    _ = W8 m ρ c (Proc.devRef .tc main_v68_0) := keep4 (W8 m ρ c) main_v68_0 (by decide)
    _ = o3t m ρ c := W8_arr m ρ c 4
theorem rd4_1 (c : Dev nD) : (V9 m ρ c (Pipeline.arrRef spec4 1) : S1x256.Idx → EReal) = KSpec.meanK (o3s m ρ c) :=
  calc (V9 m ρ c (Pipeline.arrRef spec4 1) : S1x256.Idx → EReal)
    _ = KSpec.meanK (W8 m ρ c (Proc.devRef .tc main_v68_1) : FVec Ideal S1x256 .f32) := h4_v70 (W8 m ρ c)
    _ = KSpec.meanK (o3s m ρ c) := congrArg KSpec.meanK (W8_arr m ρ c 5)
theorem rd4_2 (c : Dev nD) : (V9 m ρ c (Pipeline.arrRef spec4 2) : S1x256.Idx → EReal) = KSpec.varK (o3s m ρ c) (o3q m ρ c) :=
  calc (V9 m ρ c (Pipeline.arrRef spec4 2) : S1x256.Idx → EReal)
    _ = KSpec.varK (W8 m ρ c (Proc.devRef .tc main_v68_1) : FVec Ideal S1x256 .f32) (W8 m ρ c (Proc.devRef .tc main_v68_2) : FVec Ideal S1x256 .f32) := h4_v74 (W8 m ρ c)
    _ = KSpec.varK (o3s m ρ c) (o3q m ρ c) := congrArg₂ KSpec.varK (W8_arr m ρ c 5) (W8_arr m ρ c 6)
theorem rd4_3 (c : Dev nD) : (V9 m ρ c (Pipeline.arrRef spec4 3) : S1x256.Idx → EReal) = KSpec.brow (m ((c.tc : Thread nD τ).loc main_arg11)) :=
  calc (V9 m ρ c (Pipeline.arrRef spec4 3) : S1x256.Idx → EReal)
    _ = KSpec.brow (W8 m ρ c (Proc.devRef .tc main_arg11) : FVec Ideal S256 .f32) := h4_v75 (W8 m ρ c)
    _ = KSpec.brow (m ((c.tc : Thread nD τ).loc main_arg11)) := congrArg KSpec.brow (cw8_arg11 m ρ c)
theorem rd4_4 (c : Dev nD) : (V9 m ρ c (Pipeline.arrRef spec4 4) : S1x256.Idx → EReal) = KSpec.brow (m ((c.tc : Thread nD τ).loc main_arg12)) :=
  calc (V9 m ρ c (Pipeline.arrRef spec4 4) : S1x256.Idx → EReal)
    _ = KSpec.brow (W8 m ρ c (Proc.devRef .tc main_arg12) : FVec Ideal S256 .f32) := h4_v76 (W8 m ρ c)
    _ = KSpec.brow (m ((c.tc : Thread nD τ).loc main_arg12)) := congrArg KSpec.brow (cw8_arg12 m ρ c)
theorem rd4_5 (c : Dev nD) : (V9 m ρ c (Pipeline.arrRef spec4 5) : S256x256.Idx → EReal) = m ((c.tc : Thread nD τ).loc main_arg7) :=
  calc (V9 m ρ c (Pipeline.arrRef spec4 5) : S256x256.Idx → EReal)
    _ = W8 m ρ c (Proc.devRef .tc main_arg7) := keep4 (W8 m ρ c) main_arg7 (by decide)
    _ = m ((c.tc : Thread nD τ).loc main_arg7) := cw8_arg7 m ρ c

/-! ### Region 5 -/

theorem rd5_0 (c : Dev nD) : (V11 m ρ c (Pipeline.arrRef spec5 0) : S100000x256.Idx → EReal) = KSpec.aggOf (o4 m ρ c) (m ((c.tc : Thread nD τ).loc main_arg1)) :=
  calc (V11 m ρ c (Pipeline.arrRef spec5 0) : S100000x256.Idx → EReal)
    _ = aggAt (W10 m ρ c (Proc.devRef .tc main_v77) : FVec Ideal S100000x256 .bf16) (W10 m ρ c (Proc.devRef .tc main_v1) : IVec S300000 32) (W10 m ρ c (Proc.devRef .tc main_v3) : IVec S300000 32) (W10 m ρ c (Proc.devRef .tc main_v28) : FVec Ideal S300000x1 .f32) := h5_v90 (W10 m ρ c)
    _ = aggAt (o4 m ρ c) (KSpec.srcOf (m ((c.tc : Thread nD τ).loc main_arg1))) (KSpec.dstOf (m ((c.tc : Thread nD τ).loc main_arg1))) (KSpec.ccolOf (m ((c.tc : Thread nD τ).loc main_arg1))) := aggAt_congr (W10_arr m ρ c 6) (cw10_v1 m ρ c) (cw10_v3 m ρ c) (cw10_v28 m ρ c)
    _ = KSpec.aggOf (o4 m ρ c) (m ((c.tc : Thread nD τ).loc main_arg1)) := aggAt_spec _ _
theorem rd5_1 (c : Dev nD) : (V11 m ρ c (Pipeline.arrRef spec5 1) : S100000x256.Idx → EReal) = o4 m ρ c :=
  calc (V11 m ρ c (Pipeline.arrRef spec5 1) : S100000x256.Idx → EReal)
    _ = W10 m ρ c (Proc.devRef .tc main_v77) := keep5 (W10 m ρ c) main_v77 (by decide)
    _ = o4 m ρ c := W10_arr m ρ c 6
theorem rd5_2 (c : Dev nD) : (V11 m ρ c (Pipeline.arrRef spec5 2) : S100000x1.Idx → EReal) = KSpec.d2colOf (m ((c.tc : Thread nD τ).loc main_arg1)) :=
  calc (V11 m ρ c (Pipeline.arrRef spec5 2) : S100000x1.Idx → EReal)
    _ = W10 m ρ c (Proc.devRef .tc main_v12) := keep5 (W10 m ρ c) main_v12 (by decide)
    _ = KSpec.d2colOf (m ((c.tc : Thread nD τ).loc main_arg1)) := cw10_v12 m ρ c
theorem rd5_3 (c : Dev nD) : (V11 m ρ c (Pipeline.arrRef spec5 3) : S1x256.Idx → EReal) = KSpec.brow (m ((c.tc : Thread nD τ).loc main_arg8)) :=
  calc (V11 m ρ c (Pipeline.arrRef spec5 3) : S1x256.Idx → EReal)
    _ = KSpec.brow (W10 m ρ c (Proc.devRef .tc main_arg8) : FVec Ideal S256 .f32) := h5_v91 (W10 m ρ c)
    _ = KSpec.brow (m ((c.tc : Thread nD τ).loc main_arg8)) := congrArg KSpec.brow (cw10_arg8 m ρ c)

/-! ### Region 6 -/

theorem rd6_0 (c : Dev nD) : (V13 m ρ c (Pipeline.arrRef spec6 0) : S100000x256.Idx → EReal) = o5t m ρ c :=
  calc (V13 m ρ c (Pipeline.arrRef spec6 0) : S100000x256.Idx → EReal)
    _ = W12 m ρ c (Proc.devRef .tc main_v92_0) := keep6 (W12 m ρ c) main_v92_0 (by decide)
    _ = o5t m ρ c := W12_arr m ρ c 4
theorem rd6_1 (c : Dev nD) : (V13 m ρ c (Pipeline.arrRef spec6 1) : S1x256.Idx → EReal) = KSpec.meanK (o5s m ρ c) :=
  calc (V13 m ρ c (Pipeline.arrRef spec6 1) : S1x256.Idx → EReal)
    _ = KSpec.meanK (W12 m ρ c (Proc.devRef .tc main_v92_1) : FVec Ideal S1x256 .f32) := h6_v94 (W12 m ρ c)
    _ = KSpec.meanK (o5s m ρ c) := congrArg KSpec.meanK (W12_arr m ρ c 5)
theorem rd6_2 (c : Dev nD) : (V13 m ρ c (Pipeline.arrRef spec6 2) : S1x256.Idx → EReal) = KSpec.varK (o5s m ρ c) (o5q m ρ c) :=
  calc (V13 m ρ c (Pipeline.arrRef spec6 2) : S1x256.Idx → EReal)
    _ = KSpec.varK (W12 m ρ c (Proc.devRef .tc main_v92_1) : FVec Ideal S1x256 .f32) (W12 m ρ c (Proc.devRef .tc main_v92_2) : FVec Ideal S1x256 .f32) := h6_v98 (W12 m ρ c)
    _ = KSpec.varK (o5s m ρ c) (o5q m ρ c) := congrArg₂ KSpec.varK (W12_arr m ρ c 5) (W12_arr m ρ c 6)
theorem rd6_3 (c : Dev nD) : (V13 m ρ c (Pipeline.arrRef spec6 3) : S1x256.Idx → EReal) = KSpec.brow (m ((c.tc : Thread nD τ).loc main_arg13)) :=
  calc (V13 m ρ c (Pipeline.arrRef spec6 3) : S1x256.Idx → EReal)
    _ = KSpec.brow (W12 m ρ c (Proc.devRef .tc main_arg13) : FVec Ideal S256 .f32) := h6_v99 (W12 m ρ c)
    _ = KSpec.brow (m ((c.tc : Thread nD τ).loc main_arg13)) := congrArg KSpec.brow (cw12_arg13 m ρ c)
theorem rd6_4 (c : Dev nD) : (V13 m ρ c (Pipeline.arrRef spec6 4) : S1x256.Idx → EReal) = KSpec.brow (m ((c.tc : Thread nD τ).loc main_arg14)) :=
  calc (V13 m ρ c (Pipeline.arrRef spec6 4) : S1x256.Idx → EReal)
    _ = KSpec.brow (W12 m ρ c (Proc.devRef .tc main_arg14) : FVec Ideal S256 .f32) := h6_v100 (W12 m ρ c)
    _ = KSpec.brow (m ((c.tc : Thread nD τ).loc main_arg14)) := congrArg KSpec.brow (cw12_arg14 m ρ c)

/-! ### Region 7 -/

theorem rd7_0 (c : Dev nD) : (V15 m ρ c (Pipeline.arrRef spec7 0) : S2048x256.Idx → EReal) = KSpec.poolK (o6 m ρ c) (m ((c.tc : Thread nD τ).loc main_arg2)) :=
  calc (V15 m ρ c (Pipeline.arrRef spec7 0) : S2048x256.Idx → EReal)
    _ = KSpec.poolK (W14 m ρ c (Proc.devRef .tc main_v101) : FVec Ideal S100000x256 .f32) (W14 m ρ c (Proc.devRef .tc main_arg2) : IVec S100000 32) := h7_v104 (W14 m ρ c)
    _ = KSpec.poolK (o6 m ρ c) (m ((c.tc : Thread nD τ).loc main_arg2)) := congrArg₂ KSpec.poolK (W14_arr m ρ c 5) (cw14_arg2 m ρ c)
theorem rd7_1 (c : Dev nD) : (V15 m ρ c (Pipeline.arrRef spec7 1) : S256x256.Idx → EReal) = m ((c.tc : Thread nD τ).loc main_arg15) :=
  calc (V15 m ρ c (Pipeline.arrRef spec7 1) : S256x256.Idx → EReal)
    _ = W14 m ρ c (Proc.devRef .tc main_arg15) := keep7 (W14 m ρ c) main_arg15 (by decide)
    _ = m ((c.tc : Thread nD τ).loc main_arg15) := cw14_arg15 m ρ c
theorem rd7_2 (c : Dev nD) : (V15 m ρ c (Pipeline.arrRef spec7 2) : S1x256.Idx → EReal) = KSpec.brow (m ((c.tc : Thread nD τ).loc main_arg16)) :=
  calc (V15 m ρ c (Pipeline.arrRef spec7 2) : S1x256.Idx → EReal)
    _ = KSpec.brow (W14 m ρ c (Proc.devRef .tc main_arg16) : FVec Ideal S256 .f32) := h7_v105 (W14 m ρ c)
    _ = KSpec.brow (m ((c.tc : Thread nD τ).loc main_arg16)) := congrArg KSpec.brow (cw14_arg16 m ρ c)
theorem rd7_3 (c : Dev nD) : (V15 m ρ c (Pipeline.arrRef spec7 3) : S256x1.Idx → EReal) = m ((c.tc : Thread nD τ).loc main_arg17) :=
  calc (V15 m ρ c (Pipeline.arrRef spec7 3) : S256x1.Idx → EReal)
    _ = W14 m ρ c (Proc.devRef .tc main_arg17) := keep7 (W14 m ρ c) main_arg17 (by decide)
    _ = m ((c.tc : Thread nD τ).loc main_arg17) := cw14_arg17 m ρ c
theorem rd7_4 (c : Dev nD) : (V15 m ρ c (Pipeline.arrRef spec7 4) : S1x1.Idx → EReal) = shapeCast S1x1 (m ((c.tc : Thread nD τ).loc main_arg18)) Facts₀.shapeCasts_S1_S1x1 :=
  calc (V15 m ρ c (Pipeline.arrRef spec7 4) : S1x1.Idx → EReal)
    _ = shapeCast S1x1 (W14 m ρ c (Proc.devRef .tc main_arg18) : FVec Ideal S1 .f32) Facts₀.shapeCasts_S1_S1x1 := h7_v106 (W14 m ρ c)
    _ = shapeCast S1x1 (m ((c.tc : Thread nD τ).loc main_arg18)) Facts₀.shapeCasts_S1_S1x1 := congrArg (fun x : FVec Ideal S1 .f32 => shapeCast S1x1 x Facts₀.shapeCasts_S1_S1x1) (cw14_arg18 m ρ c)

/-! ### The result -/

theorem rd_out (c : Dev nD) : (W17 m ρ c (Proc.devRef .tc main_v108) : S2048.Idx → EReal) = shapeCast S2048 (o7 m ρ c) Facts₀.shapeCasts_S2048x1_S2048 :=
  calc (W17 m ρ c (Proc.devRef .tc main_v108) : S2048.Idx → EReal)
    _ = shapeCast S2048 (W16 m ρ c (Proc.devRef .tc main_v107) : FVec Ideal S2048x1 .f32) Facts₀.shapeCasts_S2048x1_S2048 := h8_v108 (W16 m ρ c)
    _ = shapeCast S2048 (o7 m ρ c) Facts₀.shapeCasts_S2048x1_S2048 := congrArg (fun x : FVec Ideal S2048x1 .f32 => shapeCast S2048 x Facts₀.shapeCasts_S2048x1_S2048) (W16_arr m ρ c 5)

end Cert.KernelIdeal.KRun

end
-- ==== Proof.LibMatmul.lean ====
/-
  A plain M × K by K × N matrix product into a zero accumulator, read at one entry: at the exact (extended real) values the
  entry (a, b) is the sum over the contracted coordinate c of A (a, c) · B (c, b) — no rounding and no chunk order left in it.
-/
import Idealize.ShloMosaic.Lib.ValueIdx
import Idealize.ShloMosaic.PureOps.Ideal.Laws

noncomputable section

open scoped BigOperators

namespace Cert.LibMatmul

open Idealize.ShloMosaic Idealize.ShloMosaic.ValueIdx

/-- The product of an `M × K` by a `K × N` matrix accumulated into the zero splat, at entry `(a, b)`, is
    `∑ c, A (a, c) · B (c, b)` over the extended reals. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant (F := Ideal) ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibMatmul

end
-- ==== Proof.LibDotGeneral.lean ====
/-
  A plain M × K by K × N host matrix product (`dot_general` contracting the left operand's second axis with the right
  operand's first), read at one entry: at the exact (extended real) values the entry (a, b) is the sum over the contracted
  coordinate c of A (a, c) · B (c, b), whatever schedule the host uses.
-/
import Idealize.ShloMosaic.Lib.ValueIdx
import Idealize.ShloMosaic.PureOps.Ideal.Laws

noncomputable section

open scoped BigOperators

namespace Cert.LibDotGeneral

open Idealize.ShloMosaic Idealize.ShloMosaic.ValueIdx

/-- The host product of an `M × K` by a `K × N` matrix, at entry `(a, b)`, is `∑ c, A (a, c) · B (c, b)` over the
    extended reals. -/
theorem dotGeneral_plain_apply {M K N : Nat} {φ₁ φ₂ : FTy} (prec : Option ContractPrecision) (sched : HostSchedule)
    (A : FVec Ideal ⟨2, ![M, K]⟩ φ₁) (B : FVec Ideal ⟨2, ![K, N]⟩ φ₂) (a : Fin M) (b : Fin N) :
    FloatOps.dotGeneral (DotDims.plain M K N) prec sched A B (ix2 a b) = ∑ c : Fin K, A (ix2 a c) * B (ix2 c b) := by
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibDotGeneral

end
-- ==== Proof.Reg0.lean ====
/-
  The first tiled region: rows of x, 2000 at a time, times the whole weight matrix. Grid point t holds rows
  2000 t … 2000 t + 1999 of x and writes the same rows of the product; every row is in exactly one such block, so the
  array the region leaves is the whole product x · W, entry (a, b) being the sum over c of x (a, c) · W (c, b).
-/
import proofs.«123479_j22230750724231_2_alg».proof.Proof.Gen.KernelIdeal.Frame
import proofs.«123479_j22230750724231_2_alg».proof.Proof.LibMatmul
import proofs.«123479_j22230750724231_2_alg».proof.Proof.LibDotGeneral
import Idealize.ShloMosaic.Lib.Pipeline.Value
import Idealize.ShloMosaic.Lib.ValueIdx

set_option maxRecDepth 16384

noncomputable section

open scoped BigOperators

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The block's product at an entry: the sum over the 128 contracted coordinates. -/
theorem pay_apply (x0 : Vec Ideal S2000x128 .f32) (x1 : Vec Ideal S128x256 .f32) (p : Fin 2000) (q : Fin 256) :
    k0_pay1 x0 x1 (ix2 p q) = ∑ c : Fin 128, x0 (ix2 p c) * x1 (ix2 c q) :=
  Cert.LibMatmul.matmul_plain_zero_apply (M := 2000) (K := 128) (N := 256) none
    (truncf .bf16 x0 bitsLt_bf16_f32 : FVec Ideal S2000x128 .bf16) (truncf .bf16 x1 bitsLt_bf16_f32 : FVec Ideal S128x256 .bf16) p q

/-- The whole product. -/
abbrev G (x : S100000x128.Idx → EReal) (w : S128x256.Idx → EReal) : S100000x256.Idx → EReal :=
  FloatOps.dotGeneral (F := Ideal) (φ₁ := .f32) (φ₂ := .f32) (DotDims.plain 100000 128 256) none .single x w

/-- The block indices over the grid: the row windows move with the point, the weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's block of x is row 2000 t + p of x. -/
theorem blk0_apply (c : Dev nD) (t : Fin cfg0.N) (p : Fin 2000) (k : Fin 128) (hp : t.val * 2000 + p.val < 100000) :
    iblk0 V c 0 t (ix2 p k) = V c (Pipeline.arrRef spec0 0) (ix2 (⟨t.val * 2000 + p.val, hp⟩ : Fin 100000) k) := by
  obtain ⟨e0, e1, e2, e3, e4, e5⟩ := idx_facts t
  show V c (Pipeline.arrRef spec0 0) (((cfg0.win 0).blk t).view.emb (ix2 p k)) = _
  refine congrArg _ ?_
  funext a; apply Fin.ext
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- Every point's block of the weights is the whole weight matrix. -/
theorem blk1_apply (c : Dev nD) (t : Fin cfg0.N) (k : Fin 128) (q : Fin 256) :
    iblk0 V c 1 t (ix2 k q) = V c (Pipeline.arrRef spec0 1) (ix2 k q) := by
  obtain ⟨e0, e1, e2, e3, e4, e5⟩ := idx_facts t
  show V c (Pipeline.arrRef spec0 1) (((cfg0.win 1).blk t).view.emb (ix2 k q)) = _
  refine congrArg _ ?_
  funext a; apply Fin.ext
  match a with
  | ⟨0, _⟩ => show win0_1.index t (0 : Fin 2) * 128 + 1 * k.val = k.val; rw [e2]; omega
  | ⟨1, _⟩ => show win0_1.index t (1 : Fin 2) * 256 + 1 * q.val = q.val; rw [e3]; omega

theorem flushed_eq (c : Dev nD) (t : Fin cfg0.N) :
    (dat0 V c).flushed 2 t = ((cfg0.win 2).blk t).view.read (Elt Ideal)
      (G (V c (Pipeline.arrRef spec0 0)) (V c (Pipeline.arrRef spec0 1))) := by
  show (cfg0.win 2).cut (grid0.coords t) ((dat0 V c).after 2 t) = _
  rw [after0_2]
  unfold out0_2
  rw [View.canon_unit_zero hz2]
  simp only [View.ld_unit_zero (S := S2000x128) hz2, View.ld_unit_zero (S := S128x256) hz2]
  obtain ⟨e0, e1, e2, e3, e4, e5⟩ := idx_facts t
  have hN : cfg0.N = 50 := N_0
  have ht : t.val < 50 := hN ▸ t.isLt
  funext y
  obtain ⟨p, q, rfl⟩ : ∃ (p : Fin 2000) (q : Fin 256), y = ix2 p q := ⟨y 0, y 1, eq_ix2 y⟩
  have hp : t.val * 2000 + p.val < 100000 := by have := p.isLt; omega
  show k0_pay1 (iblk0 V c 0 t) (iblk0 V c 1 t) (ix2 p q)
    = G (V c (Pipeline.arrRef spec0 0)) (V c (Pipeline.arrRef spec0 1)) (((cfg0.win 2).blk t).view.emb (ix2 p q))
  have hemb : ((cfg0.win 2).blk t).view.emb (ix2 p q) = ix2 (⟨t.val * 2000 + p.val, hp⟩ : Fin 100000) q := by
    funext a; apply Fin.ext
    match a with
    | ⟨0, _⟩ => show win0_2.index t (0 : Fin 2) * 2000 + 1 * p.val = t.val * 2000 + p.val; rw [e4]; omega
    | ⟨1, _⟩ => show win0_2.index t (1 : Fin 2) * 256 + 1 * q.val = q.val; rw [e5]; omega
  rw [pay_apply, hemb]
  refine Eq.trans ?_ (Cert.LibDotGeneral.dotGeneral_plain_apply none .single _ _ _ q).symm
  exact Finset.sum_congr rfl fun k _ => by rw [blk0_apply V c t p k hp, blk1_apply V c t k q]

/-- An entry is in point t's block exactly when its row lies in t's run of 2000 rows. -/
theorem mem_blk (t : Fin cfg0.N) (i : S100000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v29).slice (win0_2.rect t)).set ↔ _
  rw [View.set_slice_whole, Rect.mem_set_unit]
  exact Iff.rfl

/-- The region leaves the whole product in its result array. -/
theorem out_eq (c : Dev nD) :
    (dat0 V c).arrAt 2 cfg0.N = G (V c (Pipeline.arrRef spec0 0)) (V c (Pipeline.arrRef spec0 1)) :=
  (dat0 V c).arrAt_eq_of_cover 2 _ (fun t _ => flushed_eq V c t) fun i => by
    have h0 : (i 0).val < 100000 := idx2_lt0 i
    have h1 : (i 1).val < 256 := idx2_lt1 i
    let t : Fin cfg0.N := ⟨(i 0).val / 2000, by rw [show cfg0.N = 50 from N_0]; omega⟩
    have htv : t.val = (i 0).val / 2000 := rfl
    obtain ⟨e0, e1, e2, e3, e4, e5⟩ := idx_facts t
    refine ⟨t, flush0_2 t, ?_⟩
    rw [mem_blk]
    intro a
    match a with
    | ⟨0, _⟩ =>
      show win0_2.index t (0 : Fin 2) * 2000 ≤ (i 0).val ∧ (i 0).val < win0_2.index t (0 : Fin 2) * 2000 + 2000
      rw [e4, htv]; omega
    | ⟨1, _⟩ =>
      show win0_2.index t (1 : Fin 2) * 256 ≤ (i 1).val ∧ (i 1).val < win0_2.index t (1 : Fin 2) * 256 + 256
      rw [e5]; omega

end Cert.KernelIdeal.Reg0

end
-- ==== Proof.RegSpec.lean ====
/-
  What each later tiled region computes, entry by entry, as functions of whole two-axis arrays of extended reals:
  the pre-normalisation activations (aggregate + features · D^(-1) + bias) with their column sums and column sums
  of squares; normalisation by given column statistics with scale, shift and rectification; a matrix product; and the
  two-layer head. Entries are addressed by literal coordinates (a, b), never by a generic index.
-/
import Idealize.ShloMosaic.Lib.ValueIdx
import Idealize.ShloMosaic.PureOps.Ideal.Laws

noncomputable section

open scoped BigOperators

namespace Cert.RegSpec

open Idealize.ShloMosaic Idealize.ShloMosaic.ValueIdx

/-- Every entry of an array is a real number (neither infinity). -/
def IsFin {s : Shape} (v : s.Idx → EReal) : Prop := ∀ i, ∃ r : ℝ, v i = (r : EReal)

/-- A two-axis array of extended reals. -/
abbrev A2 (m n : Nat) : Type := (⟨2, ![m, n]⟩ : Shape).Idx → EReal

/-- An array from its entries. -/
def mk2 {m n : Nat} (f : Fin m → Fin n → EReal) : A2 m n := fun j => f (j 0) (j 1)

theorem mk2_apply {m n : Nat} (f : Fin m → Fin n → EReal) (a : Fin m) (b : Fin n) : mk2 f (ix2 a b) = f a b := rfl

/-- The epsilon under the square root, and the zero of the rectification, as the programs spell them. -/
abbrev eps : EReal := Ideal.ofBits .f32 0x3727C5AC#32
abbrev zero : EReal := Ideal.ofBits .f32 0x00000000#32

/-- One normalised, scaled, shifted and rectified entry. -/
def bnF (t mean var g be : EReal) : EReal := max ((t - mean) * Ideal.rsqrt (var + eps) * g + be) zero

/-- Aggregate + features · D^(-1) + bias. -/
def Gtot {n : Nat} (agg xw : A2 n 256) (d2 : A2 n 1) (b : A2 1 256) : A2 n 256 :=
  mk2 fun a c => agg (ix2 a c) + xw (ix2 a c) * d2 (ix2 a 0) + b (ix2 0 c)

/-- Column sums, as one row. -/
def Gsum {n : Nat} (t : A2 n 256) : A2 1 256 := mk2 fun _ c => ∑ a : Fin n, t (ix2 a c)

/-- Column sums of squares, as one row. -/
def Gsq {n : Nat} (t : A2 n 256) : A2 1 256 := mk2 fun _ c => ∑ a : Fin n, t (ix2 a c) * t (ix2 a c)

/-- Normalisation by given column statistics. -/
def Gbn {n : Nat} (t : A2 n 256) (mean var g be : A2 1 256) : A2 n 256 :=
  mk2 fun a c => bnF (t (ix2 a c)) (mean (ix2 0 c)) (var (ix2 0 c)) (g (ix2 0 c)) (be (ix2 0 c))

/-- A matrix product. -/
def Gmm {n k m : Nat} (h : A2 n k) (w : A2 k m) : A2 n m := mk2 fun a b => ∑ c : Fin k, h (ix2 a c) * w (ix2 c b)

/-- The head: a product, bias, rectification, a second product onto one column, bias. -/
def Ghead {n : Nat} (p : A2 n 256) (w1 : A2 256 256) (b1 : A2 1 256) (w2 : A2 256 1) (b2 : A2 1 1) : A2 n 1 :=
  mk2 fun a _ => (∑ c : Fin 256, max ((∑ k : Fin 256, p (ix2 a k) * w1 (ix2 k c)) + b1 (ix2 0 c)) zero * w2 (ix2 c 0)) + b2 (ix2 0 0)

/-! The same functions read at an entry. -/

theorem Gtot_apply {n : Nat} (agg xw : A2 n 256) (d2 : A2 n 1) (b : A2 1 256) (a : Fin n) (c : Fin 256) :
    Gtot agg xw d2 b (ix2 a c) = agg (ix2 a c) + xw (ix2 a c) * d2 (ix2 a 0) + b (ix2 0 c) := rfl

theorem Gsum_apply {n : Nat} (t : A2 n 256) (z : Fin 1) (c : Fin 256) : Gsum t (ix2 z c) = ∑ a : Fin n, t (ix2 a c) := rfl

theorem Gsq_apply {n : Nat} (t : A2 n 256) (z : Fin 1) (c : Fin 256) :
    Gsq t (ix2 z c) = ∑ a : Fin n, t (ix2 a c) * t (ix2 a c) := rfl

theorem Gbn_apply {n : Nat} (t : A2 n 256) (mean var g be : A2 1 256) (a : Fin n) (c : Fin 256) :
    Gbn t mean var g be (ix2 a c) = bnF (t (ix2 a c)) (mean (ix2 0 c)) (var (ix2 0 c)) (g (ix2 0 c)) (be (ix2 0 c)) := rfl

theorem Gmm_apply {n k m : Nat} (h : A2 n k) (w : A2 k m) (a : Fin n) (b : Fin m) :
    Gmm h w (ix2 a b) = ∑ c : Fin k, h (ix2 a c) * w (ix2 c b) := rfl

theorem Ghead_apply {n : Nat} (p : A2 n 256) (w1 : A2 256 256) (b1 : A2 1 256) (w2 : A2 256 1) (b2 : A2 1 1) (a : Fin n) (z : Fin 1) :
    Ghead p w1 b1 w2 b2 (ix2 a z)
      = (∑ c : Fin 256, max ((∑ k : Fin 256, p (ix2 a k) * w1 (ix2 k c)) + b1 (ix2 0 c)) zero * w2 (ix2 c 0)) + b2 (ix2 0 0) := rfl

/- The column sums range over every row of a long array: they are read only through the two lemmas above. -/
attribute [irreducible] Gsum Gsq

end Cert.RegSpec

end
-- ==== Proof.GcnMath.lean ====
/-
  The arithmetic the two programs differ by, over the extended reals.
  (1) A sum over 100000 = 50 · 2000 consecutive terms is the sum of its 50 consecutive runs of 2000.
  (2) For finitely many REAL numbers, the mean of the squared deviations from the mean is the mean of the
      squares minus the square of the mean; read through the extended reals' division by a non-zero real.
  (3) The float constants the programs spell: 100000, 1, and a positive epsilon.
-/
import Idealize.ShloMosaic.PureOps.Ideal.Laws

noncomputable section

open scoped BigOperators

namespace Cert.GcnMath

open Idealize.ShloMosaic

/-- The embedding of the reals commutes with finite sums. -/
theorem coe_sum {ι : Type*} (s : Finset ι) (f : ι → ℝ) : ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-- The pattern of 100000.0 denotes the real 100000. -/
theorem ofBits_1e5 : Ideal.ofBits .f32 0x47C35000#32 = ((100000 : ℝ) : EReal) := by
  simp [Ideal.ofBits, Ideal.ieee, -EReal.coe_mul]; norm_num

/-- The pattern of 1.0 denotes 1. -/
theorem ofBits_one : Ideal.ofBits .f32 0x3F800000#32 = ((1 : ℝ) : EReal) := by
  simp [Ideal.ofBits, Ideal.ieee, -EReal.coe_mul]; norm_num

/-- The epsilon under the square root denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

/-- A sum over the first (t + 1) · k naturals is the sum over the first t · k and the next k. -/
theorem sum_range_succ_block {M : Type*} [AddCommMonoid M] (f : ℕ → M) (k t : ℕ) :
    ∑ i ∈ Finset.range ((t + 1) * k), f i = ∑ i ∈ Finset.range (t * k), f i + ∑ r ∈ Finset.range k, f (t * k + r) := by
  rw [Nat.succ_mul, Finset.sum_range_add]

/-- Mean of squared deviations = mean of squares − squared mean, for real numbers and a non-zero count N. -/
theorem var_real {n : ℕ} (f : Fin n → ℝ) (N : ℝ) (hN : N ≠ 0) (hn : (n : ℝ) = N) :
    (∑ i, (f i - (∑ j, f j) * (1 / N)) * (f i - (∑ j, f j) * (1 / N))) * (1 / N)
      = (∑ i, f i * f i) * (1 / N) - ((∑ j, f j) * (1 / N)) * ((∑ j, f j) * (1 / N)) := by
  have h1 : ∀ m : ℝ, ∑ i, (f i - m) * (f i - m) = (∑ i, f i * f i) - 2 * m * (∑ i, f i) + (n : ℝ) * (m * m) := by
    intro m
    have : ∀ i, (f i - m) * (f i - m) = f i * f i - 2 * m * f i + m * m := fun i => by ring
    simp only [this, Finset.sum_add_distrib, Finset.sum_sub_distrib, ← Finset.mul_sum, Finset.sum_const, Finset.card_univ,
      Fintype.card_fin, nsmul_eq_mul]
    ring
  rw [h1, hn]
  field_simp
  ring

/-- The same over the extended reals, for entries that are real numbers: the two spellings of the variance agree. -/
theorem var_ereal {n : ℕ} (t : Fin n → EReal) (ht : ∀ i, ∃ r : ℝ, t i = (r : EReal)) (N : ℝ) (hN : N ≠ 0) (hn : (n : ℝ) = N) :
    Ideal.div (∑ i, (t i - Ideal.div (∑ j, t j) (N : EReal)) * (t i - Ideal.div (∑ j, t j) (N : EReal))) (N : EReal)
      = Ideal.div (∑ i, t i * t i) (N : EReal) - Ideal.div (∑ j, t j) (N : EReal) * Ideal.div (∑ j, t j) (N : EReal) := by
  choose r hr using ht
  simp only [hr, Ideal.div_coe hN, ← coe_sum, ← EReal.coe_mul, ← EReal.coe_sub]
  exact congrArg _ (var_real r N hN hn)

/-- That variance is a non-negative real. -/
theorem var_nonneg {n : ℕ} (t : Fin n → EReal) (ht : ∀ i, ∃ r : ℝ, t i = (r : EReal)) (N : ℝ) (hN : 0 < N) :
    ∃ v : ℝ, 0 ≤ v ∧
      Ideal.div (∑ i, (t i - Ideal.div (∑ j, t j) (N : EReal)) * (t i - Ideal.div (∑ j, t j) (N : EReal))) (N : EReal) = (v : EReal) := by
  choose r hr using ht
  refine ⟨(∑ i, (r i - (∑ j, r j) * (1 / N)) * (r i - (∑ j, r j) * (1 / N))) * (1 / N), ?_, ?_⟩
  · exact mul_nonneg (Finset.sum_nonneg fun i _ => mul_self_nonneg _) (by positivity)
  · simp only [hr, Ideal.div_coe hN.ne', ← coe_sum, ← EReal.coe_mul, ← EReal.coe_sub]

end Cert.GcnMath

end
-- ==== Proof.Reg1.lean ====
/-
  A tiled region with two accumulators. Grid point t holds rows 2000 t … 2000 t + 1999 of a layer's aggregate, of its
  transformed features and of D^(-1), and the bias row; it writes the same rows of  aggregate + features · D^(-1) + bias,
  and adds that block's column sums and column sums of squares into two one-row accumulators that are cleared at the
  first point and written back after the last. So the region leaves the whole array of activations, its column sums and its
  column sums of squares: the accumulators hold, after point n, the sums over the first (n + 1) · 2000 rows (by induction
  on the point), and 50 · 2000 is every row.
-/
import proofs.«123479_j22230750724231_2_alg».proof.Proof.Gen.KernelIdeal.Frame
import proofs.«123479_j22230750724231_2_alg».proof.Proof.RegSpec
import Idealize.ShloMosaic.Lib.Pipeline.Value
import Idealize.ShloMosaic.Lib.ValueIdx
import Idealize.ShloMosaic.Lib.ValueLayout
import Idealize.ShloMosaic.Lib.Tactic
import proofs.«123479_j22230750724231_2_alg».proof.Proof.GcnMath

set_option maxRecDepth 16384

noncomputable section

open scoped BigOperators

namespace Cert.KernelIdeal.Reg1

open Cert.KernelIdeal Cert.KernelIdeal.Gen Cert.RegSpec
open Idealize.ShloMosaic Idealize.ShloMosaic.TcCoe Idealize.ShloMosaic.ValueIdx Idealize.SL.Sem Idealize.ShloMosaic.Tactic
open Idealize.ShloMosaic.Pipeline (Dat)

variable {F : FTy → Type} [FloatOps F]

theorem hz2 : (![0, 0] : Fin 2 → Nat) = fun _ => 0 := funext fun a => by fin_cases a <;> rfl

theorem piece_B_4 (c : Dev nD) (i : grid1.Coords) (arg1 : Memref sig .tc .vmem S2000x256 .f32) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬cond1_0 i)
    (x0 : Vec F S2000x256 .f32) (x1 : Vec F S2000x256 .bf16) (x2 : Vec F S2000x1 .f32) (x3 : Vec F S1x256 .f32) (xo5 xo6 : Vec F S1x256 .f32) :
    out1_B_4 c i arg1 harg1 arg2 harg2 arg3 harg3 arg4 harg4 arg5 harg5 arg6 harg6 arg7 harg7 hc0 x0 x1 x2 x3 xo5 xo6 = k1_pay1 x1 x0 x2 x3 := by
  unfold out1_B_4
  rw [View.read_writes_eq_canon _ _ _ (cover1_B_4 c i arg1 harg1 arg2 harg2 arg3 harg3 arg4 harg4 arg5 harg5 arg6 harg6 arg7 harg7 hc0 x0 x1 x2 x3 xo5 xo6)]
  unfold kernelRun1_B
  dsimp only
  sl_unfold_words
  rw [View.canon_unit_zero hz2]
  simp only [View.readAt_eq_ld, harg1.read_unread, harg2.read_unread, harg3.read_unread, harg4.read_unread, harg6.read_unread, harg7.read_unread,
    View.ld_unit_zero (S := S2000x256) hz2, View.ld_unit_zero (S := S2000x1) hz2, View.ld_unit_zero (S := S1x256) hz2]

theorem piece_B_5 (c : Dev nD) (i : grid1.Coords) (arg1 : Memref sig .tc .vmem S2000x256 .f32) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬cond1_0 i)
    (x0 : Vec F S2000x256 .f32) (x1 : Vec F S2000x256 .bf16) (x2 : Vec F S2000x1 .f32) (x3 : Vec F S1x256 .f32) (xo5 xo6 : Vec F S1x256 .f32) :
    out1_B_5 c i arg1 harg1 arg2 harg2 arg3 harg3 arg4 harg4 arg5 harg5 arg6 harg6 arg7 harg7 hc0 x0 x1 x2 x3 xo5 xo6 = k1_pay4 x1 x0 x2 x3 xo5 := by
  unfold out1_B_5
  rw [View.read_writes_eq_canon _ _ _ (cover1_B_5 c i arg1 harg1 arg2 harg2 arg3 harg3 arg4 harg4 arg5 harg5 arg6 harg6 arg7 harg7 hc0 x0 x1 x2 x3 xo5 xo6)]
  unfold kernelRun1_B
  dsimp only
  sl_unfold_words
  rw [View.canon_unit_zero hz2]
  simp only [View.readAt_eq_ld, harg1.read_unread, harg2.read_unread, harg3.read_unread, harg4.read_unread, harg6.read_unread, harg7.read_unread,
    View.ld_unit_zero (S := S2000x256) hz2, View.ld_unit_zero (S := S2000x1) hz2, View.ld_unit_zero (S := S1x256) hz2]

theorem piece_B_6 (c : Dev nD) (i : grid1.Coords) (arg1 : Memref sig .tc .vmem S2000x256 .f32) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬cond1_0 i)
    (x0 : Vec F S2000x256 .f32) (x1 : Vec F S2000x256 .bf16) (x2 : Vec F S2000x1 .f32) (x3 : Vec F S1x256 .f32) (xo5 xo6 : Vec F S1x256 .f32) :
    out1_B_6 c i arg1 harg1 arg2 harg2 arg3 harg3 arg4 harg4 arg5 harg5 arg6 harg6 arg7 harg7 hc0 x0 x1 x2 x3 xo5 xo6 = k1_pay5 x1 x0 x2 x3 xo6 := by
  unfold out1_B_6
  rw [View.read_writes_eq_canon _ _ _ (cover1_B_6 c i arg1 harg1 arg2 harg2 arg3 harg3 arg4 harg4 arg5 harg5 arg6 harg6 arg7 harg7 hc0 x0 x1 x2 x3 xo5 xo6)]
  unfold kernelRun1_B
  dsimp only
  sl_unfold_words
  rw [View.canon_unit_zero hz2]
  simp only [View.readAt_eq_ld, harg1.read_unread, harg2.read_unread, harg3.read_unread, harg4.read_unread, harg6.read_unread, harg7.read_unread,
    View.ld_unit_zero (S := S2000x256) hz2, View.ld_unit_zero (S := S2000x1) hz2, View.ld_unit_zero (S := S1x256) hz2]

theorem piece_A_4 (c : Dev nD) (i : grid1.Coords) (arg1 : Memref sig .tc .vmem S2000x256 .f32) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : cond1_0 i)
    (x0 : Vec F S2000x256 .f32) (x1 : Vec F S2000x256 .bf16) (x2 : Vec F S2000x1 .f32) (x3 : Vec F S1x256 .f32) :
    out1_A_4 c i arg1 harg1 arg2 harg2 arg3 harg3 arg4 harg4 arg5 harg5 arg6 harg6 arg7 harg7 hc0 x0 x1 x2 x3 = k1_pay1 x1 x0 x2 x3 := by
  unfold out1_A_4
  rw [View.read_writes_eq_canon _ _ _ (cover1_A_4 c i arg1 harg1 arg2 harg2 arg3 harg3 arg4 harg4 arg5 harg5 arg6 harg6 arg7 harg7 hc0 x0 x1 x2 x3)]
  unfold kernelRun1_A
  dsimp only
  sl_unfold_words
  rw [View.canon_unit_zero hz2]
  simp only [View.readAt_eq_ld, harg1.read_unread, harg2.read_unread, harg3.read_unread, harg4.read_unread,
    View.ld_unit_zero (S := S2000x256) hz2, View.ld_unit_zero (S := S2000x1) hz2, View.ld_unit_zero (S := S1x256) hz2]

theorem piece_A_5 (c : Dev nD) (i : grid1.Coords) (arg1 : Memref sig .tc .vmem S2000x256 .f32) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : cond1_0 i)
    (x0 : Vec F S2000x256 .f32) (x1 : Vec F S2000x256 .bf16) (x2 : Vec F S2000x1 .f32) (x3 : Vec F S1x256 .f32) :
    out1_A_5 c i arg1 harg1 arg2 harg2 arg3 harg3 arg4 harg4 arg5 harg5 arg6 harg6 arg7 harg7 hc0 x0 x1 x2 x3 = k1_pay4 x1 x0 x2 x3 k1_pay2 := by
  unfold out1_A_5
  rw [View.read_writes_eq_canon _ _ _ (cover1_A_5 c i arg1 harg1 arg2 harg2 arg3 harg3 arg4 harg4 arg5 harg5 arg6 harg6 arg7 harg7 hc0 x0 x1 x2 x3)]
  unfold kernelRun1_A
  dsimp only
  sl_unfold_words
  rw [View.canon_cons_unit_zero (S := S1x256) hz2, View.readCov_unit_zero (S := S1x256) _ hz2]
  simp only [View.readAt_eq_ld, harg1.read_unread, harg2.read_unread, harg3.read_unread, harg4.read_unread,
    View.ld_unit_zero (S := S2000x256) hz2, View.ld_unit_zero (S := S2000x1) hz2, View.ld_unit_zero (S := S1x256) hz2]

theorem piece_A_6 (c : Dev nD) (i : grid1.Coords) (arg1 : Memref sig .tc .vmem S2000x256 .f32) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : cond1_0 i)
    (x0 : Vec F S2000x256 .f32) (x1 : Vec F S2000x256 .bf16) (x2 : Vec F S2000x1 .f32) (x3 : Vec F S1x256 .f32) :
    out1_A_6 c i arg1 harg1 arg2 harg2 arg3 harg3 arg4 harg4 arg5 harg5 arg6 harg6 arg7 harg7 hc0 x0 x1 x2 x3 = k1_pay5 x1 x0 x2 x3 k1_pay3 := by
  unfold out1_A_6
  rw [View.read_writes_eq_canon _ _ _ (cover1_A_6 c i arg1 harg1 arg2 harg2 arg3 harg3 arg4 harg4 arg5 harg5 arg6 harg6 arg7 harg7 hc0 x0 x1 x2 x3)]
  unfold kernelRun1_A
  dsimp only
  sl_unfold_words
  rw [View.canon_cons_unit_zero (S := S1x256) hz2, View.readCov_unit_zero (S := S1x256) _ hz2]
  simp only [View.readAt_eq_ld, harg1.read_unread, harg2.read_unread, harg3.read_unread, harg4.read_unread,
    View.ld_unit_zero (S := S2000x256) hz2, View.ld_unit_zero (S := S2000x1) hz2, View.ld_unit_zero (S := S1x256) hz2]

/-! ## The payloads at an entry, at the exact values -/

/-- A one-column table repeated across b columns reads, at (p, c), the table at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting coordinate k back on axis 0 of a column index g gives the entry (k, g). -/
theorem lift_axis0 {m n : Nat} (h : (⟨2, ![m, n]⟩ : Shape).Reduces [0] (⟨1, ![n]⟩ : Shape)) (g : Fin n)
    (k : Fin ((⟨2, ![m, n]⟩ : Shape).size 0)) : h.lift (ix1 g) k = ix2 (⟨k.val, k.isLt⟩ : Fin m) g := by
  funext c; apply Fin.ext
  fin_cases c <;> rfl

/-- One entry of the activations block: aggregate + features · D^(-1) + bias. -/
theorem pay1_apply (xw : FVec Ideal S2000x256 .bf16) (agg : FVec Ideal S2000x256 .f32) (d2 : FVec Ideal S2000x1 .f32)
    (b : FVec Ideal S1x256 .f32) (p : Fin 2000) (q : Fin 256) :
    k1_pay1 (F := Ideal) xw agg d2 b (ix2 p q) = agg (ix2 p q) + xw (ix2 p q) * d2 (ix2 p 0) + b (ix2 0 q) := by
  unfold k1_pay1
  simp only [shapeCast_self]
  simp only [addf_apply, mulf_apply, extf_apply, broadcastTo_1b_ab_apply, broadcastTo_a1_ab_apply]

/-- A column sum of a 2000-row block, laid out as a row, at (0, q). -/
theorem blockSum_apply (src : FVec Ideal S2000x256 .f32) (hφ : FKind.Formats .f32)
    (hacc : (0x00000000#32 : BitVec 32) = 0x00000000#32) (q : Fin 256) :
    shapeCast S1x256 (multiReduction .add [0] S256 src 0x00000000#32 reduces_S2000x256_S256 hφ hacc) shapeCasts_S256_S1x256 (ix2 0 q)
      = ∑ p : Fin 2000, src (ix2 p q) := by
  rw [shapeCast_a_1a_apply]
  refine (Ideal.multiReduction_add_single src 0x00000000#32 reduces_S2000x256_S256 hφ hacc (ix1 q)).trans ?_
  show (∑ k : Fin 2000, src (reduces_S2000x256_S256.lift (ix1 q) k)) = _
  exact Finset.sum_congr rfl fun k _ => congrArg src (lift_axis0 reduces_S2000x256_S256 q k)

/-- The running column sum after a block: what was there plus the block's column sum. -/
theorem pay4_apply (xw : FVec Ideal S2000x256 .bf16) (agg : FVec Ideal S2000x256 .f32) (d2 : FVec Ideal S2000x1 .f32)
    (b prev : FVec Ideal S1x256 .f32) (q : Fin 256) :
    k1_pay4 (F := Ideal) xw agg d2 b prev (ix2 0 q)
      = prev (ix2 0 q) + ∑ p : Fin 2000, k1_pay1 (F := Ideal) xw agg d2 b (ix2 p q) := by
  unfold k1_pay4
  simp only [shapeCast_self]
  rw [addf_apply]
  exact congrArg (prev (ix2 0 q) + ·) (blockSum_apply _ _ _ q)

/-- The running column sum of squares after a block. -/
theorem pay5_apply (xw : FVec Ideal S2000x256 .bf16) (agg : FVec Ideal S2000x256 .f32) (d2 : FVec Ideal S2000x1 .f32)
    (b prev : FVec Ideal S1x256 .f32) (q : Fin 256) :
    k1_pay5 (F := Ideal) xw agg d2 b prev (ix2 0 q)
      = prev (ix2 0 q) + ∑ p : Fin 2000, k1_pay1 (F := Ideal) xw agg d2 b (ix2 p q) * k1_pay1 (F := Ideal) xw agg d2 b (ix2 p q) := by
  unfold k1_pay5
  simp only [shapeCast_self]
  rw [addf_apply]
  exact congrArg (prev (ix2 0 q) + ·) (blockSum_apply _ _ _ q)

/-! ## The region's three outputs -/

section Ideal

variable (V : (c : Dev nD) → (b : Ref sig .tc) → Buf (Elt Ideal) ((c : Thread nD τ).loc b))

/-- The block indices over the grid: the row windows move with the point, the bias row and the two accumulators stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem blk0_apply (c : Dev nD) (t : Fin cfg1.N) (p : Fin 2000) (q : Fin 256) (hp : t.val * 2000 + p.val < 100000) :
    iblk1 V c 0 t (ix2 p q) = V c (Pipeline.arrRef spec1 0) (ix2 (⟨t.val * 2000 + p.val, hp⟩ : Fin 100000) q) := by
  obtain ⟨e0, e1, -⟩ := idx_facts t
  show V c (Pipeline.arrRef spec1 0) (((cfg1.win 0).blk t).view.emb (ix2 p q)) = _
  refine congrArg _ ?_
  funext a; apply Fin.ext
  match a with
  | ⟨0, _⟩ => show win1_0.index t (0 : Fin 2) * 2000 + 1 * p.val = t.val * 2000 + p.val; rw [e0]; omega
  | ⟨1, _⟩ => show win1_0.index t (1 : Fin 2) * 256 + 1 * q.val = q.val; rw [e1]; omega
theorem blk1_apply (c : Dev nD) (t : Fin cfg1.N) (p : Fin 2000) (q : Fin 256) (hp : t.val * 2000 + p.val < 100000) :
    iblk1 V c 1 t (ix2 p q) = V c (Pipeline.arrRef spec1 1) (ix2 (⟨t.val * 2000 + p.val, hp⟩ : Fin 100000) q) := by
  obtain ⟨-, -, e0, e1, -⟩ := idx_facts t
  show V c (Pipeline.arrRef spec1 1) (((cfg1.win 1).blk t).view.emb (ix2 p q)) = _
  refine congrArg _ ?_
  funext a; apply Fin.ext
  match a with
  | ⟨0, _⟩ => show win1_1.index t (0 : Fin 2) * 2000 + 1 * p.val = t.val * 2000 + p.val; rw [e0]; omega
  | ⟨1, _⟩ => show win1_1.index t (1 : Fin 2) * 256 + 1 * q.val = q.val; rw [e1]; omega
theorem blk2_apply (c : Dev nD) (t : Fin cfg1.N) (p : Fin 2000) (hp : t.val * 2000 + p.val < 100000) :
    iblk1 V c 2 t (ix2 p (0 : Fin 1)) = V c (Pipeline.arrRef spec1 2) (ix2 (⟨t.val * 2000 + p.val, hp⟩ : Fin 100000) (0 : Fin 1)) := by
  obtain ⟨-, -, -, -, e0, e1, -⟩ := idx_facts t
  show V c (Pipeline.arrRef spec1 2) (((cfg1.win 2).blk t).view.emb (ix2 p (0 : Fin 1))) = _
  refine congrArg _ ?_
  funext a; apply Fin.ext
  match a with
  | ⟨0, _⟩ => show win1_2.index t (0 : Fin 2) * 2000 + 1 * p.val = t.val * 2000 + p.val; rw [e0]; omega
  | ⟨1, _⟩ => show win1_2.index t (1 : Fin 2) * 1 + 1 * 0 = 0; rw [e1]
theorem blk3_apply (c : Dev nD) (t : Fin cfg1.N) (q : Fin 256) :
    iblk1 V c 3 t (ix2 (0 : Fin 1) q) = V c (Pipeline.arrRef spec1 3) (ix2 (0 : Fin 1) q) := by
  obtain ⟨-, -, -, -, -, -, e0, e1, -⟩ := idx_facts t
  show V c (Pipeline.arrRef spec1 3) (((cfg1.win 3).blk t).view.emb (ix2 (0 : Fin 1) q)) = _
  refine congrArg _ ?_
  funext a; apply Fin.ext
  match a with
  | ⟨0, _⟩ => show win1_3.index t (0 : Fin 2) * 1 + 1 * 0 = 0; rw [e0]
  | ⟨1, _⟩ => show win1_3.index t (1 : Fin 2) * 256 + 1 * q.val = q.val; rw [e1]; omega

/-- The whole array of activations, from the arrays the region finds. -/
abbrev TOT (c : Dev nD) : S100000x256.Idx → EReal :=
  Gtot (n := 100000) (V c (Pipeline.arrRef spec1 0)) (V c (Pipeline.arrRef spec1 1)) (V c (Pipeline.arrRef spec1 2))
    (V c (Pipeline.arrRef spec1 3))

/-- Point t's block of activations. -/
abbrev T (c : Dev nD) (t : Fin cfg1.N) : FVec Ideal S2000x256 .f32 :=
  k1_pay1 (F := Ideal) (iblk1 V c 1 t) (iblk1 V c 0 t) (iblk1 V c 2 t) (iblk1 V c 3 t)

/-- Row p of point t's block is row 2000 t + p of the whole array. -/
theorem T_apply (c : Dev nD) (t : Fin cfg1.N) (p : Fin 2000) (q : Fin 256) (hp : t.val * 2000 + p.val < 100000) :
    T V c t (ix2 p q) = TOT V c (ix2 (⟨t.val * 2000 + p.val, hp⟩ : Fin 100000) q) := by
  show k1_pay1 (F := Ideal) (iblk1 V c 1 t) (iblk1 V c 0 t) (iblk1 V c 2 t) (iblk1 V c 3 t) (ix2 p q) = _
  rw [pay1_apply, blk0_apply V c t p q hp, blk1_apply V c t p q hp, blk2_apply V c t p hp, blk3_apply]
  exact (Gtot_apply (n := 100000) _ _ _ _ _ _).symm

set_option maxHeartbeats 2000000 in
/-- After every point the activations' staging buffer holds that point's block. -/
theorem outs_4 (c : Dev nD) (t : Fin cfg1.N) : (outsAt1 V c t.val t.isLt).1 = T V c t := by
  by_cases h0 : t.val % 50 = 0
  · rw [show outsAt1 V c t.val t.isLt = _ from outsAt1_A V c t h0]
    dsimp only
    rw [piece_A_4]
  · rw [show outsAt1 V c t.val t.isLt = _ from outsAt1_B V c t h0]
    dsimp only
    rw [piece_B_4]

end Ideal

section Ideal2

variable (V : (c : Dev nD) → (b : Ref sig .tc) → Buf (Elt Ideal) ((c : Thread nD τ).loc b))

/-! ### The activations themselves -/

theorem flushed4_eq (c : Dev nD) (t : Fin cfg1.N) :
    (dat1 V c).flushed 4 t = ((cfg1.win 4).blk t).view.read (Elt Ideal) (TOT V c) := by
  show (cfg1.win 4).cut (grid1.coords t) ((dat1 V c).after 4 t) = _
  rw [after1_4, outs_4]
  obtain ⟨-, -, -, -, -, -, -, -, e4, e5, -⟩ := idx_facts t
  have hN : cfg1.N = 50 := N_1
  have ht : t.val < 50 := hN ▸ t.isLt
  funext y
  obtain ⟨p, q, rfl⟩ : ∃ (p : Fin 2000) (q : Fin 256), y = ix2 p q := ⟨y 0, y 1, eq_ix2 y⟩
  have hp : t.val * 2000 + p.val < 100000 := by have := p.isLt; omega
  show T V c t (ix2 p q) = TOT V c (((cfg1.win 4).blk t).view.emb (ix2 p q))
  have hemb : ((cfg1.win 4).blk t).view.emb (ix2 p q) = ix2 (⟨t.val * 2000 + p.val, hp⟩ : Fin 100000) q := by
    funext a; apply Fin.ext
    match a with
    | ⟨0, _⟩ => show win1_4.index t (0 : Fin 2) * 2000 + 1 * p.val = t.val * 2000 + p.val; rw [e4]; omega
    | ⟨1, _⟩ => show win1_4.index t (1 : Fin 2) * 256 + 1 * q.val = q.val; rw [e5]; omega
  rw [hemb, T_apply V c t p q hp]

theorem mem_blk4 (t : Fin cfg1.N) (i : S100000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v44_0).slice (win1_4.rect t)).set ↔ _
  rw [View.set_slice_whole, Rect.mem_set_unit]
  exact Iff.rfl

/-- The region leaves the whole array of activations in its first result array. -/
theorem out4_eq (c : Dev nD) : (dat1 V c).arrAt 4 cfg1.N = TOT V c :=
  (dat1 V c).arrAt_eq_of_cover 4 _ (fun t _ => flushed4_eq V c t) fun i => by
    have h0 : (i 0).val < 100000 := idx2_lt0 i
    have h1 : (i 1).val < 256 := idx2_lt1 i
    let t : Fin cfg1.N := ⟨(i 0).val / 2000, by rw [show cfg1.N = 50 from N_1]; omega⟩
    have htv : t.val = (i 0).val / 2000 := rfl
    obtain ⟨-, -, -, -, -, -, -, -, e4, e5, -⟩ := idx_facts t
    refine ⟨t, flush1_4 t, ?_⟩
    rw [mem_blk4]
    intro a
    match a with
    | ⟨0, _⟩ =>
      show win1_4.index t (0 : Fin 2) * 2000 ≤ (i 0).val ∧ (i 0).val < win1_4.index t (0 : Fin 2) * 2000 + 2000
      rw [e4, htv]; omega
    | ⟨1, _⟩ =>
      show win1_4.index t (1 : Fin 2) * 256 ≤ (i 1).val ∧ (i 1).val < win1_4.index t (1 : Fin 2) * 256 + 256
      rw [e5]; omega

/-! ### The column sums, accumulated over the grid -/

/-- Column q of the whole array, entry by entry, as a sequence over the row number (zero past the last row). -/
def rowF (c : Dev nD) (q : Fin 256) : ℕ → EReal :=
  fun i => if h : i < 100000 then TOT V c (ix2 (⟨i, h⟩ : Fin 100000) q) else 0

/-- A block's column sum is the sum of the sequence over the block's run of rows. -/
theorem blockSum5_range (c : Dev nD) (t : Fin cfg1.N) (q : Fin 256) :
    (∑ p : Fin 2000, T V c t (ix2 p q)) = ∑ r ∈ Finset.range 2000, rowF V c q (t.val * 2000 + r) := by
  have hN : cfg1.N = 50 := N_1
  have ht : t.val < 50 := hN ▸ t.isLt
  rw [← Fin.sum_univ_eq_sum_range (fun r => rowF V c q (t.val * 2000 + r)) 2000]
  refine Finset.sum_congr rfl fun p _ => ?_
  have hp : t.val * 2000 + p.val < 100000 := by have := p.isLt; omega
  rw [T_apply V c t p q hp]
  unfold rowF
  rw [dif_pos hp]

/-- After point n the accumulator holds the sum over the first (n + 1) · 2000 rows: by induction on the point. -/
theorem outs5_eq (c : Dev nD) : ∀ (n : ℕ) (h : n < cfg1.N) (q : Fin 256),
    (outsAt1 V c n h).2.1 (ix2 (0 : Fin 1) q) = zero + ∑ i ∈ Finset.range ((n + 1) * 2000), rowF V c q i
  | 0, h, q => by
    rw [show outsAt1 V c 0 h = _ from outsAt1_A V c ⟨0, h⟩ rfl]
    dsimp only
    rw [piece_A_5, pay4_apply, blockSum5_range V c ⟨0, h⟩ q]
    show zero + ∑ r ∈ Finset.range 2000, rowF V c q (0 * 2000 + r) = zero + ∑ i ∈ Finset.range ((0 + 1) * 2000), rowF V c q i
    simp only [Nat.zero_mul, Nat.zero_add, Nat.one_mul]
  | n + 1, h, q => by
    have hN : cfg1.N = 50 := N_1
    have hB : ¬(⟨n + 1, h⟩ : Fin cfg1.N).val % 50 = 0 := by dsimp only; omega
    rw [show outsAt1 V c (n + 1) h = _ from outsAt1_B V c ⟨n + 1, h⟩ hB]
    dsimp only
    rw [piece_B_5, pay4_apply]
    show (outsAt1 V c n (Nat.lt_of_succ_lt h)).2.1 (ix2 (0 : Fin 1) q) + _ = _
    rw [outs5_eq c n (Nat.lt_of_succ_lt h) q, blockSum5_range V c ⟨n + 1, h⟩ q, add_assoc]
    exact congrArg (zero + ·) (Cert.GcnMath.sum_range_succ_block (rowF V c q) 2000 (n + 1)).symm

/-- The sequence summed over all 100000 rows is the column sum of the whole array. -/
theorem all5 (c : Dev nD) (q : Fin 256) :
    zero + ∑ i ∈ Finset.range ((49 + 1) * 2000), rowF V c q i = Gsum (TOT V c) (ix2 (0 : Fin 1) q) := by
  rw [show (49 + 1) * 2000 = 100000 from by norm_num]
  rw [show (zero : EReal) = 0 from Ideal.ofBits_zero_f32, zero_add, ← Fin.sum_univ_eq_sum_range (rowF V c q) 100000, Gsum_apply]
  exact Finset.sum_congr rfl fun a _ => dif_pos a.isLt

/-- The one write-back of the accumulator, after the last point, writes the whole column sums. -/
theorem flushed5_eq (c : Dev nD) (t : Fin cfg1.N) (hf : (cfg1.win 5).flush t = true) :
    (dat1 V c).flushed 5 t = ((cfg1.win 5).blk t).view.read (Elt Ideal) (Gsum (TOT V c)) := by
  have hN : cfg1.N = 50 := N_1
  have h49 : t.val = 49 := by have := (flush1_5 t).mp hf; have := t.isLt; omega
  show (cfg1.win 5).cut (grid1.coords t) ((dat1 V c).after 5 t) = _
  rw [after1_5]
  obtain ⟨-, -, -, -, -, -, -, -, -, -, e50, e51, e60, e61⟩ := idx_facts t
  funext y
  obtain ⟨z, q, rfl⟩ : ∃ (z : Fin 1) (q : Fin 256), y = ix2 z q := ⟨y 0, y 1, eq_ix2 y⟩
  obtain rfl : z = 0 := Subsingleton.elim _ _
  show (outsAt1 V c t.val t.isLt).2.1 (ix2 (0 : Fin 1) q)
    = Gsum (TOT V c) (((cfg1.win 5).blk t).view.emb (ix2 (0 : Fin 1) q))
  have hemb : ((cfg1.win 5).blk t).view.emb (ix2 (0 : Fin 1) q) = ix2 (0 : Fin 1) q := by
    funext a; apply Fin.ext
    match a with
    | ⟨0, _⟩ => show win1_5.index t (0 : Fin 2) * 1 + 1 * 0 = 0; rw [e50]
    | ⟨1, _⟩ => show win1_5.index t (1 : Fin 2) * 256 + 1 * q.val = q.val; rw [e51]; omega
  rw [hemb, outs5_eq V c t.val t.isLt q, h49]
  exact all5 V c q

theorem mem_blk5 (t : Fin cfg1.N) (i : S1x256.Idx) :
    i ∈ ((cfg1.win 5).blk t).view.set ↔ ∀ a : Fin 2, win1_5.index t a * S1x256.size a ≤ (i a).val
      ∧ (i a).val < win1_5.index t a * S1x256.size a + S1x256.size a := by
  show i ∈ ((View.whole main_v44_1).slice (win1_5.rect t)).set ↔ _
  rw [View.set_slice_whole, Rect.mem_set_unit]
  exact Iff.rfl

/-- The region leaves the whole column sums in the accumulator's array. -/
theorem out5_eq (c : Dev nD) : (dat1 V c).arrAt 5 cfg1.N = Gsum (TOT V c) :=
  (dat1 V c).arrAt_eq_of_cover 5 _ (flushed5_eq V c) fun i => by
    have h0 : (i 0).val < 1 := idx2_lt0 i
    have h1 : (i 1).val < 256 := idx2_lt1 i
    let t : Fin cfg1.N := ⟨49, by rw [show cfg1.N = 50 from N_1]; omega⟩
    obtain ⟨-, -, -, -, -, -, -, -, -, -, e50, e51, e60, e61⟩ := idx_facts t
    refine ⟨t, (flush1_5 t).mpr rfl, ?_⟩
    rw [mem_blk5]
    intro a
    match a with
    | ⟨0, _⟩ =>
      show win1_5.index t (0 : Fin 2) * 1 ≤ (i 0).val ∧ (i 0).val < win1_5.index t (0 : Fin 2) * 1 + 1
      rw [e50]; omega
    | ⟨1, _⟩ =>
      show win1_5.index t (1 : Fin 2) * 256 ≤ (i 1).val ∧ (i 1).val < win1_5.index t (1 : Fin 2) * 256 + 256
      rw [e51]; omega

/-! ### The column sums of squares, accumulated over the grid -/

/-- Column q of the whole array, squared entry by entry, as a sequence over the row number (zero past the last row). -/
def rowQ (c : Dev nD) (q : Fin 256) : ℕ → EReal :=
  fun i => if h : i < 100000 then TOT V c (ix2 (⟨i, h⟩ : Fin 100000) q) * TOT V c (ix2 (⟨i, h⟩ : Fin 100000) q) else 0

/-- A block's column sum is the sum of the sequence over the block's run of rows. -/
theorem blockSum6_range (c : Dev nD) (t : Fin cfg1.N) (q : Fin 256) :
    (∑ p : Fin 2000, T V c t (ix2 p q) * T V c t (ix2 p q)) = ∑ r ∈ Finset.range 2000, rowQ V c q (t.val * 2000 + r) := by
  have hN : cfg1.N = 50 := N_1
  have ht : t.val < 50 := hN ▸ t.isLt
  rw [← Fin.sum_univ_eq_sum_range (fun r => rowQ V c q (t.val * 2000 + r)) 2000]
  refine Finset.sum_congr rfl fun p _ => ?_
  have hp : t.val * 2000 + p.val < 100000 := by have := p.isLt; omega
  rw [T_apply V c t p q hp]
  unfold rowQ
  rw [dif_pos hp]

/-- After point n the accumulator holds the sum over the first (n + 1) · 2000 rows: by induction on the point. -/
theorem outs6_eq (c : Dev nD) : ∀ (n : ℕ) (h : n < cfg1.N) (q : Fin 256),
    (outsAt1 V c n h).2.2 (ix2 (0 : Fin 1) q) = zero + ∑ i ∈ Finset.range ((n + 1) * 2000), rowQ V c q i
  | 0, h, q => by
    rw [show outsAt1 V c 0 h = _ from outsAt1_A V c ⟨0, h⟩ rfl]
    dsimp only
    rw [piece_A_6, pay5_apply, blockSum6_range V c ⟨0, h⟩ q]
    show zero + ∑ r ∈ Finset.range 2000, rowQ V c q (0 * 2000 + r) = zero + ∑ i ∈ Finset.range ((0 + 1) * 2000), rowQ V c q i
    simp only [Nat.zero_mul, Nat.zero_add, Nat.one_mul]
  | n + 1, h, q => by
    have hN : cfg1.N = 50 := N_1
    have hB : ¬(⟨n + 1, h⟩ : Fin cfg1.N).val % 50 = 0 := by dsimp only; omega
    rw [show outsAt1 V c (n + 1) h = _ from outsAt1_B V c ⟨n + 1, h⟩ hB]
    dsimp only
    rw [piece_B_6, pay5_apply]
    show (outsAt1 V c n (Nat.lt_of_succ_lt h)).2.2 (ix2 (0 : Fin 1) q) + _ = _
    rw [outs6_eq c n (Nat.lt_of_succ_lt h) q, blockSum6_range V c ⟨n + 1, h⟩ q, add_assoc]
    exact congrArg (zero + ·) (Cert.GcnMath.sum_range_succ_block (rowQ V c q) 2000 (n + 1)).symm

/-- The sequence summed over all 100000 rows is the column sum of the whole array. -/
theorem all6 (c : Dev nD) (q : Fin 256) :
    zero + ∑ i ∈ Finset.range ((49 + 1) * 2000), rowQ V c q i = Gsq (TOT V c) (ix2 (0 : Fin 1) q) := by
  rw [show (49 + 1) * 2000 = 100000 from by norm_num]
  rw [show (zero : EReal) = 0 from Ideal.ofBits_zero_f32, zero_add, ← Fin.sum_univ_eq_sum_range (rowQ V c q) 100000, Gsq_apply]
  exact Finset.sum_congr rfl fun a _ => dif_pos a.isLt

/-- The one write-back of the accumulator, after the last point, writes the whole column sums. -/
theorem flushed6_eq (c : Dev nD) (t : Fin cfg1.N) (hf : (cfg1.win 6).flush t = true) :
    (dat1 V c).flushed 6 t = ((cfg1.win 6).blk t).view.read (Elt Ideal) (Gsq (TOT V c)) := by
  have hN : cfg1.N = 50 := N_1
  have h49 : t.val = 49 := by have := (flush1_6 t).mp hf; have := t.isLt; omega
  show (cfg1.win 6).cut (grid1.coords t) ((dat1 V c).after 6 t) = _
  rw [after1_6]
  obtain ⟨-, -, -, -, -, -, -, -, -, -, e50, e51, e60, e61⟩ := idx_facts t
  funext y
  obtain ⟨z, q, rfl⟩ : ∃ (z : Fin 1) (q : Fin 256), y = ix2 z q := ⟨y 0, y 1, eq_ix2 y⟩
  obtain rfl : z = 0 := Subsingleton.elim _ _
  show (outsAt1 V c t.val t.isLt).2.2 (ix2 (0 : Fin 1) q)
    = Gsq (TOT V c) (((cfg1.win 6).blk t).view.emb (ix2 (0 : Fin 1) q))
  have hemb : ((cfg1.win 6).blk t).view.emb (ix2 (0 : Fin 1) q) = ix2 (0 : Fin 1) q := by
    funext a; apply Fin.ext
    match a with
    | ⟨0, _⟩ => show win1_6.index t (0 : Fin 2) * 1 + 1 * 0 = 0; rw [e60]
    | ⟨1, _⟩ => show win1_6.index t (1 : Fin 2) * 256 + 1 * q.val = q.val; rw [e61]; omega
  rw [hemb, outs6_eq V c t.val t.isLt q, h49]
  exact all6 V c q

theorem mem_blk6 (t : Fin cfg1.N) (i : S1x256.Idx) :
    i ∈ ((cfg1.win 6).blk t).view.set ↔ ∀ a : Fin 2, win1_6.index t a * S1x256.size a ≤ (i a).val
      ∧ (i a).val < win1_6.index t a * S1x256.size a + S1x256.size a := by
  show i ∈ ((View.whole main_v44_2).slice (win1_6.rect t)).set ↔ _
  rw [View.set_slice_whole, Rect.mem_set_unit]
  exact Iff.rfl

/-- The region leaves the whole column sums in the accumulator's array. -/
theorem out6_eq (c : Dev nD) : (dat1 V c).arrAt 6 cfg1.N = Gsq (TOT V c) :=
  (dat1 V c).arrAt_eq_of_cover 6 _ (flushed6_eq V c) fun i => by
    have h0 : (i 0).val < 1 := idx2_lt0 i
    have h1 : (i 1).val < 256 := idx2_lt1 i
    let t : Fin cfg1.N := ⟨49, by rw [show cfg1.N = 50 from N_1]; omega⟩
    obtain ⟨-, -, -, -, -, -, -, -, -, -, e50, e51, e60, e61⟩ := idx_facts t
    refine ⟨t, (flush1_6 t).mpr rfl, ?_⟩
    rw [mem_blk6]
    intro a
    match a with
    | ⟨0, _⟩ =>
      show win1_6.index t (0 : Fin 2) * 1 ≤ (i 0).val ∧ (i 0).val < win1_6.index t (0 : Fin 2) * 1 + 1
      rw [e60]; omega
    | ⟨1, _⟩ =>
      show win1_6.index t (1 : Fin 2) * 256 ≤ (i 1).val ∧ (i 1).val < win1_6.index t (1 : Fin 2) * 256 + 256
      rw [e61]; omega

end Ideal2

end Cert.KernelIdeal.Reg1

end
-- ==== Proof.Reg2.lean ====
/-
  A fused tiled region: normalise, scale, shift and rectify 2000 rows of the previous layer's activations, then multiply
  them by the whole next weight matrix. Grid point t holds rows 2000 t … 2000 t + 1999; every row is in exactly one block, so
  the region leaves the whole product (normalised activations) · W.
-/
import proofs.«123479_j22230750724231_2_alg».proof.Proof.Gen.KernelIdeal.Frame
import proofs.«123479_j22230750724231_2_alg».proof.Proof.RegSpec
import proofs.«123479_j22230750724231_2_alg».proof.Proof.LibMatmul
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Reg2

open Cert.KernelIdeal Cert.KernelIdeal.Gen Cert.RegSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- One entry of the block the body stores: a row of normalised activations against a column of the weights. -/
theorem pay_apply (x0 : FVec Ideal S2000x256 .f32) (xv xm xg xb : FVec Ideal S1x256 .f32) (xw : FVec Ideal S256x256 .f32)
    (p : Fin 2000) (q : Fin 256) :
    k2_pay1 (F := Ideal) x0 xv xm xg xb xw (ix2 p q)
      = ∑ c : Fin 256, bnF (x0 (ix2 p c)) (xm (ix2 0 c)) (xv (ix2 0 c)) (xg (ix2 0 c)) (xb (ix2 0 c)) * xw (ix2 c q) := by
  unfold k2_pay1
  simp only [shapeCast_self]
  refine (Cert.LibMatmul.matmul_plain_zero_apply (M := 2000) (K := 256) (N := 256) none _ _ p q).trans ?_
  refine Finset.sum_congr rfl fun c _ => ?_
  simp only [truncf_apply, maximumf_apply, addf_apply, mulf_apply, subf_apply, broadcast_apply, broadcastTo_1b_ab_apply]
  rfl

/-- The block indices over the grid: the row windows move with the point, the others stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of point t's block of the activations is row 2000 t + p. -/
theorem blk0_apply (c : Dev nD) (t : Fin cfg2.N) (p : Fin 2000) (q : Fin 256) (hp : t.val * 2000 + p.val < 100000) :
    iblk2 V c 0 t (ix2 p q) = V c (Pipeline.arrRef spec2 0) (ix2 (⟨t.val * 2000 + p.val, hp⟩ : Fin 100000) q) := by
  obtain ⟨e0, e1, -⟩ := idx_facts t
  show V c (Pipeline.arrRef spec2 0) (((cfg2.win 0).blk t).view.emb (ix2 p q)) = _
  refine congrArg _ ?_
  funext a; apply Fin.ext
  match a with
  | ⟨0, _⟩ => show win2_0.index t (0 : Fin 2) * 2000 + 1 * p.val = t.val * 2000 + p.val; rw [e0]; omega
  | ⟨1, _⟩ => show win2_0.index t (1 : Fin 2) * 256 + 1 * q.val = q.val; rw [e1]; omega

/-- Every point's block of a one-row window is the whole row. -/
theorem blk1_apply (c : Dev nD) (t : Fin cfg2.N) (q : Fin 256) :
    iblk2 V c 1 t (ix2 (0 : Fin 1) q) = V c (Pipeline.arrRef spec2 1) (ix2 (0 : Fin 1) q) := by
  obtain ⟨-, -, e2, e3, -⟩ := idx_facts t
  show V c (Pipeline.arrRef spec2 1) (((cfg2.win 1).blk t).view.emb (ix2 (0 : Fin 1) q)) = _
  refine congrArg _ ?_
  funext a; apply Fin.ext
  match a with
  | ⟨0, _⟩ => show win2_1.index t (0 : Fin 2) * 1 + 1 * 0 = 0; rw [e2]
  | ⟨1, _⟩ => show win2_1.index t (1 : Fin 2) * 256 + 1 * q.val = q.val; rw [e3]; omega
theorem blk2_apply (c : Dev nD) (t : Fin cfg2.N) (q : Fin 256) :
    iblk2 V c 2 t (ix2 (0 : Fin 1) q) = V c (Pipeline.arrRef spec2 2) (ix2 (0 : Fin 1) q) := by
  obtain ⟨-, -, -, -, e2, e3, -⟩ := idx_facts t
  show V c (Pipeline.arrRef spec2 2) (((cfg2.win 2).blk t).view.emb (ix2 (0 : Fin 1) q)) = _
  refine congrArg _ ?_
  funext a; apply Fin.ext
  match a with
  | ⟨0, _⟩ => show win2_2.index t (0 : Fin 2) * 1 + 1 * 0 = 0; rw [e2]
  | ⟨1, _⟩ => show win2_2.index t (1 : Fin 2) * 256 + 1 * q.val = q.val; rw [e3]; omega
theorem blk3_apply (c : Dev nD) (t : Fin cfg2.N) (q : Fin 256) :
    iblk2 V c 3 t (ix2 (0 : Fin 1) q) = V c (Pipeline.arrRef spec2 3) (ix2 (0 : Fin 1) q) := by
  obtain ⟨-, -, -, -, -, -, e2, e3, -⟩ := idx_facts t
  show V c (Pipeline.arrRef spec2 3) (((cfg2.win 3).blk t).view.emb (ix2 (0 : Fin 1) q)) = _
  refine congrArg _ ?_
  funext a; apply Fin.ext
  match a with
  | ⟨0, _⟩ => show win2_3.index t (0 : Fin 2) * 1 + 1 * 0 = 0; rw [e2]
  | ⟨1, _⟩ => show win2_3.index t (1 : Fin 2) * 256 + 1 * q.val = q.val; rw [e3]; omega
theorem blk4_apply (c : Dev nD) (t : Fin cfg2.N) (q : Fin 256) :
    iblk2 V c 4 t (ix2 (0 : Fin 1) q) = V c (Pipeline.arrRef spec2 4) (ix2 (0 : Fin 1) q) := by
  obtain ⟨-, -, -, -, -, -, -, -, e2, e3, -⟩ := idx_facts t
  show V c (Pipeline.arrRef spec2 4) (((cfg2.win 4).blk t).view.emb (ix2 (0 : Fin 1) q)) = _
  refine congrArg _ ?_
  funext a; apply Fin.ext
  match a with
  | ⟨0, _⟩ => show win2_4.index t (0 : Fin 2) * 1 + 1 * 0 = 0; rw [e2]
  | ⟨1, _⟩ => show win2_4.index t (1 : Fin 2) * 256 + 1 * q.val = q.val; rw [e3]; omega

/-- Every point's block of the weights is the whole weight matrix. -/
theorem blk5_apply (c : Dev nD) (t : Fin cfg2.N) (k : Fin 256) (q : Fin 256) :
    iblk2 V c 5 t (ix2 k q) = V c (Pipeline.arrRef spec2 5) (ix2 k q) := by
  obtain ⟨-, -, -, -, -, -, -, -, -, -, e2, e3, -⟩ := idx_facts t
  show V c (Pipeline.arrRef spec2 5) (((cfg2.win 5).blk t).view.emb (ix2 k q)) = _
  refine congrArg _ ?_
  funext a; apply Fin.ext
  match a with
  | ⟨0, _⟩ => show win2_5.index t (0 : Fin 2) * 256 + 1 * k.val = k.val; rw [e2]; omega
  | ⟨1, _⟩ => show win2_5.index t (1 : Fin 2) * 256 + 1 * q.val = q.val; rw [e3]; omega

/-- The whole product, from the arrays the region finds. -/
abbrev G (c : Dev nD) : S100000x256.Idx → EReal :=
  Gmm (Gbn (n := 100000) (V c (Pipeline.arrRef spec2 0)) (V c (Pipeline.arrRef spec2 1)) (V c (Pipeline.arrRef spec2 2))
    (V c (Pipeline.arrRef spec2 3)) (V c (Pipeline.arrRef spec2 4))) (V c (Pipeline.arrRef spec2 5))

set_option maxHeartbeats 2000000 in
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz2]
  simp only [View.ld_unit_zero (S := S2000x256) hz2, View.ld_unit_zero (S := S1x256) hz2, View.ld_unit_zero (S := S256x256) hz2]
  obtain ⟨-, -, -, -, -, -, -, -, -, -, -, -, e4, e5⟩ := idx_facts t
  have hN : cfg2.N = 50 := N_2
  have ht : t.val < 50 := hN ▸ t.isLt
  funext y
  obtain ⟨p, q, rfl⟩ : ∃ (p : Fin 2000) (q : Fin 256), y = ix2 p q := ⟨y 0, y 1, eq_ix2 y⟩
  have hp : t.val * 2000 + p.val < 100000 := by have := p.isLt; omega
  show k2_pay1 (iblk2 V c 0 t) (iblk2 V c 2 t) (iblk2 V c 1 t) (iblk2 V c 3 t) (iblk2 V c 4 t) (iblk2 V c 5 t) (ix2 p q)
    = G V c (((cfg2.win 6).blk t).view.emb (ix2 p q))
  have hemb : ((cfg2.win 6).blk t).view.emb (ix2 p q) = ix2 (⟨t.val * 2000 + p.val, hp⟩ : Fin 100000) q := by
    funext a; apply Fin.ext
    match a with
    | ⟨0, _⟩ => show win2_6.index t (0 : Fin 2) * 2000 + 1 * p.val = t.val * 2000 + p.val; rw [e4]; omega
    | ⟨1, _⟩ => show win2_6.index t (1 : Fin 2) * 256 + 1 * q.val = q.val; rw [e5]; omega
  rw [pay_apply, hemb]
  refine Eq.trans ?_ (Gmm_apply _ _ _ _).symm
  refine Finset.sum_congr rfl fun k _ => ?_
  rw [blk0_apply V c t p k hp, blk1_apply, blk2_apply, blk3_apply, blk4_apply, blk5_apply, Gbn_apply]

/-- An entry is in point t's block exactly when its row lies in t's run of 2000 rows. -/
theorem mem_blk (t : Fin cfg2.N) (i : S100000x256.Idx) :
    i ∈ ((cfg2.win 6).blk t).view.set ↔ ∀ a : Fin 2, win2_6.index t a * S2000x256.size a ≤ (i a).val
      ∧ (i a).val < win2_6.index t a * S2000x256.size a + S2000x256.size a := by
  show i ∈ ((View.whole main_v53).slice (win2_6.rect t)).set ↔ _
  rw [View.set_slice_whole, Rect.mem_set_unit]
  exact Iff.rfl

/-- The region leaves the whole product in its result array. -/
theorem out_eq (c : Dev nD) : (dat2 V c).arrAt 6 cfg2.N = G V c :=
  (dat2 V c).arrAt_eq_of_cover 6 _ (fun t _ => flushed_eq V c t) fun i => by
    have h0 : (i 0).val < 100000 := idx2_lt0 i
    have h1 : (i 1).val < 256 := idx2_lt1 i
    let t : Fin cfg2.N := ⟨(i 0).val / 2000, by rw [show cfg2.N = 50 from N_2]; omega⟩
    have htv : t.val = (i 0).val / 2000 := rfl
    obtain ⟨-, -, -, -, -, -, -, -, -, -, -, -, e4, e5⟩ := idx_facts t
    refine ⟨t, flush2_6 t, ?_⟩
    rw [mem_blk]
    intro a
    match a with
    | ⟨0, _⟩ =>
      show win2_6.index t (0 : Fin 2) * 2000 ≤ (i 0).val ∧ (i 0).val < win2_6.index t (0 : Fin 2) * 2000 + 2000
      rw [e4, htv]; omega
    | ⟨1, _⟩ =>
      show win2_6.index t (1 : Fin 2) * 256 ≤ (i 1).val ∧ (i 1).val < win2_6.index t (1 : Fin 2) * 256 + 256
      rw [e5]; omega

end Cert.KernelIdeal.Reg2

end
-- ==== Proof.Reg3.lean ====
/-
  A tiled region with two accumulators. Grid point t holds rows 2000 t … 2000 t + 1999 of a layer's aggregate, of its
  transformed features and of D^(-1), and the bias row; it writes the same rows of  aggregate + features · D^(-1) + bias,
  and adds that block's column sums and column sums of squares into two one-row accumulators that are cleared at the
  first point and written back after the last. So the region leaves the whole array of activations, its column sums and its
  column sums of squares: the accumulators hold, after point n, the sums over the first (n + 1) · 2000 rows (by induction
  on the point), and 50 · 2000 is every row.
-/
import proofs.«123479_j22230750724231_2_alg».proof.Proof.Gen.KernelIdeal.Frame
import proofs.«123479_j22230750724231_2_alg».proof.Proof.RegSpec
import Idealize.ShloMosaic.Lib.Pipeline.Value
import Idealize.ShloMosaic.Lib.ValueIdx
import Idealize.ShloMosaic.Lib.ValueLayout
import Idealize.ShloMosaic.Lib.Tactic
import proofs.«123479_j22230750724231_2_alg».proof.Proof.GcnMath

set_option maxRecDepth 16384

noncomputable section

open scoped BigOperators

namespace Cert.KernelIdeal.Reg3

open Cert.KernelIdeal Cert.KernelIdeal.Gen Cert.RegSpec
open Idealize.ShloMosaic Idealize.ShloMosaic.TcCoe Idealize.ShloMosaic.ValueIdx Idealize.SL.Sem Idealize.ShloMosaic.Tactic
open Idealize.ShloMosaic.Pipeline (Dat)

variable {F : FTy → Type} [FloatOps F]

theorem hz2 : (![0, 0] : Fin 2 → Nat) = fun _ => 0 := funext fun a => by fin_cases a <;> rfl

theorem piece_B_4 (c : Dev nD) (i : grid3.Coords) (arg1 : Memref sig .tc .vmem S2000x256 .f32) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬cond3_0 i)
    (x0 : Vec F S2000x256 .f32) (x1 : Vec F S2000x256 .bf16) (x2 : Vec F S2000x1 .f32) (x3 : Vec F S1x256 .f32) (xo5 xo6 : Vec F S1x256 .f32) :
    out3_B_4 c i arg1 harg1 arg2 harg2 arg3 harg3 arg4 harg4 arg5 harg5 arg6 harg6 arg7 harg7 hc0 x0 x1 x2 x3 xo5 xo6 = k3_pay1 x1 x0 x2 x3 := by
  unfold out3_B_4
  rw [View.read_writes_eq_canon _ _ _ (cover3_B_4 c i arg1 harg1 arg2 harg2 arg3 harg3 arg4 harg4 arg5 harg5 arg6 harg6 arg7 harg7 hc0 x0 x1 x2 x3 xo5 xo6)]
  unfold kernelRun3_B
  dsimp only
  sl_unfold_words
  rw [View.canon_unit_zero hz2]
  simp only [View.readAt_eq_ld, harg1.read_unread, harg2.read_unread, harg3.read_unread, harg4.read_unread, harg6.read_unread, harg7.read_unread,
    View.ld_unit_zero (S := S2000x256) hz2, View.ld_unit_zero (S := S2000x1) hz2, View.ld_unit_zero (S := S1x256) hz2]

theorem piece_B_5 (c : Dev nD) (i : grid3.Coords) (arg1 : Memref sig .tc .vmem S2000x256 .f32) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬cond3_0 i)
    (x0 : Vec F S2000x256 .f32) (x1 : Vec F S2000x256 .bf16) (x2 : Vec F S2000x1 .f32) (x3 : Vec F S1x256 .f32) (xo5 xo6 : Vec F S1x256 .f32) :
    out3_B_5 c i arg1 harg1 arg2 harg2 arg3 harg3 arg4 harg4 arg5 harg5 arg6 harg6 arg7 harg7 hc0 x0 x1 x2 x3 xo5 xo6 = k3_pay4 x1 x0 x2 x3 xo5 := by
  unfold out3_B_5
  rw [View.read_writes_eq_canon _ _ _ (cover3_B_5 c i arg1 harg1 arg2 harg2 arg3 harg3 arg4 harg4 arg5 harg5 arg6 harg6 arg7 harg7 hc0 x0 x1 x2 x3 xo5 xo6)]
  unfold kernelRun3_B
  dsimp only
  sl_unfold_words
  rw [View.canon_unit_zero hz2]
  simp only [View.readAt_eq_ld, harg1.read_unread, harg2.read_unread, harg3.read_unread, harg4.read_unread, harg6.read_unread, harg7.read_unread,
    View.ld_unit_zero (S := S2000x256) hz2, View.ld_unit_zero (S := S2000x1) hz2, View.ld_unit_zero (S := S1x256) hz2]

theorem piece_B_6 (c : Dev nD) (i : grid3.Coords) (arg1 : Memref sig .tc .vmem S2000x256 .f32) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬cond3_0 i)
    (x0 : Vec F S2000x256 .f32) (x1 : Vec F S2000x256 .bf16) (x2 : Vec F S2000x1 .f32) (x3 : Vec F S1x256 .f32) (xo5 xo6 : Vec F S1x256 .f32) :
    out3_B_6 c i arg1 harg1 arg2 harg2 arg3 harg3 arg4 harg4 arg5 harg5 arg6 harg6 arg7 harg7 hc0 x0 x1 x2 x3 xo5 xo6 = k3_pay5 x1 x0 x2 x3 xo6 := by
  unfold out3_B_6
  rw [View.read_writes_eq_canon _ _ _ (cover3_B_6 c i arg1 harg1 arg2 harg2 arg3 harg3 arg4 harg4 arg5 harg5 arg6 harg6 arg7 harg7 hc0 x0 x1 x2 x3 xo5 xo6)]
  unfold kernelRun3_B
  dsimp only
  sl_unfold_words
  rw [View.canon_unit_zero hz2]
  simp only [View.readAt_eq_ld, harg1.read_unread, harg2.read_unread, harg3.read_unread, harg4.read_unread, harg6.read_unread, harg7.read_unread,
    View.ld_unit_zero (S := S2000x256) hz2, View.ld_unit_zero (S := S2000x1) hz2, View.ld_unit_zero (S := S1x256) hz2]

theorem piece_A_4 (c : Dev nD) (i : grid3.Coords) (arg1 : Memref sig .tc .vmem S2000x256 .f32) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : cond3_0 i)
    (x0 : Vec F S2000x256 .f32) (x1 : Vec F S2000x256 .bf16) (x2 : Vec F S2000x1 .f32) (x3 : Vec F S1x256 .f32) :
    out3_A_4 c i arg1 harg1 arg2 harg2 arg3 harg3 arg4 harg4 arg5 harg5 arg6 harg6 arg7 harg7 hc0 x0 x1 x2 x3 = k3_pay1 x1 x0 x2 x3 := by
  unfold out3_A_4
  rw [View.read_writes_eq_canon _ _ _ (cover3_A_4 c i arg1 harg1 arg2 harg2 arg3 harg3 arg4 harg4 arg5 harg5 arg6 harg6 arg7 harg7 hc0 x0 x1 x2 x3)]
  unfold kernelRun3_A
  dsimp only
  sl_unfold_words
  rw [View.canon_unit_zero hz2]
  simp only [View.readAt_eq_ld, harg1.read_unread, harg2.read_unread, harg3.read_unread, harg4.read_unread,
    View.ld_unit_zero (S := S2000x256) hz2, View.ld_unit_zero (S := S2000x1) hz2, View.ld_unit_zero (S := S1x256) hz2]

theorem piece_A_5 (c : Dev nD) (i : grid3.Coords) (arg1 : Memref sig .tc .vmem S2000x256 .f32) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : cond3_0 i)
    (x0 : Vec F S2000x256 .f32) (x1 : Vec F S2000x256 .bf16) (x2 : Vec F S2000x1 .f32) (x3 : Vec F S1x256 .f32) :
    out3_A_5 c i arg1 harg1 arg2 harg2 arg3 harg3 arg4 harg4 arg5 harg5 arg6 harg6 arg7 harg7 hc0 x0 x1 x2 x3 = k3_pay4 x1 x0 x2 x3 k3_pay2 := by
  unfold out3_A_5
  rw [View.read_writes_eq_canon _ _ _ (cover3_A_5 c i arg1 harg1 arg2 harg2 arg3 harg3 arg4 harg4 arg5 harg5 arg6 harg6 arg7 harg7 hc0 x0 x1 x2 x3)]
  unfold kernelRun3_A
  dsimp only
  sl_unfold_words
  rw [View.canon_cons_unit_zero (S := S1x256) hz2, View.readCov_unit_zero (S := S1x256) _ hz2]
  simp only [View.readAt_eq_ld, harg1.read_unread, harg2.read_unread, harg3.read_unread, harg4.read_unread,
    View.ld_unit_zero (S := S2000x256) hz2, View.ld_unit_zero (S := S2000x1) hz2, View.ld_unit_zero (S := S1x256) hz2]

theorem piece_A_6 (c : Dev nD) (i : grid3.Coords) (arg1 : Memref sig .tc .vmem S2000x256 .f32) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : cond3_0 i)
    (x0 : Vec F S2000x256 .f32) (x1 : Vec F S2000x256 .bf16) (x2 : Vec F S2000x1 .f32) (x3 : Vec F S1x256 .f32) :
    out3_A_6 c i arg1 harg1 arg2 harg2 arg3 harg3 arg4 harg4 arg5 harg5 arg6 harg6 arg7 harg7 hc0 x0 x1 x2 x3 = k3_pay5 x1 x0 x2 x3 k3_pay3 := by
  unfold out3_A_6
  rw [View.read_writes_eq_canon _ _ _ (cover3_A_6 c i arg1 harg1 arg2 harg2 arg3 harg3 arg4 harg4 arg5 harg5 arg6 harg6 arg7 harg7 hc0 x0 x1 x2 x3)]
  unfold kernelRun3_A
  dsimp only
  sl_unfold_words
  rw [View.canon_cons_unit_zero (S := S1x256) hz2, View.readCov_unit_zero (S := S1x256) _ hz2]
  simp only [View.readAt_eq_ld, harg1.read_unread, harg2.read_unread, harg3.read_unread, harg4.read_unread,
    View.ld_unit_zero (S := S2000x256) hz2, View.ld_unit_zero (S := S2000x1) hz2, View.ld_unit_zero (S := S1x256) hz2]

/-! ## The payloads at an entry, at the exact values -/

/-- A one-column table repeated across b columns reads, at (p, c), the table at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting coordinate k back on axis 0 of a column index g gives the entry (k, g). -/
theorem lift_axis0 {m n : Nat} (h : (⟨2, ![m, n]⟩ : Shape).Reduces [0] (⟨1, ![n]⟩ : Shape)) (g : Fin n)
    (k : Fin ((⟨2, ![m, n]⟩ : Shape).size 0)) : h.lift (ix1 g) k = ix2 (⟨k.val, k.isLt⟩ : Fin m) g := by
  funext c; apply Fin.ext
  fin_cases c <;> rfl

/-- One entry of the activations block: aggregate + features · D^(-1) + bias. -/
theorem pay1_apply (xw : FVec Ideal S2000x256 .bf16) (agg : FVec Ideal S2000x256 .f32) (d2 : FVec Ideal S2000x1 .f32)
    (b : FVec Ideal S1x256 .f32) (p : Fin 2000) (q : Fin 256) :
    k3_pay1 (F := Ideal) xw agg d2 b (ix2 p q) = agg (ix2 p q) + xw (ix2 p q) * d2 (ix2 p 0) + b (ix2 0 q) := by
  unfold k3_pay1
  simp only [shapeCast_self]
  simp only [addf_apply, mulf_apply, extf_apply, broadcastTo_1b_ab_apply, broadcastTo_a1_ab_apply]

/-- A column sum of a 2000-row block, laid out as a row, at (0, q). -/
theorem blockSum_apply (src : FVec Ideal S2000x256 .f32) (hφ : FKind.Formats .f32)
    (hacc : (0x00000000#32 : BitVec 32) = 0x00000000#32) (q : Fin 256) :
    shapeCast S1x256 (multiReduction .add [0] S256 src 0x00000000#32 reduces_S2000x256_S256 hφ hacc) shapeCasts_S256_S1x256 (ix2 0 q)
      = ∑ p : Fin 2000, src (ix2 p q) := by
  rw [shapeCast_a_1a_apply]
  refine (Ideal.multiReduction_add_single src 0x00000000#32 reduces_S2000x256_S256 hφ hacc (ix1 q)).trans ?_
  show (∑ k : Fin 2000, src (reduces_S2000x256_S256.lift (ix1 q) k)) = _
  exact Finset.sum_congr rfl fun k _ => congrArg src (lift_axis0 reduces_S2000x256_S256 q k)

/-- The running column sum after a block: what was there plus the block's column sum. -/
theorem pay4_apply (xw : FVec Ideal S2000x256 .bf16) (agg : FVec Ideal S2000x256 .f32) (d2 : FVec Ideal S2000x1 .f32)
    (b prev : FVec Ideal S1x256 .f32) (q : Fin 256) :
    k3_pay4 (F := Ideal) xw agg d2 b prev (ix2 0 q)
      = prev (ix2 0 q) + ∑ p : Fin 2000, k3_pay1 (F := Ideal) xw agg d2 b (ix2 p q) := by
  unfold k3_pay4
  simp only [shapeCast_self]
  rw [addf_apply]
  exact congrArg (prev (ix2 0 q) + ·) (blockSum_apply _ _ _ q)

/-- The running column sum of squares after a block. -/
theorem pay5_apply (xw : FVec Ideal S2000x256 .bf16) (agg : FVec Ideal S2000x256 .f32) (d2 : FVec Ideal S2000x1 .f32)
    (b prev : FVec Ideal S1x256 .f32) (q : Fin 256) :
    k3_pay5 (F := Ideal) xw agg d2 b prev (ix2 0 q)
      = prev (ix2 0 q) + ∑ p : Fin 2000, k3_pay1 (F := Ideal) xw agg d2 b (ix2 p q) * k3_pay1 (F := Ideal) xw agg d2 b (ix2 p q) := by
  unfold k3_pay5
  simp only [shapeCast_self]
  rw [addf_apply]
  exact congrArg (prev (ix2 0 q) + ·) (blockSum_apply _ _ _ q)

/-! ## The region's three outputs -/

section Ideal

variable (V : (c : Dev nD) → (b : Ref sig .tc) → Buf (Elt Ideal) ((c : Thread nD τ).loc b))

/-- The block indices over the grid: the row windows move with the point, the bias row and the two accumulators stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

theorem blk0_apply (c : Dev nD) (t : Fin cfg3.N) (p : Fin 2000) (q : Fin 256) (hp : t.val * 2000 + p.val < 100000) :
    iblk3 V c 0 t (ix2 p q) = V c (Pipeline.arrRef spec3 0) (ix2 (⟨t.val * 2000 + p.val, hp⟩ : Fin 100000) q) := by
  obtain ⟨e0, e1, -⟩ := idx_facts t
  show V c (Pipeline.arrRef spec3 0) (((cfg3.win 0).blk t).view.emb (ix2 p q)) = _
  refine congrArg _ ?_
  funext a; apply Fin.ext
  match a with
  | ⟨0, _⟩ => show win3_0.index t (0 : Fin 2) * 2000 + 1 * p.val = t.val * 2000 + p.val; rw [e0]; omega
  | ⟨1, _⟩ => show win3_0.index t (1 : Fin 2) * 256 + 1 * q.val = q.val; rw [e1]; omega
theorem blk1_apply (c : Dev nD) (t : Fin cfg3.N) (p : Fin 2000) (q : Fin 256) (hp : t.val * 2000 + p.val < 100000) :
    iblk3 V c 1 t (ix2 p q) = V c (Pipeline.arrRef spec3 1) (ix2 (⟨t.val * 2000 + p.val, hp⟩ : Fin 100000) q) := by
  obtain ⟨-, -, e0, e1, -⟩ := idx_facts t
  show V c (Pipeline.arrRef spec3 1) (((cfg3.win 1).blk t).view.emb (ix2 p q)) = _
  refine congrArg _ ?_
  funext a; apply Fin.ext
  match a with
  | ⟨0, _⟩ => show win3_1.index t (0 : Fin 2) * 2000 + 1 * p.val = t.val * 2000 + p.val; rw [e0]; omega
  | ⟨1, _⟩ => show win3_1.index t (1 : Fin 2) * 256 + 1 * q.val = q.val; rw [e1]; omega
theorem blk2_apply (c : Dev nD) (t : Fin cfg3.N) (p : Fin 2000) (hp : t.val * 2000 + p.val < 100000) :
    iblk3 V c 2 t (ix2 p (0 : Fin 1)) = V c (Pipeline.arrRef spec3 2) (ix2 (⟨t.val * 2000 + p.val, hp⟩ : Fin 100000) (0 : Fin 1)) := by
  obtain ⟨-, -, -, -, e0, e1, -⟩ := idx_facts t
  show V c (Pipeline.arrRef spec3 2) (((cfg3.win 2).blk t).view.emb (ix2 p (0 : Fin 1))) = _
  refine congrArg _ ?_
  funext a; apply Fin.ext
  match a with
  | ⟨0, _⟩ => show win3_2.index t (0 : Fin 2) * 2000 + 1 * p.val = t.val * 2000 + p.val; rw [e0]; omega
  | ⟨1, _⟩ => show win3_2.index t (1 : Fin 2) * 1 + 1 * 0 = 0; rw [e1]
theorem blk3_apply (c : Dev nD) (t : Fin cfg3.N) (q : Fin 256) :
    iblk3 V c 3 t (ix2 (0 : Fin 1) q) = V c (Pipeline.arrRef spec3 3) (ix2 (0 : Fin 1) q) := by
  obtain ⟨-, -, -, -, -, -, e0, e1, -⟩ := idx_facts t
  show V c (Pipeline.arrRef spec3 3) (((cfg3.win 3).blk t).view.emb (ix2 (0 : Fin 1) q)) = _
  refine congrArg _ ?_
  funext a; apply Fin.ext
  match a with
  | ⟨0, _⟩ => show win3_3.index t (0 : Fin 2) * 1 + 1 * 0 = 0; rw [e0]
  | ⟨1, _⟩ => show win3_3.index t (1 : Fin 2) * 256 + 1 * q.val = q.val; rw [e1]; omega

/-- The whole array of activations, from the arrays the region finds. -/
abbrev TOT (c : Dev nD) : S100000x256.Idx → EReal :=
  Gtot (n := 100000) (V c (Pipeline.arrRef spec3 0)) (V c (Pipeline.arrRef spec3 1)) (V c (Pipeline.arrRef spec3 2))
    (V c (Pipeline.arrRef spec3 3))

/-- Point t's block of activations. -/
abbrev T (c : Dev nD) (t : Fin cfg3.N) : FVec Ideal S2000x256 .f32 :=
  k3_pay1 (F := Ideal) (iblk3 V c 1 t) (iblk3 V c 0 t) (iblk3 V c 2 t) (iblk3 V c 3 t)

/-- Row p of point t's block is row 2000 t + p of the whole array. -/
theorem T_apply (c : Dev nD) (t : Fin cfg3.N) (p : Fin 2000) (q : Fin 256) (hp : t.val * 2000 + p.val < 100000) :
    T V c t (ix2 p q) = TOT V c (ix2 (⟨t.val * 2000 + p.val, hp⟩ : Fin 100000) q) := by
  show k3_pay1 (F := Ideal) (iblk3 V c 1 t) (iblk3 V c 0 t) (iblk3 V c 2 t) (iblk3 V c 3 t) (ix2 p q) = _
  rw [pay1_apply, blk0_apply V c t p q hp, blk1_apply V c t p q hp, blk2_apply V c t p hp, blk3_apply]
  exact (Gtot_apply (n := 100000) _ _ _ _ _ _).symm

set_option maxHeartbeats 2000000 in
/-- After every point the activations' staging buffer holds that point's block. -/
theorem outs_4 (c : Dev nD) (t : Fin cfg3.N) : (outsAt3 V c t.val t.isLt).1 = T V c t := by
  by_cases h0 : t.val % 50 = 0
  · rw [show outsAt3 V c t.val t.isLt = _ from outsAt3_A V c t h0]
    dsimp only
    rw [piece_A_4]
  · rw [show outsAt3 V c t.val t.isLt = _ from outsAt3_B V c t h0]
    dsimp only
    rw [piece_B_4]

end Ideal

section Ideal2

variable (V : (c : Dev nD) → (b : Ref sig .tc) → Buf (Elt Ideal) ((c : Thread nD τ).loc b))

/-! ### The activations themselves -/

theorem flushed4_eq (c : Dev nD) (t : Fin cfg3.N) :
    (dat3 V c).flushed 4 t = ((cfg3.win 4).blk t).view.read (Elt Ideal) (TOT V c) := by
  show (cfg3.win 4).cut (grid3.coords t) ((dat3 V c).after 4 t) = _
  rw [after3_4, outs_4]
  obtain ⟨-, -, -, -, -, -, -, -, e4, e5, -⟩ := idx_facts t
  have hN : cfg3.N = 50 := N_3
  have ht : t.val < 50 := hN ▸ t.isLt
  funext y
  obtain ⟨p, q, rfl⟩ : ∃ (p : Fin 2000) (q : Fin 256), y = ix2 p q := ⟨y 0, y 1, eq_ix2 y⟩
  have hp : t.val * 2000 + p.val < 100000 := by have := p.isLt; omega
  show T V c t (ix2 p q) = TOT V c (((cfg3.win 4).blk t).view.emb (ix2 p q))
  have hemb : ((cfg3.win 4).blk t).view.emb (ix2 p q) = ix2 (⟨t.val * 2000 + p.val, hp⟩ : Fin 100000) q := by
    funext a; apply Fin.ext
    match a with
    | ⟨0, _⟩ => show win3_4.index t (0 : Fin 2) * 2000 + 1 * p.val = t.val * 2000 + p.val; rw [e4]; omega
    | ⟨1, _⟩ => show win3_4.index t (1 : Fin 2) * 256 + 1 * q.val = q.val; rw [e5]; omega
  rw [hemb, T_apply V c t p q hp]

theorem mem_blk4 (t : Fin cfg3.N) (i : S100000x256.Idx) :
    i ∈ ((cfg3.win 4).blk t).view.set ↔ ∀ a : Fin 2, win3_4.index t a * S2000x256.size a ≤ (i a).val
      ∧ (i a).val < win3_4.index t a * S2000x256.size a + S2000x256.size a := by
  show i ∈ ((View.whole main_v68_0).slice (win3_4.rect t)).set ↔ _
  rw [View.set_slice_whole, Rect.mem_set_unit]
  exact Iff.rfl

/-- The region leaves the whole array of activations in its first result array. -/
theorem out4_eq (c : Dev nD) : (dat3 V c).arrAt 4 cfg3.N = TOT V c :=
  (dat3 V c).arrAt_eq_of_cover 4 _ (fun t _ => flushed4_eq V c t) fun i => by
    have h0 : (i 0).val < 100000 := idx2_lt0 i
    have h1 : (i 1).val < 256 := idx2_lt1 i
    let t : Fin cfg3.N := ⟨(i 0).val / 2000, by rw [show cfg3.N = 50 from N_3]; omega⟩
    have htv : t.val = (i 0).val / 2000 := rfl
    obtain ⟨-, -, -, -, -, -, -, -, e4, e5, -⟩ := idx_facts t
    refine ⟨t, flush3_4 t, ?_⟩
    rw [mem_blk4]
    intro a
    match a with
    | ⟨0, _⟩ =>
      show win3_4.index t (0 : Fin 2) * 2000 ≤ (i 0).val ∧ (i 0).val < win3_4.index t (0 : Fin 2) * 2000 + 2000
      rw [e4, htv]; omega
    | ⟨1, _⟩ =>
      show win3_4.index t (1 : Fin 2) * 256 ≤ (i 1).val ∧ (i 1).val < win3_4.index t (1 : Fin 2) * 256 + 256
      rw [e5]; omega

/-! ### The column sums, accumulated over the grid -/

/-- Column q of the whole array, entry by entry, as a sequence over the row number (zero past the last row). -/
def rowF (c : Dev nD) (q : Fin 256) : ℕ → EReal :=
  fun i => if h : i < 100000 then TOT V c (ix2 (⟨i, h⟩ : Fin 100000) q) else 0

/-- A block's column sum is the sum of the sequence over the block's run of rows. -/
theorem blockSum5_range (c : Dev nD) (t : Fin cfg3.N) (q : Fin 256) :
    (∑ p : Fin 2000, T V c t (ix2 p q)) = ∑ r ∈ Finset.range 2000, rowF V c q (t.val * 2000 + r) := by
  have hN : cfg3.N = 50 := N_3
  have ht : t.val < 50 := hN ▸ t.isLt
  rw [← Fin.sum_univ_eq_sum_range (fun r => rowF V c q (t.val * 2000 + r)) 2000]
  refine Finset.sum_congr rfl fun p _ => ?_
  have hp : t.val * 2000 + p.val < 100000 := by have := p.isLt; omega
  rw [T_apply V c t p q hp]
  unfold rowF
  rw [dif_pos hp]

/-- After point n the accumulator holds the sum over the first (n + 1) · 2000 rows: by induction on the point. -/
theorem outs5_eq (c : Dev nD) : ∀ (n : ℕ) (h : n < cfg3.N) (q : Fin 256),
    (outsAt3 V c n h).2.1 (ix2 (0 : Fin 1) q) = zero + ∑ i ∈ Finset.range ((n + 1) * 2000), rowF V c q i
  | 0, h, q => by
    rw [show outsAt3 V c 0 h = _ from outsAt3_A V c ⟨0, h⟩ rfl]
    dsimp only
    rw [piece_A_5, pay4_apply, blockSum5_range V c ⟨0, h⟩ q]
    show zero + ∑ r ∈ Finset.range 2000, rowF V c q (0 * 2000 + r) = zero + ∑ i ∈ Finset.range ((0 + 1) * 2000), rowF V c q i
    simp only [Nat.zero_mul, Nat.zero_add, Nat.one_mul]
  | n + 1, h, q => by
    have hN : cfg3.N = 50 := N_3
    have hB : ¬(⟨n + 1, h⟩ : Fin cfg3.N).val % 50 = 0 := by dsimp only; omega
    rw [show outsAt3 V c (n + 1) h = _ from outsAt3_B V c ⟨n + 1, h⟩ hB]
    dsimp only
    rw [piece_B_5, pay4_apply]
    show (outsAt3 V c n (Nat.lt_of_succ_lt h)).2.1 (ix2 (0 : Fin 1) q) + _ = _
    rw [outs5_eq c n (Nat.lt_of_succ_lt h) q, blockSum5_range V c ⟨n + 1, h⟩ q, add_assoc]
    exact congrArg (zero + ·) (Cert.GcnMath.sum_range_succ_block (rowF V c q) 2000 (n + 1)).symm

/-- The sequence summed over all 100000 rows is the column sum of the whole array. -/
theorem all5 (c : Dev nD) (q : Fin 256) :
    zero + ∑ i ∈ Finset.range ((49 + 1) * 2000), rowF V c q i = Gsum (TOT V c) (ix2 (0 : Fin 1) q) := by
  rw [show (49 + 1) * 2000 = 100000 from by norm_num]
  rw [show (zero : EReal) = 0 from Ideal.ofBits_zero_f32, zero_add, ← Fin.sum_univ_eq_sum_range (rowF V c q) 100000, Gsum_apply]
  exact Finset.sum_congr rfl fun a _ => dif_pos a.isLt

/-- The one write-back of the accumulator, after the last point, writes the whole column sums. -/
theorem flushed5_eq (c : Dev nD) (t : Fin cfg3.N) (hf : (cfg3.win 5).flush t = true) :
    (dat3 V c).flushed 5 t = ((cfg3.win 5).blk t).view.read (Elt Ideal) (Gsum (TOT V c)) := by
  have hN : cfg3.N = 50 := N_3
  have h49 : t.val = 49 := by have := (flush3_5 t).mp hf; have := t.isLt; omega
  show (cfg3.win 5).cut (grid3.coords t) ((dat3 V c).after 5 t) = _
  rw [after3_5]
  obtain ⟨-, -, -, -, -, -, -, -, -, -, e50, e51, e60, e61⟩ := idx_facts t
  funext y
  obtain ⟨z, q, rfl⟩ : ∃ (z : Fin 1) (q : Fin 256), y = ix2 z q := ⟨y 0, y 1, eq_ix2 y⟩
  obtain rfl : z = 0 := Subsingleton.elim _ _
  show (outsAt3 V c t.val t.isLt).2.1 (ix2 (0 : Fin 1) q)
    = Gsum (TOT V c) (((cfg3.win 5).blk t).view.emb (ix2 (0 : Fin 1) q))
  have hemb : ((cfg3.win 5).blk t).view.emb (ix2 (0 : Fin 1) q) = ix2 (0 : Fin 1) q := by
    funext a; apply Fin.ext
    match a with
    | ⟨0, _⟩ => show win3_5.index t (0 : Fin 2) * 1 + 1 * 0 = 0; rw [e50]
    | ⟨1, _⟩ => show win3_5.index t (1 : Fin 2) * 256 + 1 * q.val = q.val; rw [e51]; omega
  rw [hemb, outs5_eq V c t.val t.isLt q, h49]
  exact all5 V c q

theorem mem_blk5 (t : Fin cfg3.N) (i : S1x256.Idx) :
    i ∈ ((cfg3.win 5).blk t).view.set ↔ ∀ a : Fin 2, win3_5.index t a * S1x256.size a ≤ (i a).val
      ∧ (i a).val < win3_5.index t a * S1x256.size a + S1x256.size a := by
  show i ∈ ((View.whole main_v68_1).slice (win3_5.rect t)).set ↔ _
  rw [View.set_slice_whole, Rect.mem_set_unit]
  exact Iff.rfl

/-- The region leaves the whole column sums in the accumulator's array. -/
theorem out5_eq (c : Dev nD) : (dat3 V c).arrAt 5 cfg3.N = Gsum (TOT V c) :=
  (dat3 V c).arrAt_eq_of_cover 5 _ (flushed5_eq V c) fun i => by
    have h0 : (i 0).val < 1 := idx2_lt0 i
    have h1 : (i 1).val < 256 := idx2_lt1 i
    let t : Fin cfg3.N := ⟨49, by rw [show cfg3.N = 50 from N_3]; omega⟩
    obtain ⟨-, -, -, -, -, -, -, -, -, -, e50, e51, e60, e61⟩ := idx_facts t
    refine ⟨t, (flush3_5 t).mpr rfl, ?_⟩
    rw [mem_blk5]
    intro a
    match a with
    | ⟨0, _⟩ =>
      show win3_5.index t (0 : Fin 2) * 1 ≤ (i 0).val ∧ (i 0).val < win3_5.index t (0 : Fin 2) * 1 + 1
      rw [e50]; omega
    | ⟨1, _⟩ =>
      show win3_5.index t (1 : Fin 2) * 256 ≤ (i 1).val ∧ (i 1).val < win3_5.index t (1 : Fin 2) * 256 + 256
      rw [e51]; omega

/-! ### The column sums of squares, accumulated over the grid -/

/-- Column q of the whole array, squared entry by entry, as a sequence over the row number (zero past the last row). -/
def rowQ (c : Dev nD) (q : Fin 256) : ℕ → EReal :=
  fun i => if h : i < 100000 then TOT V c (ix2 (⟨i, h⟩ : Fin 100000) q) * TOT V c (ix2 (⟨i, h⟩ : Fin 100000) q) else 0

/-- A block's column sum is the sum of the sequence over the block's run of rows. -/
theorem blockSum6_range (c : Dev nD) (t : Fin cfg3.N) (q : Fin 256) :
    (∑ p : Fin 2000, T V c t (ix2 p q) * T V c t (ix2 p q)) = ∑ r ∈ Finset.range 2000, rowQ V c q (t.val * 2000 + r) := by
  have hN : cfg3.N = 50 := N_3
  have ht : t.val < 50 := hN ▸ t.isLt
  rw [← Fin.sum_univ_eq_sum_range (fun r => rowQ V c q (t.val * 2000 + r)) 2000]
  refine Finset.sum_congr rfl fun p _ => ?_
  have hp : t.val * 2000 + p.val < 100000 := by have := p.isLt; omega
  rw [T_apply V c t p q hp]
  unfold rowQ
  rw [dif_pos hp]

/-- After point n the accumulator holds the sum over the first (n + 1) · 2000 rows: by induction on the point. -/
theorem outs6_eq (c : Dev nD) : ∀ (n : ℕ) (h : n < cfg3.N) (q : Fin 256),
    (outsAt3 V c n h).2.2 (ix2 (0 : Fin 1) q) = zero + ∑ i ∈ Finset.range ((n + 1) * 2000), rowQ V c q i
  | 0, h, q => by
    rw [show outsAt3 V c 0 h = _ from outsAt3_A V c ⟨0, h⟩ rfl]
    dsimp only
    rw [piece_A_6, pay5_apply, blockSum6_range V c ⟨0, h⟩ q]
    show zero + ∑ r ∈ Finset.range 2000, rowQ V c q (0 * 2000 + r) = zero + ∑ i ∈ Finset.range ((0 + 1) * 2000), rowQ V c q i
    simp only [Nat.zero_mul, Nat.zero_add, Nat.one_mul]
  | n + 1, h, q => by
    have hN : cfg3.N = 50 := N_3
    have hB : ¬(⟨n + 1, h⟩ : Fin cfg3.N).val % 50 = 0 := by dsimp only; omega
    rw [show outsAt3 V c (n + 1) h = _ from outsAt3_B V c ⟨n + 1, h⟩ hB]
    dsimp only
    rw [piece_B_6, pay5_apply]
    show (outsAt3 V c n (Nat.lt_of_succ_lt h)).2.2 (ix2 (0 : Fin 1) q) + _ = _
    rw [outs6_eq c n (Nat.lt_of_succ_lt h) q, blockSum6_range V c ⟨n + 1, h⟩ q, add_assoc]
    exact congrArg (zero + ·) (Cert.GcnMath.sum_range_succ_block (rowQ V c q) 2000 (n + 1)).symm

/-- The sequence summed over all 100000 rows is the column sum of the whole array. -/
theorem all6 (c : Dev nD) (q : Fin 256) :
    zero + ∑ i ∈ Finset.range ((49 + 1) * 2000), rowQ V c q i = Gsq (TOT V c) (ix2 (0 : Fin 1) q) := by
  rw [show (49 + 1) * 2000 = 100000 from by norm_num]
  rw [show (zero : EReal) = 0 from Ideal.ofBits_zero_f32, zero_add, ← Fin.sum_univ_eq_sum_range (rowQ V c q) 100000, Gsq_apply]
  exact Finset.sum_congr rfl fun a _ => dif_pos a.isLt

/-- The one write-back of the accumulator, after the last point, writes the whole column sums. -/
theorem flushed6_eq (c : Dev nD) (t : Fin cfg3.N) (hf : (cfg3.win 6).flush t = true) :
    (dat3 V c).flushed 6 t = ((cfg3.win 6).blk t).view.read (Elt Ideal) (Gsq (TOT V c)) := by
  have hN : cfg3.N = 50 := N_3
  have h49 : t.val = 49 := by have := (flush3_6 t).mp hf; have := t.isLt; omega
  show (cfg3.win 6).cut (grid3.coords t) ((dat3 V c).after 6 t) = _
  rw [after3_6]
  obtain ⟨-, -, -, -, -, -, -, -, -, -, e50, e51, e60, e61⟩ := idx_facts t
  funext y
  obtain ⟨z, q, rfl⟩ : ∃ (z : Fin 1) (q : Fin 256), y = ix2 z q := ⟨y 0, y 1, eq_ix2 y⟩
  obtain rfl : z = 0 := Subsingleton.elim _ _
  show (outsAt3 V c t.val t.isLt).2.2 (ix2 (0 : Fin 1) q)
    = Gsq (TOT V c) (((cfg3.win 6).blk t).view.emb (ix2 (0 : Fin 1) q))
  have hemb : ((cfg3.win 6).blk t).view.emb (ix2 (0 : Fin 1) q) = ix2 (0 : Fin 1) q := by
    funext a; apply Fin.ext
    match a with
    | ⟨0, _⟩ => show win3_6.index t (0 : Fin 2) * 1 + 1 * 0 = 0; rw [e60]
    | ⟨1, _⟩ => show win3_6.index t (1 : Fin 2) * 256 + 1 * q.val = q.val; rw [e61]; omega
  rw [hemb, outs6_eq V c t.val t.isLt q, h49]
  exact all6 V c q

theorem mem_blk6 (t : Fin cfg3.N) (i : S1x256.Idx) :
    i ∈ ((cfg3.win 6).blk t).view.set ↔ ∀ a : Fin 2, win3_6.index t a * S1x256.size a ≤ (i a).val
      ∧ (i a).val < win3_6.index t a * S1x256.size a + S1x256.size a := by
  show i ∈ ((View.whole main_v68_2).slice (win3_6.rect t)).set ↔ _
  rw [View.set_slice_whole, Rect.mem_set_unit]
  exact Iff.rfl

/-- The region leaves the whole column sums in the accumulator's array. -/
theorem out6_eq (c : Dev nD) : (dat3 V c).arrAt 6 cfg3.N = Gsq (TOT V c) :=
  (dat3 V c).arrAt_eq_of_cover 6 _ (flushed6_eq V c) fun i => by
    have h0 : (i 0).val < 1 := idx2_lt0 i
    have h1 : (i 1).val < 256 := idx2_lt1 i
    let t : Fin cfg3.N := ⟨49, by rw [show cfg3.N = 50 from N_3]; omega⟩
    obtain ⟨-, -, -, -, -, -, -, -, -, -, e50, e51, e60, e61⟩ := idx_facts t
    refine ⟨t, (flush3_6 t).mpr rfl, ?_⟩
    rw [mem_blk6]
    intro a
    match a with
    | ⟨0, _⟩ =>
      show win3_6.index t (0 : Fin 2) * 1 ≤ (i 0).val ∧ (i 0).val < win3_6.index t (0 : Fin 2) * 1 + 1
      rw [e60]; omega
    | ⟨1, _⟩ =>
      show win3_6.index t (1 : Fin 2) * 256 ≤ (i 1).val ∧ (i 1).val < win3_6.index t (1 : Fin 2) * 256 + 256
      rw [e61]; omega

end Ideal2

end Cert.KernelIdeal.Reg3

end
-- ==== Proof.Reg4.lean ====
/-
  A fused tiled region: normalise, scale, shift and rectify 2000 rows of the previous layer's activations, then multiply
  them by the whole next weight matrix. Grid point t holds rows 2000 t … 2000 t + 1999; every row is in exactly one block, so
  the region leaves the whole product (normalised activations) · W.
-/
import proofs.«123479_j22230750724231_2_alg».proof.Proof.Gen.KernelIdeal.Frame
import proofs.«123479_j22230750724231_2_alg».proof.Proof.RegSpec
import proofs.«123479_j22230750724231_2_alg».proof.Proof.LibMatmul
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Reg4

open Cert.KernelIdeal Cert.KernelIdeal.Gen Cert.RegSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- One entry of the block the body stores: a row of normalised activations against a column of the weights. -/
theorem pay_apply (x0 : FVec Ideal S2000x256 .f32) (xv xm xg xb : FVec Ideal S1x256 .f32) (xw : FVec Ideal S256x256 .f32)
    (p : Fin 2000) (q : Fin 256) :
    k4_pay1 (F := Ideal) x0 xv xm xg xb xw (ix2 p q)
      = ∑ c : Fin 256, bnF (x0 (ix2 p c)) (xm (ix2 0 c)) (xv (ix2 0 c)) (xg (ix2 0 c)) (xb (ix2 0 c)) * xw (ix2 c q) := by
  unfold k4_pay1
  simp only [shapeCast_self]
  refine (Cert.LibMatmul.matmul_plain_zero_apply (M := 2000) (K := 256) (N := 256) none _ _ p q).trans ?_
  refine Finset.sum_congr rfl fun c _ => ?_
  simp only [truncf_apply, maximumf_apply, addf_apply, mulf_apply, subf_apply, broadcast_apply, broadcastTo_1b_ab_apply]
  rfl

/-- The block indices over the grid: the row windows move with the point, the others stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Row p of point t's block of the activations is row 2000 t + p. -/
theorem blk0_apply (c : Dev nD) (t : Fin cfg4.N) (p : Fin 2000) (q : Fin 256) (hp : t.val * 2000 + p.val < 100000) :
    iblk4 V c 0 t (ix2 p q) = V c (Pipeline.arrRef spec4 0) (ix2 (⟨t.val * 2000 + p.val, hp⟩ : Fin 100000) q) := by
  obtain ⟨e0, e1, -⟩ := idx_facts t
  show V c (Pipeline.arrRef spec4 0) (((cfg4.win 0).blk t).view.emb (ix2 p q)) = _
  refine congrArg _ ?_
  funext a; apply Fin.ext
  match a with
  | ⟨0, _⟩ => show win4_0.index t (0 : Fin 2) * 2000 + 1 * p.val = t.val * 2000 + p.val; rw [e0]; omega
  | ⟨1, _⟩ => show win4_0.index t (1 : Fin 2) * 256 + 1 * q.val = q.val; rw [e1]; omega

/-- Every point's block of a one-row window is the whole row. -/
theorem blk1_apply (c : Dev nD) (t : Fin cfg4.N) (q : Fin 256) :
    iblk4 V c 1 t (ix2 (0 : Fin 1) q) = V c (Pipeline.arrRef spec4 1) (ix2 (0 : Fin 1) q) := by
  obtain ⟨-, -, e2, e3, -⟩ := idx_facts t
  show V c (Pipeline.arrRef spec4 1) (((cfg4.win 1).blk t).view.emb (ix2 (0 : Fin 1) q)) = _
  refine congrArg _ ?_
  funext a; apply Fin.ext
  match a with
  | ⟨0, _⟩ => show win4_1.index t (0 : Fin 2) * 1 + 1 * 0 = 0; rw [e2]
  | ⟨1, _⟩ => show win4_1.index t (1 : Fin 2) * 256 + 1 * q.val = q.val; rw [e3]; omega
theorem blk2_apply (c : Dev nD) (t : Fin cfg4.N) (q : Fin 256) :
    iblk4 V c 2 t (ix2 (0 : Fin 1) q) = V c (Pipeline.arrRef spec4 2) (ix2 (0 : Fin 1) q) := by
  obtain ⟨-, -, -, -, e2, e3, -⟩ := idx_facts t
  show V c (Pipeline.arrRef spec4 2) (((cfg4.win 2).blk t).view.emb (ix2 (0 : Fin 1) q)) = _
  refine congrArg _ ?_
  funext a; apply Fin.ext
  match a with
  | ⟨0, _⟩ => show win4_2.index t (0 : Fin 2) * 1 + 1 * 0 = 0; rw [e2]
  | ⟨1, _⟩ => show win4_2.index t (1 : Fin 2) * 256 + 1 * q.val = q.val; rw [e3]; omega
theorem blk3_apply (c : Dev nD) (t : Fin cfg4.N) (q : Fin 256) :
    iblk4 V c 3 t (ix2 (0 : Fin 1) q) = V c (Pipeline.arrRef spec4 3) (ix2 (0 : Fin 1) q) := by
  obtain ⟨-, -, -, -, -, -, e2, e3, -⟩ := idx_facts t
  show V c (Pipeline.arrRef spec4 3) (((cfg4.win 3).blk t).view.emb (ix2 (0 : Fin 1) q)) = _
  refine congrArg _ ?_
  funext a; apply Fin.ext
  match a with
  | ⟨0, _⟩ => show win4_3.index t (0 : Fin 2) * 1 + 1 * 0 = 0; rw [e2]
  | ⟨1, _⟩ => show win4_3.index t (1 : Fin 2) * 256 + 1 * q.val = q.val; rw [e3]; omega
theorem blk4_apply (c : Dev nD) (t : Fin cfg4.N) (q : Fin 256) :
    iblk4 V c 4 t (ix2 (0 : Fin 1) q) = V c (Pipeline.arrRef spec4 4) (ix2 (0 : Fin 1) q) := by
  obtain ⟨-, -, -, -, -, -, -, -, e2, e3, -⟩ := idx_facts t
  show V c (Pipeline.arrRef spec4 4) (((cfg4.win 4).blk t).view.emb (ix2 (0 : Fin 1) q)) = _
  refine congrArg _ ?_
  funext a; apply Fin.ext
  match a with
  | ⟨0, _⟩ => show win4_4.index t (0 : Fin 2) * 1 + 1 * 0 = 0; rw [e2]
  | ⟨1, _⟩ => show win4_4.index t (1 : Fin 2) * 256 + 1 * q.val = q.val; rw [e3]; omega

/-- Every point's block of the weights is the whole weight matrix. -/
theorem blk5_apply (c : Dev nD) (t : Fin cfg4.N) (k : Fin 256) (q : Fin 256) :
    iblk4 V c 5 t (ix2 k q) = V c (Pipeline.arrRef spec4 5) (ix2 k q) := by
  obtain ⟨-, -, -, -, -, -, -, -, -, -, e2, e3, -⟩ := idx_facts t
  show V c (Pipeline.arrRef spec4 5) (((cfg4.win 5).blk t).view.emb (ix2 k q)) = _
  refine congrArg _ ?_
  funext a; apply Fin.ext
  match a with
  | ⟨0, _⟩ => show win4_5.index t (0 : Fin 2) * 256 + 1 * k.val = k.val; rw [e2]; omega
  | ⟨1, _⟩ => show win4_5.index t (1 : Fin 2) * 256 + 1 * q.val = q.val; rw [e3]; omega

/-- The whole product, from the arrays the region finds. -/
abbrev G (c : Dev nD) : S100000x256.Idx → EReal :=
  Gmm (Gbn (n := 100000) (V c (Pipeline.arrRef spec4 0)) (V c (Pipeline.arrRef spec4 1)) (V c (Pipeline.arrRef spec4 2))
    (V c (Pipeline.arrRef spec4 3)) (V c (Pipeline.arrRef spec4 4))) (V c (Pipeline.arrRef spec4 5))

set_option maxHeartbeats 2000000 in
theorem flushed_eq (c : Dev nD) (t : Fin cfg4.N) :
    (dat4 V c).flushed 6 t = ((cfg4.win 6).blk t).view.read (Elt Ideal) (G V c) := by
  show (cfg4.win 6).cut (grid4.coords t) ((dat4 V c).after 6 t) = _
  rw [after4_6]
  unfold out4_6
  rw [View.canon_unit_zero hz2]
  simp only [View.ld_unit_zero (S := S2000x256) hz2, View.ld_unit_zero (S := S1x256) hz2, View.ld_unit_zero (S := S256x256) hz2]
  obtain ⟨-, -, -, -, -, -, -, -, -, -, -, -, e4, e5⟩ := idx_facts t
  have hN : cfg4.N = 50 := N_4
  have ht : t.val < 50 := hN ▸ t.isLt
  funext y
  obtain ⟨p, q, rfl⟩ : ∃ (p : Fin 2000) (q : Fin 256), y = ix2 p q := ⟨y 0, y 1, eq_ix2 y⟩
  have hp : t.val * 2000 + p.val < 100000 := by have := p.isLt; omega
  show k4_pay1 (iblk4 V c 0 t) (iblk4 V c 2 t) (iblk4 V c 1 t) (iblk4 V c 3 t) (iblk4 V c 4 t) (iblk4 V c 5 t) (ix2 p q)
    = G V c (((cfg4.win 6).blk t).view.emb (ix2 p q))
  have hemb : ((cfg4.win 6).blk t).view.emb (ix2 p q) = ix2 (⟨t.val * 2000 + p.val, hp⟩ : Fin 100000) q := by
    funext a; apply Fin.ext
    match a with
    | ⟨0, _⟩ => show win4_6.index t (0 : Fin 2) * 2000 + 1 * p.val = t.val * 2000 + p.val; rw [e4]; omega
    | ⟨1, _⟩ => show win4_6.index t (1 : Fin 2) * 256 + 1 * q.val = q.val; rw [e5]; omega
  rw [pay_apply, hemb]
  refine Eq.trans ?_ (Gmm_apply _ _ _ _).symm
  refine Finset.sum_congr rfl fun k _ => ?_
  rw [blk0_apply V c t p k hp, blk1_apply, blk2_apply, blk3_apply, blk4_apply, blk5_apply, Gbn_apply]

/-- An entry is in point t's block exactly when its row lies in t's run of 2000 rows. -/
theorem mem_blk (t : Fin cfg4.N) (i : S100000x256.Idx) :
    i ∈ ((cfg4.win 6).blk t).view.set ↔ ∀ a : Fin 2, win4_6.index t a * S2000x256.size a ≤ (i a).val
      ∧ (i a).val < win4_6.index t a * S2000x256.size a + S2000x256.size a := by
  show i ∈ ((View.whole main_v77).slice (win4_6.rect t)).set ↔ _
  rw [View.set_slice_whole, Rect.mem_set_unit]
  exact Iff.rfl

/-- The region leaves the whole product in its result array. -/
theorem out_eq (c : Dev nD) : (dat4 V c).arrAt 6 cfg4.N = G V c :=
  (dat4 V c).arrAt_eq_of_cover 6 _ (fun t _ => flushed_eq V c t) fun i => by
    have h0 : (i 0).val < 100000 := idx2_lt0 i
    have h1 : (i 1).val < 256 := idx2_lt1 i
    let t : Fin cfg4.N := ⟨(i 0).val / 2000, by rw [show cfg4.N = 50 from N_4]; omega⟩
    have htv : t.val = (i 0).val / 2000 := rfl
    obtain ⟨-, -, -, -, -, -, -, -, -, -, -, -, e4, e5⟩ := idx_facts t
    refine ⟨t, flush4_6 t, ?_⟩
    rw [mem_blk]
    intro a
    match a with
    | ⟨0, _⟩ =>
      show win4_6.index t (0 : Fin 2) * 2000 ≤ (i 0).val ∧ (i 0).val < win4_6.index t (0 : Fin 2) * 2000 + 2000
      rw [e4, htv]; omega
    | ⟨1, _⟩ =>
      show win4_6.index t (1 : Fin 2) * 256 ≤ (i 1).val ∧ (i 1).val < win4_6.index t (1 : Fin 2) * 256 + 256
      rw [e5]; omega

end Cert.KernelIdeal.Reg4

end
-- ==== Proof.Reg5.lean ====
/-
  A tiled region with two accumulators. Grid point t holds rows 2000 t … 2000 t + 1999 of a layer's aggregate, of its
  transformed features and of D^(-1), and the bias row; it writes the same rows of  aggregate + features · D^(-1) + bias,
  and adds that block's column sums and column sums of squares into two one-row accumulators that are cleared at the
  first point and written back after the last. So the region leaves the whole array of activations, its column sums and its
  column sums of squares: the accumulators hold, after point n, the sums over the first (n + 1) · 2000 rows (by induction
  on the point), and 50 · 2000 is every row.
-/
import proofs.«123479_j22230750724231_2_alg».proof.Proof.Gen.KernelIdeal.Frame
import proofs.«123479_j22230750724231_2_alg».proof.Proof.RegSpec
import Idealize.ShloMosaic.Lib.Pipeline.Value
import Idealize.ShloMosaic.Lib.ValueIdx
import Idealize.ShloMosaic.Lib.ValueLayout
import Idealize.ShloMosaic.Lib.Tactic
import proofs.«123479_j22230750724231_2_alg».proof.Proof.GcnMath

set_option maxRecDepth 16384

noncomputable section

open scoped BigOperators

namespace Cert.KernelIdeal.Reg5

open Cert.KernelIdeal Cert.KernelIdeal.Gen Cert.RegSpec
open Idealize.ShloMosaic Idealize.ShloMosaic.TcCoe Idealize.ShloMosaic.ValueIdx Idealize.SL.Sem Idealize.ShloMosaic.Tactic
open Idealize.ShloMosaic.Pipeline (Dat)

variable {F : FTy → Type} [FloatOps F]

theorem hz2 : (![0, 0] : Fin 2 → Nat) = fun _ => 0 := funext fun a => by fin_cases a <;> rfl

theorem piece_B_4 (c : Dev nD) (i : grid5.Coords) (arg1 : Memref sig .tc .vmem S2000x256 .f32) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬cond5_0 i)
    (x0 : Vec F S2000x256 .f32) (x1 : Vec F S2000x256 .bf16) (x2 : Vec F S2000x1 .f32) (x3 : Vec F S1x256 .f32) (xo5 xo6 : Vec F S1x256 .f32) :
    out5_B_4 c i arg1 harg1 arg2 harg2 arg3 harg3 arg4 harg4 arg5 harg5 arg6 harg6 arg7 harg7 hc0 x0 x1 x2 x3 xo5 xo6 = k5_pay1 x1 x0 x2 x3 := by
  unfold out5_B_4
  rw [View.read_writes_eq_canon _ _ _ (cover5_B_4 c i arg1 harg1 arg2 harg2 arg3 harg3 arg4 harg4 arg5 harg5 arg6 harg6 arg7 harg7 hc0 x0 x1 x2 x3 xo5 xo6)]
  unfold kernelRun5_B
  dsimp only
  sl_unfold_words
  rw [View.canon_unit_zero hz2]
  simp only [View.readAt_eq_ld, harg1.read_unread, harg2.read_unread, harg3.read_unread, harg4.read_unread, harg6.read_unread, harg7.read_unread,
    View.ld_unit_zero (S := S2000x256) hz2, View.ld_unit_zero (S := S2000x1) hz2, View.ld_unit_zero (S := S1x256) hz2]

theorem piece_B_5 (c : Dev nD) (i : grid5.Coords) (arg1 : Memref sig .tc .vmem S2000x256 .f32) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬cond5_0 i)
    (x0 : Vec F S2000x256 .f32) (x1 : Vec F S2000x256 .bf16) (x2 : Vec F S2000x1 .f32) (x3 : Vec F S1x256 .f32) (xo5 xo6 : Vec F S1x256 .f32) :
    out5_B_5 c i arg1 harg1 arg2 harg2 arg3 harg3 arg4 harg4 arg5 harg5 arg6 harg6 arg7 harg7 hc0 x0 x1 x2 x3 xo5 xo6 = k5_pay4 x1 x0 x2 x3 xo5 := by
  unfold out5_B_5
  rw [View.read_writes_eq_canon _ _ _ (cover5_B_5 c i arg1 harg1 arg2 harg2 arg3 harg3 arg4 harg4 arg5 harg5 arg6 harg6 arg7 harg7 hc0 x0 x1 x2 x3 xo5 xo6)]
  unfold kernelRun5_B
  dsimp only
  sl_unfold_words
  rw [View.canon_unit_zero hz2]
  simp only [View.readAt_eq_ld, harg1.read_unread, harg2.read_unread, harg3.read_unread, harg4.read_unread, harg6.read_unread, harg7.read_unread,
    View.ld_unit_zero (S := S2000x256) hz2, View.ld_unit_zero (S := S2000x1) hz2, View.ld_unit_zero (S := S1x256) hz2]

theorem piece_B_6 (c : Dev nD) (i : grid5.Coords) (arg1 : Memref sig .tc .vmem S2000x256 .f32) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : ¬cond5_0 i)
    (x0 : Vec F S2000x256 .f32) (x1 : Vec F S2000x256 .bf16) (x2 : Vec F S2000x1 .f32) (x3 : Vec F S1x256 .f32) (xo5 xo6 : Vec F S1x256 .f32) :
    out5_B_6 c i arg1 harg1 arg2 harg2 arg3 harg3 arg4 harg4 arg5 harg5 arg6 harg6 arg7 harg7 hc0 x0 x1 x2 x3 xo5 xo6 = k5_pay5 x1 x0 x2 x3 xo6 := by
  unfold out5_B_6
  rw [View.read_writes_eq_canon _ _ _ (cover5_B_6 c i arg1 harg1 arg2 harg2 arg3 harg3 arg4 harg4 arg5 harg5 arg6 harg6 arg7 harg7 hc0 x0 x1 x2 x3 xo5 xo6)]
  unfold kernelRun5_B
  dsimp only
  sl_unfold_words
  rw [View.canon_unit_zero hz2]
  simp only [View.readAt_eq_ld, harg1.read_unread, harg2.read_unread, harg3.read_unread, harg4.read_unread, harg6.read_unread, harg7.read_unread,
    View.ld_unit_zero (S := S2000x256) hz2, View.ld_unit_zero (S := S2000x1) hz2, View.ld_unit_zero (S := S1x256) hz2]

theorem piece_A_4 (c : Dev nD) (i : grid5.Coords) (arg1 : Memref sig .tc .vmem S2000x256 .f32) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : cond5_0 i)
    (x0 : Vec F S2000x256 .f32) (x1 : Vec F S2000x256 .bf16) (x2 : Vec F S2000x1 .f32) (x3 : Vec F S1x256 .f32) :
    out5_A_4 c i arg1 harg1 arg2 harg2 arg3 harg3 arg4 harg4 arg5 harg5 arg6 harg6 arg7 harg7 hc0 x0 x1 x2 x3 = k5_pay1 x1 x0 x2 x3 := by
  unfold out5_A_4
  rw [View.read_writes_eq_canon _ _ _ (cover5_A_4 c i arg1 harg1 arg2 harg2 arg3 harg3 arg4 harg4 arg5 harg5 arg6 harg6 arg7 harg7 hc0 x0 x1 x2 x3)]
  unfold kernelRun5_A
  dsimp only
  sl_unfold_words
  rw [View.canon_unit_zero hz2]
  simp only [View.readAt_eq_ld, harg1.read_unread, harg2.read_unread, harg3.read_unread, harg4.read_unread,
    View.ld_unit_zero (S := S2000x256) hz2, View.ld_unit_zero (S := S2000x1) hz2, View.ld_unit_zero (S := S1x256) hz2]

theorem piece_A_5 (c : Dev nD) (i : grid5.Coords) (arg1 : Memref sig .tc .vmem S2000x256 .f32) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : cond5_0 i)
    (x0 : Vec F S2000x256 .f32) (x1 : Vec F S2000x256 .bf16) (x2 : Vec F S2000x1 .f32) (x3 : Vec F S1x256 .f32) :
    out5_A_5 c i arg1 harg1 arg2 harg2 arg3 harg3 arg4 harg4 arg5 harg5 arg6 harg6 arg7 harg7 hc0 x0 x1 x2 x3 = k5_pay4 x1 x0 x2 x3 k5_pay2 := by
  unfold out5_A_5
  rw [View.read_writes_eq_canon _ _ _ (cover5_A_5 c i arg1 harg1 arg2 harg2 arg3 harg3 arg4 harg4 arg5 harg5 arg6 harg6 arg7 harg7 hc0 x0 x1 x2 x3)]
  unfold kernelRun5_A
  dsimp only
  sl_unfold_words
  rw [View.canon_cons_unit_zero (S := S1x256) hz2, View.readCov_unit_zero (S := S1x256) _ hz2]
  simp only [View.readAt_eq_ld, harg1.read_unread, harg2.read_unread, harg3.read_unread, harg4.read_unread,
    View.ld_unit_zero (S := S2000x256) hz2, View.ld_unit_zero (S := S2000x1) hz2, View.ld_unit_zero (S := S1x256) hz2]

theorem piece_A_6 (c : Dev nD) (i : grid5.Coords) (arg1 : Memref sig .tc .vmem S2000x256 .f32) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S1x256 .f32) (harg6 : arg6.IsWhole) (arg7 : Memref sig .tc .vmem S1x256 .f32) (harg7 : arg7.IsWhole) (hc0 : cond5_0 i)
    (x0 : Vec F S2000x256 .f32) (x1 : Vec F S2000x256 .bf16) (x2 : Vec F S2000x1 .f32) (x3 : Vec F S1x256 .f32) :
    out5_A_6 c i arg1 harg1 arg2 harg2 arg3 harg3 arg4 harg4 arg5 harg5 arg6 harg6 arg7 harg7 hc0 x0 x1 x2 x3 = k5_pay5 x1 x0 x2 x3 k5_pay3 := by
  unfold out5_A_6
  rw [View.read_writes_eq_canon _ _ _ (cover5_A_6 c i arg1 harg1 arg2 harg2 arg3 harg3 arg4 harg4 arg5 harg5 arg6 harg6 arg7 harg7 hc0 x0 x1 x2 x3)]
  unfold kernelRun5_A
  dsimp only
  sl_unfold_words
  rw [View.canon_cons_unit_zero (S := S1x256) hz2, View.readCov_unit_zero (S := S1x256) _ hz2]
  simp only [View.readAt_eq_ld, harg1.read_unread, harg2.read_unread, harg3.read_unread, harg4.read_unread,
    View.ld_unit_zero (S := S2000x256) hz2, View.ld_unit_zero (S := S2000x1) hz2, View.ld_unit_zero (S := S1x256) hz2]

/-! ## The payloads at an entry, at the exact values -/

/-- A one-column table repeated across b columns reads, at (p, c), the table at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting coordinate k back on axis 0 of a column index g gives the entry (k, g). -/
theorem lift_axis0 {m n : Nat} (h : (⟨2, ![m, n]⟩ : Shape).Reduces [0] (⟨1, ![n]⟩ : Shape)) (g : Fin n)
    (k : Fin ((⟨2, ![m, n]⟩ : Shape).size 0)) : h.lift (ix1 g) k = ix2 (⟨k.val, k.isLt⟩ : Fin m) g := by
  funext c; apply Fin.ext
  fin_cases c <;> rfl

/-- One entry of the activations block: aggregate + features · D^(-1) + bias. -/
theorem pay1_apply (xw : FVec Ideal S2000x256 .bf16) (agg : FVec Ideal S2000x256 .f32) (d2 : FVec Ideal S2000x1 .f32)
    (b : FVec Ideal S1x256 .f32) (p : Fin 2000) (q : Fin 256) :
    k5_pay1 (F := Ideal) xw agg d2 b (ix2 p q) = agg (ix2 p q) + xw (ix2 p q) * d2 (ix2 p 0) + b (ix2 0 q) := by
  unfold k5_pay1
  simp only [shapeCast_self]
  simp only [addf_apply, mulf_apply, extf_apply, broadcastTo_1b_ab_apply, broadcastTo_a1_ab_apply]

/-- A column sum of a 2000-row block, laid out as a row, at (0, q). -/
theorem blockSum_apply (src : FVec Ideal S2000x256 .f32) (hφ : FKind.Formats .f32)
    (hacc : (0x00000000#32 : BitVec 32) = 0x00000000#32) (q : Fin 256) :
    shapeCast S1x256 (multiReduction .add [0] S256 src 0x00000000#32 reduces_S2000x256_S256 hφ hacc) shapeCasts_S256_S1x256 (ix2 0 q)
      = ∑ p : Fin 2000, src (ix2 p q) := by
  rw [shapeCast_a_1a_apply]
  refine (Ideal.multiReduction_add_single src 0x00000000#32 reduces_S2000x256_S256 hφ hacc (ix1 q)).trans ?_
  show (∑ k : Fin 2000, src (reduces_S2000x256_S256.lift (ix1 q) k)) = _
  exact Finset.sum_congr rfl fun k _ => congrArg src (lift_axis0 reduces_S2000x256_S256 q k)

/-- The running column sum after a block: what was there plus the block's column sum. -/
theorem pay4_apply (xw : FVec Ideal S2000x256 .bf16) (agg : FVec Ideal S2000x256 .f32) (d2 : FVec Ideal S2000x1 .f32)
    (b prev : FVec Ideal S1x256 .f32) (q : Fin 256) :
    k5_pay4 (F := Ideal) xw agg d2 b prev (ix2 0 q)
      = prev (ix2 0 q) + ∑ p : Fin 2000, k5_pay1 (F := Ideal) xw agg d2 b (ix2 p q) := by
  unfold k5_pay4
  simp only [shapeCast_self]
  rw [addf_apply]
  exact congrArg (prev (ix2 0 q) + ·) (blockSum_apply _ _ _ q)

/-- The running column sum of squares after a block. -/
theorem pay5_apply (xw : FVec Ideal S2000x256 .bf16) (agg : FVec Ideal S2000x256 .f32) (d2 : FVec Ideal S2000x1 .f32)
    (b prev : FVec Ideal S1x256 .f32) (q : Fin 256) :
    k5_pay5 (F := Ideal) xw agg d2 b prev (ix2 0 q)
      = prev (ix2 0 q) + ∑ p : Fin 2000, k5_pay1 (F := Ideal) xw agg d2 b (ix2 p q) * k5_pay1 (F := Ideal) xw agg d2 b (ix2 p q) := by
  unfold k5_pay5
  simp only [shapeCast_self]
  rw [addf_apply]
  exact congrArg (prev (ix2 0 q) + ·) (blockSum_apply _ _ _ q)

/-! ## The region's three outputs -/

section Ideal

variable (V : (c : Dev nD) → (b : Ref sig .tc) → Buf (Elt Ideal) ((c : Thread nD τ).loc b))

/-- The block indices over the grid: the row windows move with the point, the bias row and the two accumulators stay. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0 :=
  (by decide +kernel : ∀ t : Fin grid5.N, _)

theorem blk0_apply (c : Dev nD) (t : Fin cfg5.N) (p : Fin 2000) (q : Fin 256) (hp : t.val * 2000 + p.val < 100000) :
    iblk5 V c 0 t (ix2 p q) = V c (Pipeline.arrRef spec5 0) (ix2 (⟨t.val * 2000 + p.val, hp⟩ : Fin 100000) q) := by
  obtain ⟨e0, e1, -⟩ := idx_facts t
  show V c (Pipeline.arrRef spec5 0) (((cfg5.win 0).blk t).view.emb (ix2 p q)) = _
  refine congrArg _ ?_
  funext a; apply Fin.ext
  match a with
  | ⟨0, _⟩ => show win5_0.index t (0 : Fin 2) * 2000 + 1 * p.val = t.val * 2000 + p.val; rw [e0]; omega
  | ⟨1, _⟩ => show win5_0.index t (1 : Fin 2) * 256 + 1 * q.val = q.val; rw [e1]; omega
theorem blk1_apply (c : Dev nD) (t : Fin cfg5.N) (p : Fin 2000) (q : Fin 256) (hp : t.val * 2000 + p.val < 100000) :
    iblk5 V c 1 t (ix2 p q) = V c (Pipeline.arrRef spec5 1) (ix2 (⟨t.val * 2000 + p.val, hp⟩ : Fin 100000) q) := by
  obtain ⟨-, -, e0, e1, -⟩ := idx_facts t
  show V c (Pipeline.arrRef spec5 1) (((cfg5.win 1).blk t).view.emb (ix2 p q)) = _
  refine congrArg _ ?_
  funext a; apply Fin.ext
  match a with
  | ⟨0, _⟩ => show win5_1.index t (0 : Fin 2) * 2000 + 1 * p.val = t.val * 2000 + p.val; rw [e0]; omega
  | ⟨1, _⟩ => show win5_1.index t (1 : Fin 2) * 256 + 1 * q.val = q.val; rw [e1]; omega
theorem blk2_apply (c : Dev nD) (t : Fin cfg5.N) (p : Fin 2000) (hp : t.val * 2000 + p.val < 100000) :
    iblk5 V c 2 t (ix2 p (0 : Fin 1)) = V c (Pipeline.arrRef spec5 2) (ix2 (⟨t.val * 2000 + p.val, hp⟩ : Fin 100000) (0 : Fin 1)) := by
  obtain ⟨-, -, -, -, e0, e1, -⟩ := idx_facts t
  show V c (Pipeline.arrRef spec5 2) (((cfg5.win 2).blk t).view.emb (ix2 p (0 : Fin 1))) = _
  refine congrArg _ ?_
  funext a; apply Fin.ext
  match a with
  | ⟨0, _⟩ => show win5_2.index t (0 : Fin 2) * 2000 + 1 * p.val = t.val * 2000 + p.val; rw [e0]; omega
  | ⟨1, _⟩ => show win5_2.index t (1 : Fin 2) * 1 + 1 * 0 = 0; rw [e1]
theorem blk3_apply (c : Dev nD) (t : Fin cfg5.N) (q : Fin 256) :
    iblk5 V c 3 t (ix2 (0 : Fin 1) q) = V c (Pipeline.arrRef spec5 3) (ix2 (0 : Fin 1) q) := by
  obtain ⟨-, -, -, -, -, -, e0, e1, -⟩ := idx_facts t
  show V c (Pipeline.arrRef spec5 3) (((cfg5.win 3).blk t).view.emb (ix2 (0 : Fin 1) q)) = _
  refine congrArg _ ?_
  funext a; apply Fin.ext
  match a with
  | ⟨0, _⟩ => show win5_3.index t (0 : Fin 2) * 1 + 1 * 0 = 0; rw [e0]
  | ⟨1, _⟩ => show win5_3.index t (1 : Fin 2) * 256 + 1 * q.val = q.val; rw [e1]; omega

/-- The whole array of activations, from the arrays the region finds. -/
abbrev TOT (c : Dev nD) : S100000x256.Idx → EReal :=
  Gtot (n := 100000) (V c (Pipeline.arrRef spec5 0)) (V c (Pipeline.arrRef spec5 1)) (V c (Pipeline.arrRef spec5 2))
    (V c (Pipeline.arrRef spec5 3))

/-- Point t's block of activations. -/
abbrev T (c : Dev nD) (t : Fin cfg5.N) : FVec Ideal S2000x256 .f32 :=
  k5_pay1 (F := Ideal) (iblk5 V c 1 t) (iblk5 V c 0 t) (iblk5 V c 2 t) (iblk5 V c 3 t)

/-- Row p of point t's block is row 2000 t + p of the whole array. -/
theorem T_apply (c : Dev nD) (t : Fin cfg5.N) (p : Fin 2000) (q : Fin 256) (hp : t.val * 2000 + p.val < 100000) :
    T V c t (ix2 p q) = TOT V c (ix2 (⟨t.val * 2000 + p.val, hp⟩ : Fin 100000) q) := by
  show k5_pay1 (F := Ideal) (iblk5 V c 1 t) (iblk5 V c 0 t) (iblk5 V c 2 t) (iblk5 V c 3 t) (ix2 p q) = _
  rw [pay1_apply, blk0_apply V c t p q hp, blk1_apply V c t p q hp, blk2_apply V c t p hp, blk3_apply]
  exact (Gtot_apply (n := 100000) _ _ _ _ _ _).symm

set_option maxHeartbeats 2000000 in
/-- After every point the activations' staging buffer holds that point's block. -/
theorem outs_4 (c : Dev nD) (t : Fin cfg5.N) : (outsAt5 V c t.val t.isLt).1 = T V c t := by
  by_cases h0 : t.val % 50 = 0
  · rw [show outsAt5 V c t.val t.isLt = _ from outsAt5_A V c t h0]
    dsimp only
    rw [piece_A_4]
  · rw [show outsAt5 V c t.val t.isLt = _ from outsAt5_B V c t h0]
    dsimp only
    rw [piece_B_4]

end Ideal

section Ideal2

variable (V : (c : Dev nD) → (b : Ref sig .tc) → Buf (Elt Ideal) ((c : Thread nD τ).loc b))

/-! ### The activations themselves -/

theorem flushed4_eq (c : Dev nD) (t : Fin cfg5.N) :
    (dat5 V c).flushed 4 t = ((cfg5.win 4).blk t).view.read (Elt Ideal) (TOT V c) := by
  show (cfg5.win 4).cut (grid5.coords t) ((dat5 V c).after 4 t) = _
  rw [after5_4, outs_4]
  obtain ⟨-, -, -, -, -, -, -, -, e4, e5, -⟩ := idx_facts t
  have hN : cfg5.N = 50 := N_5
  have ht : t.val < 50 := hN ▸ t.isLt
  funext y
  obtain ⟨p, q, rfl⟩ : ∃ (p : Fin 2000) (q : Fin 256), y = ix2 p q := ⟨y 0, y 1, eq_ix2 y⟩
  have hp : t.val * 2000 + p.val < 100000 := by have := p.isLt; omega
  show T V c t (ix2 p q) = TOT V c (((cfg5.win 4).blk t).view.emb (ix2 p q))
  have hemb : ((cfg5.win 4).blk t).view.emb (ix2 p q) = ix2 (⟨t.val * 2000 + p.val, hp⟩ : Fin 100000) q := by
    funext a; apply Fin.ext
    match a with
    | ⟨0, _⟩ => show win5_4.index t (0 : Fin 2) * 2000 + 1 * p.val = t.val * 2000 + p.val; rw [e4]; omega
    | ⟨1, _⟩ => show win5_4.index t (1 : Fin 2) * 256 + 1 * q.val = q.val; rw [e5]; omega
  rw [hemb, T_apply V c t p q hp]

theorem mem_blk4 (t : Fin cfg5.N) (i : S100000x256.Idx) :
    i ∈ ((cfg5.win 4).blk t).view.set ↔ ∀ a : Fin 2, win5_4.index t a * S2000x256.size a ≤ (i a).val
      ∧ (i a).val < win5_4.index t a * S2000x256.size a + S2000x256.size a := by
  show i ∈ ((View.whole main_v92_0).slice (win5_4.rect t)).set ↔ _
  rw [View.set_slice_whole, Rect.mem_set_unit]
  exact Iff.rfl

/-- The region leaves the whole array of activations in its first result array. -/
theorem out4_eq (c : Dev nD) : (dat5 V c).arrAt 4 cfg5.N = TOT V c :=
  (dat5 V c).arrAt_eq_of_cover 4 _ (fun t _ => flushed4_eq V c t) fun i => by
    have h0 : (i 0).val < 100000 := idx2_lt0 i
    have h1 : (i 1).val < 256 := idx2_lt1 i
    let t : Fin cfg5.N := ⟨(i 0).val / 2000, by rw [show cfg5.N = 50 from N_5]; omega⟩
    have htv : t.val = (i 0).val / 2000 := rfl
    obtain ⟨-, -, -, -, -, -, -, -, e4, e5, -⟩ := idx_facts t
    refine ⟨t, flush5_4 t, ?_⟩
    rw [mem_blk4]
    intro a
    match a with
    | ⟨0, _⟩ =>
      show win5_4.index t (0 : Fin 2) * 2000 ≤ (i 0).val ∧ (i 0).val < win5_4.index t (0 : Fin 2) * 2000 + 2000
      rw [e4, htv]; omega
    | ⟨1, _⟩ =>
      show win5_4.index t (1 : Fin 2) * 256 ≤ (i 1).val ∧ (i 1).val < win5_4.index t (1 : Fin 2) * 256 + 256
      rw [e5]; omega

/-! ### The column sums, accumulated over the grid -/

/-- Column q of the whole array, entry by entry, as a sequence over the row number (zero past the last row). -/
def rowF (c : Dev nD) (q : Fin 256) : ℕ → EReal :=
  fun i => if h : i < 100000 then TOT V c (ix2 (⟨i, h⟩ : Fin 100000) q) else 0

/-- A block's column sum is the sum of the sequence over the block's run of rows. -/
theorem blockSum5_range (c : Dev nD) (t : Fin cfg5.N) (q : Fin 256) :
    (∑ p : Fin 2000, T V c t (ix2 p q)) = ∑ r ∈ Finset.range 2000, rowF V c q (t.val * 2000 + r) := by
  have hN : cfg5.N = 50 := N_5
  have ht : t.val < 50 := hN ▸ t.isLt
  rw [← Fin.sum_univ_eq_sum_range (fun r => rowF V c q (t.val * 2000 + r)) 2000]
  refine Finset.sum_congr rfl fun p _ => ?_
  have hp : t.val * 2000 + p.val < 100000 := by have := p.isLt; omega
  rw [T_apply V c t p q hp]
  unfold rowF
  rw [dif_pos hp]

/-- After point n the accumulator holds the sum over the first (n + 1) · 2000 rows: by induction on the point. -/
theorem outs5_eq (c : Dev nD) : ∀ (n : ℕ) (h : n < cfg5.N) (q : Fin 256),
    (outsAt5 V c n h).2.1 (ix2 (0 : Fin 1) q) = zero + ∑ i ∈ Finset.range ((n + 1) * 2000), rowF V c q i
  | 0, h, q => by
    rw [show outsAt5 V c 0 h = _ from outsAt5_A V c ⟨0, h⟩ rfl]
    dsimp only
    rw [piece_A_5, pay4_apply, blockSum5_range V c ⟨0, h⟩ q]
    show zero + ∑ r ∈ Finset.range 2000, rowF V c q (0 * 2000 + r) = zero + ∑ i ∈ Finset.range ((0 + 1) * 2000), rowF V c q i
    simp only [Nat.zero_mul, Nat.zero_add, Nat.one_mul]
  | n + 1, h, q => by
    have hN : cfg5.N = 50 := N_5
    have hB : ¬(⟨n + 1, h⟩ : Fin cfg5.N).val % 50 = 0 := by dsimp only; omega
    rw [show outsAt5 V c (n + 1) h = _ from outsAt5_B V c ⟨n + 1, h⟩ hB]
    dsimp only
    rw [piece_B_5, pay4_apply]
    show (outsAt5 V c n (Nat.lt_of_succ_lt h)).2.1 (ix2 (0 : Fin 1) q) + _ = _
    rw [outs5_eq c n (Nat.lt_of_succ_lt h) q, blockSum5_range V c ⟨n + 1, h⟩ q, add_assoc]
    exact congrArg (zero + ·) (Cert.GcnMath.sum_range_succ_block (rowF V c q) 2000 (n + 1)).symm

/-- The sequence summed over all 100000 rows is the column sum of the whole array. -/
theorem all5 (c : Dev nD) (q : Fin 256) :
    zero + ∑ i ∈ Finset.range ((49 + 1) * 2000), rowF V c q i = Gsum (TOT V c) (ix2 (0 : Fin 1) q) := by
  rw [show (49 + 1) * 2000 = 100000 from by norm_num]
  rw [show (zero : EReal) = 0 from Ideal.ofBits_zero_f32, zero_add, ← Fin.sum_univ_eq_sum_range (rowF V c q) 100000, Gsum_apply]
  exact Finset.sum_congr rfl fun a _ => dif_pos a.isLt

/-- The one write-back of the accumulator, after the last point, writes the whole column sums. -/
theorem flushed5_eq (c : Dev nD) (t : Fin cfg5.N) (hf : (cfg5.win 5).flush t = true) :
    (dat5 V c).flushed 5 t = ((cfg5.win 5).blk t).view.read (Elt Ideal) (Gsum (TOT V c)) := by
  have hN : cfg5.N = 50 := N_5
  have h49 : t.val = 49 := by have := (flush5_5 t).mp hf; have := t.isLt; omega
  show (cfg5.win 5).cut (grid5.coords t) ((dat5 V c).after 5 t) = _
  rw [after5_5]
  obtain ⟨-, -, -, -, -, -, -, -, -, -, e50, e51, e60, e61⟩ := idx_facts t
  funext y
  obtain ⟨z, q, rfl⟩ : ∃ (z : Fin 1) (q : Fin 256), y = ix2 z q := ⟨y 0, y 1, eq_ix2 y⟩
  obtain rfl : z = 0 := Subsingleton.elim _ _
  show (outsAt5 V c t.val t.isLt).2.1 (ix2 (0 : Fin 1) q)
    = Gsum (TOT V c) (((cfg5.win 5).blk t).view.emb (ix2 (0 : Fin 1) q))
  have hemb : ((cfg5.win 5).blk t).view.emb (ix2 (0 : Fin 1) q) = ix2 (0 : Fin 1) q := by
    funext a; apply Fin.ext
    match a with
    | ⟨0, _⟩ => show win5_5.index t (0 : Fin 2) * 1 + 1 * 0 = 0; rw [e50]
    | ⟨1, _⟩ => show win5_5.index t (1 : Fin 2) * 256 + 1 * q.val = q.val; rw [e51]; omega
  rw [hemb, outs5_eq V c t.val t.isLt q, h49]
  exact all5 V c q

theorem mem_blk5 (t : Fin cfg5.N) (i : S1x256.Idx) :
    i ∈ ((cfg5.win 5).blk t).view.set ↔ ∀ a : Fin 2, win5_5.index t a * S1x256.size a ≤ (i a).val
      ∧ (i a).val < win5_5.index t a * S1x256.size a + S1x256.size a := by
  show i ∈ ((View.whole main_v92_1).slice (win5_5.rect t)).set ↔ _
  rw [View.set_slice_whole, Rect.mem_set_unit]
  exact Iff.rfl

/-- The region leaves the whole column sums in the accumulator's array. -/
theorem out5_eq (c : Dev nD) : (dat5 V c).arrAt 5 cfg5.N = Gsum (TOT V c) :=
  (dat5 V c).arrAt_eq_of_cover 5 _ (flushed5_eq V c) fun i => by
    have h0 : (i 0).val < 1 := idx2_lt0 i
    have h1 : (i 1).val < 256 := idx2_lt1 i
    let t : Fin cfg5.N := ⟨49, by rw [show cfg5.N = 50 from N_5]; omega⟩
    obtain ⟨-, -, -, -, -, -, -, -, -, -, e50, e51, e60, e61⟩ := idx_facts t
    refine ⟨t, (flush5_5 t).mpr rfl, ?_⟩
    rw [mem_blk5]
    intro a
    match a with
    | ⟨0, _⟩ =>
      show win5_5.index t (0 : Fin 2) * 1 ≤ (i 0).val ∧ (i 0).val < win5_5.index t (0 : Fin 2) * 1 + 1
      rw [e50]; omega
    | ⟨1, _⟩ =>
      show win5_5.index t (1 : Fin 2) * 256 ≤ (i 1).val ∧ (i 1).val < win5_5.index t (1 : Fin 2) * 256 + 256
      rw [e51]; omega

/-! ### The column sums of squares, accumulated over the grid -/

/-- Column q of the whole array, squared entry by entry, as a sequence over the row number (zero past the last row). -/
def rowQ (c : Dev nD) (q : Fin 256) : ℕ → EReal :=
  fun i => if h : i < 100000 then TOT V c (ix2 (⟨i, h⟩ : Fin 100000) q) * TOT V c (ix2 (⟨i, h⟩ : Fin 100000) q) else 0

/-- A block's column sum is the sum of the sequence over the block's run of rows. -/
theorem blockSum6_range (c : Dev nD) (t : Fin cfg5.N) (q : Fin 256) :
    (∑ p : Fin 2000, T V c t (ix2 p q) * T V c t (ix2 p q)) = ∑ r ∈ Finset.range 2000, rowQ V c q (t.val * 2000 + r) := by
  have hN : cfg5.N = 50 := N_5
  have ht : t.val < 50 := hN ▸ t.isLt
  rw [← Fin.sum_univ_eq_sum_range (fun r => rowQ V c q (t.val * 2000 + r)) 2000]
  refine Finset.sum_congr rfl fun p _ => ?_
  have hp : t.val * 2000 + p.val < 100000 := by have := p.isLt; omega
  rw [T_apply V c t p q hp]
  unfold rowQ
  rw [dif_pos hp]

/-- After point n the accumulator holds the sum over the first (n + 1) · 2000 rows: by induction on the point. -/
theorem outs6_eq (c : Dev nD) : ∀ (n : ℕ) (h : n < cfg5.N) (q : Fin 256),
    (outsAt5 V c n h).2.2 (ix2 (0 : Fin 1) q) = zero + ∑ i ∈ Finset.range ((n + 1) * 2000), rowQ V c q i
  | 0, h, q => by
    rw [show outsAt5 V c 0 h = _ from outsAt5_A V c ⟨0, h⟩ rfl]
    dsimp only
    rw [piece_A_6, pay5_apply, blockSum6_range V c ⟨0, h⟩ q]
    show zero + ∑ r ∈ Finset.range 2000, rowQ V c q (0 * 2000 + r) = zero + ∑ i ∈ Finset.range ((0 + 1) * 2000), rowQ V c q i
    simp only [Nat.zero_mul, Nat.zero_add, Nat.one_mul]
  | n + 1, h, q => by
    have hN : cfg5.N = 50 := N_5
    have hB : ¬(⟨n + 1, h⟩ : Fin cfg5.N).val % 50 = 0 := by dsimp only; omega
    rw [show outsAt5 V c (n + 1) h = _ from outsAt5_B V c ⟨n + 1, h⟩ hB]
    dsimp only
    rw [piece_B_6, pay5_apply]
    show (outsAt5 V c n (Nat.lt_of_succ_lt h)).2.2 (ix2 (0 : Fin 1) q) + _ = _
    rw [outs6_eq c n (Nat.lt_of_succ_lt h) q, blockSum6_range V c ⟨n + 1, h⟩ q, add_assoc]
    exact congrArg (zero + ·) (Cert.GcnMath.sum_range_succ_block (rowQ V c q) 2000 (n + 1)).symm

/-- The sequence summed over all 100000 rows is the column sum of the whole array. -/
theorem all6 (c : Dev nD) (q : Fin 256) :
    zero + ∑ i ∈ Finset.range ((49 + 1) * 2000), rowQ V c q i = Gsq (TOT V c) (ix2 (0 : Fin 1) q) := by
  rw [show (49 + 1) * 2000 = 100000 from by norm_num]
  rw [show (zero : EReal) = 0 from Ideal.ofBits_zero_f32, zero_add, ← Fin.sum_univ_eq_sum_range (rowQ V c q) 100000, Gsq_apply]
  exact Finset.sum_congr rfl fun a _ => dif_pos a.isLt

/-- The one write-back of the accumulator, after the last point, writes the whole column sums. -/
theorem flushed6_eq (c : Dev nD) (t : Fin cfg5.N) (hf : (cfg5.win 6).flush t = true) :
    (dat5 V c).flushed 6 t = ((cfg5.win 6).blk t).view.read (Elt Ideal) (Gsq (TOT V c)) := by
  have hN : cfg5.N = 50 := N_5
  have h49 : t.val = 49 := by have := (flush5_6 t).mp hf; have := t.isLt; omega
  show (cfg5.win 6).cut (grid5.coords t) ((dat5 V c).after 6 t) = _
  rw [after5_6]
  obtain ⟨-, -, -, -, -, -, -, -, -, -, e50, e51, e60, e61⟩ := idx_facts t
  funext y
  obtain ⟨z, q, rfl⟩ : ∃ (z : Fin 1) (q : Fin 256), y = ix2 z q := ⟨y 0, y 1, eq_ix2 y⟩
  obtain rfl : z = 0 := Subsingleton.elim _ _
  show (outsAt5 V c t.val t.isLt).2.2 (ix2 (0 : Fin 1) q)
    = Gsq (TOT V c) (((cfg5.win 6).blk t).view.emb (ix2 (0 : Fin 1) q))
  have hemb : ((cfg5.win 6).blk t).view.emb (ix2 (0 : Fin 1) q) = ix2 (0 : Fin 1) q := by
    funext a; apply Fin.ext
    match a with
    | ⟨0, _⟩ => show win5_6.index t (0 : Fin 2) * 1 + 1 * 0 = 0; rw [e60]
    | ⟨1, _⟩ => show win5_6.index t (1 : Fin 2) * 256 + 1 * q.val = q.val; rw [e61]; omega
  rw [hemb, outs6_eq V c t.val t.isLt q, h49]
  exact all6 V c q

theorem mem_blk6 (t : Fin cfg5.N) (i : S1x256.Idx) :
    i ∈ ((cfg5.win 6).blk t).view.set ↔ ∀ a : Fin 2, win5_6.index t a * S1x256.size a ≤ (i a).val
      ∧ (i a).val < win5_6.index t a * S1x256.size a + S1x256.size a := by
  show i ∈ ((View.whole main_v92_2).slice (win5_6.rect t)).set ↔ _
  rw [View.set_slice_whole, Rect.mem_set_unit]
  exact Iff.rfl

/-- The region leaves the whole column sums in the accumulator's array. -/
theorem out6_eq (c : Dev nD) : (dat5 V c).arrAt 6 cfg5.N = Gsq (TOT V c) :=
  (dat5 V c).arrAt_eq_of_cover 6 _ (flushed6_eq V c) fun i => by
    have h0 : (i 0).val < 1 := idx2_lt0 i
    have h1 : (i 1).val < 256 := idx2_lt1 i
    let t : Fin cfg5.N := ⟨49, by rw [show cfg5.N = 50 from N_5]; omega⟩
    obtain ⟨-, -, -, -, -, -, -, -, -, -, e50, e51, e60, e61⟩ := idx_facts t
    refine ⟨t, (flush5_6 t).mpr rfl, ?_⟩
    rw [mem_blk6]
    intro a
    match a with
    | ⟨0, _⟩ =>
      show win5_6.index t (0 : Fin 2) * 1 ≤ (i 0).val ∧ (i 0).val < win5_6.index t (0 : Fin 2) * 1 + 1
      rw [e60]; omega
    | ⟨1, _⟩ =>
      show win5_6.index t (1 : Fin 2) * 256 ≤ (i 1).val ∧ (i 1).val < win5_6.index t (1 : Fin 2) * 256 + 256
      rw [e61]; omega

end Ideal2

end Cert.KernelIdeal.Reg5

end
-- ==== Proof.Reg6.lean ====
/-
  The seventh tiled region: the last layer's normalisation. Grid point t holds rows 2000 t … 2000 t + 1999 of the
  activations and the four rows of column statistics and parameters, and writes the same rows normalised, scaled, shifted and
  rectified; every row is in exactly one block, so the region leaves the whole normalised array.
-/
import proofs.«123479_j22230750724231_2_alg».proof.Proof.Gen.KernelIdeal.Frame
import proofs.«123479_j22230750724231_2_alg».proof.Proof.RegSpec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Reg6

open Cert.KernelIdeal Cert.KernelIdeal.Gen Cert.RegSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- One entry of the block the body stores. -/
theorem pay_apply (x0 : FVec Ideal S2000x256 .f32) (xv xm xg xb : FVec Ideal S1x256 .f32) (p : Fin 2000) (q : Fin 256) :
    k6_pay1 (F := Ideal) x0 xv xm xg xb (ix2 p q)
      = bnF (x0 (ix2 p q)) (xm (ix2 0 q)) (xv (ix2 0 q)) (xg (ix2 0 q)) (xb (ix2 0 q)) := by
  unfold k6_pay1
  simp only [shapeCast_self]
  simp only [maximumf_apply, addf_apply, mulf_apply, subf_apply, broadcast_apply, broadcastTo_1b_ab_apply]
  rfl

/-- The block indices over the grid: the row windows move with the point, the four statistics windows stay. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Row p of point t's block of the activations is row 2000 t + p. -/
theorem blk0_apply (c : Dev nD) (t : Fin cfg6.N) (p : Fin 2000) (q : Fin 256) (hp : t.val * 2000 + p.val < 100000) :
    iblk6 V c 0 t (ix2 p q) = V c (Pipeline.arrRef spec6 0) (ix2 (⟨t.val * 2000 + p.val, hp⟩ : Fin 100000) q) := by
  obtain ⟨e0, e1, -⟩ := idx_facts t
  show V c (Pipeline.arrRef spec6 0) (((cfg6.win 0).blk t).view.emb (ix2 p q)) = _
  refine congrArg _ ?_
  funext a; apply Fin.ext
  match a with
  | ⟨0, _⟩ => show win6_0.index t (0 : Fin 2) * 2000 + 1 * p.val = t.val * 2000 + p.val; rw [e0]; omega
  | ⟨1, _⟩ => show win6_0.index t (1 : Fin 2) * 256 + 1 * q.val = q.val; rw [e1]; omega

/-- Every point's block of a one-row window is the whole row. -/
theorem blk1_apply (c : Dev nD) (t : Fin cfg6.N) (q : Fin 256) :
    iblk6 V c 1 t (ix2 (0 : Fin 1) q) = V c (Pipeline.arrRef spec6 1) (ix2 (0 : Fin 1) q) := by
  obtain ⟨-, -, e2, e3, -⟩ := idx_facts t
  show V c (Pipeline.arrRef spec6 1) (((cfg6.win 1).blk t).view.emb (ix2 (0 : Fin 1) q)) = _
  refine congrArg _ ?_
  funext a; apply Fin.ext
  match a with
  | ⟨0, _⟩ => show win6_1.index t (0 : Fin 2) * 1 + 1 * 0 = 0; rw [e2]
  | ⟨1, _⟩ => show win6_1.index t (1 : Fin 2) * 256 + 1 * q.val = q.val; rw [e3]; omega
theorem blk2_apply (c : Dev nD) (t : Fin cfg6.N) (q : Fin 256) :
    iblk6 V c 2 t (ix2 (0 : Fin 1) q) = V c (Pipeline.arrRef spec6 2) (ix2 (0 : Fin 1) q) := by
  obtain ⟨-, -, -, -, e2, e3, -⟩ := idx_facts t
  show V c (Pipeline.arrRef spec6 2) (((cfg6.win 2).blk t).view.emb (ix2 (0 : Fin 1) q)) = _
  refine congrArg _ ?_
  funext a; apply Fin.ext
  match a with
  | ⟨0, _⟩ => show win6_2.index t (0 : Fin 2) * 1 + 1 * 0 = 0; rw [e2]
  | ⟨1, _⟩ => show win6_2.index t (1 : Fin 2) * 256 + 1 * q.val = q.val; rw [e3]; omega
theorem blk3_apply (c : Dev nD) (t : Fin cfg6.N) (q : Fin 256) :
    iblk6 V c 3 t (ix2 (0 : Fin 1) q) = V c (Pipeline.arrRef spec6 3) (ix2 (0 : Fin 1) q) := by
  obtain ⟨-, -, -, -, -, -, e2, e3, -⟩ := idx_facts t
  show V c (Pipeline.arrRef spec6 3) (((cfg6.win 3).blk t).view.emb (ix2 (0 : Fin 1) q)) = _
  refine congrArg _ ?_
  funext a; apply Fin.ext
  match a with
  | ⟨0, _⟩ => show win6_3.index t (0 : Fin 2) * 1 + 1 * 0 = 0; rw [e2]
  | ⟨1, _⟩ => show win6_3.index t (1 : Fin 2) * 256 + 1 * q.val = q.val; rw [e3]; omega
theorem blk4_apply (c : Dev nD) (t : Fin cfg6.N) (q : Fin 256) :
    iblk6 V c 4 t (ix2 (0 : Fin 1) q) = V c (Pipeline.arrRef spec6 4) (ix2 (0 : Fin 1) q) := by
  obtain ⟨-, -, -, -, -, -, -, -, e2, e3, -⟩ := idx_facts t
  show V c (Pipeline.arrRef spec6 4) (((cfg6.win 4).blk t).view.emb (ix2 (0 : Fin 1) q)) = _
  refine congrArg _ ?_
  funext a; apply Fin.ext
  match a with
  | ⟨0, _⟩ => show win6_4.index t (0 : Fin 2) * 1 + 1 * 0 = 0; rw [e2]
  | ⟨1, _⟩ => show win6_4.index t (1 : Fin 2) * 256 + 1 * q.val = q.val; rw [e3]; omega

/-- The whole normalised array, from the arrays the region finds. -/
abbrev G (c : Dev nD) : S100000x256.Idx → EReal :=
  Gbn (n := 100000) (V c (Pipeline.arrRef spec6 0)) (V c (Pipeline.arrRef spec6 1)) (V c (Pipeline.arrRef spec6 2))
    (V c (Pipeline.arrRef spec6 3)) (V c (Pipeline.arrRef spec6 4))

theorem flushed_eq (c : Dev nD) (t : Fin cfg6.N) :
    (dat6 V c).flushed 5 t = ((cfg6.win 5).blk t).view.read (Elt Ideal) (G V c) := by
  show (cfg6.win 5).cut (grid6.coords t) ((dat6 V c).after 5 t) = _
  rw [after6_5]
  unfold out6_5
  rw [View.canon_unit_zero hz2]
  simp only [View.ld_unit_zero (S := S2000x256) hz2, View.ld_unit_zero (S := S1x256) hz2]
  obtain ⟨-, -, -, -, -, -, -, -, -, -, e4, e5⟩ := idx_facts t
  have hN : cfg6.N = 50 := N_6
  have ht : t.val < 50 := hN ▸ t.isLt
  funext y
  obtain ⟨p, q, rfl⟩ : ∃ (p : Fin 2000) (q : Fin 256), y = ix2 p q := ⟨y 0, y 1, eq_ix2 y⟩
  have hp : t.val * 2000 + p.val < 100000 := by have := p.isLt; omega
  show k6_pay1 (iblk6 V c 0 t) (iblk6 V c 2 t) (iblk6 V c 1 t) (iblk6 V c 3 t) (iblk6 V c 4 t) (ix2 p q)
    = G V c (((cfg6.win 5).blk t).view.emb (ix2 p q))
  have hemb : ((cfg6.win 5).blk t).view.emb (ix2 p q) = ix2 (⟨t.val * 2000 + p.val, hp⟩ : Fin 100000) q := by
    funext a; apply Fin.ext
    match a with
    | ⟨0, _⟩ => show win6_5.index t (0 : Fin 2) * 2000 + 1 * p.val = t.val * 2000 + p.val; rw [e4]; omega
    | ⟨1, _⟩ => show win6_5.index t (1 : Fin 2) * 256 + 1 * q.val = q.val; rw [e5]; omega
  rw [pay_apply, hemb, blk0_apply V c t p q hp, blk1_apply, blk2_apply, blk3_apply, blk4_apply]
  rfl

/-- An entry is in point t's block exactly when its row lies in t's run of 2000 rows. -/
theorem mem_blk (t : Fin cfg6.N) (i : S100000x256.Idx) :
    i ∈ ((cfg6.win 5).blk t).view.set ↔ ∀ a : Fin 2, win6_5.index t a * S2000x256.size a ≤ (i a).val
      ∧ (i a).val < win6_5.index t a * S2000x256.size a + S2000x256.size a := by
  show i ∈ ((View.whole main_v101).slice (win6_5.rect t)).set ↔ _
  rw [View.set_slice_whole, Rect.mem_set_unit]
  exact Iff.rfl

/-- The region leaves the whole normalised array in its result array. -/
theorem out_eq (c : Dev nD) : (dat6 V c).arrAt 5 cfg6.N = G V c :=
  (dat6 V c).arrAt_eq_of_cover 5 _ (fun t _ => flushed_eq V c t) fun i => by
    have h0 : (i 0).val < 100000 := idx2_lt0 i
    have h1 : (i 1).val < 256 := idx2_lt1 i
    let t : Fin cfg6.N := ⟨(i 0).val / 2000, by rw [show cfg6.N = 50 from N_6]; omega⟩
    have htv : t.val = (i 0).val / 2000 := rfl
    obtain ⟨-, -, -, -, -, -, -, -, -, -, e4, e5⟩ := idx_facts t
    refine ⟨t, flush6_5 t, ?_⟩
    rw [mem_blk]
    intro a
    match a with
    | ⟨0, _⟩ =>
      show win6_5.index t (0 : Fin 2) * 2000 ≤ (i 0).val ∧ (i 0).val < win6_5.index t (0 : Fin 2) * 2000 + 2000
      rw [e4, htv]; omega
    | ⟨1, _⟩ =>
      show win6_5.index t (1 : Fin 2) * 256 ≤ (i 1).val ∧ (i 1).val < win6_5.index t (1 : Fin 2) * 256 + 256
      rw [e5]; omega

end Cert.KernelIdeal.Reg6

end
-- ==== Proof.Reg7.lean ====
/-
  The last tiled region: the two-layer head on the pooled features, in one block (one grid point). Every window's one
  block is its whole array, so the region leaves the whole head output: for each graph, the pooled row times the first
  weight matrix plus bias, rectified, times the second weight column plus bias.
-/
import proofs.«123479_j22230750724231_2_alg».proof.Proof.Gen.KernelIdeal.Frame
import proofs.«123479_j22230750724231_2_alg».proof.Proof.RegSpec
import proofs.«123479_j22230750724231_2_alg».proof.Proof.LibMatmul
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Reg7

open Cert.KernelIdeal Cert.KernelIdeal.Gen Cert.RegSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The first product at an entry. -/
theorem mm1 (x0 : FVec Ideal S2048x256 .f32) (w1 : FVec Ideal S256x256 .f32) (a : Fin 2048) (c : Fin 256) :
    matmul (F := Ideal) dot_S2048x256_S256x256_S2048x256_1_0_0_1_n_n none (truncf .bf16 x0 bitsLt_bf16_f32) (truncf .bf16 w1 bitsLt_bf16_f32)
        (constant S2048x256 .f32 0x00000000#32) (ix2 a c)
      = ∑ k : Fin 256, x0 (ix2 a k) * w1 (ix2 k c) :=
  Cert.LibMatmul.matmul_plain_zero_apply (M := 2048) (K := 256) (N := 256) none
    (truncf .bf16 x0 bitsLt_bf16_f32 : FVec Ideal S2048x256 .bf16) (truncf .bf16 w1 bitsLt_bf16_f32 : FVec Ideal S256x256 .bf16) a c

/-- The second product, onto the one output column, at an entry. -/
theorem mm2 (h : FVec Ideal S2048x256 .bf16) (w2 : FVec Ideal S256x1 .f32) (a : Fin 2048) :
    matmul (F := Ideal) dot_S2048x256_S256x1_S2048x1_1_0_0_1_n_n none h (truncf .bf16 w2 bitsLt_bf16_f32)
        (constant S2048x1 .f32 0x00000000#32) (ix2 a (0 : Fin 1))
      = ∑ c : Fin 256, h (ix2 a c) * w2 (ix2 c (0 : Fin 1)) :=
  Cert.LibMatmul.matmul_plain_zero_apply (M := 2048) (K := 256) (N := 1) none h
    (truncf .bf16 w2 bitsLt_bf16_f32 : FVec Ideal S256x1 .bf16) a 0

/-- One entry of the block the body stores. -/
theorem pay_apply (x0 : FVec Ideal S2048x256 .f32) (w1 : FVec Ideal S256x256 .f32) (b1 : FVec Ideal S1x256 .f32)
    (w2 : FVec Ideal S256x1 .f32) (b2 : FVec Ideal S1x1 .f32) (a : Fin 2048) :
    k7_pay1 (F := Ideal) x0 w1 b1 w2 b2 (ix2 a (0 : Fin 1))
      = (∑ c : Fin 256, max ((∑ k : Fin 256, x0 (ix2 a k) * w1 (ix2 k c)) + b1 (ix2 0 c)) zero * w2 (ix2 c 0)) + b2 (ix2 0 0) := by
  unfold k7_pay1
  simp only [shapeCast_self]
  rw [addf_apply, mm2, broadcastTo_1b_ab_apply]
  refine congrArg (· + b2 (ix2 0 0)) (Finset.sum_congr rfl fun c _ => ?_)
  rw [truncf_apply, maximumf_apply, addf_apply, mm1, broadcastTo_1b_ab_apply, broadcast_apply]
  rfl

/-- The one grid point's blocks all start at the origin. -/
theorem idx_facts : ∀ t : Fin cfg7.N, win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

theorem blk0_apply (c : Dev nD) (t : Fin cfg7.N) (a : Fin 2048) (k : Fin 256) :
    iblk7 V c 0 t (ix2 a k) = V c (Pipeline.arrRef spec7 0) (ix2 a k) := by
  obtain ⟨e0, e1, -⟩ := idx_facts t
  show V c (Pipeline.arrRef spec7 0) (((cfg7.win 0).blk t).view.emb (ix2 a k)) = _
  refine congrArg _ ?_
  funext x; apply Fin.ext
  match x with
  | ⟨0, _⟩ => show win7_0.index t (0 : Fin 2) * 2048 + 1 * a.val = a.val; rw [e0]; omega
  | ⟨1, _⟩ => show win7_0.index t (1 : Fin 2) * 256 + 1 * k.val = k.val; rw [e1]; omega
theorem blk1_apply (c : Dev nD) (t : Fin cfg7.N) (k : Fin 256) (q : Fin 256) :
    iblk7 V c 1 t (ix2 k q) = V c (Pipeline.arrRef spec7 1) (ix2 k q) := by
  obtain ⟨-, -, e0, e1, -⟩ := idx_facts t
  show V c (Pipeline.arrRef spec7 1) (((cfg7.win 1).blk t).view.emb (ix2 k q)) = _
  refine congrArg _ ?_
  funext x; apply Fin.ext
  match x with
  | ⟨0, _⟩ => show win7_1.index t (0 : Fin 2) * 256 + 1 * k.val = k.val; rw [e0]; omega
  | ⟨1, _⟩ => show win7_1.index t (1 : Fin 2) * 256 + 1 * q.val = q.val; rw [e1]; omega
theorem blk2_apply (c : Dev nD) (t : Fin cfg7.N) (q : Fin 256) :
    iblk7 V c 2 t (ix2 (0 : Fin 1) q) = V c (Pipeline.arrRef spec7 2) (ix2 (0 : Fin 1) q) := by
  obtain ⟨-, -, -, -, e0, e1, -⟩ := idx_facts t
  show V c (Pipeline.arrRef spec7 2) (((cfg7.win 2).blk t).view.emb (ix2 (0 : Fin 1) q)) = _
  refine congrArg _ ?_
  funext x; apply Fin.ext
  match x with
  | ⟨0, _⟩ => show win7_2.index t (0 : Fin 2) * 1 + 1 * 0 = 0; rw [e0]
  | ⟨1, _⟩ => show win7_2.index t (1 : Fin 2) * 256 + 1 * q.val = q.val; rw [e1]; omega
theorem blk3_apply (c : Dev nD) (t : Fin cfg7.N) (k : Fin 256) :
    iblk7 V c 3 t (ix2 k (0 : Fin 1)) = V c (Pipeline.arrRef spec7 3) (ix2 k (0 : Fin 1)) := by
  obtain ⟨-, -, -, -, -, -, e0, e1, -⟩ := idx_facts t
  show V c (Pipeline.arrRef spec7 3) (((cfg7.win 3).blk t).view.emb (ix2 k (0 : Fin 1))) = _
  refine congrArg _ ?_
  funext x; apply Fin.ext
  match x with
  | ⟨0, _⟩ => show win7_3.index t (0 : Fin 2) * 256 + 1 * k.val = k.val; rw [e0]; omega
  | ⟨1, _⟩ => show win7_3.index t (1 : Fin 2) * 1 + 1 * 0 = 0; rw [e1]
theorem blk4_apply (c : Dev nD) (t : Fin cfg7.N) :
    iblk7 V c 4 t (ix2 (0 : Fin 1) (0 : Fin 1)) = V c (Pipeline.arrRef spec7 4) (ix2 (0 : Fin 1) (0 : Fin 1)) := by
  obtain ⟨-, -, -, -, -, -, -, -, e0, e1, -⟩ := idx_facts t
  show V c (Pipeline.arrRef spec7 4) (((cfg7.win 4).blk t).view.emb (ix2 (0 : Fin 1) (0 : Fin 1))) = _
  refine congrArg _ ?_
  funext x; apply Fin.ext
  match x with
  | ⟨0, _⟩ => show win7_4.index t (0 : Fin 2) * 1 + 1 * 0 = 0; rw [e0]
  | ⟨1, _⟩ => show win7_4.index t (1 : Fin 2) * 1 + 1 * 0 = 0; rw [e1]

/-- The whole head output, from the arrays the region finds. -/
abbrev G (c : Dev nD) : S2048x1.Idx → EReal :=
  Ghead (n := 2048) (V c (Pipeline.arrRef spec7 0)) (V c (Pipeline.arrRef spec7 1)) (V c (Pipeline.arrRef spec7 2))
    (V c (Pipeline.arrRef spec7 3)) (V c (Pipeline.arrRef spec7 4))

theorem flushed_eq (c : Dev nD) (t : Fin cfg7.N) :
    (dat7 V c).flushed 5 t = ((cfg7.win 5).blk t).view.read (Elt Ideal) (G V c) := by
  show (cfg7.win 5).cut (grid7.coords t) ((dat7 V c).after 5 t) = _
  rw [after7_5]
  unfold out7_5
  rw [View.canon_unit_zero hz2]
  simp only [View.ld_unit_zero (S := S2048x256) hz2, View.ld_unit_zero (S := S256x256) hz2, View.ld_unit_zero (S := S1x256) hz2,
    View.ld_unit_zero (S := S256x1) hz2, View.ld_unit_zero (S := S1x1) hz2]
  obtain ⟨-, -, -, -, -, -, -, -, -, -, e4, e5⟩ := idx_facts t
  funext y
  obtain ⟨a, z, rfl⟩ : ∃ (a : Fin 2048) (z : Fin 1), y = ix2 a z := ⟨y 0, y 1, eq_ix2 y⟩
  obtain rfl : z = 0 := Subsingleton.elim _ _
  show k7_pay1 (iblk7 V c 0 t) (iblk7 V c 1 t) (iblk7 V c 2 t) (iblk7 V c 3 t) (iblk7 V c 4 t) (ix2 a (0 : Fin 1))
    = G V c (((cfg7.win 5).blk t).view.emb (ix2 a (0 : Fin 1)))
  have hemb : ((cfg7.win 5).blk t).view.emb (ix2 a (0 : Fin 1)) = ix2 a (0 : Fin 1) := by
    funext x; apply Fin.ext
    match x with
    | ⟨0, _⟩ => show win7_5.index t (0 : Fin 2) * 2048 + 1 * a.val = a.val; rw [e4]; omega
    | ⟨1, _⟩ => show win7_5.index t (1 : Fin 2) * 1 + 1 * 0 = 0; rw [e5]
  rw [pay_apply, hemb, blk4_apply]
  show _ = (∑ c : Fin 256, _) + _
  refine congrArg (· + _) (Finset.sum_congr rfl fun k _ => ?_)
  rw [blk2_apply, blk3_apply]
  refine congrArg (fun s => max (s + _) zero * _) (Finset.sum_congr rfl fun j _ => ?_)
  rw [blk0_apply, blk1_apply]

/-- Every entry is in the one point's block. -/
theorem mem_blk (t : Fin cfg7.N) (i : S2048x1.Idx) :
    i ∈ ((cfg7.win 5).blk t).view.set ↔ ∀ a : Fin 2, win7_5.index t a * S2048x1.size a ≤ (i a).val
      ∧ (i a).val < win7_5.index t a * S2048x1.size a + S2048x1.size a := by
  show i ∈ ((View.whole main_v107).slice (win7_5.rect t)).set ↔ _
  rw [View.set_slice_whole, Rect.mem_set_unit]
  exact Iff.rfl

/-- The region leaves the whole head output in its result array. -/
theorem out_eq (c : Dev nD) : (dat7 V c).arrAt 5 cfg7.N = G V c :=
  (dat7 V c).arrAt_eq_of_cover 5 _ (fun t _ => flushed_eq V c t) fun i => by
    have h0 : (i 0).val < 2048 := idx2_lt0 i
    have h1 : (i 1).val < 1 := idx2_lt1 i
    obtain ⟨-, -, -, -, -, -, -, -, -, -, e4, e5⟩ := idx_facts t7_0
    refine ⟨t7_0, flush7_5 t7_0, ?_⟩
    rw [mem_blk]
    intro a
    match a with
    | ⟨0, _⟩ =>
      show win7_5.index t7_0 (0 : Fin 2) * 2048 ≤ (i 0).val ∧ (i 0).val < win7_5.index t7_0 (0 : Fin 2) * 2048 + 2048
      rw [e4]; omega
    | ⟨1, _⟩ =>
      show win7_5.index t7_0 (1 : Fin 2) * 1 ≤ (i 1).val ∧ (i 1).val < win7_5.index t7_0 (1 : Fin 2) * 1 + 1
      rw [e5]; omega

end Cert.KernelIdeal.Reg7

end
-- ==== Proof.RefSpec.lean ====
/-
  The reference network, stage by stage, as functions of whole arrays of extended reals: the edge list's two rows,
  the normalising coefficients D^(-1/2) of the graph with self-loops, one graph-convolution layer
  (transform, gather along edges, scatter-add to the destinations, self-loop term, bias), batch statistics
  (mean and biased variance over the nodes), normalisation with rectification, pooling per graph, and the two-layer head.
  Each stage is spelt with exactly the host operations of the reference program, so the program's result is the
  composition of the stages by unfolding.
-/
import proofs.«123479_j22230750724231_2_alg».proof.Proof.Gen.ReferenceIdeal
import Idealize.ShloMosaic.PureOps.Ideal

noncomputable section

namespace Cert.RefSpec

open Idealize.ShloMosaic Cert.ReferenceIdeal Cert.ReferenceIdeal.Facts₀ Cert.ReferenceIdeal.Facts

/-- Row 0 of the edge list: the source node of every edge. -/
def srcOf (ei : IVec S2x300000 32) : IVec S300000 32 :=
  shapeCast S300000 (extractStridedSlice S1x300000 ![0, 0] ei slices_S2x300000_S1x300000_0_0) shapeCasts_S1x300000_S300000

/-- Row 1 of the edge list: the destination node of every edge. -/
def dstOf (ei : IVec S2x300000 32) : IVec S300000 32 :=
  shapeCast S300000 (extractStridedSlice S1x300000 ![1, 0] ei slices_S2x300000_S1x300000_1_0) shapeCasts_S1x300000_S300000

/-- A negative node index counts from the end of the node axis. -/
def wrap (v : IVec S300000 32) : IVec S300000 32 :=
  select (cmpi .slt v (broadcastInDim S300000 ![] bcast_S_S300000 (constantI S_ 32 0#32)))
    (addi v (broadcastInDim S300000 ![] bcast_S_S300000 (constantI S_ 32 100000#32))) v

/-- An index vector as a one-column table of start indices. -/
def col (v : IVec S300000 32) : IVec S300000x1 32 := broadcastInDim S300000x1 ![0] bcast_S300000_S300000x1_0 v

/-- D^(-1/2): the reciprocal square root of one plus the number of edges arriving at each node. -/
def dinvOf (dst : IVec S300000 32) : FVec Ideal S100000 .f32 :=
  Host.rsqrt (addf (Host.scatterAdd scatter_S100000_S300000x1_S300000_n_0_0_1
      (broadcastInDim S100000 ![] bcast_S_S100000 (constant (F := Ideal) S_ .f32 0x00000000#32)) (col dst)
      (broadcastInDim S300000 ![] bcast_S_S300000 (constant (F := Ideal) S_ .f32 0x3F800000#32)))
    (broadcastInDim S100000 ![] bcast_S_S100000 (constant (F := Ideal) S_ .f32 0x3F800000#32)))

/-- The weight of each edge: the product of D^(-1/2) at its two ends. -/
def coeffOf (dinv : FVec Ideal S100000 .f32) (src dst : IVec S300000 32) : FVec Ideal S300000 .f32 :=
  mulf (Host.gather gather_S100000_S300000x1_S300000_n_0_n_n_0_1_1 dinv (col (wrap src)))
    (Host.gather gather_S100000_S300000x1_S300000_n_0_n_n_0_1_1 dinv (col (wrap dst)))

/-- The weighted rows gathered at the sources, as updates. -/
def msgOf (xw : FVec Ideal S100000x256 .f32) (ccol : FVec Ideal S300000x1 .f32) (src : IVec S300000 32) :
    FVec Ideal S300000x256 .f32 :=
  mulf (Host.gather gather_S100000x256_S300000x1_S300000x256_1_0_n_n_0_1_1256 xw (col (wrap src)))
    (broadcastInDim S300000x256 ![0, 1] bcast_S300000x1_S300000x256_0_1 ccol)

/-- Messages summed at their destinations. -/
def scat (dst : IVec S300000 32) (msg : FVec Ideal S300000x256 .f32) : FVec Ideal S100000x256 .f32 :=
  Host.scatterAdd scatter_S100000x256_S300000x1_S300000x256_1_0_0_1
    (broadcastInDim S100000x256 ![] bcast_S_S100000x256 (constant (F := Ideal) S_ .f32 0x00000000#32)) (col dst) msg

/-- A length-256 vector repeated down the node axis. -/
def rowB (v : FVec Ideal S256 .f32) : FVec Ideal S100000x256 .f32 :=
  broadcastInDim S100000x256 ![0, 1] bcast_S1x256_S100000x256_0_1 (broadcastInDim S1x256 ![1] bcast_S256_S1x256_1 v)

/-- A one-column table repeated across the 256 features. -/
def colB (v : FVec Ideal S100000x1 .f32) : FVec Ideal S100000x256 .f32 :=
  broadcastInDim S100000x256 ![0, 1] bcast_S100000x1_S100000x256_0_1 v

/-- Aggregation plus self-loop term plus bias. -/
def totOf (agg xw : FVec Ideal S100000x256 .f32) (d2col : FVec Ideal S100000x1 .f32) (b : FVec Ideal S256 .f32) :
    FVec Ideal S100000x256 .f32 :=
  addf (addf agg (mulf xw (colB d2col))) (rowB b)

/-- Column sums over the nodes. -/
def colSum (t : FVec Ideal S100000x256 .f32) : FVec Ideal S256 .f32 :=
  Host.reduceAdd t (constant (F := Ideal) S_ .f32 0x00000000#32) reducesTo_S100000x256_S256_d0 h_S_

/-- Column means. -/
def meanOf (t : FVec Ideal S100000x256 .f32) : FVec Ideal S256 .f32 :=
  Host.divf (colSum t) (broadcastInDim S256 ![] bcast_S_S256 (constant (F := Ideal) S_ .f32 0x47C35000#32))

/-- The deviations from the column means. -/
def dev (t : FVec Ideal S100000x256 .f32) : FVec Ideal S100000x256 .f32 :=
  subf t (broadcastInDim S100000x256 ![0, 1] bcast_S1x256_S100000x256_0_1
    (Host.divf (broadcastInDim S1x256 ![1] bcast_S256_S1x256_1 (colSum t))
      (broadcastInDim S1x256 ![] bcast_S_S1x256 (constant (F := Ideal) S_ .f32 0x47C35000#32))))

/-- The divisor of the variance: the node count minus the (zero) correction. -/
def normalizer : FVec Ideal S_ .f32 :=
  subf (constant (F := Ideal) S_ .f32 0x47C35000#32) (sitofp .f32 (constantI S_ 32 0#32))

/-- Biased column variances, as the reference spells them (guarded by the divisor being positive). -/
def varOf (t : FVec Ideal S100000x256 .f32) : FVec Ideal S256 .f32 :=
  select (broadcastInDim S256 ![] bcast_S_S256 (cmpf .ogt normalizer (constant (F := Ideal) S_ .f32 0x00000000#32)))
    (Host.divf (colSum (mulf (dev t) (dev t))) (broadcastInDim S256 ![] bcast_S_S256 normalizer))
    (broadcastInDim S256 ![] bcast_S_S256 (id (constant (F := Ideal) S_ .f32 0x7FC00000#32)))

/-- Normalise by given column means and variances, scale, shift, rectify. -/
def bnRelu (t : FVec Ideal S100000x256 .f32) (mean var g be : FVec Ideal S256 .f32) : FVec Ideal S100000x256 .f32 :=
  maximumf
    (addf (mulf (mulf (subf t (rowB mean))
      (rowB (Host.rsqrt (addf var (broadcastInDim S256 ![] bcast_S_S256 (constant (F := Ideal) S_ .f32 0x3727C5AC#32))))))
      (rowB g)) (rowB be))
    (broadcastInDim S100000x256 ![] bcast_S_S100000x256 (constant (F := Ideal) S_ .f32 0x00000000#32))

/-- Node features summed per graph. -/
def poolOf (h : FVec Ideal S100000x256 .f32) (batch : IVec S100000 32) : FVec Ideal S2048x256 .f32 :=
  Host.scatterAdd scatter_S2048x256_S100000x1_S100000x256_1_0_0_1
    (broadcastInDim S2048x256 ![] bcast_S_S2048x256 (constant (F := Ideal) S_ .f32 0x00000000#32))
    (broadcastInDim S100000x1 ![0] bcast_S100000_S100000x1_0 batch) h

/-- The two-layer head on the pooled features. -/
def headOf (p : FVec Ideal S2048x256 .f32) (LW1 : FVec Ideal S256x256 .f32) (Lb1 : FVec Ideal S256 .f32)
    (LW2 : FVec Ideal S256x1 .f32) (Lb2 : FVec Ideal S1 .f32) : FVec Ideal S2048 .f32 :=
  shapeCast S2048
    (addf (Host.dotGeneral dot_S2048x256_S256x1_S2048x1_1_0_0_1_n_n none
      (maximumf (addf (Host.dotGeneral dot_S2048x256_S256x256_S2048x256_1_0_0_1_n_n none p LW1)
          (broadcastInDim S2048x256 ![0, 1] bcast_S1x256_S2048x256_0_1 (broadcastInDim S1x256 ![1] bcast_S256_S1x256_1 Lb1)))
        (broadcastInDim S2048x256 ![] bcast_S_S2048x256 (constant (F := Ideal) S_ .f32 0x00000000#32))) LW2)
      (broadcastInDim S2048x1 ![0, 1] bcast_S1x1_S2048x1_0_1 (broadcastInDim S1x1 ![1] bcast_S1_S1x1_1 Lb2)))
    shapeCasts_S2048x1_S2048

/-- One layer after its feature transform: the activations before normalisation. -/
def layerTot (xw : FVec Ideal S100000x256 .f32) (ei : IVec S2x300000 32) (b : FVec Ideal S256 .f32) :
    FVec Ideal S100000x256 .f32 :=
  totOf
    (scat (dstOf ei) (msgOf xw
      (broadcastInDim S300000x1 ![0] bcast_S300000_S300000x1_0 (coeffOf (dinvOf (dstOf ei)) (srcOf ei) (dstOf ei))) (srcOf ei)))
    xw
    (broadcastInDim S100000x1 ![0] bcast_S100000_S100000x1_0 (mulf (dinvOf (dstOf ei)) (dinvOf (dstOf ei)))) b

/-- Normalisation of a layer by its own batch statistics. -/
def act (t : FVec Ideal S100000x256 .f32) (g be : FVec Ideal S256 .f32) : FVec Ideal S100000x256 .f32 :=
  bnRelu t (meanOf t) (varOf t) g be

/-- The first layer's activations before normalisation. -/
def tot1 (x : FVec Ideal S100000x128 .f32) (ei : IVec S2x300000 32) (W1 : FVec Ideal S128x256 .f32) (b1 : FVec Ideal S256 .f32) :
    FVec Ideal S100000x256 .f32 :=
  layerTot (Host.dotGeneral dot_S100000x128_S128x256_S100000x256_1_0_0_1_n_n none x W1) ei b1

/-- A later layer's activations before normalisation, from the previous layer's output. -/
def totNext (h : FVec Ideal S100000x256 .f32) (ei : IVec S2x300000 32) (W : FVec Ideal S256x256 .f32) (b : FVec Ideal S256 .f32) :
    FVec Ideal S100000x256 .f32 :=
  layerTot (Host.dotGeneral dot_S100000x256_S256x256_S100000x256_1_0_0_1_n_n none h W) ei b

/-- The whole reference: its result as a function of its nineteen arguments. -/
def out (x : FVec Ideal S100000x128 .f32) (ei : IVec S2x300000 32) (batch : IVec S100000 32)
    (W1 : FVec Ideal S128x256 .f32) (b1 : FVec Ideal S256 .f32) (W2 : FVec Ideal S256x256 .f32) (b2 : FVec Ideal S256 .f32)
    (W3 : FVec Ideal S256x256 .f32) (b3 : FVec Ideal S256 .f32)
    (g1 be1 g2 be2 g3 be3 : FVec Ideal S256 .f32)
    (LW1 : FVec Ideal S256x256 .f32) (Lb1 : FVec Ideal S256 .f32) (LW2 : FVec Ideal S256x1 .f32) (Lb2 : FVec Ideal S1 .f32) :
    FVec Ideal S2048 .f32 :=
  headOf
    (poolOf (act (totNext (act (totNext (act (tot1 x ei W1 b1) g1 be1) ei W2 b2) g2 be2) ei W3 b3) g3 be3) batch)
    LW1 Lb1 LW2 Lb2

end Cert.RefSpec

end
-- ==== Proof.LibLayout.lean ====
/-
  Layout facts about arrays of any element type, read at an entry: a one-row or one-column table repeated along the other
  axis; a vector laid out as one row or one column, by a cast or by a placement along an axis (the two agree);
  putting a coordinate back on the reduced axis 0.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibLayout

open Idealize.ShloMosaic Idealize.ShloMosaic.ValueIdx

variable {α : Type}

/-- A one-row table placed along both axes of an M × N array reads, at (a, b), the table at (0, b). -/
theorem rowInDim_apply {M N : Nat} (v : (⟨2, ![1, N]⟩ : Shape).Idx → α)
    (h : (⟨2, ![1, N]⟩ : Shape).BroadcastsInDim ⟨2, ![M, N]⟩ ![0, 1]) (a : Fin M) (b : Fin N) :
    broadcastInDim ⟨2, ![M, N]⟩ ![0, 1] h v (ix2 a b) = v (ix2 (0 : Fin 1) b) :=
  broadcastInDim_apply ![0, 1] h v (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)

/-- A one-column table placed along both axes of an M × N array reads, at (a, b), the table at (a, 0). -/
theorem colInDim_apply {M N : Nat} (v : (⟨2, ![M, 1]⟩ : Shape).Idx → α)
    (h : (⟨2, ![M, 1]⟩ : Shape).BroadcastsInDim ⟨2, ![M, N]⟩ ![0, 1]) (a : Fin M) (b : Fin N) :
    broadcastInDim ⟨2, ![M, N]⟩ ![0, 1] h v (ix2 a b) = v (ix2 a (0 : Fin 1)) :=
  broadcastInDim_apply ![0, 1] h v (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])

/-- A vector placed along axis 1 of a 1 × N array reads, at (0, b), the vector at b. -/
theorem vecRow_apply {N : Nat} (v : (⟨1, ![N]⟩ : Shape).Idx → α)
    (h : (⟨1, ![N]⟩ : Shape).BroadcastsInDim ⟨2, ![1, N]⟩ ![1]) (b : Fin N) :
    broadcastInDim ⟨2, ![1, N]⟩ ![1] h v (ix2 (0 : Fin 1) b) = v (ix1 b) :=
  broadcastInDim_apply ![1] h v (ix2 (0 : Fin 1) b) (ix1 b) (fun c => by
    match c with
    | ⟨0, _⟩ =>
      show b.val = if N = 1 then 0 else b.val
      split
      · have := b.isLt; omega
      · rfl)

/-- A vector placed along axis 0 of an M × 1 array reads, at (a, 0), the vector at a. -/
theorem vecCol_apply {M : Nat} (v : (⟨1, ![M]⟩ : Shape).Idx → α)
    (h : (⟨1, ![M]⟩ : Shape).BroadcastsInDim ⟨2, ![M, 1]⟩ ![0]) (a : Fin M) :
    broadcastInDim ⟨2, ![M, 1]⟩ ![0] h v (ix2 a (0 : Fin 1)) = v (ix1 a) :=
  broadcastInDim_apply ![0] h v (ix2 a (0 : Fin 1)) (ix1 a) (fun c => by
    match c with
    | ⟨0, _⟩ =>
      show a.val = if M = 1 then 0 else a.val
      split
      · have := a.isLt; omega
      · rfl)

/-- A vector cast to one column reads, at (a, 0), the vector at a. -/
theorem castCol_apply {M : Nat} (v : (⟨1, ![M]⟩ : Shape).Idx → α) (h : (⟨1, ![M]⟩ : Shape).ShapeCasts ⟨2, ![M, 1]⟩) (a : Fin M) :
    shapeCast ⟨2, ![M, 1]⟩ v h (ix2 a (0 : Fin 1)) = v (ix1 a) :=
  shapeCast_apply v h _ _ (by
    rw [Shape.rowMajor_val_two, Shape.rowMajor_val_one]
    show a.val = a.val * 1 + 0
    omega)

/-- Laying a vector out as one row by a cast or by placing it along axis 1 gives the same array. -/
theorem castRow_eq {N : Nat} (v : (⟨1, ![N]⟩ : Shape).Idx → α) (h1 : (⟨1, ![N]⟩ : Shape).ShapeCasts ⟨2, ![1, N]⟩)
    (h2 : (⟨1, ![N]⟩ : Shape).BroadcastsInDim ⟨2, ![1, N]⟩ ![1]) :
    shapeCast ⟨2, ![1, N]⟩ v h1 = broadcastInDim ⟨2, ![1, N]⟩ ![1] h2 v := by
  funext j
  obtain ⟨z, b, rfl⟩ : ∃ (z : Fin 1) (b : Fin N), j = ix2 z b := ⟨j 0, j 1, eq_ix2 j⟩
  obtain rfl : z = 0 := Subsingleton.elim _ _
  rw [shapeCast_a_1a_apply, vecRow_apply]

/-- Laying a vector out as one column by a cast or by placing it along axis 0 gives the same array. -/
theorem castCol_eq {M : Nat} (v : (⟨1, ![M]⟩ : Shape).Idx → α) (h1 : (⟨1, ![M]⟩ : Shape).ShapeCasts ⟨2, ![M, 1]⟩)
    (h2 : (⟨1, ![M]⟩ : Shape).BroadcastsInDim ⟨2, ![M, 1]⟩ ![0]) :
    shapeCast ⟨2, ![M, 1]⟩ v h1 = broadcastInDim ⟨2, ![M, 1]⟩ ![0] h2 v := by
  funext j
  obtain ⟨a, z, rfl⟩ : ∃ (a : Fin M) (z : Fin 1), j = ix2 a z := ⟨j 0, j 1, eq_ix2 j⟩
  obtain rfl : z = 0 := Subsingleton.elim _ _
  rw [castCol_apply, vecCol_apply]

/-- A scalar placed along no axis reads the scalar everywhere. -/
theorem splat_apply {t : Shape} (x : (⟨0, ![]⟩ : Shape).Idx → α) (h : (⟨0, ![]⟩ : Shape).BroadcastsInDim t ![]) (j : t.Idx) :
    broadcastInDim t ![] h x j = x ix0 :=
  broadcastInDim_apply ![] h x j ix0 (fun c => c.elim0)

/-- Putting coordinate k back on axis 0 of a column index g gives the entry (k, g). -/
theorem lift_axis0 {m n : Nat} (h : (⟨2, ![m, n]⟩ : Shape).Reduces [0] (⟨1, ![n]⟩ : Shape)) (g : Fin n)
    (k : Fin ((⟨2, ![m, n]⟩ : Shape).size 0)) : h.lift (ix1 g) k = ix2 (⟨k.val, k.isLt⟩ : Fin m) g := by
  funext c; apply Fin.ext
  fin_cases c <;> rfl

end Cert.LibLayout

end
-- ==== Proof.Bridge.lean ====
/-
  The kernel program's host-side steps and the entry-by-entry forms of its tiled regions, set against the stages of the
  reference: the edge weights and D^(-1) laid out as columns by a cast or by a placement (the same arrays), the
  aggregation, the activations before normalisation, the normalisation with given statistics, the matrix products and the
  head. None of these needs the inputs to be finite: they are the same sums and products, entry by entry.
-/
import proofs.«123479_j22230750724231_2_alg».proof.Proof.RefSpec
import proofs.«123479_j22230750724231_2_alg».proof.Proof.KSpec
import proofs.«123479_j22230750724231_2_alg».proof.Proof.RegSpec
import proofs.«123479_j22230750724231_2_alg».proof.Proof.LibLayout
import proofs.«123479_j22230750724231_2_alg».proof.Proof.LibDotGeneral
import Idealize.ShloMosaic.Lib.ValueIdx

noncomputable section

open scoped BigOperators

namespace Cert.Bridge

open Idealize.ShloMosaic Idealize.ShloMosaic.ValueIdx
open Cert.ReferenceIdeal Cert.ReferenceIdeal.Facts₀ Cert.ReferenceIdeal.Facts
open Cert.RefSpec Cert.RegSpec Cert.LibLayout

/-- A length-256 vector as one row, the reference's way. -/
abbrev row (v : FVec Ideal S256 .f32) : FVec Ideal S1x256 .f32 := broadcastInDim S1x256 ![1] bcast_S256_S1x256_1 v

theorem brow_eq (b : FVec Ideal S256 .f32) : Cert.KSpec.brow b = row b := castRow_eq _ _ _

theorem d2col_eq (ei : IVec S2x300000 32) :
    Cert.KSpec.d2colOf ei
      = broadcastInDim S100000x1 ![0] bcast_S100000_S100000x1_0 (mulf (dinvOf (dstOf ei)) (dinvOf (dstOf ei))) :=
  castCol_eq _ _ _

theorem ccol_eq (ei : IVec S2x300000 32) :
    Cert.KSpec.ccolOf ei
      = broadcastInDim S300000x1 ![0] bcast_S300000_S300000x1_0 (coeffOf (dinvOf (dstOf ei)) (srcOf ei) (dstOf ei)) :=
  castCol_eq _ _ _

/-- The kernel program's aggregation is the reference's gather, weighting and scatter-add. -/
theorem agg_eq (xw : FVec Ideal S100000x256 .f32) (ei : IVec S2x300000 32) :
    Cert.KSpec.aggOf xw ei
      = scat (dstOf ei) (msgOf xw
          (broadcastInDim S300000x1 ![0] bcast_S300000_S300000x1_0 (coeffOf (dinvOf (dstOf ei)) (srcOf ei) (dstOf ei))) (srcOf ei)) := by
  unfold Cert.KSpec.aggOf
  rw [ccol_eq]
  rfl

theorem pool_eq (h : FVec Ideal S100000x256 .f32) (batch : IVec S100000 32) : Cert.KSpec.poolK h batch = poolOf h batch := rfl

/-- The reference's activations before normalisation, entry by entry. -/
theorem totOf_eq (agg xw : FVec Ideal S100000x256 .f32) (d2 : FVec Ideal S100000x1 .f32) (b : FVec Ideal S256 .f32) :
    totOf agg xw d2 b = Gtot (n := 100000) agg xw d2 (row b) := by
  funext j
  obtain ⟨a, c, rfl⟩ : ∃ (a : Fin 100000) (c : Fin 256), j = ix2 a c := ⟨j 0, j 1, eq_ix2 j⟩
  rw [Gtot_apply]
  unfold totOf rowB colB
  rw [addf_apply, addf_apply, mulf_apply, colInDim_apply, rowInDim_apply]

/-- The reference's normalisation with given statistics, entry by entry. -/
theorem bnRelu_eq (t : FVec Ideal S100000x256 .f32) (mean var g be : FVec Ideal S256 .f32) :
    bnRelu t mean var g be = Gbn (n := 100000) t (row mean) (row var) (row g) (row be) := by
  funext j
  obtain ⟨a, c, rfl⟩ : ∃ (a : Fin 100000) (c : Fin 256), j = ix2 a c := ⟨j 0, j 1, eq_ix2 j⟩
  rw [Gbn_apply]
  unfold bnRelu rowB row
  rw [maximumf_apply, addf_apply, mulf_apply, mulf_apply, subf_apply, rowInDim_apply, rowInDim_apply, rowInDim_apply, rowInDim_apply,
    splat_apply, vecRow_apply, vecRow_apply, vecRow_apply, vecRow_apply, vecRow_apply]
  rfl

/-- The first layer's feature transform is the plain product. -/
theorem dot1_eq (x : FVec Ideal S100000x128 .f32) (w : FVec Ideal S128x256 .f32) :
    Host.dotGeneral dot_S100000x128_S128x256_S100000x256_1_0_0_1_n_n none x w
      = FloatOps.dotGeneral (F := Ideal) (φ₁ := .f32) (φ₂ := .f32) (DotDims.plain 100000 128 256) none .single x w := rfl

/-- A later layer's feature transform, entry by entry. -/
theorem dot2_eq (h : FVec Ideal S100000x256 .f32) (w : FVec Ideal S256x256 .f32) :
    Host.dotGeneral dot_S100000x256_S256x256_S100000x256_1_0_0_1_n_n none h w = Gmm (n := 100000) (k := 256) (m := 256) h w := by
  funext j
  obtain ⟨a, c, rfl⟩ : ∃ (a : Fin 100000) (c : Fin 256), j = ix2 a c := ⟨j 0, j 1, eq_ix2 j⟩
  rw [Gmm_apply]
  exact Cert.LibDotGeneral.dotGeneral_plain_apply (M := 100000) (K := 256) (N := 256) none .single h w a c

/-- The reference's head is the entry-by-entry head, laid out as a vector. -/
theorem head_eq (p : FVec Ideal S2048x256 .f32) (LW1 : FVec Ideal S256x256 .f32) (Lb1 : FVec Ideal S256 .f32)
    (LW2 : FVec Ideal S256x1 .f32) (Lb2 : FVec Ideal S1 .f32) :
    headOf p LW1 Lb1 LW2 Lb2
      = shapeCast S2048 (Ghead (n := 2048) p LW1 (row Lb1) LW2 (broadcastInDim S1x1 ![1] bcast_S1_S1x1_1 Lb2)) shapeCasts_S2048x1_S2048 := by
  unfold headOf
  refine congrArg (fun v => shapeCast S2048 v shapeCasts_S2048x1_S2048) (funext fun j => ?_)
  obtain ⟨a, z, rfl⟩ : ∃ (a : Fin 2048) (z : Fin 1), j = ix2 a z := ⟨j 0, j 1, eq_ix2 j⟩
  obtain rfl : z = 0 := Subsingleton.elim _ _
  rw [Ghead_apply, addf_apply, rowInDim_apply]
  refine congrArg (· + _) ?_
  refine (Cert.LibDotGeneral.dotGeneral_plain_apply (M := 2048) (K := 256) (N := 1) none .single _ LW2 a 0).trans ?_
  refine Finset.sum_congr rfl fun c _ => ?_
  rw [maximumf_apply, addf_apply, rowInDim_apply, splat_apply]
  refine congrArg (fun s => max (s + _) _ * _) ?_
  exact Cert.LibDotGeneral.dotGeneral_plain_apply (M := 2048) (K := 256) (N := 256) none .single p LW1 a c

end Cert.Bridge

end
-- ==== Proof.LibRows.lean ====
/-
  General facts about arrays of extended reals read at an entry, used by the layer and head lemmas:
  a host matrix product M × K by K × N at entry (a, b) is the sum over c of A (a, c) · B (c, b) (the same sum a
  matmul into the zero accumulator gives); a length-N vector laid out as one row and repeated down M rows reads,
  at (a, b), the vector at b; a length-M vector laid out as one column and repeated across N columns reads the
  vector at a; a scalar repeated over any shape reads the scalar; and a sum over 192 terms is the sum of its
  three consecutive runs of 64.
-/
import Idealize.ShloMosaic.Lib.ValueIdx
import Idealize.ShloMosaic.Lib.ValueLayout
import Idealize.ShloMosaic.Lib.Pipeline.Value
import Idealize.ShloMosaic.PureOps.Ideal.Laws
import proofs.«123479_j22230750724231_2_alg».proof.Proof.LibMatmul

noncomputable section

open scoped BigOperators

namespace Cert.LibRows

open Idealize.ShloMosaic Idealize.ShloMosaic.ValueIdx

/-- The contraction sum of a plain M × K by K × N product at entry `(a, b)`, re-indexed by the contracted
    coordinate: `∑ c, A (a, c) · B (c, b)`. -/
theorem plain_contr_sum {M K N : Nat} {φ₁ φ₂ : FTy}
    (A : FVec Ideal ⟨2, ![M, K]⟩ φ₁) (B : FVec Ideal ⟨2, ![K, N]⟩ φ₂) (a : Fin M) (b : Fin N) :
    (∑ k : (DotDims.plain M K N).contr.Idx,
        A ((DotDims.plain M K N).lhsIdx (ix2 a b) k) * B ((DotDims.plain M K N).rhsIdx (ix2 a b) k))
      = ∑ c : Fin K, A (ix2 a c) * B (ix2 c b) :=
  (Ideal.matmul_constant_zero_apply (DotDims.plain M K N) none A B (ix2 a b)).symm.trans
    (Cert.LibMatmul.matmul_plain_zero_apply none A B a b)

/-- A host `dot_general` of an M × K by a K × N matrix, at the exact values and at entry `(a, b)`, is
    `∑ c, A (a, c) · B (c, b)`. -/
theorem dotGeneral_plain_apply {M K N : Nat} {φ₁ φ₂ : FTy} (prec : Option ContractPrecision) (sched : HostSchedule)
    (A : FVec Ideal ⟨2, ![M, K]⟩ φ₁) (B : FVec Ideal ⟨2, ![K, N]⟩ φ₂) (a : Fin M) (b : Fin N) :
    FloatOps.dotGeneral (DotDims.plain M K N) prec sched A B (ix2 a b) = ∑ c : Fin K, A (ix2 a c) * B (ix2 c b) :=
  (Ideal.dotGeneral_apply (DotDims.plain M K N) prec sched A B (ix2 a b)).trans (plain_contr_sum A B a b)

variable {α : Type}

/-- A vector of length N cast to one row and repeated down M rows: entry `(a, b)` is the vector's entry `b`. -/
theorem rowBroadcastTo_apply {M N : Nat} (v : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (a : Fin M) (b : Fin N) :
    broadcastTo ⟨2, ![M, N]⟩ (shapeCast ⟨2, ![1, N]⟩ v h1) h2 (ix2 a b) = v (ix1 b) := by
  rw [broadcastTo_apply _ h2 (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)]
  exact shapeCast_a_1a_apply v h1 0 b

/-- The host form of the same: a vector placed along axis 1 of a 1 × N array, then along both axes of an M × N one. -/
theorem rowBroadcastInDim_apply {M N : Nat} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (a : Fin M) (b : Fin N) :
    broadcastInDim ⟨2, ![M, N]⟩ ![0, 1] h2 (broadcastInDim ⟨2, ![1, N]⟩ ![1] h1 v) (ix2 a b) = v (ix1 b) := by
  rw [broadcastInDim_apply ![0, 1] h2 _ (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)]
  exact broadcastInDim_apply ![1] h1 v (ix2 (0 : Fin 1) b) (ix1 b) (fun c => by
    match c with
    | ⟨0, _⟩ =>
      show b.val = if N = 1 then 0 else b.val
      split
      · have := b.isLt; omega
      · rfl)

/-- A vector of length M cast to one column and repeated across N columns: entry `(a, b)` is the vector's entry `a`. -/
theorem colBroadcastTo_apply {M N : Nat} (v : (⟨1, ![M]⟩ : Shape).Idx → α)
    (h1 : (⟨1, ![M]⟩ : Shape).ShapeCasts ⟨2, ![M, 1]⟩) (h2 : (⟨2, ![M, 1]⟩ : Shape).Broadcasts ⟨2, ![M, N]⟩)
    (a : Fin M) (b : Fin N) :
    broadcastTo ⟨2, ![M, N]⟩ (shapeCast ⟨2, ![M, 1]⟩ v h1) h2 (ix2 a b) = v (ix1 a) := by
  rw [broadcastTo_apply _ h2 (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])]
  exact shapeCast_apply v h1 _ _ (by
    rw [Shape.rowMajor_val_two, Shape.rowMajor_val_one]
    show a.val = a.val * 1 + 0
    omega)

/-- The host form: a vector placed along axis 0 of an M × 1 array, then along both axes of an M × N one. -/
theorem colBroadcastInDim_apply {M N : Nat} (v : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, N]⟩ ![0, 1]) (a : Fin M) (b : Fin N) :
    broadcastInDim ⟨2, ![M, N]⟩ ![0, 1] h2 (broadcastInDim ⟨2, ![M, 1]⟩ ![0] h1 v) (ix2 a b) = v (ix1 a) := by
  rw [broadcastInDim_apply ![0, 1] h2 _ (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])]
  exact broadcastInDim_apply ![0] h1 v (ix2 a (0 : Fin 1)) (ix1 a) (fun c => by
    match c with
    | ⟨0, _⟩ =>
      show a.val = if M = 1 then 0 else a.val
      split
      · have := a.isLt; omega
      · rfl)

/-- A scalar placed along no axis of any shape reads the scalar everywhere. -/
theorem splatInDim_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 (fun c => c.elim0)

/-- Putting coordinate `k` back on axis 1 of a row index `g` gives the entry `(g, k)`. -/
theorem lift_axis1 {m n : Nat} (h : (⟨2, ![m, n]⟩ : Shape).Reduces [1] (⟨1, ![m]⟩ : Shape)) (g : Fin m)
    (k : Fin ((⟨2, ![m, n]⟩ : Shape).size 1)) : h.lift (ix1 g) k = ix2 g (⟨k.val, k.isLt⟩ : Fin n) := by
  funext c; apply Fin.ext
  fin_cases c <;> rfl

/-- A sum of 192 terms is the sum of its three consecutive runs of 64 terms. -/
theorem sum_192_split {M : Type*} [AddCommMonoid M] (f : Fin 192 → M) :
    ∑ k : Fin 192, f k
      = (∑ k : Fin 64, f ⟨k.val, by omega⟩) + (∑ k : Fin 64, f ⟨64 + k.val, by omega⟩)
        + ∑ k : Fin 64, f ⟨128 + k.val, by omega⟩ := by
  have e : ∑ k : Fin 192, f k = ∑ k : Fin (64 + 64 + 64), f (k.cast (by norm_num)) := by
    exact (Fin.castOrderIso (by norm_num : 64 + 64 + 64 = 192)).toEquiv.sum_comp f |>.symm
  rw [e, Fin.sum_univ_add, Fin.sum_univ_add]
  rfl

end Cert.LibRows

end
-- ==== Proof.RefIdx.lean ====
/- The reference's batch statistics read at one entry: the column sum, the column mean, and the biased column
   variance of a 100000 × 256 array of extended reals, each as a sum over the node axis. -/
import proofs.«123479_j22230750724231_2_alg».proof.Proof.RefSpec
import proofs.«123479_j22230750724231_2_alg».proof.Proof.RegSpec
import proofs.«123479_j22230750724231_2_alg».proof.Proof.GcnMath
import proofs.«123479_j22230750724231_2_alg».proof.Proof.LibLayout
import proofs.«123479_j22230750724231_2_alg».proof.Proof.LibRows
import proofs.«123479_j22230750724231_2_alg».proof.Proof.LibDotGeneral
import Idealize.ShloMosaic.PureOps.Ideal.Laws
import Idealize.ShloMosaic.Lib.ValueIdx

noncomputable section

open scoped BigOperators

namespace Cert.RefIdx

open Idealize.ShloMosaic Idealize.ShloMosaic.ValueIdx
open Cert.RefSpec Cert.RegSpec Cert.ReferenceIdeal Cert.ReferenceIdeal.Facts₀ Cert.ReferenceIdeal.Facts
open Cert.LibLayout

/-- The column sum at column c is the sum over the nodes of the entries of that column. -/
theorem colSum_apply (t : FVec Ideal S100000x256 .f32) (c : Fin 256) :
    colSum t (ix1 c) = ∑ a : Fin 100000, t (ix2 a c) := by
  have hR : S100000x256.Reduces [0] S256 := by decide
  refine (Ideal.hostReduceAdd_single reducesTo_S100000x256_S256_d0 hR t _ (ix1 c)).trans ?_
  show Ideal.ofBits .f32 0x00000000#32 + _ = _
  rw [Ideal.ofBits_zero_f32, zero_add]
  exact Finset.sum_congr rfl fun k _ => congrArg t (lift_axis0 hR c k)

/-- The column mean at column c is that sum divided by the node count. -/
theorem meanOf_apply (t : FVec Ideal S100000x256 .f32) (c : Fin 256) :
    meanOf t (ix1 c) = Ideal.div (∑ a : Fin 100000, t (ix2 a c)) ((100000 : ℝ) : EReal) := by
  show Ideal.div (colSum t (ix1 c))
    (broadcastInDim S256 ![] bcast_S_S256 (constant (F := Ideal) S_ .f32 0x47C35000#32) (ix1 c)) = _
  rw [colSum_apply, splat_apply, constant_apply, Cert.GcnMath.ofBits_1e5]

/-- The deviation from the column mean at entry (a, c). -/
theorem dev_apply (t : FVec Ideal S100000x256 .f32) (a : Fin 100000) (c : Fin 256) :
    dev t (ix2 a c) = t (ix2 a c) - Ideal.div (∑ a' : Fin 100000, t (ix2 a' c)) ((100000 : ℝ) : EReal) := by
  show t (ix2 a c) - broadcastInDim S100000x256 ![0, 1] bcast_S1x256_S100000x256_0_1
    (Host.divf (broadcastInDim S1x256 ![1] bcast_S256_S1x256_1 (colSum t))
      (broadcastInDim S1x256 ![] bcast_S_S1x256 (constant (F := Ideal) S_ .f32 0x47C35000#32))) (ix2 a c) = _
  rw [rowInDim_apply]
  show t (ix2 a c) - Ideal.div (broadcastInDim S1x256 ![1] bcast_S256_S1x256_1 (colSum t) (ix2 (0 : Fin 1) c))
    (broadcastInDim S1x256 ![] bcast_S_S1x256 (constant (F := Ideal) S_ .f32 0x47C35000#32) (ix2 (0 : Fin 1) c)) = _
  rw [vecRow_apply, splat_apply, constant_apply, Cert.GcnMath.ofBits_1e5, colSum_apply]

/-- The divisor of the variance is the node count: the correction subtracted from it is the integer zero. -/
theorem normalizer_val : normalizer ix0 = ((100000 : ℝ) : EReal) := by
  show Ideal.ofBits .f32 0x47C35000#32 - (((0#32 : BitVec 32).toInt : ℝ) : EReal) = _
  rw [Cert.GcnMath.ofBits_1e5]
  simp

/-- The guard "the divisor is positive" holds. -/
theorem guard_val : cmpf .ogt normalizer (constant (F := Ideal) S_ .f32 0x00000000#32) ix0 = 1#1 := by
  show Ideal.cmp .ogt (normalizer ix0) (Ideal.ofBits .f32 0x00000000#32) = 1#1
  rw [normalizer_val, Ideal.ofBits_zero_f32]
  have h : (0 : EReal) < ((100000 : ℝ) : EReal) := by exact_mod_cast (by norm_num : (0 : ℝ) < 100000)
  unfold Ideal.cmp
  simp [h]

/-- The biased column variance at column c: the mean over the nodes of the squared deviations from the column mean. -/
theorem varOf_apply (t : FVec Ideal S100000x256 .f32) (c : Fin 256) :
    varOf t (ix1 c)
      = Ideal.div (∑ a : Fin 100000,
          (t (ix2 a c) - Ideal.div (∑ a' : Fin 100000, t (ix2 a' c)) ((100000 : ℝ) : EReal))
            * (t (ix2 a c) - Ideal.div (∑ a' : Fin 100000, t (ix2 a' c)) ((100000 : ℝ) : EReal)))
        ((100000 : ℝ) : EReal) := by
  show Scalar.select
      (broadcastInDim S256 ![] bcast_S_S256 (cmpf .ogt normalizer (constant (F := Ideal) S_ .f32 0x00000000#32)) (ix1 c))
      (Ideal.div (colSum (mulf (dev t) (dev t)) (ix1 c)) (broadcastInDim S256 ![] bcast_S_S256 normalizer (ix1 c)))
      (broadcastInDim S256 ![] bcast_S_S256 (id (constant (F := Ideal) S_ .f32 0x7FC00000#32)) (ix1 c)) = _
  rw [splat_apply, guard_val, select_one, splat_apply, normalizer_val, colSum_apply]
  refine congrArg (fun s => Ideal.div s ((100000 : ℝ) : EReal)) (Finset.sum_congr rfl fun a _ => ?_)
  rw [mulf_apply, dev_apply]

end Cert.RefIdx

end
-- ==== Proof.Bridge2.lean ====
/-
  The batch statistics. The kernel program divides the accumulated column sums and column sums of squares by the
  node count and takes mean of squares minus squared mean; the reference takes the mean of the squared deviations. The
  means are the same sums. The variances agree when every activation is a real number: that is where finiteness enters.
-/
import proofs.«123479_j22230750724231_2_alg».proof.Proof.Bridge
import proofs.«123479_j22230750724231_2_alg».proof.Proof.RefIdx
import proofs.«123479_j22230750724231_2_alg».proof.Proof.GcnMath

noncomputable section

open scoped BigOperators

namespace Cert.Bridge

open Idealize.ShloMosaic Idealize.ShloMosaic.ValueIdx
open Cert.ReferenceIdeal Cert.ReferenceIdeal.Facts₀ Cert.ReferenceIdeal.Facts
open Cert.RefSpec Cert.RegSpec Cert.LibLayout

/-- The mean from the accumulated column sums is the reference's column mean, laid out as a row. -/
theorem meanK_eq (t : FVec Ideal S100000x256 .f32) : Cert.KSpec.meanK (Gsum (n := 100000) t) = row (meanOf t) := by
  funext j
  obtain ⟨z, c, rfl⟩ : ∃ (z : Fin 1) (c : Fin 256), j = ix2 z c := ⟨j 0, j 1, eq_ix2 j⟩
  obtain rfl : z = 0 := Subsingleton.elim _ _
  unfold row
  rw [vecRow_apply, Cert.RefIdx.meanOf_apply]
  show Ideal.div (Gsum (n := 100000) t (ix2 (0 : Fin 1) c)) (Ideal.ofBits .f32 0x47C35000#32) = _
  rw [Gsum_apply, Cert.GcnMath.ofBits_1e5]

/-- Mean of squares minus squared mean is the reference's variance, when every activation is a real number. -/
theorem varK_eq (t : FVec Ideal S100000x256 .f32) (ht : IsFin t) :
    Cert.KSpec.varK (Gsum (n := 100000) t) (Gsq (n := 100000) t) = row (varOf t) := by
  funext j
  obtain ⟨z, c, rfl⟩ : ∃ (z : Fin 1) (c : Fin 256), j = ix2 z c := ⟨j 0, j 1, eq_ix2 j⟩
  obtain rfl : z = 0 := Subsingleton.elim _ _
  unfold row
  rw [vecRow_apply, Cert.RefIdx.varOf_apply]
  show Ideal.div (Gsq (n := 100000) t (ix2 (0 : Fin 1) c)) (Ideal.ofBits .f32 0x47C35000#32)
      - Ideal.div (Gsum (n := 100000) t (ix2 (0 : Fin 1) c)) (Ideal.ofBits .f32 0x47C35000#32)
        * Ideal.div (Gsum (n := 100000) t (ix2 (0 : Fin 1) c)) (Ideal.ofBits .f32 0x47C35000#32) = _
  rw [Gsq_apply, Gsum_apply, Cert.GcnMath.ofBits_1e5]
  exact (Cert.GcnMath.var_ereal (fun a : Fin 100000 => t (ix2 a c)) (fun a => ht _) 100000 (by norm_num) (by norm_num)).symm

/-- A layer's normalisation, with the kernel program's statistics, is the reference's, on real activations. -/
theorem act_eq (t : FVec Ideal S100000x256 .f32) (g be : FVec Ideal S256 .f32) (ht : IsFin t) :
    Gbn (n := 100000) t (Cert.KSpec.meanK (Gsum (n := 100000) t)) (Cert.KSpec.varK (Gsum (n := 100000) t) (Gsq (n := 100000) t))
        (Cert.KSpec.brow g) (Cert.KSpec.brow be)
      = act t g be := by
  rw [meanK_eq, varK_eq t ht, brow_eq, brow_eq]
  exact (bnRelu_eq t (meanOf t) (varOf t) g be).symm

end Cert.Bridge

end
-- ==== Proof.Finite.lean ====
/- Finiteness through the reference's layers: when the inputs of a stage hold real numbers only, so does its result.
   Matrix products, gathers, scatter-adds, broadcasts and entrywise sums, products and maxima preserve "every entry is a
   real"; the degree normaliser is the reciprocal square root of a real at least 1; the batch normalisation divides by the
   square root of a non-negative variance plus a positive epsilon. -/
import proofs.«123479_j22230750724231_2_alg».proof.Proof.RefSpec
import proofs.«123479_j22230750724231_2_alg».proof.Proof.RegSpec
import proofs.«123479_j22230750724231_2_alg».proof.Proof.GcnMath
import proofs.«123479_j22230750724231_2_alg».proof.Proof.LibLayout
import proofs.«123479_j22230750724231_2_alg».proof.Proof.LibRows
import proofs.«123479_j22230750724231_2_alg».proof.Proof.LibDotGeneral
import proofs.«123479_j22230750724231_2_alg».proof.Proof.RefIdx
import Idealize.ShloMosaic.PureOps.Ideal.Laws
import Idealize.ShloMosaic.Lib.ValueIdx

noncomputable section

open scoped BigOperators

namespace Cert.Finite

open Idealize.ShloMosaic Idealize.ShloMosaic.ValueIdx
open Cert.RefSpec Cert.RegSpec Cert.ReferenceIdeal Cert.ReferenceIdeal.Facts₀ Cert.ReferenceIdeal.Facts
open Cert.LibLayout Cert.RefIdx

/-! ## Sums, maxima and reciprocal square roots of real numbers -/

/-- A finite sum of real numbers is a real number. -/
theorem sum_real {ι : Type*} (S : Finset ι) (f : ι → EReal) (hf : ∀ j, ∃ r : ℝ, f j = (r : EReal)) :
    ∃ r : ℝ, ∑ j ∈ S, f j = (r : EReal) := by
  choose g hg using hf
  exact ⟨∑ j ∈ S, g j, by rw [Cert.GcnMath.coe_sum]; exact Finset.sum_congr rfl fun j _ => hg j⟩

/-- A finite sum of non-negative real numbers is a non-negative real number. -/
theorem sum_real_nonneg {ι : Type*} (S : Finset ι) (f : ι → EReal) (hf : ∀ j, ∃ r : ℝ, 0 ≤ r ∧ f j = (r : EReal)) :
    ∃ r : ℝ, 0 ≤ r ∧ ∑ j ∈ S, f j = (r : EReal) := by
  choose g hg0 hg using hf
  exact ⟨∑ j ∈ S, g j, Finset.sum_nonneg fun j _ => hg0 j, by
    rw [Cert.GcnMath.coe_sum]; exact Finset.sum_congr rfl fun j _ => hg j⟩

/-- A real number plus a finite sum of real numbers is a real number. -/
theorem add_sum_real {ι : Type*} (S : Finset ι) (f : ι → EReal) (a : EReal) (ha : ∃ r : ℝ, a = (r : EReal))
    (hf : ∀ j, ∃ r : ℝ, f j = (r : EReal)) : ∃ r : ℝ, a + ∑ j ∈ S, f j = (r : EReal) := by
  obtain ⟨r, hr⟩ := ha
  obtain ⟨q, hq⟩ := sum_real S f hf
  exact ⟨r + q, by rw [hr, hq, EReal.coe_add]⟩

/-- The same with every term non-negative. -/
theorem add_sum_nonneg {ι : Type*} (S : Finset ι) (f : ι → EReal) (a : EReal) (ha : ∃ r : ℝ, 0 ≤ r ∧ a = (r : EReal))
    (hf : ∀ j, ∃ r : ℝ, 0 ≤ r ∧ f j = (r : EReal)) : ∃ r : ℝ, 0 ≤ r ∧ a + ∑ j ∈ S, f j = (r : EReal) := by
  obtain ⟨r, hr0, hr⟩ := ha
  obtain ⟨q, hq0, hq⟩ := sum_real_nonneg S f hf
  exact ⟨r + q, add_nonneg hr0 hq0, by rw [hr, hq, EReal.coe_add]⟩

/-- The maximum of two real numbers, taken among the extended reals, is their maximum. -/
theorem max_real (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The reciprocal square root of a positive real number is a real number. -/
theorem rsqrt_real {r : ℝ} (h : 0 < r) : ∃ q : ℝ, Ideal.rsqrt (r : EReal) = (q : EReal) :=
  ⟨(Real.sqrt r)⁻¹, by rw [Ideal.rsqrt_coe, if_neg (not_lt.2 h.le), if_neg h.ne']⟩

/-! ## Entrywise operations and layout operations -/

section Ops
variable {s : Shape} {φ : FTy}

theorem isFin_mulf (a b : FVec Ideal s φ) (ha : IsFin a) (hb : IsFin b) : IsFin (mulf a b) := fun i => by
  obtain ⟨r, hr⟩ := ha i
  obtain ⟨q, hq⟩ := hb i
  exact ⟨r * q, by rw [mulf_apply, hr, hq, EReal.coe_mul]⟩

theorem isFin_addf (a b : FVec Ideal s φ) (ha : IsFin a) (hb : IsFin b) : IsFin (addf a b) := fun i => by
  obtain ⟨r, hr⟩ := ha i
  obtain ⟨q, hq⟩ := hb i
  exact ⟨r + q, by rw [addf_apply, hr, hq, EReal.coe_add]⟩

theorem isFin_subf (a b : FVec Ideal s φ) (ha : IsFin a) (hb : IsFin b) : IsFin (subf a b) := fun i => by
  obtain ⟨r, hr⟩ := ha i
  obtain ⟨q, hq⟩ := hb i
  exact ⟨r - q, by rw [subf_apply, hr, hq, EReal.coe_sub]⟩

theorem isFin_maximumf (a b : FVec Ideal s φ) (ha : IsFin a) (hb : IsFin b) : IsFin (maximumf a b) := fun i => by
  obtain ⟨r, hr⟩ := ha i
  obtain ⟨q, hq⟩ := hb i
  exact ⟨max r q, by rw [maximumf_apply, hr, hq, max_real]⟩

/-- A host reciprocal square root at an entry is the extended reals' reciprocal square root of the entry. -/
theorem hostRsqrt_apply (x : FVec Ideal s φ) (i : s.Idx) : Host.rsqrt x i = Ideal.rsqrt (x i) := rfl

/-- The zero splat holds zeros. -/
theorem isFin_zero : IsFin (constant (F := Ideal) s .f32 0x00000000#32) := fun i =>
  ⟨0, by rw [constant_apply, Ideal.ofBits_zero_f32, EReal.coe_zero]⟩

/-- A placement of an array along axes of a larger shape reads entries of the array. -/
theorem isFin_bcast {t : Shape} (dims : Fin s.rank → Fin t.rank) (h : s.BroadcastsInDim t dims) (x : s.Idx → EReal)
    (hx : IsFin x) : IsFin (broadcastInDim t dims h x) := fun _ => hx _

/-- A gather reads entries of its operand. -/
theorem isFin_gather {si t : Shape} {w : Nat} (d : GatherDims s si t) (x : s.Idx → EReal) (idx : IVec si w)
    (hx : IsFin x) : IsFin (Host.gather d x idx) := fun _ => hx _

/-- A scatter-add is, entry by entry, the operand's entry plus a finite sum of update entries. -/
theorem isFin_scatterAdd {si u : Shape} {w : Nat} (d : ScatterDims s si u) (x : FVec Ideal s φ) (idx : IVec si w)
    (upd : FVec Ideal u φ) (hx : IsFin x) (hu : IsFin upd) : IsFin (Host.scatterAdd d x idx upd) := fun i =>
  add_sum_real _ upd (x i) (hx i) hu

end Ops

/-- A host matrix product of arrays of real numbers holds real numbers: each entry is a finite sum of products. -/
theorem isFin_dotGeneral {sl sr so : Shape} {φ₁ φ₂ : FTy} (d : DotDims sl sr so) (prec : Option ContractPrecision)
    (A : FVec Ideal sl φ₁) (B : FVec Ideal sr φ₂) (hA : IsFin A) (hB : IsFin B) : IsFin (Host.dotGeneral d prec A B) := fun j => by
  obtain ⟨r, hr⟩ := sum_real Finset.univ (fun k : d.contr.Idx => A (d.lhsIdx j k) * B (d.rhsIdx j k)) fun k => by
    obtain ⟨p, hp⟩ := hA (d.lhsIdx j k)
    obtain ⟨q, hq⟩ := hB (d.rhsIdx j k)
    exact ⟨p * q, by rw [hp, hq, EReal.coe_mul]⟩
  exact ⟨r, (Ideal.dotGeneral_apply d prec .single A B j).trans hr⟩

theorem isFin_dot1 (x : FVec Ideal S100000x128 .f32) (W : FVec Ideal S128x256 .f32) (hx : IsFin x) (hW : IsFin W) :
    IsFin (Host.dotGeneral dot_S100000x128_S128x256_S100000x256_1_0_0_1_n_n none x W) :=
  isFin_dotGeneral _ _ x W hx hW

theorem isFin_dot2 (h : FVec Ideal S100000x256 .f32) (W : FVec Ideal S256x256 .f32) (hh : IsFin h) (hW : IsFin W) :
    IsFin (Host.dotGeneral dot_S100000x256_S256x256_S100000x256_1_0_0_1_n_n none h W) :=
  isFin_dotGeneral _ _ h W hh hW

/-! ## The degree normaliser -/

/-- One plus the number of edges arriving at a node is a real number at least 1, so its reciprocal square root is a
    real number. -/
theorem isFin_dinv (dst : IVec S300000 32) : IsFin (dinvOf dst) := fun i => by
  have hz : ∃ r : ℝ, 0 ≤ r ∧
      broadcastInDim S100000 ![] bcast_S_S100000 (constant (F := Ideal) S_ .f32 0x00000000#32) i = (r : EReal) :=
    ⟨0, le_rfl, by rw [splat_apply, constant_apply, Ideal.ofBits_zero_f32, EReal.coe_zero]⟩
  have ho : ∀ j, ∃ r : ℝ, 0 ≤ r ∧
      broadcastInDim S300000 ![] bcast_S_S300000 (constant (F := Ideal) S_ .f32 0x3F800000#32) j = (r : EReal) :=
    fun j => ⟨1, zero_le_one, by rw [splat_apply, constant_apply, Cert.GcnMath.ofBits_one]⟩
  obtain ⟨r, hr0, hr⟩ : ∃ r : ℝ, 0 ≤ r ∧ Host.scatterAdd scatter_S100000_S300000x1_S300000_n_0_0_1
      (broadcastInDim S100000 ![] bcast_S_S100000 (constant (F := Ideal) S_ .f32 0x00000000#32)) (col dst)
      (broadcastInDim S300000 ![] bcast_S_S300000 (constant (F := Ideal) S_ .f32 0x3F800000#32)) i = (r : EReal) :=
    add_sum_nonneg _ _ _ hz ho
  unfold dinvOf
  rw [hostRsqrt_apply, addf_apply, hr, splat_apply, constant_apply, Cert.GcnMath.ofBits_one, ← EReal.coe_add]
  exact rsqrt_real (by linarith)

/-! ## One layer before normalisation -/

theorem isFin_layerTot (xw : FVec Ideal S100000x256 .f32) (ei : IVec S2x300000 32) (b : FVec Ideal S256 .f32)
    (hxw : IsFin xw) (hb : IsFin b) : IsFin (layerTot xw ei b) := by
  have hd := isFin_dinv (dstOf ei)
  have hcoeff : IsFin (coeffOf (dinvOf (dstOf ei)) (srcOf ei) (dstOf ei)) :=
    isFin_mulf _ _ (isFin_gather _ _ _ hd) (isFin_gather _ _ _ hd)
  have hmsg : IsFin (msgOf xw
      (broadcastInDim S300000x1 ![0] bcast_S300000_S300000x1_0 (coeffOf (dinvOf (dstOf ei)) (srcOf ei) (dstOf ei))) (srcOf ei)) :=
    isFin_mulf _ _ (isFin_gather _ _ _ hxw) (isFin_bcast _ _ _ (isFin_bcast _ _ _ hcoeff))
  have hagg : IsFin (scat (dstOf ei) (msgOf xw
      (broadcastInDim S300000x1 ![0] bcast_S300000_S300000x1_0 (coeffOf (dinvOf (dstOf ei)) (srcOf ei) (dstOf ei))) (srcOf ei))) :=
    isFin_scatterAdd _ _ _ _ (isFin_bcast _ _ _ isFin_zero) hmsg
  have hself : IsFin (mulf xw (colB
      (broadcastInDim S100000x1 ![0] bcast_S100000_S100000x1_0 (mulf (dinvOf (dstOf ei)) (dinvOf (dstOf ei)))))) :=
    isFin_mulf _ _ hxw (isFin_bcast _ _ _ (isFin_bcast _ _ _ (isFin_mulf _ _ hd hd)))
  have hrow : IsFin (rowB b) := isFin_bcast _ _ _ (isFin_bcast _ _ _ hb)
  exact isFin_addf _ _ (isFin_addf _ _ hagg hself) hrow

/-! ## Normalisation by the batch statistics -/

/-- The column means of an array of real numbers are real numbers. -/
theorem isFin_meanOf (t : FVec Ideal S100000x256 .f32) (ht : IsFin t) : IsFin (meanOf t) := fun i => by
  obtain ⟨c, rfl⟩ : ∃ c : Fin 256, i = ix1 c := ⟨i 0, eq_ix1 i⟩
  obtain ⟨S, hS⟩ := sum_real Finset.univ (fun a : Fin 100000 => t (ix2 a c)) fun a => ht _
  exact ⟨S * (1 / 100000), by
    rw [meanOf_apply, hS, Ideal.div_coe (by norm_num : (100000 : ℝ) ≠ 0), ← EReal.coe_mul]⟩

/-- The reciprocal of the square root of (variance + epsilon) is a real number in every column: the variance of real
    numbers is a non-negative real and epsilon is positive. -/
theorem isFin_rstd (t : FVec Ideal S100000x256 .f32) (ht : IsFin t) :
    IsFin (Host.rsqrt (addf (varOf t) (broadcastInDim S256 ![] bcast_S_S256 (constant (F := Ideal) S_ .f32 0x3727C5AC#32)))) := fun i => by
  obtain ⟨c, rfl⟩ : ∃ c : Fin 256, i = ix1 c := ⟨i 0, eq_ix1 i⟩
  obtain ⟨v, hv0, hv⟩ := Cert.GcnMath.var_nonneg (fun a : Fin 100000 => t (ix2 a c)) (fun a => ht _) 100000 (by norm_num)
  obtain ⟨e, he0, he⟩ := Cert.GcnMath.ofBits_eps
  have hvar : varOf t (ix1 c) = (v : EReal) := (varOf_apply t c).trans hv
  rw [hostRsqrt_apply, addf_apply, hvar, splat_apply, constant_apply, he, ← EReal.coe_add]
  exact rsqrt_real (by linarith)

theorem isFin_act (t : FVec Ideal S100000x256 .f32) (g be : FVec Ideal S256 .f32) (ht : IsFin t) (hg : IsFin g)
    (hbe : IsFin be) : IsFin (act t g be) := by
  have hrow : ∀ v : FVec Ideal S256 .f32, IsFin v → IsFin (rowB v) := fun v hv =>
    isFin_bcast _ _ _ (isFin_bcast _ _ _ hv)
  exact isFin_maximumf _ _
    (isFin_addf _ _
      (isFin_mulf _ _ (isFin_mulf _ _ (isFin_subf _ _ ht (hrow _ (isFin_meanOf t ht))) (hrow _ (isFin_rstd t ht))) (hrow _ hg))
      (hrow _ hbe))
    (isFin_bcast _ _ _ isFin_zero)

end Cert.Finite

end
-- ==== Proof.Bridge3.lean ====
/-
  The whole kernel program as one function of its nineteen arguments — the tiled regions' entry-by-entry forms composed
  with the host-side steps between them — and the theorem that it is the reference's function when the float arguments are
  finite. Layer by layer: the activations before normalisation are the same sums and products; they are real numbers (finite
  sums and products of real numbers, D^(-1/2) being the reciprocal root of a count plus one); on real activations the two
  spellings of the variance agree, so the normalised layers agree, and are real again (the variance is non-negative, so the
  reciprocal root of variance plus epsilon is a real number).
-/
import proofs.«123479_j22230750724231_2_alg».proof.Proof.Bridge2
import proofs.«123479_j22230750724231_2_alg».proof.Proof.Finite

noncomputable section

open scoped BigOperators

namespace Cert.KNet

open Idealize.ShloMosaic Idealize.ShloMosaic.ValueIdx
open Cert.ReferenceIdeal Cert.ReferenceIdeal.Facts₀ Cert.ReferenceIdeal.Facts
open Cert.RefSpec Cert.RegSpec Cert.Bridge

/-- The first layer's transformed features. -/
def xw1 (x : FVec Ideal S100000x128 .f32) (W1 : FVec Ideal S128x256 .f32) : FVec Ideal S100000x256 .f32 :=
  FloatOps.dotGeneral (F := Ideal) (φ₁ := .f32) (φ₂ := .f32) (DotDims.plain 100000 128 256) none .single x W1

/-- A layer's activations before normalisation, from its transformed features. -/
def tot (xw : FVec Ideal S100000x256 .f32) (ei : IVec S2x300000 32) (b : FVec Ideal S256 .f32) : FVec Ideal S100000x256 .f32 :=
  Gtot (n := 100000) (Cert.KSpec.aggOf xw ei) xw (Cert.KSpec.d2colOf ei) (Cert.KSpec.brow b)

/-- A layer normalised by the statistics the kernel program computes. -/
def hid (t : FVec Ideal S100000x256 .f32) (g be : FVec Ideal S256 .f32) : FVec Ideal S100000x256 .f32 :=
  Gbn (n := 100000) t (Cert.KSpec.meanK (Gsum (n := 100000) t)) (Cert.KSpec.varK (Gsum (n := 100000) t) (Gsq (n := 100000) t))
    (Cert.KSpec.brow g) (Cert.KSpec.brow be)

/-- The kernel program's result as a function of its arguments. -/
def out (x : FVec Ideal S100000x128 .f32) (ei : IVec S2x300000 32) (batch : IVec S100000 32)
    (W1 : FVec Ideal S128x256 .f32) (b1 : FVec Ideal S256 .f32) (W2 : FVec Ideal S256x256 .f32) (b2 : FVec Ideal S256 .f32)
    (W3 : FVec Ideal S256x256 .f32) (b3 : FVec Ideal S256 .f32)
    (g1 be1 g2 be2 g3 be3 : FVec Ideal S256 .f32)
    (LW1 : FVec Ideal S256x256 .f32) (Lb1 : FVec Ideal S256 .f32) (LW2 : FVec Ideal S256x1 .f32) (Lb2 : FVec Ideal S1 .f32) :
    FVec Ideal S2048 .f32 :=
  shapeCast S2048
    (Ghead (n := 2048)
      (Cert.KSpec.poolK
        (hid (tot (Gmm (n := 100000) (k := 256) (m := 256) (hid (tot (Gmm (n := 100000) (k := 256) (m := 256)
          (hid (tot (xw1 x W1) ei b1) g1 be1) W2) ei b2) g2 be2) W3) ei b3) g3 be3) batch)
      LW1 (Cert.KSpec.brow Lb1) LW2 (shapeCast S1x1 Lb2 Cert.KernelIdeal.Facts₀.shapeCasts_S1_S1x1))
    shapeCasts_S2048x1_S2048

/-- A layer's activations before normalisation are the reference's. -/
theorem tot_eq (xw : FVec Ideal S100000x256 .f32) (ei : IVec S2x300000 32) (b : FVec Ideal S256 .f32) :
    tot xw ei b = layerTot xw ei b := by
  unfold tot layerTot
  rw [agg_eq, d2col_eq, brow_eq]
  exact (totOf_eq _ _ _ _).symm

/-- A normalised layer is the reference's, on real activations. -/
theorem hid_eq (t : FVec Ideal S100000x256 .f32) (g be : FVec Ideal S256 .f32) (ht : IsFin t) : hid t g be = act t g be :=
  act_eq t g be ht

/-- The kernel program's function is the reference's, on finite float arguments. -/
theorem out_eq_ref (x : FVec Ideal S100000x128 .f32) (ei : IVec S2x300000 32) (batch : IVec S100000 32)
    (W1 : FVec Ideal S128x256 .f32) (b1 : FVec Ideal S256 .f32) (W2 : FVec Ideal S256x256 .f32) (b2 : FVec Ideal S256 .f32)
    (W3 : FVec Ideal S256x256 .f32) (b3 : FVec Ideal S256 .f32)
    (g1 be1 g2 be2 g3 be3 : FVec Ideal S256 .f32)
    (LW1 : FVec Ideal S256x256 .f32) (Lb1 : FVec Ideal S256 .f32) (LW2 : FVec Ideal S256x1 .f32) (Lb2 : FVec Ideal S1 .f32)
    (hx : IsFin x) (hW1 : IsFin W1) (hb1 : IsFin b1) (hW2 : IsFin W2) (hb2 : IsFin b2) (hW3 : IsFin W3) (hb3 : IsFin b3)
    (hg1 : IsFin g1) (hbe1 : IsFin be1) (hg2 : IsFin g2) (hbe2 : IsFin be2) (hg3 : IsFin g3) (hbe3 : IsFin be3) :
    out x ei batch W1 b1 W2 b2 W3 b3 g1 be1 g2 be2 g3 be3 LW1 Lb1 LW2 Lb2
      = Cert.RefSpec.out x ei batch W1 b1 W2 b2 W3 b3 g1 be1 g2 be2 g3 be3 LW1 Lb1 LW2 Lb2 := by
  -- layer 1
  have e1 : tot (xw1 x W1) ei b1 = tot1 x ei W1 b1 := by
    rw [tot_eq]; exact congrArg (fun z => layerTot z ei b1) (dot1_eq x W1).symm
  have f1 : IsFin (tot1 x ei W1 b1) := Cert.Finite.isFin_layerTot _ _ _ (Cert.Finite.isFin_dot1 _ _ hx hW1) hb1
  have a1 : hid (tot (xw1 x W1) ei b1) g1 be1 = act (tot1 x ei W1 b1) g1 be1 := by rw [e1]; exact hid_eq _ _ _ f1
  have fa1 : IsFin (act (tot1 x ei W1 b1) g1 be1) := Cert.Finite.isFin_act _ _ _ f1 hg1 hbe1
  -- layer 2
  have e2 : tot (Gmm (n := 100000) (k := 256) (m := 256) (hid (tot (xw1 x W1) ei b1) g1 be1) W2) ei b2
      = totNext (act (tot1 x ei W1 b1) g1 be1) ei W2 b2 := by
    rw [tot_eq, a1]; exact congrArg (fun z => layerTot z ei b2) (dot2_eq _ W2).symm
  have f2 : IsFin (totNext (act (tot1 x ei W1 b1) g1 be1) ei W2 b2) :=
    Cert.Finite.isFin_layerTot _ _ _ (Cert.Finite.isFin_dot2 _ _ fa1 hW2) hb2
  have a2 : hid (tot (Gmm (n := 100000) (k := 256) (m := 256) (hid (tot (xw1 x W1) ei b1) g1 be1) W2) ei b2) g2 be2
      = act (totNext (act (tot1 x ei W1 b1) g1 be1) ei W2 b2) g2 be2 := by rw [e2]; exact hid_eq _ _ _ f2
  have fa2 : IsFin (act (totNext (act (tot1 x ei W1 b1) g1 be1) ei W2 b2) g2 be2) := Cert.Finite.isFin_act _ _ _ f2 hg2 hbe2
  -- layer 3
  have e3 : tot (Gmm (n := 100000) (k := 256) (m := 256)
        (hid (tot (Gmm (n := 100000) (k := 256) (m := 256) (hid (tot (xw1 x W1) ei b1) g1 be1) W2) ei b2) g2 be2) W3) ei b3
      = totNext (act (totNext (act (tot1 x ei W1 b1) g1 be1) ei W2 b2) g2 be2) ei W3 b3 := by
    rw [tot_eq, a2]; exact congrArg (fun z => layerTot z ei b3) (dot2_eq _ W3).symm
  have f3 : IsFin (totNext (act (totNext (act (tot1 x ei W1 b1) g1 be1) ei W2 b2) g2 be2) ei W3 b3) :=
    Cert.Finite.isFin_layerTot _ _ _ (Cert.Finite.isFin_dot2 _ _ fa2 hW3) hb3
  -- the head
  unfold out Cert.RefSpec.out
  rw [e3, hid_eq _ _ _ f3, pool_eq, head_eq, brow_eq]
  rw [show shapeCast S1x1 Lb2 Cert.KernelIdeal.Facts₀.shapeCasts_S1_S1x1 = broadcastInDim S1x1 ![1] bcast_S1_S1x1_1 Lb2 from Cert.LibLayout.castRow_eq _ _ _]

end Cert.KNet

end
-- ==== Proof.KValue.lean ====
/-
  The kernel program's result, read off its run: each tiled region leaves the entry-by-entry function of the arrays it
  finds; those arrays are the host-side steps of the arrays before them; composed from the arguments through the eight
  regions, the result array holds the kernel program's function of the nineteen arguments.
-/
import proofs.«123479_j22230750724231_2_alg».proof.Proof.KReads
import proofs.«123479_j22230750724231_2_alg».proof.Proof.Reg0
import proofs.«123479_j22230750724231_2_alg».proof.Proof.Reg1
import proofs.«123479_j22230750724231_2_alg».proof.Proof.Reg2
import proofs.«123479_j22230750724231_2_alg».proof.Proof.Reg3
import proofs.«123479_j22230750724231_2_alg».proof.Proof.Reg4
import proofs.«123479_j22230750724231_2_alg».proof.Proof.Reg5
import proofs.«123479_j22230750724231_2_alg».proof.Proof.Reg6
import proofs.«123479_j22230750724231_2_alg».proof.Proof.Reg7
import proofs.«123479_j22230750724231_2_alg».proof.Proof.Bridge3

set_option maxRecDepth 16384

noncomputable section

namespace Cert.KernelIdeal.KValue

open Cert.KernelIdeal Cert.KernelIdeal.Gen Cert.KernelIdeal.KRun Cert.RegSpec
open Idealize.ShloMosaic Idealize.ShloMosaic.TcCoe Idealize.SL.Sem

variable (m : (ℓ : Loc nD τ sig) → Buf (Elt Ideal) ℓ) (ρ : Dev nD → PrngReg) (c : Dev nD)

/-! The nineteen argument arrays as launched. -/
abbrev A0 : S100000x128.Idx → EReal := m ((c.tc : Thread nD τ).loc main_arg0)
abbrev A1 : S2x300000.Idx → BitVec 32 := m ((c.tc : Thread nD τ).loc main_arg1)
abbrev A2 : S100000.Idx → BitVec 32 := m ((c.tc : Thread nD τ).loc main_arg2)
abbrev A3 : S128x256.Idx → EReal := m ((c.tc : Thread nD τ).loc main_arg3)
abbrev A4 : S256.Idx → EReal := m ((c.tc : Thread nD τ).loc main_arg4)
abbrev A5 : S256x256.Idx → EReal := m ((c.tc : Thread nD τ).loc main_arg5)
abbrev A6 : S256.Idx → EReal := m ((c.tc : Thread nD τ).loc main_arg6)
abbrev A7 : S256x256.Idx → EReal := m ((c.tc : Thread nD τ).loc main_arg7)
abbrev A8 : S256.Idx → EReal := m ((c.tc : Thread nD τ).loc main_arg8)
abbrev A9 : S256.Idx → EReal := m ((c.tc : Thread nD τ).loc main_arg9)
abbrev A10 : S256.Idx → EReal := m ((c.tc : Thread nD τ).loc main_arg10)
abbrev A11 : S256.Idx → EReal := m ((c.tc : Thread nD τ).loc main_arg11)
abbrev A12 : S256.Idx → EReal := m ((c.tc : Thread nD τ).loc main_arg12)
abbrev A13 : S256.Idx → EReal := m ((c.tc : Thread nD τ).loc main_arg13)
abbrev A14 : S256.Idx → EReal := m ((c.tc : Thread nD τ).loc main_arg14)
abbrev A15 : S256x256.Idx → EReal := m ((c.tc : Thread nD τ).loc main_arg15)
abbrev A16 : S256.Idx → EReal := m ((c.tc : Thread nD τ).loc main_arg16)
abbrev A17 : S256x1.Idx → EReal := m ((c.tc : Thread nD τ).loc main_arg17)
abbrev A18 : S1.Idx → EReal := m ((c.tc : Thread nD τ).loc main_arg18)

/-- Layer 1's activations before normalisation. -/
abbrev T1 : S100000x256.Idx → EReal := Cert.KNet.tot (Cert.KNet.xw1 (A0 m c) (A3 m c)) (A1 m c) (A4 m c)
/-- Layer 2's transformed features and activations. -/
abbrev X2 : S100000x256.Idx → EReal := Gmm (n := 100000) (k := 256) (m := 256) (Cert.KNet.hid (T1 m c) (A9 m c) (A10 m c)) (A5 m c)
abbrev T2 : S100000x256.Idx → EReal := Cert.KNet.tot (X2 m c) (A1 m c) (A6 m c)
/-- Layer 3's transformed features and activations. -/
abbrev X3 : S100000x256.Idx → EReal := Gmm (n := 100000) (k := 256) (m := 256) (Cert.KNet.hid (T2 m c) (A11 m c) (A12 m c)) (A7 m c)
abbrev T3 : S100000x256.Idx → EReal := Cert.KNet.tot (X3 m c) (A1 m c) (A8 m c)
/-- The last layer's output. -/
abbrev H3 : S100000x256.Idx → EReal := Cert.KNet.hid (T3 m c) (A13 m c) (A14 m c)

theorem v0 : o0 m ρ c = Cert.KNet.xw1 (A0 m c) (A3 m c) := by
  refine (Reg0.out_eq (V1 m ρ) c).trans ?_
  show Reg0.G (V1 m ρ c (Pipeline.arrRef spec0 0)) (V1 m ρ c (Pipeline.arrRef spec0 1)) = _
  rw [rd0_0, rd0_1]
  rfl

theorem tot1 : Reg1.TOT (V3 m ρ) c = T1 m c := by
  show Gtot (n := 100000) (V3 m ρ c (Pipeline.arrRef spec1 0)) (V3 m ρ c (Pipeline.arrRef spec1 1))
    (V3 m ρ c (Pipeline.arrRef spec1 2)) (V3 m ρ c (Pipeline.arrRef spec1 3)) = _
  rw [rd1_0, rd1_1, rd1_2, rd1_3, v0]
  rfl
theorem v1t : o1t m ρ c = T1 m c := (Reg1.out4_eq (V3 m ρ) c).trans (tot1 m ρ c)
theorem v1s : o1s m ρ c = Gsum (n := 100000) (T1 m c) := (Reg1.out5_eq (V3 m ρ) c).trans (congrArg (Gsum (n := 100000)) (tot1 m ρ c))
theorem v1q : o1q m ρ c = Gsq (n := 100000) (T1 m c) := (Reg1.out6_eq (V3 m ρ) c).trans (congrArg (Gsq (n := 100000)) (tot1 m ρ c))

set_option maxHeartbeats 4000000 in
theorem v2 : o2 m ρ c = X2 m c := by
  refine (Reg2.out_eq (V5 m ρ) c).trans ?_
  show Gmm (n := 100000) (k := 256) (m := 256) (Gbn (n := 100000) (V5 m ρ c (Pipeline.arrRef spec2 0)) (V5 m ρ c (Pipeline.arrRef spec2 1))
    (V5 m ρ c (Pipeline.arrRef spec2 2)) (V5 m ρ c (Pipeline.arrRef spec2 3)) (V5 m ρ c (Pipeline.arrRef spec2 4)))
    (V5 m ρ c (Pipeline.arrRef spec2 5)) = _
  rw [rd2_0, rd2_1, rd2_2, rd2_3, rd2_4, rd2_5, v1t, v1s, v1q]
  rfl

theorem tot2 : Reg3.TOT (V7 m ρ) c = T2 m c := by
  show Gtot (n := 100000) (V7 m ρ c (Pipeline.arrRef spec3 0)) (V7 m ρ c (Pipeline.arrRef spec3 1))
    (V7 m ρ c (Pipeline.arrRef spec3 2)) (V7 m ρ c (Pipeline.arrRef spec3 3)) = _
  rw [rd3_0, rd3_1, rd3_2, rd3_3, v2]
  rfl
theorem v3t : o3t m ρ c = T2 m c := (Reg3.out4_eq (V7 m ρ) c).trans (tot2 m ρ c)
theorem v3s : o3s m ρ c = Gsum (n := 100000) (T2 m c) := (Reg3.out5_eq (V7 m ρ) c).trans (congrArg (Gsum (n := 100000)) (tot2 m ρ c))
theorem v3q : o3q m ρ c = Gsq (n := 100000) (T2 m c) := (Reg3.out6_eq (V7 m ρ) c).trans (congrArg (Gsq (n := 100000)) (tot2 m ρ c))

set_option maxHeartbeats 4000000 in
theorem v4 : o4 m ρ c = X3 m c := by
  refine (Reg4.out_eq (V9 m ρ) c).trans ?_
  show Gmm (n := 100000) (k := 256) (m := 256) (Gbn (n := 100000) (V9 m ρ c (Pipeline.arrRef spec4 0)) (V9 m ρ c (Pipeline.arrRef spec4 1))
    (V9 m ρ c (Pipeline.arrRef spec4 2)) (V9 m ρ c (Pipeline.arrRef spec4 3)) (V9 m ρ c (Pipeline.arrRef spec4 4)))
    (V9 m ρ c (Pipeline.arrRef spec4 5)) = _
  rw [rd4_0, rd4_1, rd4_2, rd4_3, rd4_4, rd4_5, v3t, v3s, v3q]
  rfl

theorem tot3 : Reg5.TOT (V11 m ρ) c = T3 m c := by
  show Gtot (n := 100000) (V11 m ρ c (Pipeline.arrRef spec5 0)) (V11 m ρ c (Pipeline.arrRef spec5 1))
    (V11 m ρ c (Pipeline.arrRef spec5 2)) (V11 m ρ c (Pipeline.arrRef spec5 3)) = _
  rw [rd5_0, rd5_1, rd5_2, rd5_3, v4]
  rfl
theorem v5t : o5t m ρ c = T3 m c := (Reg5.out4_eq (V11 m ρ) c).trans (tot3 m ρ c)
theorem v5s : o5s m ρ c = Gsum (n := 100000) (T3 m c) := (Reg5.out5_eq (V11 m ρ) c).trans (congrArg (Gsum (n := 100000)) (tot3 m ρ c))
theorem v5q : o5q m ρ c = Gsq (n := 100000) (T3 m c) := (Reg5.out6_eq (V11 m ρ) c).trans (congrArg (Gsq (n := 100000)) (tot3 m ρ c))

set_option maxHeartbeats 4000000 in
theorem v6 : o6 m ρ c = H3 m c := by
  refine (Reg6.out_eq (V13 m ρ) c).trans ?_
  show Gbn (n := 100000) (V13 m ρ c (Pipeline.arrRef spec6 0)) (V13 m ρ c (Pipeline.arrRef spec6 1))
    (V13 m ρ c (Pipeline.arrRef spec6 2)) (V13 m ρ c (Pipeline.arrRef spec6 3)) (V13 m ρ c (Pipeline.arrRef spec6 4)) = _
  rw [rd6_0, rd6_1, rd6_2, rd6_3, rd6_4, v5t, v5s, v5q]
  rfl

set_option maxHeartbeats 4000000 in
theorem v7 : o7 m ρ c = Ghead (n := 2048) (Cert.KSpec.poolK (H3 m c) (A2 m c)) (A15 m c) (Cert.KSpec.brow (A16 m c)) (A17 m c)
    (shapeCast S1x1 (A18 m c) Facts₀.shapeCasts_S1_S1x1) := by
  refine (Reg7.out_eq (V15 m ρ) c).trans ?_
  show Ghead (n := 2048) (V15 m ρ c (Pipeline.arrRef spec7 0)) (V15 m ρ c (Pipeline.arrRef spec7 1))
    (V15 m ρ c (Pipeline.arrRef spec7 2)) (V15 m ρ c (Pipeline.arrRef spec7 3)) (V15 m ρ c (Pipeline.arrRef spec7 4)) = _
  rw [rd7_0, rd7_1, rd7_2, rd7_3, rd7_4, v6]

/-- The result array after the run holds the kernel program's function of the arguments as launched. -/
theorem value : (W17 m ρ c (Proc.devRef .tc main_v108) : S2048.Idx → EReal)
    = Cert.KNet.out (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) := by
  rw [rd_out, v7]
  rfl

end Cert.KernelIdeal.KValue

end
-- ==== Proof.RefOps.lean ====
/-
  The reference program as a list of host operations. @main's statements in order, with each call of a module-local
  function replaced by that function's operations over the buffers of that call (the variance function three times, each
  time with the selection function's three operations inside it; the rectifier on node features three times and on
  pooled features once). The list is kept in four consecutive pieces, one per window of @main; each window of @main is
  the straight line of its piece, and @main is the straight line of their concatenation.
-/
import proofs.«123479_j22230750724231_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window: the edge list's two rows, the degree normaliser, the first feature transform, the first layer's messages gathered, weighted, summed at the destinations, the self-loop term and the bias, and the column sums of the result (60 operations). -/
abbrev ops0 : List (HloOp τ sig (Elt F)) :=
  [ StableHlo.unary main_arg1 main_v0 ((extractStridedSlice S1x300000 ![0, 0] · slices_S2x300000_S1x300000_0_0) : (⟨S2x300000, .i32⟩ : BufTy).Contents (Elt F) → (⟨S1x300000, .i32⟩ : BufTy).Contents (Elt F)),
    StableHlo.reshape main_v0 main_v1 rfl shapeCasts_S1x300000_S300000,
    StableHlo.unary main_arg1 main_v2 ((extractStridedSlice S1x300000 ![1, 0] · slices_S2x300000_S1x300000_1_0) : (⟨S2x300000, .i32⟩ : BufTy).Contents (Elt F) → (⟨S1x300000, .i32⟩ : BufTy).Contents (Elt F)),
    StableHlo.reshape main_v2 main_v3 rfl shapeCasts_S1x300000_S300000,
    StableHlo.nullary main_cst (constant S_ .f32 0x3F800000#32),
    StableHlo.unary main_cst main_v4 (broadcastInDim S300000 ![] bcast_S_S300000 : (⟨S_, .f32⟩ : BufTy).Contents (Elt F) → (⟨S300000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S300000x1 ![0] bcast_S300000_S300000x1_0 : (⟨S300000, .i32⟩ : BufTy).Contents (Elt F) → (⟨S300000x1, .i32⟩ : BufTy).Contents (Elt F)),
    StableHlo.ternary main_v5 main_v6 main_v4 main_v7 ((fun x i u => Host.scatterAdd scatter_S100000_S300000x1_S300000_n_0_0_1 x i u) : (⟨S100000, .f32⟩ : BufTy).Contents (Elt F) → (⟨S300000x1, .i32⟩ : BufTy).Contents (Elt F) → (⟨S300000, .f32⟩ : BufTy).Contents (Elt F) → (⟨S100000, .f32⟩ : BufTy).Contents (Elt F)),
    StableHlo.nullary main_cst_1 (constant S_ .f32 0x3F800000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (addf : (⟨S100000, .f32⟩ : BufTy).Contents (Elt F) → (⟨S100000, .f32⟩ : BufTy).Contents (Elt F) → (⟨S100000, .f32⟩ : BufTy).Contents (Elt F)),
    StableHlo.unary main_v9 main_v10 (Host.rsqrt : (⟨S100000, .f32⟩ : BufTy).Contents (Elt F) → (⟨S100000, .f32⟩ : BufTy).Contents (Elt F)),
    StableHlo.binary main_arg0 main_arg3 main_v11 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.nullary main_c (constantI S_ 32 0#32),
    StableHlo.unary main_c main_v12 (broadcastInDim S300000 ![] bcast_S_S300000 : (⟨S_, .i32⟩ : BufTy).Contents (Elt F) → (⟨S300000, .i32⟩ : BufTy).Contents (Elt F)),
    StableHlo.binary main_v1 main_v12 main_v13 (cmpi .slt : (⟨S300000, .i32⟩ : BufTy).Contents (Elt F) → (⟨S300000, .i32⟩ : BufTy).Contents (Elt F) → (⟨S300000, .i1⟩ : BufTy).Contents (Elt F)),
    StableHlo.nullary main_c_2 (constantI S_ 32 100000#32),
    StableHlo.unary main_c_2 main_v14 (broadcastInDim S300000 ![] bcast_S_S300000 : (⟨S_, .i32⟩ : BufTy).Contents (Elt F) → (⟨S300000, .i32⟩ : BufTy).Contents (Elt F)),
    StableHlo.binary main_v1 main_v14 main_v15 (addi : (⟨S300000, .i32⟩ : BufTy).Contents (Elt F) → (⟨S300000, .i32⟩ : BufTy).Contents (Elt F) → (⟨S300000, .i32⟩ : BufTy).Contents (Elt F)),
    StableHlo.ternary main_v13 main_v15 main_v1 main_v16 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v16 main_v17 (broadcastInDim S300000x1 ![0] bcast_S300000_S300000x1_0 : (⟨S300000, .i32⟩ : BufTy).Contents (Elt F) → (⟨S300000x1, .i32⟩ : BufTy).Contents (Elt F)),
    StableHlo.binary main_v10 main_v17 main_v18 ((fun x i => Host.gather gather_S100000_S300000x1_S300000_n_0_n_n_0_1_1 x i) : (⟨S100000, .f32⟩ : BufTy).Contents (Elt F) → (⟨S300000x1, .i32⟩ : BufTy).Contents (Elt F) → (⟨S300000, .f32⟩ : BufTy).Contents (Elt F)),
    StableHlo.nullary main_c_3 (constantI S_ 32 0#32),
    StableHlo.unary main_c_3 main_v19 (broadcastInDim S300000 ![] bcast_S_S300000 : (⟨S_, .i32⟩ : BufTy).Contents (Elt F) → (⟨S300000, .i32⟩ : BufTy).Contents (Elt F)),
    StableHlo.binary main_v3 main_v19 main_v20 (cmpi .slt : (⟨S300000, .i32⟩ : BufTy).Contents (Elt F) → (⟨S300000, .i32⟩ : BufTy).Contents (Elt F) → (⟨S300000, .i1⟩ : BufTy).Contents (Elt F)),
    StableHlo.nullary main_c_4 (constantI S_ 32 100000#32),
    StableHlo.unary main_c_4 main_v21 (broadcastInDim S300000 ![] bcast_S_S300000 : (⟨S_, .i32⟩ : BufTy).Contents (Elt F) → (⟨S300000, .i32⟩ : BufTy).Contents (Elt F)),
    StableHlo.binary main_v3 main_v21 main_v22 (addi : (⟨S300000, .i32⟩ : BufTy).Contents (Elt F) → (⟨S300000, .i32⟩ : BufTy).Contents (Elt F) → (⟨S300000, .i32⟩ : BufTy).Contents (Elt F)),
    StableHlo.ternary main_v20 main_v22 main_v3 main_v23 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v23 main_v24 (broadcastInDim S300000x1 ![0] bcast_S300000_S300000x1_0 : (⟨S300000, .i32⟩ : BufTy).Contents (Elt F) → (⟨S300000x1, .i32⟩ : BufTy).Contents (Elt F)),
    StableHlo.binary main_v10 main_v24 main_v25 ((fun x i => Host.gather gather_S100000_S300000x1_S300000_n_0_n_n_0_1_1 x i) : (⟨S100000, .f32⟩ : BufTy).Contents (Elt F) → (⟨S300000x1, .i32⟩ : BufTy).Contents (Elt F) → (⟨S300000, .f32⟩ : BufTy).Contents (Elt F)),
    StableHlo.binary main_v18 main_v25 main_v26 (mulf : (⟨S300000, .f32⟩ : BufTy).Contents (Elt F) → (⟨S300000, .f32⟩ : BufTy).Contents (Elt F) → (⟨S300000, .f32⟩ : BufTy).Contents (Elt F)),
    StableHlo.unary main_v26 main_v27 (broadcastInDim S300000x1 ![0] bcast_S300000_S300000x1_0 : (⟨S300000, .f32⟩ : BufTy).Contents (Elt F) → (⟨S300000x1, .f32⟩ : BufTy).Contents (Elt F)),
    StableHlo.nullary main_c_5 (constantI S_ 32 0#32),
    StableHlo.unary main_c_5 main_v28 (broadcastInDim S300000 ![] bcast_S_S300000 : (⟨S_, .i32⟩ : BufTy).Contents (Elt F) → (⟨S300000, .i32⟩ : BufTy).Contents (Elt F)),
    StableHlo.binary main_v1 main_v28 main_v29 (cmpi .slt : (⟨S300000, .i32⟩ : BufTy).Contents (Elt F) → (⟨S300000, .i32⟩ : BufTy).Contents (Elt F) → (⟨S300000, .i1⟩ : BufTy).Contents (Elt F)),
    StableHlo.nullary main_c_6 (constantI S_ 32 100000#32),
    StableHlo.unary main_c_6 main_v30 (broadcastInDim S300000 ![] bcast_S_S300000 : (⟨S_, .i32⟩ : BufTy).Contents (Elt F) → (⟨S300000, .i32⟩ : BufTy).Contents (Elt F)),
    StableHlo.binary main_v1 main_v30 main_v31 (addi : (⟨S300000, .i32⟩ : BufTy).Contents (Elt F) → (⟨S300000, .i32⟩ : BufTy).Contents (Elt F) → (⟨S300000, .i32⟩ : BufTy).Contents (Elt F)),
    StableHlo.ternary main_v29 main_v31 main_v1 main_v32 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v32 main_v33 (broadcastInDim S300000x1 ![0] bcast_S300000_S300000x1_0 : (⟨S300000, .i32⟩ : BufTy).Contents (Elt F) → (⟨S300000x1, .i32⟩ : BufTy).Contents (Elt F)),
    StableHlo.binary main_v11 main_v33 main_v34 ((fun x i => Host.gather gather_S100000x256_S300000x1_S300000x256_1_0_n_n_0_1_1256 x i) : (⟨S100000x256, .f32⟩ : BufTy).Contents (Elt F) → (⟨S300000x1, .i32⟩ : BufTy).Contents (Elt F) → (⟨S300000x256, .f32⟩ : BufTy).Contents (Elt F)),
    StableHlo.unary main_v27 main_v35 (broadcastInDim S300000x256 ![0, 1] bcast_S300000x1_S300000x256_0_1 : (⟨S300000x1, .f32⟩ : BufTy).Contents (Elt F) → (⟨S300000x256, .f32⟩ : BufTy).Contents (Elt F)),
    StableHlo.binary main_v34 main_v35 main_v36 (mulf : (⟨S300000x256, .f32⟩ : BufTy).Contents (Elt F) → (⟨S300000x256, .f32⟩ : BufTy).Contents (Elt F) → (⟨S300000x256, .f32⟩ : BufTy).Contents (Elt F)),
    StableHlo.nullary main_cst_7 (constant S_ .f32 0x00000000#32),
    StableHlo.unary main_cst_7 main_v37 (broadcastInDim S100000x256 ![] bcast_S_S100000x256 : (⟨S_, .f32⟩ : BufTy).Contents (Elt F) → (⟨S100000x256, .f32⟩ : BufTy).Contents (Elt F)),
    StableHlo.unary main_v3 main_v38 (broadcastInDim S300000x1 ![0] bcast_S300000_S300000x1_0 : (⟨S300000, .i32⟩ : BufTy).Contents (Elt F) → (⟨S300000x1, .i32⟩ : BufTy).Contents (Elt F)),
    StableHlo.ternary main_v37 main_v38 main_v36 main_v39 ((fun x i u => Host.scatterAdd scatter_S100000x256_S300000x1_S300000x256_1_0_0_1 x i u) : (⟨S100000x256, .f32⟩ : BufTy).Contents (Elt F) → (⟨S300000x1, .i32⟩ : BufTy).Contents (Elt F) → (⟨S300000x256, .f32⟩ : BufTy).Contents (Elt F) → (⟨S100000x256, .f32⟩ : BufTy).Contents (Elt F)),
    StableHlo.binary main_v10 main_v10 main_v40 (mulf : (⟨S100000, .f32⟩ : BufTy).Contents (Elt F) → (⟨S100000, .f32⟩ : BufTy).Contents (Elt F) → (⟨S100000, .f32⟩ : BufTy).Contents (Elt F)),
    StableHlo.unary main_v40 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x256 ![0, 1] bcast_S100000x1_S100000x256_0_1 : (⟨S100000x1, .f32⟩ : BufTy).Contents (Elt F) → (⟨S100000x256, .f32⟩ : BufTy).Contents (Elt F)),
    StableHlo.binary main_v11 main_v42 main_v43 (mulf : (⟨S100000x256, .f32⟩ : BufTy).Contents (Elt F) → (⟨S100000x256, .f32⟩ : BufTy).Contents (Elt F) → (⟨S100000x256, .f32⟩ : BufTy).Contents (Elt F)),
    StableHlo.binary main_v39 main_v43 main_v44 (addf : (⟨S100000x256, .f32⟩ : BufTy).Contents (Elt F) → (⟨S100000x256, .f32⟩ : BufTy).Contents (Elt F) → (⟨S100000x256, .f32⟩ : BufTy).Contents (Elt F)),
    StableHlo.unary main_arg4 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S100000x256 ![0, 1] bcast_S1x256_S100000x256_0_1 : (⟨S1x256, .f32⟩ : BufTy).Contents (Elt F) → (⟨S100000x256, .f32⟩ : BufTy).Contents (Elt F)),
    StableHlo.binary main_v44 main_v46 main_v47 (addf : (⟨S100000x256, .f32⟩ : BufTy).Contents (Elt F) → (⟨S100000x256, .f32⟩ : BufTy).Contents (Elt F) → (⟨S100000x256, .f32⟩ : BufTy).Contents (Elt F)),
    StableHlo.nullary main_cst_8 (constant S_ .f32 0x00000000#32),
    StableHlo.binary main_v47 main_cst_8 main_v48 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)) ]

/-- The second window: the first layer's mean, its variance (the variance function's body, with the selection function's inside it, over the call's own buffers), normalisation, scale, shift and rectification (the rectifier's body), then the second feature transform and the second layer's messages summed at the destinations (83 operations). -/
abbrev ops1 : List (HloOp τ sig (Elt F)) :=
  [ StableHlo.nullary main_cst_9 (constant S_ .f32 0x47C35000#32),
    StableHlo.unary main_cst_9 main_v49 (broadcastInDim S256 ![] bcast_S_S256 : (⟨S_, .f32⟩ : BufTy).Contents (Elt F) → (⟨S256, .f32⟩ : BufTy).Contents (Elt F)),
    StableHlo.binary main_v48 main_v49 main_v50 (Host.divf : (⟨S256, .f32⟩ : BufTy).Contents (Elt F) → (⟨S256, .f32⟩ : BufTy).Contents (Elt F) → (⟨S256, .f32⟩ : BufTy).Contents (Elt F)),
    StableHlo.nullary main_c_10 (constantI S_ 32 0#32),
    StableHlo.TRef.nullary main_call0.cst (constant S_ .f32 0x00000000#32),
    StableHlo.TRef.binary (.of main_v47 : StableHlo.TRef sig ⟨S100000x256, .f32⟩) main_call0.cst main_call0.v0 (fun x v => Host.reduceAdd x v reducesTo_S100000x256_S256_d0 h_S_),
    StableHlo.TRef.unary main_call0.v0 main_call0.v1 (broadcastInDim S1x256 ![1] bcast_S256_S1x256_1),
    StableHlo.TRef.nullary main_call0.cst_0 (constant S_ .f32 0x47C35000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S100000x256 ![0, 1] bcast_S1x256_S100000x256_0_1),
    StableHlo.TRef.binary (.of main_v47 : StableHlo.TRef sig ⟨S100000x256, .f32⟩) main_call0.v4 main_call0.v5 subf,
    StableHlo.TRef.binary main_call0.v5 main_call0.v5 main_call0.v6 mulf,
    StableHlo.TRef.unary (.of main_c_10 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v50 main_v52 (broadcastInDim S1x256 ![1] bcast_S256_S1x256_1 : (⟨S256, .f32⟩ : BufTy).Contents (Elt F) → (⟨S1x256, .f32⟩ : BufTy).Contents (Elt F)),
    StableHlo.unary main_v52 main_v53 (broadcastInDim S100000x256 ![0, 1] bcast_S1x256_S100000x256_0_1 : (⟨S1x256, .f32⟩ : BufTy).Contents (Elt F) → (⟨S100000x256, .f32⟩ : BufTy).Contents (Elt F)),
    StableHlo.binary main_v47 main_v53 main_v54 (subf : (⟨S100000x256, .f32⟩ : BufTy).Contents (Elt F) → (⟨S100000x256, .f32⟩ : BufTy).Contents (Elt F) → (⟨S100000x256, .f32⟩ : BufTy).Contents (Elt F)),
    StableHlo.nullary main_cst_11 (constant S_ .f32 0x3727C5AC#32),
    StableHlo.unary main_cst_11 main_v55 (broadcastInDim S256 ![] bcast_S_S256 : (⟨S_, .f32⟩ : BufTy).Contents (Elt F) → (⟨S256, .f32⟩ : BufTy).Contents (Elt F)),
    StableHlo.binary main_v51 main_v55 main_v56 (addf : (⟨S256, .f32⟩ : BufTy).Contents (Elt F) → (⟨S256, .f32⟩ : BufTy).Contents (Elt F) → (⟨S256, .f32⟩ : BufTy).Contents (Elt F)),
    StableHlo.unary main_v56 main_v57 (Host.rsqrt : (⟨S256, .f32⟩ : BufTy).Contents (Elt F) → (⟨S256, .f32⟩ : BufTy).Contents (Elt F)),
    StableHlo.unary main_v57 main_v58 (broadcastInDim S1x256 ![1] bcast_S256_S1x256_1 : (⟨S256, .f32⟩ : BufTy).Contents (Elt F) → (⟨S1x256, .f32⟩ : BufTy).Contents (Elt F)),
    StableHlo.unary main_v58 main_v59 (broadcastInDim S100000x256 ![0, 1] bcast_S1x256_S100000x256_0_1 : (⟨S1x256, .f32⟩ : BufTy).Contents (Elt F) → (⟨S100000x256, .f32⟩ : BufTy).Contents (Elt F)),
    StableHlo.binary main_v54 main_v59 main_v60 (mulf : (⟨S100000x256, .f32⟩ : BufTy).Contents (Elt F) → (⟨S100000x256, .f32⟩ : BufTy).Contents (Elt F) → (⟨S100000x256, .f32⟩ : BufTy).Contents (Elt F)),
    StableHlo.unary main_arg9 main_v61 (broadcastInDim S1x256 ![1] bcast_S256_S1x256_1 : (⟨S256, .f32⟩ : BufTy).Contents (Elt F) → (⟨S1x256, .f32⟩ : BufTy).Contents (Elt F)),
    StableHlo.unary main_v61 main_v62 (broadcastInDim S100000x256 ![0, 1] bcast_S1x256_S100000x256_0_1 : (⟨S1x256, .f32⟩ : BufTy).Contents (Elt F) → (⟨S100000x256, .f32⟩ : BufTy).Contents (Elt F)),
    StableHlo.binary main_v60 main_v62 main_v63 (mulf : (⟨S100000x256, .f32⟩ : BufTy).Contents (Elt F) → (⟨S100000x256, .f32⟩ : BufTy).Contents (Elt F) → (⟨S100000x256, .f32⟩ : BufTy).Contents (Elt F)),
    StableHlo.unary main_arg10 main_v64 (broadcastInDim S1x256 ![1] bcast_S256_S1x256_1 : (⟨S256, .f32⟩ : BufTy).Contents (Elt F) → (⟨S1x256, .f32⟩ : BufTy).Contents (Elt F)),
    StableHlo.unary main_v64 main_v65 (broadcastInDim S100000x256 ![0, 1] bcast_S1x256_S100000x256_0_1 : (⟨S1x256, .f32⟩ : BufTy).Contents (Elt F) → (⟨S100000x256, .f32⟩ : BufTy).Contents (Elt F)),
    StableHlo.binary main_v63 main_v65 main_v66 (addf : (⟨S100000x256, .f32⟩ : BufTy).Contents (Elt F) → (⟨S100000x256, .f32⟩ : BufTy).Contents (Elt F) → (⟨S100000x256, .f32⟩ : BufTy).Contents (Elt F)),
    StableHlo.TRef.nullary main_call1.cst (constant S_ .f32 0x00000000#32),
    StableHlo.TRef.unary main_call1.cst main_call1.v0 (broadcastInDim S100000x256 ![] bcast_S_S100000x256),
    StableHlo.TRef.binary (.of main_v66 : StableHlo.TRef sig ⟨S100000x256, .f32⟩) main_call1.v0 main_call1.v1 maximumf,
    StableHlo.binary main_v67 main_arg5 main_v68 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.nullary main_c_12 (constantI S_ 32 0#32),
    StableHlo.unary main_c_12 main_v69 (broadcastInDim S300000 ![] bcast_S_S300000 : (⟨S_, .i32⟩ : BufTy).Contents (Elt F) → (⟨S300000, .i32⟩ : BufTy).Contents (Elt F)),
    StableHlo.binary main_v1 main_v69 main_v70 (cmpi .slt : (⟨S300000, .i32⟩ : BufTy).Contents (Elt F) → (⟨S300000, .i32⟩ : BufTy).Contents (Elt F) → (⟨S300000, .i1⟩ : BufTy).Contents (Elt F)),
    StableHlo.nullary main_c_13 (constantI S_ 32 100000#32),
    StableHlo.unary main_c_13 main_v71 (broadcastInDim S300000 ![] bcast_S_S300000 : (⟨S_, .i32⟩ : BufTy).Contents (Elt F) → (⟨S300000, .i32⟩ : BufTy).Contents (Elt F)),
    StableHlo.binary main_v1 main_v71 main_v72 (addi : (⟨S300000, .i32⟩ : BufTy).Contents (Elt F) → (⟨S300000, .i32⟩ : BufTy).Contents (Elt F) → (⟨S300000, .i32⟩ : BufTy).Contents (Elt F)),
    StableHlo.ternary main_v70 main_v72 main_v1 main_v73 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v73 main_v74 (broadcastInDim S300000x1 ![0] bcast_S300000_S300000x1_0 : (⟨S300000, .i32⟩ : BufTy).Contents (Elt F) → (⟨S300000x1, .i32⟩ : BufTy).Contents (Elt F)),
    StableHlo.binary main_v10 main_v74 main_v75 ((fun x i => Host.gather gather_S100000_S300000x1_S300000_n_0_n_n_0_1_1 x i) : (⟨S100000, .f32⟩ : BufTy).Contents (Elt F) → (⟨S300000x1, .i32⟩ : BufTy).Contents (Elt F) → (⟨S300000, .f32⟩ : BufTy).Contents (Elt F)),
    StableHlo.nullary main_c_14 (constantI S_ 32 0#32),
    StableHlo.unary main_c_14 main_v76 (broadcastInDim S300000 ![] bcast_S_S300000 : (⟨S_, .i32⟩ : BufTy).Contents (Elt F) → (⟨S300000, .i32⟩ : BufTy).Contents (Elt F)),
    StableHlo.binary main_v3 main_v76 main_v77 (cmpi .slt : (⟨S300000, .i32⟩ : BufTy).Contents (Elt F) → (⟨S300000, .i32⟩ : BufTy).Contents (Elt F) → (⟨S300000, .i1⟩ : BufTy).Contents (Elt F)),
    StableHlo.nullary main_c_15 (constantI S_ 32 100000#32),
    StableHlo.unary main_c_15 main_v78 (broadcastInDim S300000 ![] bcast_S_S300000 : (⟨S_, .i32⟩ : BufTy).Contents (Elt F) → (⟨S300000, .i32⟩ : BufTy).Contents (Elt F)),
    StableHlo.binary main_v3 main_v78 main_v79 (addi : (⟨S300000, .i32⟩ : BufTy).Contents (Elt F) → (⟨S300000, .i32⟩ : BufTy).Contents (Elt F) → (⟨S300000, .i32⟩ : BufTy).Contents (Elt F)),
    StableHlo.ternary main_v77 main_v79 main_v3 main_v80 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v80 main_v81 (broadcastInDim S300000x1 ![0] bcast_S300000_S300000x1_0 : (⟨S300000, .i32⟩ : BufTy).Contents (Elt F) → (⟨S300000x1, .i32⟩ : BufTy).Contents (Elt F)),
    StableHlo.binary main_v10 main_v81 main_v82 ((fun x i => Host.gather gather_S100000_S300000x1_S300000_n_0_n_n_0_1_1 x i) : (⟨S100000, .f32⟩ : BufTy).Contents (Elt F) → (⟨S300000x1, .i32⟩ : BufTy).Contents (Elt F) → (⟨S300000, .f32⟩ : BufTy).Contents (Elt F)),
    StableHlo.binary main_v75 main_v82 main_v83 (mulf : (⟨S300000, .f32⟩ : BufTy).Contents (Elt F) → (⟨S300000, .f32⟩ : BufTy).Contents (Elt F) → (⟨S300000, .f32⟩ : BufTy).Contents (Elt F)),
    StableHlo.unary main_v83 main_v84 (broadcastInDim S300000x1 ![0] bcast_S300000_S300000x1_0 : (⟨S300000, .f32⟩ : BufTy).Contents (Elt F) → (⟨S300000x1, .f32⟩ : BufTy).Contents (Elt F)),
    StableHlo.nullary main_c_16 (constantI S_ 32 0#32),
    StableHlo.unary main_c_16 main_v85 (broadcastInDim S300000 ![] bcast_S_S300000 : (⟨S_, .i32⟩ : BufTy).Contents (Elt F) → (⟨S300000, .i32⟩ : BufTy).Contents (Elt F)),
    StableHlo.binary main_v1 main_v85 main_v86 (cmpi .slt : (⟨S300000, .i32⟩ : BufTy).Contents (Elt F) → (⟨S300000, .i32⟩ : BufTy).Contents (Elt F) → (⟨S300000, .i1⟩ : BufTy).Contents (Elt F)),
    StableHlo.nullary main_c_17 (constantI S_ 32 100000#32),
    StableHlo.unary main_c_17 main_v87 (broadcastInDim S300000 ![] bcast_S_S300000 : (⟨S_, .i32⟩ : BufTy).Contents (Elt F) → (⟨S300000, .i32⟩ : BufTy).Contents (Elt F)),
    StableHlo.binary main_v1 main_v87 main_v88 (addi : (⟨S300000, .i32⟩ : BufTy).Contents (Elt F) → (⟨S300000, .i32⟩ : BufTy).Contents (Elt F) → (⟨S300000, .i32⟩ : BufTy).Contents (Elt F)),
    StableHlo.ternary main_v86 main_v88 main_v1 main_v89 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v89 main_v90 (broadcastInDim S300000x1 ![0] bcast_S300000_S300000x1_0 : (⟨S300000, .i32⟩ : BufTy).Contents (Elt F) → (⟨S300000x1, .i32⟩ : BufTy).Contents (Elt F)),
    StableHlo.binary main_v68 main_v90 main_v91 ((fun x i => Host.gather gather_S100000x256_S300000x1_S300000x256_1_0_n_n_0_1_1256 x i) : (⟨S100000x256, .f32⟩ : BufTy).Contents (Elt F) → (⟨S300000x1, .i32⟩ : BufTy).Contents (Elt F) → (⟨S300000x256, .f32⟩ : BufTy).Contents (Elt F)),
    StableHlo.unary main_v84 main_v92 (broadcastInDim S300000x256 ![0, 1] bcast_S300000x1_S300000x256_0_1 : (⟨S300000x1, .f32⟩ : BufTy).Contents (Elt F) → (⟨S300000x256, .f32⟩ : BufTy).Contents (Elt F)),
    StableHlo.binary main_v91 main_v92 main_v93 (mulf : (⟨S300000x256, .f32⟩ : BufTy).Contents (Elt F) → (⟨S300000x256, .f32⟩ : BufTy).Contents (Elt F) → (⟨S300000x256, .f32⟩ : BufTy).Contents (Elt F)),
    StableHlo.nullary main_cst_18 (constant S_ .f32 0x00000000#32),
    StableHlo.unary main_cst_18 main_v94 (broadcastInDim S100000x256 ![] bcast_S_S100000x256 : (⟨S_, .f32⟩ : BufTy).Contents (Elt F) → (⟨S100000x256, .f32⟩ : BufTy).Contents (Elt F)),
    StableHlo.unary main_v3 main_v95 (broadcastInDim S300000x1 ![0] bcast_S300000_S300000x1_0 : (⟨S300000, .i32⟩ : BufTy).Contents (Elt F) → (⟨S300000x1, .i32⟩ : BufTy).Contents (Elt F)),
    StableHlo.ternary main_v94 main_v95 main_v93 main_v96 ((fun x i u => Host.scatterAdd scatter_S100000x256_S300000x1_S300000x256_1_0_0_1 x i u) : (⟨S100000x256, .f32⟩ : BufTy).Contents (Elt F) → (⟨S300000x1, .i32⟩ : BufTy).Contents (Elt F) → (⟨S300000x256, .f32⟩ : BufTy).Contents (Elt F) → (⟨S100000x256, .f32⟩ : BufTy).Contents (Elt F)),
    StableHlo.binary main_v10 main_v10 main_v97 (mulf : (⟨S100000, .f32⟩ : BufTy).Contents (Elt F) → (⟨S100000, .f32⟩ : BufTy).Contents (Elt F) → (⟨S100000, .f32⟩ : BufTy).Contents (Elt F)),
    StableHlo.unary main_v97 main_v98 (broadcastInDim S100000x1 ![0] bcast_S100000_S100000x1_0 : (⟨S100000, .f32⟩ : BufTy).Contents (Elt F) → (⟨S100000x1, .f32⟩ : BufTy).Contents (Elt F)) ]

/-- The third window: the second layer's self-loop term and bias, its statistics, normalisation and rectification (the two functions' bodies again, over this call's buffers), the third feature transform and its rows gathered at the sources (83 operations). -/
abbrev ops2 : List (HloOp τ sig (Elt F)) :=
  [ StableHlo.unary main_v98 main_v99 (broadcastInDim S100000x256 ![0, 1] bcast_S100000x1_S100000x256_0_1 : (⟨S100000x1, .f32⟩ : BufTy).Contents (Elt F) → (⟨S100000x256, .f32⟩ : BufTy).Contents (Elt F)),
    StableHlo.binary main_v68 main_v99 main_v100 (mulf : (⟨S100000x256, .f32⟩ : BufTy).Contents (Elt F) → (⟨S100000x256, .f32⟩ : BufTy).Contents (Elt F) → (⟨S100000x256, .f32⟩ : BufTy).Contents (Elt F)),
    StableHlo.binary main_v96 main_v100 main_v101 (addf : (⟨S100000x256, .f32⟩ : BufTy).Contents (Elt F) → (⟨S100000x256, .f32⟩ : BufTy).Contents (Elt F) → (⟨S100000x256, .f32⟩ : BufTy).Contents (Elt F)),
    StableHlo.unary main_arg6 main_v102 (broadcastInDim S1x256 ![1] bcast_S256_S1x256_1 : (⟨S256, .f32⟩ : BufTy).Contents (Elt F) → (⟨S1x256, .f32⟩ : BufTy).Contents (Elt F)),
    StableHlo.unary main_v102 main_v103 (broadcastInDim S100000x256 ![0, 1] bcast_S1x256_S100000x256_0_1 : (⟨S1x256, .f32⟩ : BufTy).Contents (Elt F) → (⟨S100000x256, .f32⟩ : BufTy).Contents (Elt F)),
    StableHlo.binary main_v101 main_v103 main_v104 (addf : (⟨S100000x256, .f32⟩ : BufTy).Contents (Elt F) → (⟨S100000x256, .f32⟩ : BufTy).Contents (Elt F) → (⟨S100000x256, .f32⟩ : BufTy).Contents (Elt F)),
    StableHlo.nullary main_cst_19 (constant S_ .f32 0x00000000#32),
    StableHlo.binary main_v104 main_cst_19 main_v105 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.nullary main_cst_20 (constant S_ .f32 0x47C35000#32),
    StableHlo.unary main_cst_20 main_v106 (broadcastInDim S256 ![] bcast_S_S256 : (⟨S_, .f32⟩ : BufTy).Contents (Elt F) → (⟨S256, .f32⟩ : BufTy).Contents (Elt F)),
    StableHlo.binary main_v105 main_v106 main_v107 (Host.divf : (⟨S256, .f32⟩ : BufTy).Contents (Elt F) → (⟨S256, .f32⟩ : BufTy).Contents (Elt F) → (⟨S256, .f32⟩ : BufTy).Contents (Elt F)),
    StableHlo.nullary main_c_21 (constantI S_ 32 0#32),
    StableHlo.TRef.nullary main_call2.cst (constant S_ .f32 0x00000000#32),
    StableHlo.TRef.binary (.of main_v104 : StableHlo.TRef sig ⟨S100000x256, .f32⟩) main_call2.cst main_call2.v0 (fun x v => Host.reduceAdd x v reducesTo_S100000x256_S256_d0 h_S_),
    StableHlo.TRef.unary main_call2.v0 main_call2.v1 (broadcastInDim S1x256 ![1] bcast_S256_S1x256_1),
    StableHlo.TRef.nullary main_call2.cst_0 (constant S_ .f32 0x47C35000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S100000x256 ![0, 1] bcast_S1x256_S100000x256_0_1),
    StableHlo.TRef.binary (.of main_v104 : StableHlo.TRef sig ⟨S100000x256, .f32⟩) main_call2.v4 main_call2.v5 subf,
    StableHlo.TRef.binary main_call2.v5 main_call2.v5 main_call2.v6 mulf,
    StableHlo.TRef.unary (.of main_c_21 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v107 main_v109 (broadcastInDim S1x256 ![1] bcast_S256_S1x256_1 : (⟨S256, .f32⟩ : BufTy).Contents (Elt F) → (⟨S1x256, .f32⟩ : BufTy).Contents (Elt F)),
    StableHlo.unary main_v109 main_v110 (broadcastInDim S100000x256 ![0, 1] bcast_S1x256_S100000x256_0_1 : (⟨S1x256, .f32⟩ : BufTy).Contents (Elt F) → (⟨S100000x256, .f32⟩ : BufTy).Contents (Elt F)),
    StableHlo.binary main_v104 main_v110 main_v111 (subf : (⟨S100000x256, .f32⟩ : BufTy).Contents (Elt F) → (⟨S100000x256, .f32⟩ : BufTy).Contents (Elt F) → (⟨S100000x256, .f32⟩ : BufTy).Contents (Elt F)),
    StableHlo.nullary main_cst_22 (constant S_ .f32 0x3727C5AC#32),
    StableHlo.unary main_cst_22 main_v112 (broadcastInDim S256 ![] bcast_S_S256 : (⟨S_, .f32⟩ : BufTy).Contents (Elt F) → (⟨S256, .f32⟩ : BufTy).Contents (Elt F)),
    StableHlo.binary main_v108 main_v112 main_v113 (addf : (⟨S256, .f32⟩ : BufTy).Contents (Elt F) → (⟨S256, .f32⟩ : BufTy).Contents (Elt F) → (⟨S256, .f32⟩ : BufTy).Contents (Elt F)),
    StableHlo.unary main_v113 main_v114 (Host.rsqrt : (⟨S256, .f32⟩ : BufTy).Contents (Elt F) → (⟨S256, .f32⟩ : BufTy).Contents (Elt F)),
    StableHlo.unary main_v114 main_v115 (broadcastInDim S1x256 ![1] bcast_S256_S1x256_1 : (⟨S256, .f32⟩ : BufTy).Contents (Elt F) → (⟨S1x256, .f32⟩ : BufTy).Contents (Elt F)),
    StableHlo.unary main_v115 main_v116 (broadcastInDim S100000x256 ![0, 1] bcast_S1x256_S100000x256_0_1 : (⟨S1x256, .f32⟩ : BufTy).Contents (Elt F) → (⟨S100000x256, .f32⟩ : BufTy).Contents (Elt F)),
    StableHlo.binary main_v111 main_v116 main_v117 (mulf : (⟨S100000x256, .f32⟩ : BufTy).Contents (Elt F) → (⟨S100000x256, .f32⟩ : BufTy).Contents (Elt F) → (⟨S100000x256, .f32⟩ : BufTy).Contents (Elt F)),
    StableHlo.unary main_arg11 main_v118 (broadcastInDim S1x256 ![1] bcast_S256_S1x256_1 : (⟨S256, .f32⟩ : BufTy).Contents (Elt F) → (⟨S1x256, .f32⟩ : BufTy).Contents (Elt F)),
    StableHlo.unary main_v118 main_v119 (broadcastInDim S100000x256 ![0, 1] bcast_S1x256_S100000x256_0_1 : (⟨S1x256, .f32⟩ : BufTy).Contents (Elt F) → (⟨S100000x256, .f32⟩ : BufTy).Contents (Elt F)),
    StableHlo.binary main_v117 main_v119 main_v120 (mulf : (⟨S100000x256, .f32⟩ : BufTy).Contents (Elt F) → (⟨S100000x256, .f32⟩ : BufTy).Contents (Elt F) → (⟨S100000x256, .f32⟩ : BufTy).Contents (Elt F)),
    StableHlo.unary main_arg12 main_v121 (broadcastInDim S1x256 ![1] bcast_S256_S1x256_1 : (⟨S256, .f32⟩ : BufTy).Contents (Elt F) → (⟨S1x256, .f32⟩ : BufTy).Contents (Elt F)),
    StableHlo.unary main_v121 main_v122 (broadcastInDim S100000x256 ![0, 1] bcast_S1x256_S100000x256_0_1 : (⟨S1x256, .f32⟩ : BufTy).Contents (Elt F) → (⟨S100000x256, .f32⟩ : BufTy).Contents (Elt F)),
    StableHlo.binary main_v120 main_v122 main_v123 (addf : (⟨S100000x256, .f32⟩ : BufTy).Contents (Elt F) → (⟨S100000x256, .f32⟩ : BufTy).Contents (Elt F) → (⟨S100000x256, .f32⟩ : BufTy).Contents (Elt F)),
    StableHlo.TRef.nullary main_call3.cst (constant S_ .f32 0x00000000#32),
    StableHlo.TRef.unary main_call3.cst main_call3.v0 (broadcastInDim S100000x256 ![] bcast_S_S100000x256),
    StableHlo.TRef.binary (.of main_v123 : StableHlo.TRef sig ⟨S100000x256, .f32⟩) main_call3.v0 main_call3.v1 maximumf,
    StableHlo.binary main_v124 main_arg7 main_v125 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.nullary main_c_23 (constantI S_ 32 0#32),
    StableHlo.unary main_c_23 main_v126 (broadcastInDim S300000 ![] bcast_S_S300000 : (⟨S_, .i32⟩ : BufTy).Contents (Elt F) → (⟨S300000, .i32⟩ : BufTy).Contents (Elt F)),
    StableHlo.binary main_v1 main_v126 main_v127 (cmpi .slt : (⟨S300000, .i32⟩ : BufTy).Contents (Elt F) → (⟨S300000, .i32⟩ : BufTy).Contents (Elt F) → (⟨S300000, .i1⟩ : BufTy).Contents (Elt F)),
    StableHlo.nullary main_c_24 (constantI S_ 32 100000#32),
    StableHlo.unary main_c_24 main_v128 (broadcastInDim S300000 ![] bcast_S_S300000 : (⟨S_, .i32⟩ : BufTy).Contents (Elt F) → (⟨S300000, .i32⟩ : BufTy).Contents (Elt F)),
    StableHlo.binary main_v1 main_v128 main_v129 (addi : (⟨S300000, .i32⟩ : BufTy).Contents (Elt F) → (⟨S300000, .i32⟩ : BufTy).Contents (Elt F) → (⟨S300000, .i32⟩ : BufTy).Contents (Elt F)),
    StableHlo.ternary main_v127 main_v129 main_v1 main_v130 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v130 main_v131 (broadcastInDim S300000x1 ![0] bcast_S300000_S300000x1_0 : (⟨S300000, .i32⟩ : BufTy).Contents (Elt F) → (⟨S300000x1, .i32⟩ : BufTy).Contents (Elt F)),
    StableHlo.binary main_v10 main_v131 main_v132 ((fun x i => Host.gather gather_S100000_S300000x1_S300000_n_0_n_n_0_1_1 x i) : (⟨S100000, .f32⟩ : BufTy).Contents (Elt F) → (⟨S300000x1, .i32⟩ : BufTy).Contents (Elt F) → (⟨S300000, .f32⟩ : BufTy).Contents (Elt F)),
    StableHlo.nullary main_c_25 (constantI S_ 32 0#32),
    StableHlo.unary main_c_25 main_v133 (broadcastInDim S300000 ![] bcast_S_S300000 : (⟨S_, .i32⟩ : BufTy).Contents (Elt F) → (⟨S300000, .i32⟩ : BufTy).Contents (Elt F)),
    StableHlo.binary main_v3 main_v133 main_v134 (cmpi .slt : (⟨S300000, .i32⟩ : BufTy).Contents (Elt F) → (⟨S300000, .i32⟩ : BufTy).Contents (Elt F) → (⟨S300000, .i1⟩ : BufTy).Contents (Elt F)),
    StableHlo.nullary main_c_26 (constantI S_ 32 100000#32),
    StableHlo.unary main_c_26 main_v135 (broadcastInDim S300000 ![] bcast_S_S300000 : (⟨S_, .i32⟩ : BufTy).Contents (Elt F) → (⟨S300000, .i32⟩ : BufTy).Contents (Elt F)),
    StableHlo.binary main_v3 main_v135 main_v136 (addi : (⟨S300000, .i32⟩ : BufTy).Contents (Elt F) → (⟨S300000, .i32⟩ : BufTy).Contents (Elt F) → (⟨S300000, .i32⟩ : BufTy).Contents (Elt F)),
    StableHlo.ternary main_v134 main_v136 main_v3 main_v137 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v137 main_v138 (broadcastInDim S300000x1 ![0] bcast_S300000_S300000x1_0 : (⟨S300000, .i32⟩ : BufTy).Contents (Elt F) → (⟨S300000x1, .i32⟩ : BufTy).Contents (Elt F)),
    StableHlo.binary main_v10 main_v138 main_v139 ((fun x i => Host.gather gather_S100000_S300000x1_S300000_n_0_n_n_0_1_1 x i) : (⟨S100000, .f32⟩ : BufTy).Contents (Elt F) → (⟨S300000x1, .i32⟩ : BufTy).Contents (Elt F) → (⟨S300000, .f32⟩ : BufTy).Contents (Elt F)),
    StableHlo.binary main_v132 main_v139 main_v140 (mulf : (⟨S300000, .f32⟩ : BufTy).Contents (Elt F) → (⟨S300000, .f32⟩ : BufTy).Contents (Elt F) → (⟨S300000, .f32⟩ : BufTy).Contents (Elt F)),
    StableHlo.unary main_v140 main_v141 (broadcastInDim S300000x1 ![0] bcast_S300000_S300000x1_0 : (⟨S300000, .f32⟩ : BufTy).Contents (Elt F) → (⟨S300000x1, .f32⟩ : BufTy).Contents (Elt F)),
    StableHlo.nullary main_c_27 (constantI S_ 32 0#32),
    StableHlo.unary main_c_27 main_v142 (broadcastInDim S300000 ![] bcast_S_S300000 : (⟨S_, .i32⟩ : BufTy).Contents (Elt F) → (⟨S300000, .i32⟩ : BufTy).Contents (Elt F)),
    StableHlo.binary main_v1 main_v142 main_v143 (cmpi .slt : (⟨S300000, .i32⟩ : BufTy).Contents (Elt F) → (⟨S300000, .i32⟩ : BufTy).Contents (Elt F) → (⟨S300000, .i1⟩ : BufTy).Contents (Elt F)),
    StableHlo.nullary main_c_28 (constantI S_ 32 100000#32),
    StableHlo.unary main_c_28 main_v144 (broadcastInDim S300000 ![] bcast_S_S300000 : (⟨S_, .i32⟩ : BufTy).Contents (Elt F) → (⟨S300000, .i32⟩ : BufTy).Contents (Elt F)),
    StableHlo.binary main_v1 main_v144 main_v145 (addi : (⟨S300000, .i32⟩ : BufTy).Contents (Elt F) → (⟨S300000, .i32⟩ : BufTy).Contents (Elt F) → (⟨S300000, .i32⟩ : BufTy).Contents (Elt F)),
    StableHlo.ternary main_v143 main_v145 main_v1 main_v146 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v146 main_v147 (broadcastInDim S300000x1 ![0] bcast_S300000_S300000x1_0 : (⟨S300000, .i32⟩ : BufTy).Contents (Elt F) → (⟨S300000x1, .i32⟩ : BufTy).Contents (Elt F)),
    StableHlo.binary main_v125 main_v147 main_v148 ((fun x i => Host.gather gather_S100000x256_S300000x1_S300000x256_1_0_n_n_0_1_1256 x i) : (⟨S100000x256, .f32⟩ : BufTy).Contents (Elt F) → (⟨S300000x1, .i32⟩ : BufTy).Contents (Elt F) → (⟨S300000x256, .f32⟩ : BufTy).Contents (Elt F)) ]

/-- The fourth window: the third layer completed, normalised and rectified, pooled per graph, and the two-layer head (77 operations). -/
abbrev ops3 : List (HloOp τ sig (Elt F)) :=
  [ StableHlo.unary main_v141 main_v149 (broadcastInDim S300000x256 ![0, 1] bcast_S300000x1_S300000x256_0_1 : (⟨S300000x1, .f32⟩ : BufTy).Contents (Elt F) → (⟨S300000x256, .f32⟩ : BufTy).Contents (Elt F)),
    StableHlo.binary main_v148 main_v149 main_v150 (mulf : (⟨S300000x256, .f32⟩ : BufTy).Contents (Elt F) → (⟨S300000x256, .f32⟩ : BufTy).Contents (Elt F) → (⟨S300000x256, .f32⟩ : BufTy).Contents (Elt F)),
    StableHlo.nullary main_cst_29 (constant S_ .f32 0x00000000#32),
    StableHlo.unary main_cst_29 main_v151 (broadcastInDim S100000x256 ![] bcast_S_S100000x256 : (⟨S_, .f32⟩ : BufTy).Contents (Elt F) → (⟨S100000x256, .f32⟩ : BufTy).Contents (Elt F)),
    StableHlo.unary main_v3 main_v152 (broadcastInDim S300000x1 ![0] bcast_S300000_S300000x1_0 : (⟨S300000, .i32⟩ : BufTy).Contents (Elt F) → (⟨S300000x1, .i32⟩ : BufTy).Contents (Elt F)),
    StableHlo.ternary main_v151 main_v152 main_v150 main_v153 ((fun x i u => Host.scatterAdd scatter_S100000x256_S300000x1_S300000x256_1_0_0_1 x i u) : (⟨S100000x256, .f32⟩ : BufTy).Contents (Elt F) → (⟨S300000x1, .i32⟩ : BufTy).Contents (Elt F) → (⟨S300000x256, .f32⟩ : BufTy).Contents (Elt F) → (⟨S100000x256, .f32⟩ : BufTy).Contents (Elt F)),
    StableHlo.binary main_v10 main_v10 main_v154 (mulf : (⟨S100000, .f32⟩ : BufTy).Contents (Elt F) → (⟨S100000, .f32⟩ : BufTy).Contents (Elt F) → (⟨S100000, .f32⟩ : BufTy).Contents (Elt F)),
    StableHlo.unary main_v154 main_v155 (broadcastInDim S100000x1 ![0] bcast_S100000_S100000x1_0 : (⟨S100000, .f32⟩ : BufTy).Contents (Elt F) → (⟨S100000x1, .f32⟩ : BufTy).Contents (Elt F)),
    StableHlo.unary main_v155 main_v156 (broadcastInDim S100000x256 ![0, 1] bcast_S100000x1_S100000x256_0_1 : (⟨S100000x1, .f32⟩ : BufTy).Contents (Elt F) → (⟨S100000x256, .f32⟩ : BufTy).Contents (Elt F)),
    StableHlo.binary main_v125 main_v156 main_v157 (mulf : (⟨S100000x256, .f32⟩ : BufTy).Contents (Elt F) → (⟨S100000x256, .f32⟩ : BufTy).Contents (Elt F) → (⟨S100000x256, .f32⟩ : BufTy).Contents (Elt F)),
    StableHlo.binary main_v153 main_v157 main_v158 (addf : (⟨S100000x256, .f32⟩ : BufTy).Contents (Elt F) → (⟨S100000x256, .f32⟩ : BufTy).Contents (Elt F) → (⟨S100000x256, .f32⟩ : BufTy).Contents (Elt F)),
    StableHlo.unary main_arg8 main_v159 (broadcastInDim S1x256 ![1] bcast_S256_S1x256_1 : (⟨S256, .f32⟩ : BufTy).Contents (Elt F) → (⟨S1x256, .f32⟩ : BufTy).Contents (Elt F)),
    StableHlo.unary main_v159 main_v160 (broadcastInDim S100000x256 ![0, 1] bcast_S1x256_S100000x256_0_1 : (⟨S1x256, .f32⟩ : BufTy).Contents (Elt F) → (⟨S100000x256, .f32⟩ : BufTy).Contents (Elt F)),
    StableHlo.binary main_v158 main_v160 main_v161 (addf : (⟨S100000x256, .f32⟩ : BufTy).Contents (Elt F) → (⟨S100000x256, .f32⟩ : BufTy).Contents (Elt F) → (⟨S100000x256, .f32⟩ : BufTy).Contents (Elt F)),
    StableHlo.nullary main_cst_30 (constant S_ .f32 0x00000000#32),
    StableHlo.binary main_v161 main_cst_30 main_v162 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.nullary main_cst_31 (constant S_ .f32 0x47C35000#32),
    StableHlo.unary main_cst_31 main_v163 (broadcastInDim S256 ![] bcast_S_S256 : (⟨S_, .f32⟩ : BufTy).Contents (Elt F) → (⟨S256, .f32⟩ : BufTy).Contents (Elt F)),
    StableHlo.binary main_v162 main_v163 main_v164 (Host.divf : (⟨S256, .f32⟩ : BufTy).Contents (Elt F) → (⟨S256, .f32⟩ : BufTy).Contents (Elt F) → (⟨S256, .f32⟩ : BufTy).Contents (Elt F)),
    StableHlo.nullary main_c_32 (constantI S_ 32 0#32),
    StableHlo.TRef.nullary main_call4.cst (constant S_ .f32 0x00000000#32),
    StableHlo.TRef.binary (.of main_v161 : StableHlo.TRef sig ⟨S100000x256, .f32⟩) main_call4.cst main_call4.v0 (fun x v => Host.reduceAdd x v reducesTo_S100000x256_S256_d0 h_S_),
    StableHlo.TRef.unary main_call4.v0 main_call4.v1 (broadcastInDim S1x256 ![1] bcast_S256_S1x256_1),
    StableHlo.TRef.nullary main_call4.cst_0 (constant S_ .f32 0x47C35000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S100000x256 ![0, 1] bcast_S1x256_S100000x256_0_1),
    StableHlo.TRef.binary (.of main_v161 : StableHlo.TRef sig ⟨S100000x256, .f32⟩) main_call4.v4 main_call4.v5 subf,
    StableHlo.TRef.binary main_call4.v5 main_call4.v5 main_call4.v6 mulf,
    StableHlo.TRef.unary (.of main_c_32 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v164 main_v166 (broadcastInDim S1x256 ![1] bcast_S256_S1x256_1 : (⟨S256, .f32⟩ : BufTy).Contents (Elt F) → (⟨S1x256, .f32⟩ : BufTy).Contents (Elt F)),
    StableHlo.unary main_v166 main_v167 (broadcastInDim S100000x256 ![0, 1] bcast_S1x256_S100000x256_0_1 : (⟨S1x256, .f32⟩ : BufTy).Contents (Elt F) → (⟨S100000x256, .f32⟩ : BufTy).Contents (Elt F)),
    StableHlo.binary main_v161 main_v167 main_v168 (subf : (⟨S100000x256, .f32⟩ : BufTy).Contents (Elt F) → (⟨S100000x256, .f32⟩ : BufTy).Contents (Elt F) → (⟨S100000x256, .f32⟩ : BufTy).Contents (Elt F)),
    StableHlo.nullary main_cst_33 (constant S_ .f32 0x3727C5AC#32),
    StableHlo.unary main_cst_33 main_v169 (broadcastInDim S256 ![] bcast_S_S256 : (⟨S_, .f32⟩ : BufTy).Contents (Elt F) → (⟨S256, .f32⟩ : BufTy).Contents (Elt F)),
    StableHlo.binary main_v165 main_v169 main_v170 (addf : (⟨S256, .f32⟩ : BufTy).Contents (Elt F) → (⟨S256, .f32⟩ : BufTy).Contents (Elt F) → (⟨S256, .f32⟩ : BufTy).Contents (Elt F)),
    StableHlo.unary main_v170 main_v171 (Host.rsqrt : (⟨S256, .f32⟩ : BufTy).Contents (Elt F) → (⟨S256, .f32⟩ : BufTy).Contents (Elt F)),
    StableHlo.unary main_v171 main_v172 (broadcastInDim S1x256 ![1] bcast_S256_S1x256_1 : (⟨S256, .f32⟩ : BufTy).Contents (Elt F) → (⟨S1x256, .f32⟩ : BufTy).Contents (Elt F)),
    StableHlo.unary main_v172 main_v173 (broadcastInDim S100000x256 ![0, 1] bcast_S1x256_S100000x256_0_1 : (⟨S1x256, .f32⟩ : BufTy).Contents (Elt F) → (⟨S100000x256, .f32⟩ : BufTy).Contents (Elt F)),
    StableHlo.binary main_v168 main_v173 main_v174 (mulf : (⟨S100000x256, .f32⟩ : BufTy).Contents (Elt F) → (⟨S100000x256, .f32⟩ : BufTy).Contents (Elt F) → (⟨S100000x256, .f32⟩ : BufTy).Contents (Elt F)),
    StableHlo.unary main_arg13 main_v175 (broadcastInDim S1x256 ![1] bcast_S256_S1x256_1 : (⟨S256, .f32⟩ : BufTy).Contents (Elt F) → (⟨S1x256, .f32⟩ : BufTy).Contents (Elt F)),
    StableHlo.unary main_v175 main_v176 (broadcastInDim S100000x256 ![0, 1] bcast_S1x256_S100000x256_0_1 : (⟨S1x256, .f32⟩ : BufTy).Contents (Elt F) → (⟨S100000x256, .f32⟩ : BufTy).Contents (Elt F)),
    StableHlo.binary main_v174 main_v176 main_v177 (mulf : (⟨S100000x256, .f32⟩ : BufTy).Contents (Elt F) → (⟨S100000x256, .f32⟩ : BufTy).Contents (Elt F) → (⟨S100000x256, .f32⟩ : BufTy).Contents (Elt F)),
    StableHlo.unary main_arg14 main_v178 (broadcastInDim S1x256 ![1] bcast_S256_S1x256_1 : (⟨S256, .f32⟩ : BufTy).Contents (Elt F) → (⟨S1x256, .f32⟩ : BufTy).Contents (Elt F)),
    StableHlo.unary main_v178 main_v179 (broadcastInDim S100000x256 ![0, 1] bcast_S1x256_S100000x256_0_1 : (⟨S1x256, .f32⟩ : BufTy).Contents (Elt F) → (⟨S100000x256, .f32⟩ : BufTy).Contents (Elt F)),
    StableHlo.binary main_v177 main_v179 main_v180 (addf : (⟨S100000x256, .f32⟩ : BufTy).Contents (Elt F) → (⟨S100000x256, .f32⟩ : BufTy).Contents (Elt F) → (⟨S100000x256, .f32⟩ : BufTy).Contents (Elt F)),
    StableHlo.TRef.nullary main_call5.cst (constant S_ .f32 0x00000000#32),
    StableHlo.TRef.unary main_call5.cst main_call5.v0 (broadcastInDim S100000x256 ![] bcast_S_S100000x256),
    StableHlo.TRef.binary (.of main_v180 : StableHlo.TRef sig ⟨S100000x256, .f32⟩) main_call5.v0 main_call5.v1 maximumf,
    StableHlo.nullary main_cst_34 (constant S_ .f32 0x00000000#32),
    StableHlo.unary main_cst_34 main_v182 (broadcastInDim S2048x256 ![] bcast_S_S2048x256 : (⟨S_, .f32⟩ : BufTy).Contents (Elt F) → (⟨S2048x256, .f32⟩ : BufTy).Contents (Elt F)),
    StableHlo.unary main_arg2 main_v183 (broadcastInDim S100000x1 ![0] bcast_S100000_S100000x1_0 : (⟨S100000, .i32⟩ : BufTy).Contents (Elt F) → (⟨S100000x1, .i32⟩ : BufTy).Contents (Elt F)),
    StableHlo.ternary main_v182 main_v183 main_v181 main_v184 ((fun x i u => Host.scatterAdd scatter_S2048x256_S100000x1_S100000x256_1_0_0_1 x i u) : (⟨S2048x256, .f32⟩ : BufTy).Contents (Elt F) → (⟨S100000x1, .i32⟩ : BufTy).Contents (Elt F) → (⟨S100000x256, .f32⟩ : BufTy).Contents (Elt F) → (⟨S2048x256, .f32⟩ : BufTy).Contents (Elt F)),
    StableHlo.binary main_v184 main_arg15 main_v185 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    StableHlo.unary main_arg16 main_v186 (broadcastInDim S1x256 ![1] bcast_S256_S1x256_1 : (⟨S256, .f32⟩ : BufTy).Contents (Elt F) → (⟨S1x256, .f32⟩ : BufTy).Contents (Elt F)),
    StableHlo.unary main_v186 main_v187 (broadcastInDim S2048x256 ![0, 1] bcast_S1x256_S2048x256_0_1 : (⟨S1x256, .f32⟩ : BufTy).Contents (Elt F) → (⟨S2048x256, .f32⟩ : BufTy).Contents (Elt F)),
    StableHlo.binary main_v185 main_v187 main_v188 (addf : (⟨S2048x256, .f32⟩ : BufTy).Contents (Elt F) → (⟨S2048x256, .f32⟩ : BufTy).Contents (Elt F) → (⟨S2048x256, .f32⟩ : BufTy).Contents (Elt F)),
    StableHlo.TRef.nullary main_call6.cst (constant S_ .f32 0x00000000#32),
    StableHlo.TRef.unary main_call6.cst main_call6.v0 (broadcastInDim S2048x256 ![] bcast_S_S2048x256),
    StableHlo.TRef.binary (.of main_v188 : StableHlo.TRef sig ⟨S2048x256, .f32⟩) main_call6.v0 main_call6.v1 maximumf,
    StableHlo.binary main_v189 main_arg17 main_v190 ((fun l r => Host.dotGeneral dot_S2048x256_S256x1_S2048x1_1_0_0_1_n_n none l r) : (⟨S2048x256, .f32⟩ : BufTy).Contents (Elt F) → (⟨S256x1, .f32⟩ : BufTy).Contents (Elt F) → (⟨S2048x1, .f32⟩ : BufTy).Contents (Elt F)),
    StableHlo.unary main_arg18 main_v191 (broadcastInDim S1x1 ![1] bcast_S1_S1x1_1 : (⟨S1, .f32⟩ : BufTy).Contents (Elt F) → (⟨S1x1, .f32⟩ : BufTy).Contents (Elt F)),
    StableHlo.unary main_v191 main_v192 (broadcastInDim S2048x1 ![0, 1] bcast_S1x1_S2048x1_0_1 : (⟨S1x1, .f32⟩ : BufTy).Contents (Elt F) → (⟨S2048x1, .f32⟩ : BufTy).Contents (Elt F)),
    StableHlo.binary main_v190 main_v192 main_v193 (addf : (⟨S2048x1, .f32⟩ : BufTy).Contents (Elt F) → (⟨S2048x1, .f32⟩ : BufTy).Contents (Elt F) → (⟨S2048x1, .f32⟩ : BufTy).Contents (Elt F)),
    StableHlo.reshape main_v193 main_v194 rfl shapeCasts_S2048x1_S2048 ]

/-- @main's 303 operations, in order. -/
abbrev ops : List (HloOp τ sig (Elt F)) := ops0 ++ (ops1 ++ (ops2 ++ ops3))

/-! ## Each window of @main is the straight line of its piece

A window without calls is its piece by unfolding. A window with calls is a chain of binds whose calls are themselves
chains ending in a return: the functions' bodies unfolded and sequencing re-associated, it is one chain. -/

set_option maxRecDepth 8192 in
theorem main_part0_eq (c : Dev nD) : main_part0 (F := F) c = seq ops0 := rfl

set_option maxRecDepth 8192 in
theorem main_part1_eq (c : Dev nD) : main_part1 (F := F) c = seq ops1 := by
  simp only [main_part1, fn_var.body, fn_where.body, fn_relu.body, seq, bind_assoc, pure_bind]
  rfl

set_option maxRecDepth 8192 in
theorem main_part2_eq (c : Dev nD) : main_part2 (F := F) c = seq ops2 := by
  simp only [main_part2, fn_var.body, fn_where.body, fn_relu.body, seq, bind_assoc, pure_bind]
  rfl

set_option maxRecDepth 8192 in
theorem main_part3_eq (c : Dev nD) : main_part3 (F := F) c = seq ops3 := by
  simp only [main_part3, fn_var.body, fn_where.body, fn_relu.body, fn_relu_0.body, seq, bind_assoc, pure_bind]

/-- @main is the straight line of the whole list. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub .., binary_bufs_sub .., unary_bufs_sub .., unary_bufs_sub .., binary_bufs_sub ..,
    binary_bufs_sub .., unary_bufs_sub .., unary_bufs_sub .., binary_bufs_sub .., nullary_bufs_sub .., binary_bufs_sub ..⟩

set_option maxRecDepth 8192 in
theorem ops1_sub : (ops1 : List (HloOp τ sig (Elt F))).Forall fun op => op.bufs ⊆ tcRefs τ sig :=
  ⟨nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., binary_bufs_sub .., unary_bufs_sub ..⟩

set_option maxRecDepth 8192 in
theorem ops2_sub : (ops2 : List (HloOp τ sig (Elt F))).Forall fun op => op.bufs ⊆ tcRefs τ sig :=
  ⟨unary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub ..⟩

set_option maxRecDepth 8192 in
theorem ops3_sub : (ops3 : List (HloOp τ sig (Elt F))).Forall fun op => op.bufs ⊆ tcRefs τ sig :=
  ⟨unary_bufs_sub .., binary_bufs_sub .., nullary_bufs_sub .., unary_bufs_sub .., unary_bufs_sub .., ternary_bufs_sub ..,
    binary_bufs_sub .., unary_bufs_sub .., unary_bufs_sub .., binary_bufs_sub .., binary_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., unary_bufs_sub .., ternary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., reshape_bufs_sub ..⟩

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

/-! ## Every operation determines its results -/

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl⟩

/-- No operation of the list leaves a buffer's contents undetermined. -/
theorem ops_fresh : ∀ op ∈ (ops : List (HloOp τ sig (Elt F))), op.fresh = ∅ := fun op h => by
  simp only [ops, List.mem_append] at h
  rcases h with h | h | h | h
  exacts [List.forall_iff_forall_mem.mp ops0_fresh op h, List.forall_iff_forall_mem.mp ops1_fresh op h,
    List.forall_iff_forall_mem.mp ops2_fresh op h, List.forall_iff_forall_mem.mp ops3_fresh op h]

/-! ## What each piece writes

Each piece's result references, in order; an operation writes its own result reference only, so a reference that is not
in a piece's list keeps its contents through the piece. -/

/-- The references that the operations of `ops0` write. -/
abbrev ops0_W : List (Ref sig .tc) :=
  [main_v0, main_v1, main_v2, main_v3, main_cst, main_v4, main_cst_0, main_v5,
    main_v6, main_v7, main_cst_1, main_v8, main_v9, main_v10, main_v11, main_c,
    main_v12, main_v13, main_c_2, main_v14, main_v15, main_v16, main_v17, main_v18,
    main_c_3, main_v19, main_v20, main_c_4, main_v21, main_v22, main_v23, main_v24,
    main_v25, main_v26, main_v27, main_c_5, main_v28, main_v29, main_c_6, main_v30,
    main_v31, main_v32, main_v33, main_v34, main_v35, main_v36, main_cst_7, main_v37,
    main_v38, main_v39, main_v40, main_v41, main_v42, main_v43, main_v44, main_v45,
    main_v46, main_v47, main_cst_8, main_v48]

set_option maxRecDepth 8192 in
theorem ops0_writes : (ops0 : List (HloOp τ sig (Elt F))).Forall fun op =>
    op.writes ⊆ (ops0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference that `ops0` does not write keeps its contents through it. -/
theorem keep0 (W : Valuation τ sig (Elt F)) (r : Ref sig .tc) (h : r ∉ ops0_W) :
    after ops0 W (Proc.devRef .tc r) = W (Proc.devRef .tc r) :=
  after_of_writes_sub ops0 W ops0_writes h

/-- The references that the operations of `ops1` write. -/
abbrev ops1_W : List (Ref sig .tc) :=
  [main_cst_9, main_v49, main_v50, main_c_10, main_call0_cst, main_call0_v0, main_call0_v1, main_call0_cst_0,
    main_call0_v2, main_call0_v3, main_call0_v4, main_call0_v5, main_call0_v6, main_call0_v7, main_call0_cst_1, main_call0_v8,
    main_call0_cst_2, main_call0_v9, main_call0_v10, main_call0_v11, main_call0_cst_3, main_call0_v12, main_call0_cst_4, main_call0_call0_v0,
    main_call0_call0_v1, main_v51, main_v52, main_v53, main_v54, main_cst_11, main_v55, main_v56,
    main_v57, main_v58, main_v59, main_v60, main_v61, main_v62, main_v63, main_v64,
    main_v65, main_v66, main_call1_cst, main_call1_v0, main_v67, main_v68, main_c_12, main_v69,
    main_v70, main_c_13, main_v71, main_v72, main_v73, main_v74, main_v75, main_c_14,
    main_v76, main_v77, main_c_15, main_v78, main_v79, main_v80, main_v81, main_v82,
    main_v83, main_v84, main_c_16, main_v85, main_v86, main_c_17, main_v87, main_v88,
    main_v89, main_v90, main_v91, main_v92, main_v93, main_cst_18, main_v94, main_v95,
    main_v96, main_v97, main_v98]

set_option maxRecDepth 8192 in
theorem ops1_writes : (ops1 : List (HloOp τ sig (Elt F))).Forall fun op =>
    op.writes ⊆ (ops1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference that `ops1` does not write keeps its contents through it. -/
theorem keep1 (W : Valuation τ sig (Elt F)) (r : Ref sig .tc) (h : r ∉ ops1_W) :
    after ops1 W (Proc.devRef .tc r) = W (Proc.devRef .tc r) :=
  after_of_writes_sub ops1 W ops1_writes h

/-- The references that the operations of `ops2` write. -/
abbrev ops2_W : List (Ref sig .tc) :=
  [main_v99, main_v100, main_v101, main_v102, main_v103, main_v104, main_cst_19, main_v105,
    main_cst_20, main_v106, main_v107, main_c_21, main_call2_cst, main_call2_v0, main_call2_v1, main_call2_cst_0,
    main_call2_v2, main_call2_v3, main_call2_v4, main_call2_v5, main_call2_v6, main_call2_v7, main_call2_cst_1, main_call2_v8,
    main_call2_cst_2, main_call2_v9, main_call2_v10, main_call2_v11, main_call2_cst_3, main_call2_v12, main_call2_cst_4, main_call2_call0_v0,
    main_call2_call0_v1, main_v108, main_v109, main_v110, main_v111, main_cst_22, main_v112, main_v113,
    main_v114, main_v115, main_v116, main_v117, main_v118, main_v119, main_v120, main_v121,
    main_v122, main_v123, main_call3_cst, main_call3_v0, main_v124, main_v125, main_c_23, main_v126,
    main_v127, main_c_24, main_v128, main_v129, main_v130, main_v131, main_v132, main_c_25,
    main_v133, main_v134, main_c_26, main_v135, main_v136, main_v137, main_v138, main_v139,
    main_v140, main_v141, main_c_27, main_v142, main_v143, main_c_28, main_v144, main_v145,
    main_v146, main_v147, main_v148]

set_option maxRecDepth 8192 in
theorem ops2_writes : (ops2 : List (HloOp τ sig (Elt F))).Forall fun op =>
    op.writes ⊆ (ops2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference that `ops2` does not write keeps its contents through it. -/
theorem keep2 (W : Valuation τ sig (Elt F)) (r : Ref sig .tc) (h : r ∉ ops2_W) :
    after ops2 W (Proc.devRef .tc r) = W (Proc.devRef .tc r) :=
  after_of_writes_sub ops2 W ops2_writes h

/-- The references that the operations of `ops3` write. -/
abbrev ops3_W : List (Ref sig .tc) :=
  [main_v149, main_v150, main_cst_29, main_v151, main_v152, main_v153, main_v154, main_v155,
    main_v156, main_v157, main_v158, main_v159, main_v160, main_v161, main_cst_30, main_v162,
    main_cst_31, main_v163, main_v164, main_c_32, main_call4_cst, main_call4_v0, main_call4_v1, main_call4_cst_0,
    main_call4_v2, main_call4_v3, main_call4_v4, main_call4_v5, main_call4_v6, main_call4_v7, main_call4_cst_1, main_call4_v8,
    main_call4_cst_2, main_call4_v9, main_call4_v10, main_call4_v11, main_call4_cst_3, main_call4_v12, main_call4_cst_4, main_call4_call0_v0,
    main_call4_call0_v1, main_v165, main_v166, main_v167, main_v168, main_cst_33, main_v169, main_v170,
    main_v171, main_v172, main_v173, main_v174, main_v175, main_v176, main_v177, main_v178,
    main_v179, main_v180, main_call5_cst, main_call5_v0, main_v181, main_cst_34, main_v182, main_v183,
    main_v184, main_v185, main_v186, main_v187, main_v188, main_call6_cst, main_call6_v0, main_v189,
    main_v190, main_v191, main_v192, main_v193, main_v194]

set_option maxRecDepth 8192 in
theorem ops3_writes : (ops3 : List (HloOp τ sig (Elt F))).Forall fun op =>
    op.writes ⊆ (ops3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A reference that `ops3` does not write keeps its contents through it. -/
theorem keep3 (W : Valuation τ sig (Elt F)) (r : Ref sig .tc) (h : r ∉ ops3_W) :
    after ops3 W (Proc.devRef .tc r) = W (Proc.devRef .tc r) :=
  after_of_writes_sub ops3 W ops3_writes h

/-- The contents after a concatenation are the contents after its second part, from the contents after its first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The whole list's contents, piece by piece. -/
theorem after_ops (V : Valuation τ sig (Elt F)) : after ops V = after ops3 (after ops2 (after ops1 (after ops0 V))) := by
  simp only [ops, after_app]

/-- A reference that no piece writes keeps its contents through the whole list. -/
theorem keep (V : Valuation τ sig (Elt F)) (r : Ref sig .tc) (h0 : r ∉ ops0_W) (h1 : r ∉ ops1_W) (h2 : r ∉ ops2_W)
    (h3 : r ∉ ops3_W) : after ops V (Proc.devRef .tc r) = V (Proc.devRef .tc r) := by
  rw [after_ops, keep3 _ r h3, keep2 _ r h2, keep1 _ r h1, keep0 _ r h0]

end Cert.ReferenceIdeal.RefRun

end
-- ==== Proof.RefRun.lean ====
/-
  The run of the reference program at the extended reals. The program is the straight line of the operation list
  (its four pieces); what a buffer holds after a piece is a computation over the piece's operations; read at the
  buffers a later piece uses, piece by piece, the result buffer holds the composition of the network's stages on the
  nineteen arguments, and no argument buffer is written.
-/
import proofs.«123479_j22230750724231_2_alg».proof.Proof.RefOps
import proofs.«123479_j22230750724231_2_alg».proof.Proof.RefSpec

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## Names for what the pieces hand to one another -/

/-- The edge weights as a one-column table. -/
def ccolOf (dinv : FVec Ideal S100000 .f32) (src dst : IVec S300000 32) : FVec Ideal S300000x1 .f32 :=
  broadcastInDim S300000x1 ![0] bcast_S300000_S300000x1_0 (RefSpec.coeffOf dinv src dst)

/-- The squared normaliser as a one-column table: the weight of a node's self-loop. -/
def d2colOf (dinv : FVec Ideal S100000 .f32) : FVec Ideal S100000x1 .f32 :=
  broadcastInDim S100000x1 ![0] bcast_S100000_S100000x1_0 (mulf dinv dinv)

/-- The feature transform of a later layer. -/
def xwNext (h : FVec Ideal S100000x256 .f32) (W : FVec Ideal S256x256 .f32) : FVec Ideal S100000x256 .f32 :=
  Host.dotGeneral dot_S100000x256_S256x256_S100000x256_1_0_0_1_n_n none h W

/-- Normalisation, scale, shift and rectification of a layer whose column sums are given. -/
def actFrom (t : FVec Ideal S100000x256 .f32) (s g be : FVec Ideal S256 .f32) : FVec Ideal S100000x256 .f32 :=
  RefSpec.bnRelu t
    (Host.divf s (broadcastInDim S256 ![] bcast_S_S256 (constant (F := Ideal) S_ .f32 0x47C35000#32)))
    (RefSpec.varOf t) g be

/-! ## The pieces, one at a time

Each statement reads one buffer after one piece, from any contents W the piece starts from: the piece's fold unrolled,
each operation's result at its own result reference is its function's value and at any other reference what was there,
and what is left is an equation between the same operations spelt twice, closed by unfolding the stages' names. The
reductions, gathers and scatters are kept folded meanwhile: the equations never look inside them. What a piece reads of
W is named by hypotheses, so that the next piece's statements are applied to this piece's. -/

section Pieces

attribute [local irreducible] Host.reduceAdd Host.gather Host.scatterAdd

set_option maxRecDepth 8192 in
set_option maxHeartbeats 4000000 in
theorem w0_v1 (W : Valuation τ sig (Elt Ideal)) :
    after ops0 W (main_v1 : DevRef τ sig) = RefSpec.srcOf (W (main_arg1 : DevRef τ sig)) := by
  after_results_simp
  rfl

set_option maxRecDepth 8192 in
set_option maxHeartbeats 4000000 in
theorem w0_v3 (W : Valuation τ sig (Elt Ideal)) :
    after ops0 W (main_v3 : DevRef τ sig) = RefSpec.dstOf (W (main_arg1 : DevRef τ sig)) := by
  after_results_simp
  rfl

set_option maxRecDepth 8192 in
set_option maxHeartbeats 4000000 in
theorem w0_v10 (W : Valuation τ sig (Elt Ideal)) :
    after ops0 W (main_v10 : DevRef τ sig) = RefSpec.dinvOf (RefSpec.dstOf (W (main_arg1 : DevRef τ sig))) := by
  after_results_simp
  rfl

set_option maxRecDepth 8192 in
set_option maxHeartbeats 4000000 in
theorem w0_v47 (W : Valuation τ sig (Elt Ideal)) :
    after ops0 W (main_v47 : DevRef τ sig)
      = RefSpec.tot1 (W (main_arg0 : DevRef τ sig)) (W (main_arg1 : DevRef τ sig)) (W (main_arg3 : DevRef τ sig)) (W (main_arg4 : DevRef τ sig)) := by
  after_results_simp
  rfl

set_option maxRecDepth 8192 in
set_option maxHeartbeats 4000000 in
theorem w0_v48 (W : Valuation τ sig (Elt Ideal)) :
    after ops0 W (main_v48 : DevRef τ sig)
      = RefSpec.colSum (RefSpec.tot1 (W (main_arg0 : DevRef τ sig)) (W (main_arg1 : DevRef τ sig)) (W (main_arg3 : DevRef τ sig)) (W (main_arg4 : DevRef τ sig))) := by
  after_results_simp
  rfl

set_option maxRecDepth 8192 in
set_option maxHeartbeats 4000000 in
theorem w1_v68 (W : Valuation τ sig (Elt Ideal)) {t : FVec Ideal S100000x256 .f32} {s g be : FVec Ideal S256 .f32} {W2 : FVec Ideal S256x256 .f32}
    (ht : W (main_v47 : DevRef τ sig) = t) (hs : W (main_v48 : DevRef τ sig) = s)
    (hg : W (main_arg9 : DevRef τ sig) = g) (hbe : W (main_arg10 : DevRef τ sig) = be) (hW : W (main_arg5 : DevRef τ sig) = W2) :
    after ops1 W (main_v68 : DevRef τ sig) = xwNext (actFrom t s g be) W2 := by
  subst ht hs hg hbe hW
  after_results_simp
  rfl

set_option maxRecDepth 8192 in
set_option maxHeartbeats 4000000 in
theorem w1_v96 (W : Valuation τ sig (Elt Ideal)) {t : FVec Ideal S100000x256 .f32} {s g be : FVec Ideal S256 .f32} {W2 : FVec Ideal S256x256 .f32}
    {src dst : IVec S300000 32} {dinv : FVec Ideal S100000 .f32}
    (ht : W (main_v47 : DevRef τ sig) = t) (hs : W (main_v48 : DevRef τ sig) = s)
    (hg : W (main_arg9 : DevRef τ sig) = g) (hbe : W (main_arg10 : DevRef τ sig) = be) (hW : W (main_arg5 : DevRef τ sig) = W2)
    (hsrc : W (main_v1 : DevRef τ sig) = src) (hdst : W (main_v3 : DevRef τ sig) = dst) (hdinv : W (main_v10 : DevRef τ sig) = dinv) :
    after ops1 W (main_v96 : DevRef τ sig)
      = RefSpec.scat dst (RefSpec.msgOf (xwNext (actFrom t s g be) W2) (ccolOf dinv src dst) src) := by
  subst ht hs hg hbe hW hsrc hdst hdinv
  after_results_simp
  rfl

set_option maxRecDepth 8192 in
set_option maxHeartbeats 4000000 in
theorem w1_v98 (W : Valuation τ sig (Elt Ideal)) {dinv : FVec Ideal S100000 .f32} (hdinv : W (main_v10 : DevRef τ sig) = dinv) :
    after ops1 W (main_v98 : DevRef τ sig) = d2colOf dinv := by
  subst hdinv
  after_results_simp
  rfl

set_option maxRecDepth 8192 in
set_option maxHeartbeats 4000000 in
theorem w2_v125 (W : Valuation τ sig (Elt Ideal)) {agg xw : FVec Ideal S100000x256 .f32} {d2 : FVec Ideal S100000x1 .f32} {b g be : FVec Ideal S256 .f32} {W3 : FVec Ideal S256x256 .f32}
    (hagg : W (main_v96 : DevRef τ sig) = agg) (hxw : W (main_v68 : DevRef τ sig) = xw)
    (hd2 : W (main_v98 : DevRef τ sig) = d2) (hb : W (main_arg6 : DevRef τ sig) = b) (hg : W (main_arg11 : DevRef τ sig) = g)
    (hbe : W (main_arg12 : DevRef τ sig) = be) (hW : W (main_arg7 : DevRef τ sig) = W3) :
    after ops2 W (main_v125 : DevRef τ sig) = xwNext (RefSpec.act (RefSpec.totOf agg xw d2 b) g be) W3 := by
  subst hagg hxw hd2 hb hg hbe hW
  after_results_simp
  rfl

set_option maxRecDepth 8192 in
set_option maxHeartbeats 4000000 in
theorem w2_v141 (W : Valuation τ sig (Elt Ideal)) {src dst : IVec S300000 32} {dinv : FVec Ideal S100000 .f32}
    (hsrc : W (main_v1 : DevRef τ sig) = src) (hdst : W (main_v3 : DevRef τ sig) = dst) (hdinv : W (main_v10 : DevRef τ sig) = dinv) :
    after ops2 W (main_v141 : DevRef τ sig) = ccolOf dinv src dst := by
  subst hsrc hdst hdinv
  after_results_simp
  rfl

set_option maxRecDepth 8192 in
set_option maxHeartbeats 4000000 in
theorem w2_v148 (W : Valuation τ sig (Elt Ideal)) {agg xw : FVec Ideal S100000x256 .f32} {d2 : FVec Ideal S100000x1 .f32} {b g be : FVec Ideal S256 .f32} {W3 : FVec Ideal S256x256 .f32}
    {src : IVec S300000 32}
    (hagg : W (main_v96 : DevRef τ sig) = agg) (hxw : W (main_v68 : DevRef τ sig) = xw)
    (hd2 : W (main_v98 : DevRef τ sig) = d2) (hb : W (main_arg6 : DevRef τ sig) = b) (hg : W (main_arg11 : DevRef τ sig) = g)
    (hbe : W (main_arg12 : DevRef τ sig) = be) (hW : W (main_arg7 : DevRef τ sig) = W3)
    (hsrc : W (main_v1 : DevRef τ sig) = src) :
    after ops2 W (main_v148 : DevRef τ sig)
      = Host.gather gather_S100000x256_S300000x1_S300000x256_1_0_n_n_0_1_1256 (xwNext (RefSpec.act (RefSpec.totOf agg xw d2 b) g be) W3)
          (RefSpec.col (RefSpec.wrap src)) := by
  subst hagg hxw hd2 hb hg hbe hW hsrc
  after_results_simp
  rfl

set_option maxRecDepth 8192 in
set_option maxHeartbeats 4000000 in
theorem w3_v194 (W : Valuation τ sig (Elt Ideal)) {ccol : FVec Ideal S300000x1 .f32} {gath : FVec Ideal S300000x256 .f32} {xw : FVec Ideal S100000x256 .f32}
    {dst : IVec S300000 32} {dinv : FVec Ideal S100000 .f32} {b g be : FVec Ideal S256 .f32} {batch : IVec S100000 32}
    {LW1 : FVec Ideal S256x256 .f32} {Lb1 : FVec Ideal S256 .f32} {LW2 : FVec Ideal S256x1 .f32} {Lb2 : FVec Ideal S1 .f32}
    (hccol : W (main_v141 : DevRef τ sig) = ccol) (hgath : W (main_v148 : DevRef τ sig) = gath)
    (hxw : W (main_v125 : DevRef τ sig) = xw) (hdst : W (main_v3 : DevRef τ sig) = dst) (hdinv : W (main_v10 : DevRef τ sig) = dinv)
    (hb : W (main_arg8 : DevRef τ sig) = b) (hg : W (main_arg13 : DevRef τ sig) = g) (hbe : W (main_arg14 : DevRef τ sig) = be)
    (hbatch : W (main_arg2 : DevRef τ sig) = batch) (hLW1 : W (main_arg15 : DevRef τ sig) = LW1) (hLb1 : W (main_arg16 : DevRef τ sig) = Lb1)
    (hLW2 : W (main_arg17 : DevRef τ sig) = LW2) (hLb2 : W (main_arg18 : DevRef τ sig) = Lb2) :
    after ops3 W (main_v194 : DevRef τ sig)
      = RefSpec.headOf
          (RefSpec.poolOf
            (RefSpec.act
              (RefSpec.totOf
                (RefSpec.scat dst (mulf gath (broadcastInDim S300000x256 ![0, 1] bcast_S300000x1_S300000x256_0_1 ccol)))
                xw (d2colOf dinv) b)
              g be)
            batch)
          LW1 Lb1 LW2 Lb2 := by
  subst hccol hgath hxw hdst hdinv hb hg hbe hbatch hLW1 hLb1 hLW2 hLb2
  after_results_simp
  rfl
end Pieces

/-! ## The stages of the network on the arguments' contents -/

section Whole

variable (V : Valuation τ sig (Elt Ideal))

/-- The sources, the destinations and the normaliser, of the edge list's contents. -/
abbrev SRC : IVec S300000 32 := RefSpec.srcOf (V (main_arg1 : DevRef τ sig))
@[inherit_doc SRC] abbrev DST : IVec S300000 32 := RefSpec.dstOf (V (main_arg1 : DevRef τ sig))
@[inherit_doc SRC] abbrev DINV : FVec Ideal S100000 .f32 := RefSpec.dinvOf (DST V)

/-- The three layers before and after normalisation. -/
abbrev T1 : FVec Ideal S100000x256 .f32 := RefSpec.tot1 (V (main_arg0 : DevRef τ sig)) (V (main_arg1 : DevRef τ sig)) (V (main_arg3 : DevRef τ sig)) (V (main_arg4 : DevRef τ sig))
@[inherit_doc T1] abbrev H1 : FVec Ideal S100000x256 .f32 := RefSpec.act (T1 V) (V (main_arg9 : DevRef τ sig)) (V (main_arg10 : DevRef τ sig))
@[inherit_doc T1] abbrev T2 : FVec Ideal S100000x256 .f32 := RefSpec.totNext (H1 V) (V (main_arg1 : DevRef τ sig)) (V (main_arg5 : DevRef τ sig)) (V (main_arg6 : DevRef τ sig))
@[inherit_doc T1] abbrev H2 : FVec Ideal S100000x256 .f32 := RefSpec.act (T2 V) (V (main_arg11 : DevRef τ sig)) (V (main_arg12 : DevRef τ sig))
@[inherit_doc T1] abbrev T3 : FVec Ideal S100000x256 .f32 := RefSpec.totNext (H2 V) (V (main_arg1 : DevRef τ sig)) (V (main_arg7 : DevRef τ sig)) (V (main_arg8 : DevRef τ sig))
@[inherit_doc T1] abbrev H3 : FVec Ideal S100000x256 .f32 := RefSpec.act (T3 V) (V (main_arg13 : DevRef τ sig)) (V (main_arg14 : DevRef τ sig))

/-- The buffers' contents after the first piece, the first two, the first three. -/
def val1 : Valuation τ sig (Elt Ideal) := after ops0 V
@[inherit_doc val1] def val2 : Valuation τ sig (Elt Ideal) := after ops1 (val1 V)
@[inherit_doc val1] def val3 : Valuation τ sig (Elt Ideal) := after ops2 (val2 V)

/-! ### After the first piece -/

theorem val1_keep (r : Ref sig .tc) (h : r ∉ ops0_W) : val1 V (Proc.devRef .tc r) = V (Proc.devRef .tc r) := keep0 V r h
theorem val1_src : val1 V (main_v1 : DevRef τ sig) = SRC V := w0_v1 V
theorem val1_dst : val1 V (main_v3 : DevRef τ sig) = DST V := w0_v3 V
theorem val1_dinv : val1 V (main_v10 : DevRef τ sig) = DINV V := w0_v10 V
theorem val1_t : val1 V (main_v47 : DevRef τ sig) = T1 V := w0_v47 V
theorem val1_s : val1 V (main_v48 : DevRef τ sig) = RefSpec.colSum (T1 V) := w0_v48 V

/-! ### After the second piece

The normalisation read from the column sums is the normalisation by the layer's own statistics: the mean is the
column sums over the node count. -/

theorem val2_keep (r : Ref sig .tc) (h0 : r ∉ ops0_W) (h1 : r ∉ ops1_W) : val2 V (Proc.devRef .tc r) = V (Proc.devRef .tc r) :=
  (keep1 _ r h1).trans (val1_keep V r h0)
theorem val2_src : val2 V (main_v1 : DevRef τ sig) = SRC V := (keep1 _ main_v1 (by decide)).trans (val1_src V)
theorem val2_dst : val2 V (main_v3 : DevRef τ sig) = DST V := (keep1 _ main_v3 (by decide)).trans (val1_dst V)
theorem val2_dinv : val2 V (main_v10 : DevRef τ sig) = DINV V := (keep1 _ main_v10 (by decide)).trans (val1_dinv V)

theorem act_fold (t : FVec Ideal S100000x256 .f32) (g be : FVec Ideal S256 .f32) :
    actFrom t (RefSpec.colSum t) g be = RefSpec.act t g be := rfl

theorem val2_xw : val2 V (main_v68 : DevRef τ sig) = xwNext (H1 V) (V (main_arg5 : DevRef τ sig)) :=
  (w1_v68 (val1 V) (val1_t V) (val1_s V) (val1_keep V main_arg9 (by decide)) (val1_keep V main_arg10 (by decide))
    (val1_keep V main_arg5 (by decide))).trans (congrArg (xwNext · (V (main_arg5 : DevRef τ sig))) (act_fold _ _ _))

theorem val2_agg : val2 V (main_v96 : DevRef τ sig)
    = RefSpec.scat (DST V) (RefSpec.msgOf (xwNext (H1 V) (V (main_arg5 : DevRef τ sig))) (ccolOf (DINV V) (SRC V) (DST V)) (SRC V)) :=
  (w1_v96 (val1 V) (val1_t V) (val1_s V) (val1_keep V main_arg9 (by decide)) (val1_keep V main_arg10 (by decide))
    (val1_keep V main_arg5 (by decide)) (val1_src V) (val1_dst V) (val1_dinv V)).trans
    (congrArg (fun h => RefSpec.scat (DST V) (RefSpec.msgOf (xwNext h (V (main_arg5 : DevRef τ sig))) (ccolOf (DINV V) (SRC V) (DST V)) (SRC V)))
      (act_fold _ _ _))

theorem val2_d2 : val2 V (main_v98 : DevRef τ sig) = d2colOf (DINV V) := w1_v98 (val1 V) (val1_dinv V)

/-! ### After the third piece

A layer's sum at the destinations, its self-loop term and its bias, over the transform of the previous layer's output,
is the next layer before normalisation. -/

theorem layer_fold (h : FVec Ideal S100000x256 .f32) (ei : IVec S2x300000 32) (W : FVec Ideal S256x256 .f32)
    (b : FVec Ideal S256 .f32) :
    RefSpec.totOf
        (RefSpec.scat (RefSpec.dstOf ei) (RefSpec.msgOf (xwNext h W)
          (ccolOf (RefSpec.dinvOf (RefSpec.dstOf ei)) (RefSpec.srcOf ei) (RefSpec.dstOf ei)) (RefSpec.srcOf ei)))
        (xwNext h W) (d2colOf (RefSpec.dinvOf (RefSpec.dstOf ei))) b
      = RefSpec.totNext h ei W b := rfl

theorem val3_keep (r : Ref sig .tc) (h0 : r ∉ ops0_W) (h1 : r ∉ ops1_W) (h2 : r ∉ ops2_W) :
    val3 V (Proc.devRef .tc r) = V (Proc.devRef .tc r) :=
  (keep2 _ r h2).trans (val2_keep V r h0 h1)
theorem val3_dst : val3 V (main_v3 : DevRef τ sig) = DST V := (keep2 _ main_v3 (by decide)).trans (val2_dst V)
theorem val3_dinv : val3 V (main_v10 : DevRef τ sig) = DINV V := (keep2 _ main_v10 (by decide)).trans (val2_dinv V)

theorem val3_xw : val3 V (main_v125 : DevRef τ sig) = xwNext (H2 V) (V (main_arg7 : DevRef τ sig)) :=
  (w2_v125 (val2 V) (val2_agg V) (val2_xw V) (val2_d2 V) (val2_keep V main_arg6 (by decide) (by decide))
    (val2_keep V main_arg11 (by decide) (by decide)) (val2_keep V main_arg12 (by decide) (by decide))
    (val2_keep V main_arg7 (by decide) (by decide))).trans
    (congrArg (fun t => xwNext (RefSpec.act t (V (main_arg11 : DevRef τ sig)) (V (main_arg12 : DevRef τ sig))) (V (main_arg7 : DevRef τ sig))) (layer_fold _ _ _ _))

theorem val3_ccol : val3 V (main_v141 : DevRef τ sig) = ccolOf (DINV V) (SRC V) (DST V) :=
  w2_v141 (val2 V) (val2_src V) (val2_dst V) (val2_dinv V)

theorem val3_gath : val3 V (main_v148 : DevRef τ sig)
    = Host.gather gather_S100000x256_S300000x1_S300000x256_1_0_n_n_0_1_1256 (xwNext (H2 V) (V (main_arg7 : DevRef τ sig)))
        (RefSpec.col (RefSpec.wrap (SRC V))) :=
  (w2_v148 (val2 V) (val2_agg V) (val2_xw V) (val2_d2 V) (val2_keep V main_arg6 (by decide) (by decide))
    (val2_keep V main_arg11 (by decide) (by decide)) (val2_keep V main_arg12 (by decide) (by decide))
    (val2_keep V main_arg7 (by decide) (by decide)) (val2_src V)).trans
    (congrArg (fun t => Host.gather gather_S100000x256_S300000x1_S300000x256_1_0_n_n_0_1_1256
        (xwNext (RefSpec.act t (V (main_arg11 : DevRef τ sig)) (V (main_arg12 : DevRef τ sig))) (V (main_arg7 : DevRef τ sig))) (RefSpec.col (RefSpec.wrap (SRC V))))
      (layer_fold _ _ _ _))

/-! ### After the whole list -/

/-- The last layer's messages are the gathered rows times the edge weights. -/
theorem last_fold (h : FVec Ideal S100000x256 .f32) (ei : IVec S2x300000 32) (W : FVec Ideal S256x256 .f32)
    (b : FVec Ideal S256 .f32) :
    RefSpec.totOf
        (RefSpec.scat (RefSpec.dstOf ei)
          (mulf (Host.gather gather_S100000x256_S300000x1_S300000x256_1_0_n_n_0_1_1256 (xwNext h W)
              (RefSpec.col (RefSpec.wrap (RefSpec.srcOf ei))))
            (broadcastInDim S300000x256 ![0, 1] bcast_S300000x1_S300000x256_0_1
              (ccolOf (RefSpec.dinvOf (RefSpec.dstOf ei)) (RefSpec.srcOf ei) (RefSpec.dstOf ei)))))
        (xwNext h W) (d2colOf (RefSpec.dinvOf (RefSpec.dstOf ei))) b
      = RefSpec.totNext h ei W b := rfl

/-- The result buffer after the whole list: the composition of the stages on the arguments' contents. -/
theorem out_eq : after ops V (main_v194 : DevRef τ sig)
    = RefSpec.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) := by
  rw [after_ops]
  exact (w3_v194 (val3 V) (val3_ccol V) (val3_gath V) (val3_xw V) (val3_dst V) (val3_dinv V)
    (val3_keep V main_arg8 (by decide) (by decide) (by decide)) (val3_keep V main_arg13 (by decide) (by decide) (by decide))
    (val3_keep V main_arg14 (by decide) (by decide) (by decide)) (val3_keep V main_arg2 (by decide) (by decide) (by decide))
    (val3_keep V main_arg15 (by decide) (by decide) (by decide)) (val3_keep V main_arg16 (by decide) (by decide) (by decide))
    (val3_keep V main_arg17 (by decide) (by decide) (by decide)) (val3_keep V main_arg18 (by decide) (by decide) (by decide))).trans
    (congrArg (fun t => RefSpec.headOf (RefSpec.poolOf (RefSpec.act t (V (main_arg13 : DevRef τ sig)) (V (main_arg14 : DevRef τ sig))) (V (main_arg2 : DevRef τ sig))) (V (main_arg15 : DevRef τ sig)) (V (main_arg16 : DevRef τ sig)) (V (main_arg17 : DevRef τ sig)) (V (main_arg18 : DevRef τ sig)))
      (last_fold _ _ _ _))

/-! ### No argument buffer is written -/

theorem arg0_eq : after ops V (main_arg0 : DevRef τ sig) = V (main_arg0 : DevRef τ sig) :=
  keep V main_arg0 (by decide) (by decide) (by decide) (by decide)
theorem arg1_eq : after ops V (main_arg1 : DevRef τ sig) = V (main_arg1 : DevRef τ sig) :=
  keep V main_arg1 (by decide) (by decide) (by decide) (by decide)
theorem arg2_eq : after ops V (main_arg2 : DevRef τ sig) = V (main_arg2 : DevRef τ sig) :=
  keep V main_arg2 (by decide) (by decide) (by decide) (by decide)
theorem arg3_eq : after ops V (main_arg3 : DevRef τ sig) = V (main_arg3 : DevRef τ sig) :=
  keep V main_arg3 (by decide) (by decide) (by decide) (by decide)
theorem arg4_eq : after ops V (main_arg4 : DevRef τ sig) = V (main_arg4 : DevRef τ sig) :=
  keep V main_arg4 (by decide) (by decide) (by decide) (by decide)
theorem arg5_eq : after ops V (main_arg5 : DevRef τ sig) = V (main_arg5 : DevRef τ sig) :=
  keep V main_arg5 (by decide) (by decide) (by decide) (by decide)
theorem arg6_eq : after ops V (main_arg6 : DevRef τ sig) = V (main_arg6 : DevRef τ sig) :=
  keep V main_arg6 (by decide) (by decide) (by decide) (by decide)
theorem arg7_eq : after ops V (main_arg7 : DevRef τ sig) = V (main_arg7 : DevRef τ sig) :=
  keep V main_arg7 (by decide) (by decide) (by decide) (by decide)
theorem arg8_eq : after ops V (main_arg8 : DevRef τ sig) = V (main_arg8 : DevRef τ sig) :=
  keep V main_arg8 (by decide) (by decide) (by decide) (by decide)
theorem arg9_eq : after ops V (main_arg9 : DevRef τ sig) = V (main_arg9 : DevRef τ sig) :=
  keep V main_arg9 (by decide) (by decide) (by decide) (by decide)
theorem arg10_eq : after ops V (main_arg10 : DevRef τ sig) = V (main_arg10 : DevRef τ sig) :=
  keep V main_arg10 (by decide) (by decide) (by decide) (by decide)
theorem arg11_eq : after ops V (main_arg11 : DevRef τ sig) = V (main_arg11 : DevRef τ sig) :=
  keep V main_arg11 (by decide) (by decide) (by decide) (by decide)
theorem arg12_eq : after ops V (main_arg12 : DevRef τ sig) = V (main_arg12 : DevRef τ sig) :=
  keep V main_arg12 (by decide) (by decide) (by decide) (by decide)
theorem arg13_eq : after ops V (main_arg13 : DevRef τ sig) = V (main_arg13 : DevRef τ sig) :=
  keep V main_arg13 (by decide) (by decide) (by decide) (by decide)
theorem arg14_eq : after ops V (main_arg14 : DevRef τ sig) = V (main_arg14 : DevRef τ sig) :=
  keep V main_arg14 (by decide) (by decide) (by decide) (by decide)
theorem arg15_eq : after ops V (main_arg15 : DevRef τ sig) = V (main_arg15 : DevRef τ sig) :=
  keep V main_arg15 (by decide) (by decide) (by decide) (by decide)
theorem arg16_eq : after ops V (main_arg16 : DevRef τ sig) = V (main_arg16 : DevRef τ sig) :=
  keep V main_arg16 (by decide) (by decide) (by decide) (by decide)
theorem arg17_eq : after ops V (main_arg17 : DevRef τ sig) = V (main_arg17 : DevRef τ sig) :=
  keep V main_arg17 (by decide) (by decide) (by decide) (by decide)
theorem arg18_eq : after ops V (main_arg18 : DevRef τ sig) = V (main_arg18 : DevRef τ sig) :=
  keep V main_arg18 (by decide) (by decide) (by decide) (by decide)

end Whole

/-! ## The run -/

/-- On every device, from any memory with zero counters: every weakly fair execution of the reference program
    terminates with the result buffer at the network's value on the arguments' launch contents, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v194)
        = Cert.RefSpec.out (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v194).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c)),
      (h c main_arg13).trans (arg13_eq (launchContents m c)),
      (h c main_arg14).trans (arg14_eq (launchContents m c)),
      (h c main_arg15).trans (arg15_eq (launchContents m c)),
      (h c main_arg16).trans (arg16_eq (launchContents m c)),
      (h c main_arg17).trans (arg17_eq (launchContents m c)),
      (h c main_arg18).trans (arg18_eq (launchContents m c))⟩)
    (run_seq scopedRefs_eq scopedSems_eq defs main (fun _ => ops) main_eq (fun _ => ops_sub) m ρ (fun _ => ops_fresh))

end Cert.ReferenceIdeal.RefRun

end
-- ==== Proof.PreFin.lean ====
/- The precondition read back: when the finiteness predicate of the argument arrays is all ones, every entry of
   every floating-point argument is a real number. The predicate is, per argument, "|x| < +∞ at every entry" reduced
   by conjunction to one word, and the words conjoined. -/
import proofs.«123479_j22230750724231_2_alg».proof.Defs
import proofs.«123479_j22230750724231_2_alg».proof.Proof.Gen.Pre_finite_inputs
import proofs.«123479_j22230750724231_2_alg».proof.Proof.Gen.KernelIdeal
import proofs.«123479_j22230750724231_2_alg».proof.Proof.RegSpec
import Idealize.ShloMosaic.Lib.ReduceAll
import Idealize.ShloMosaic.Lib.IdealHost

noncomputable section

namespace Cert.PreFin

open Idealize.ShloMosaic Idealize.ShloMosaic.ValueIdx Cert.RegSpec

/-- The scalar shape has one index. -/
instance : Subsingleton (⟨0, ![]⟩ : Shape).Idx := ⟨fun a b => funext fun d => d.elim0⟩

/-- The pattern 0x7F800000 denotes +∞. -/
theorem inf_val : Ideal.ofBits .f32 0x7F800000#32 = (⊤ : EReal) := by simp [Ideal.ofBits, Ideal.ieee]

/-- The ordered "less than" word is 1 only when the strict inequality holds. -/
theorem lt_of_cmp_olt (a b : EReal) (h : Ideal.cmp .olt a b = 1#1) : a < b := by
  unfold Ideal.cmp at h
  by_contra hn
  simp [hn] at h

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One argument: when "|x| < +∞ at every entry", reduced by conjunction over all axes, is 1, every entry of x is a
    real number. -/
theorem isFin_of_all {s u : Shape} {axes : List (Fin s.rank)} (x : FVec Ideal s .f32)
    (hb : (⟨0, ![]⟩ : Shape).BroadcastsInDim s ![]) (init : u.Idx → BitVec 1) (hr : s.ReducesTo axes ⟨0, ![]⟩) (hu : 0 < u.numel)
    (j : (⟨0, ![]⟩ : Shape).Idx)
    (e : Host.reduce IntOp.andi (cmpf .olt (Host.absf x) (broadcastInDim s ![] hb (constant (F := Ideal) ⟨0, ![]⟩ .f32 0x7F800000#32)))
      init hr hu j = 1#1) : IsFin x := by
  intro i
  have h := Host.reduce_andi_all _ init hr hu j e i
  rw [cmpf_apply, broadcastInDim_scalar_apply, constant_apply, inf_val] at h
  exact real_of_abs_lt_top (x i) (lt_of_cmp_olt _ _ h)

/-- Under the precondition every floating-point argument array holds real numbers only. -/
theorem fin_of_pre (m : (ℓ : Loc Cert.KernelIdeal.nD Cert.KernelIdeal.τ Cert.KernelIdeal.sig) → Buf (Elt Ideal) ℓ)
    (h : Cert.Pre_KernelIdeal m) (c : Dev Cert.KernelIdeal.nD) :
    IsFin (m ((c.tc : Thread Cert.KernelIdeal.nD Cert.KernelIdeal.τ).loc Cert.KernelIdeal.main_arg0) : Cert.KernelIdeal.S100000x128.Idx → EReal)
    ∧ IsFin (m ((c.tc : Thread Cert.KernelIdeal.nD Cert.KernelIdeal.τ).loc Cert.KernelIdeal.main_arg3) : Cert.KernelIdeal.S128x256.Idx → EReal)
    ∧ IsFin (m ((c.tc : Thread Cert.KernelIdeal.nD Cert.KernelIdeal.τ).loc Cert.KernelIdeal.main_arg4) : Cert.KernelIdeal.S256.Idx → EReal)
    ∧ IsFin (m ((c.tc : Thread Cert.KernelIdeal.nD Cert.KernelIdeal.τ).loc Cert.KernelIdeal.main_arg5) : Cert.KernelIdeal.S256x256.Idx → EReal)
    ∧ IsFin (m ((c.tc : Thread Cert.KernelIdeal.nD Cert.KernelIdeal.τ).loc Cert.KernelIdeal.main_arg6) : Cert.KernelIdeal.S256.Idx → EReal)
    ∧ IsFin (m ((c.tc : Thread Cert.KernelIdeal.nD Cert.KernelIdeal.τ).loc Cert.KernelIdeal.main_arg7) : Cert.KernelIdeal.S256x256.Idx → EReal)
    ∧ IsFin (m ((c.tc : Thread Cert.KernelIdeal.nD Cert.KernelIdeal.τ).loc Cert.KernelIdeal.main_arg8) : Cert.KernelIdeal.S256.Idx → EReal)
    ∧ IsFin (m ((c.tc : Thread Cert.KernelIdeal.nD Cert.KernelIdeal.τ).loc Cert.KernelIdeal.main_arg9) : Cert.KernelIdeal.S256.Idx → EReal)
    ∧ IsFin (m ((c.tc : Thread Cert.KernelIdeal.nD Cert.KernelIdeal.τ).loc Cert.KernelIdeal.main_arg10) : Cert.KernelIdeal.S256.Idx → EReal)
    ∧ IsFin (m ((c.tc : Thread Cert.KernelIdeal.nD Cert.KernelIdeal.τ).loc Cert.KernelIdeal.main_arg11) : Cert.KernelIdeal.S256.Idx → EReal)
    ∧ IsFin (m ((c.tc : Thread Cert.KernelIdeal.nD Cert.KernelIdeal.τ).loc Cert.KernelIdeal.main_arg12) : Cert.KernelIdeal.S256.Idx → EReal)
    ∧ IsFin (m ((c.tc : Thread Cert.KernelIdeal.nD Cert.KernelIdeal.τ).loc Cert.KernelIdeal.main_arg13) : Cert.KernelIdeal.S256.Idx → EReal)
    ∧ IsFin (m ((c.tc : Thread Cert.KernelIdeal.nD Cert.KernelIdeal.τ).loc Cert.KernelIdeal.main_arg14) : Cert.KernelIdeal.S256.Idx → EReal)
    ∧ IsFin (m ((c.tc : Thread Cert.KernelIdeal.nD Cert.KernelIdeal.τ).loc Cert.KernelIdeal.main_arg15) : Cert.KernelIdeal.S256x256.Idx → EReal)
    ∧ IsFin (m ((c.tc : Thread Cert.KernelIdeal.nD Cert.KernelIdeal.τ).loc Cert.KernelIdeal.main_arg16) : Cert.KernelIdeal.S256.Idx → EReal)
    ∧ IsFin (m ((c.tc : Thread Cert.KernelIdeal.nD Cert.KernelIdeal.τ).loc Cert.KernelIdeal.main_arg17) : Cert.KernelIdeal.S256x1.Idx → EReal)
    ∧ IsFin (m ((c.tc : Thread Cert.KernelIdeal.nD Cert.KernelIdeal.τ).loc Cert.KernelIdeal.main_arg18) : Cert.KernelIdeal.S1.Idx → EReal) := by
  have h0 := congrFun (h c) ix0
  dsimp only [Cert.Pre_finite_inputs.fn, Cert.Pre_finite_inputs.fn_part1, Cert.Pre_finite_inputs.fn_part2,
    Cert.Pre_finite_inputs.fn_part3, Cert.Pre_finite_inputs.fn_part4, andi] at h0
  obtain ⟨h1, e18⟩ := IntOp.andi_eq_one.1 h0
  obtain ⟨h2, e17⟩ := IntOp.andi_eq_one.1 h1
  obtain ⟨h3, e16⟩ := IntOp.andi_eq_one.1 h2
  obtain ⟨h4, e15⟩ := IntOp.andi_eq_one.1 h3
  obtain ⟨h5, e14⟩ := IntOp.andi_eq_one.1 h4
  obtain ⟨h6, e13⟩ := IntOp.andi_eq_one.1 h5
  obtain ⟨h7, e12⟩ := IntOp.andi_eq_one.1 h6
  obtain ⟨h8, e11⟩ := IntOp.andi_eq_one.1 h7
  obtain ⟨h9, e10⟩ := IntOp.andi_eq_one.1 h8
  obtain ⟨h10, e9⟩ := IntOp.andi_eq_one.1 h9
  obtain ⟨h11, e8⟩ := IntOp.andi_eq_one.1 h10
  obtain ⟨h12, e7⟩ := IntOp.andi_eq_one.1 h11
  obtain ⟨h13, e6⟩ := IntOp.andi_eq_one.1 h12
  obtain ⟨h14, e5⟩ := IntOp.andi_eq_one.1 h13
  obtain ⟨h15, e4⟩ := IntOp.andi_eq_one.1 h14
  obtain ⟨e0, e3⟩ := IntOp.andi_eq_one.1 h15
  exact ⟨isFin_of_all _ _ _ _ _ _ e0,
    isFin_of_all _ _ _ _ _ _ e3,
    isFin_of_all _ _ _ _ _ _ e4,
    isFin_of_all _ _ _ _ _ _ e5,
    isFin_of_all _ _ _ _ _ _ e6,
    isFin_of_all _ _ _ _ _ _ e7,
    isFin_of_all _ _ _ _ _ _ e8,
    isFin_of_all _ _ _ _ _ _ e9,
    isFin_of_all _ _ _ _ _ _ e10,
    isFin_of_all _ _ _ _ _ _ e11,
    isFin_of_all _ _ _ _ _ _ e12,
    isFin_of_all _ _ _ _ _ _ e13,
    isFin_of_all _ _ _ _ _ _ e14,
    isFin_of_all _ _ _ _ _ _ e15,
    isFin_of_all _ _ _ _ _ _ e16,
    isFin_of_all _ _ _ _ _ _ e17,
    isFin_of_all _ _ _ _ _ _ e18⟩

end Cert.PreFin

end
-- ==== Proof.lean ====
/-
  A three-layer graph-convolution network with batch normalisation, pooling per graph and a two-layer head, computed two
  ways: a program of eight tiled regions (a row-blocked feature transform; per layer a row-blocked pass that forms
  aggregate + features · D^(-1) + bias and accumulates its column sums and column sums of squares over the grid; a fused
  normalise–rectify–transform; a final normalise–rectify; the head) among host-side gathers, scatter-adds and small
  reshapes, against a plain reference. Read over the extended reals both compute the same sums and products in every
  stage but one: the variance, which the first takes as mean of squares minus squared mean and the second as the mean of
  the squared deviations. Those agree for real numbers, and every activation is a real number when the float inputs are
  finite: finite sums and products of reals are real, D^(-1/2) is the reciprocal root of a count plus one, and a variance
  is non-negative so the reciprocal root of variance plus epsilon is real. Hence the two results are equal.
  The three programs' frames: the two kernel programs' are their generated frame certificates; the reference's is its run
  with the result dropped. The idealization rewrote nothing.
-/
import proofs.«123479_j22230750724231_2_alg».proof.Defs
import proofs.«123479_j22230750724231_2_alg».proof.Proof.Gen.Kernel
import proofs.«123479_j22230750724231_2_alg».proof.Proof.Gen.Kernel.Frame
import proofs.«123479_j22230750724231_2_alg».proof.Proof.Gen.KernelIdeal
import proofs.«123479_j22230750724231_2_alg».proof.Proof.Gen.KernelIdeal.Frame
import proofs.«123479_j22230750724231_2_alg».proof.Proof.Gen.ReferenceIdeal
import proofs.«123479_j22230750724231_2_alg».proof.Proof.Gen.Pre_finite_inputs
import proofs.«123479_j22230750724231_2_alg».proof.Proof.KRun
import proofs.«123479_j22230750724231_2_alg».proof.Proof.KValue
import proofs.«123479_j22230750724231_2_alg».proof.Proof.RefRun
import proofs.«123479_j22230750724231_2_alg».proof.Proof.PreFin
import proofs.«123479_j22230750724231_2_alg».proof.Proof.Bridge3

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both idealized programs end with the reference's function of the (agreeing, finite) arguments in their result. -/
theorem algebraic : Cert.algebraic_KernelIdeal_ReferenceIdeal := by
  intro m g m' g' hpre hagree
  refine ⟨fun c => Cert.RefSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · refine (θ_run Cert.KernelIdeal.defs _ _).mono (fun r h c => ⟨?_, (h c).2⟩) (Cert.KernelIdeal.KRun.run_value m g)
    obtain ⟨f0, f3, f4, f5, f6, f7, f8, f9, f10, f11, f12, f13, f14, -, -, -, -⟩ := Cert.PreFin.fin_of_pre m hpre c
    refine ((h c).1.trans (Cert.KernelIdeal.KValue.value m g c)).trans ?_
    exact Cert.KNet.out_eq_ref _ _ _ _ _ _ _ _ _ _ _ _ _ _ _ _ _ _ _ f0 f3 f4 f5 f6 f7 f8 f9 f10 f11 f12 f13 f14
  · refine (θ_run Cert.ReferenceIdeal.defs _ _).mono (fun r h c => ⟨?_, (h c).2⟩) (Cert.ReferenceIdeal.RefRun.run m' g')
    obtain ⟨a0, a1, a2, a3, a4, a5, a6, a7, a8, a9, a10, a11, a12, a13, a14, a15, a16, a17, a18⟩ := hagree c
    rw [(h c).1, a0, a1, a2, a3, a4, a5, a6, a7, a8, a9, a10, a11, a12, a13, a14, a15, a16, a17, a18]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
